-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S1280x256 : Shape := ⟨2, ![1280, 256]⟩
abbrev S256 : Shape := ⟨1, ![256]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1280x256 : S_.BroadcastsInDim S1280x256 (![] : Fin 0 → Fin S1280x256.rank)
  reducesTo_S1280x256_S_d0_1 : S1280x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x8192 .f32) (main_arg1 : FVec F S8192x256 .f32) (main_arg2 : FVec F S1280x256 .f32) (main_arg3 : FVec F S256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S1280x256 .f32 := Host.absf main_arg2
  let main_cst_2 : FVec F S_ .f32 := constant S_ .f32 0x7F800000#32
  let main_v10 : FVec F S1280x256 .f32 := broadcastInDim S1280x256 ![] bcast_S_S1280x256 main_cst_2
  let main_v11 : IVec S1280x256 1 := cmpf .olt main_v9 main_v10
  let main_c_3 : IVec S_ 1 := constantI S_ 1 1#1
  let main_v12 : IVec S_ 1 := (fun x v => Host.reduce IntOp.andi x v reducesTo_S1280x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x8192 : Shape := ⟨2, ![8192, 8192]⟩
abbrev S8192x256 : Shape := ⟨2, ![8192, 256]⟩
abbrev S1280x256 : Shape := ⟨2, ![1280, 256]⟩
abbrev S256 : Shape := ⟨1, ![256]⟩
abbrev S1024x1024 : Shape := ⟨2, ![1024, 1024]⟩
abbrev S1024x256 : Shape := ⟨2, ![1024, 256]⟩
abbrev S2048x2048 : Shape := ⟨2, ![2048, 2048]⟩
abbrev S2048x256 : Shape := ⟨2, ![2048, 256]⟩
abbrev S1x256 : Shape := ⟨2, ![1, 256]⟩
abbrev S256x256 : Shape := ⟨2, ![256, 256]⟩

abbrev nBuf : Space → Nat
  | .hbm => 11
  | .vmem => 52
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S1280x256, .f32⟩
  | .hbm, ⟨3, _⟩ => ⟨S256, .f32⟩
  | .hbm, ⟨4, _⟩ => ⟨S8192x256, .f32⟩
  | .hbm, ⟨5, _⟩ => ⟨S8192x8192, .bf16⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S1x256, .f32⟩
  | .hbm, ⟨10, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x1024, .bf16⟩
  | .local _ .vmem, ⟨9, _⟩ => ⟨S1024x1024, .bf16⟩
  | .local _ .vmem, ⟨10, _⟩ => ⟨S1024x256, .f32⟩
  | .local _ .vmem, ⟨11, _⟩ => ⟨S2048x2048, .bf16⟩
  | .local _ .vmem, ⟨12, _⟩ => ⟨S2048x2048, .bf16⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x2048, .bf16⟩
  | .local _ .vmem, ⟨21, _⟩ => ⟨S2048x2048, .bf16⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x2048, .bf16⟩
  | .local _ .vmem, ⟨30, _⟩ => ⟨S2048x2048, .bf16⟩
  | .local _ .vmem, ⟨31, _⟩ => ⟨S2048x256, .f32⟩
  | .local _ .vmem, ⟨32, _⟩ => ⟨S2048x256, .f32⟩
  | .local _ .vmem, ⟨33, _⟩ => ⟨S2048x256, .f32⟩
  | .local _ .vmem, ⟨34, _⟩ => ⟨S2048x256, .f32⟩
  | .local _ .vmem, ⟨35, _⟩ => ⟨S2048x256, .f32⟩
  | .local _ .vmem, ⟨36, _⟩ => ⟨S2048x256, .f32⟩
  | .local _ .vmem, ⟨37, _⟩ => ⟨S2048x256, .f32⟩
  | .local _ .vmem, ⟨38, _⟩ => ⟨S1024x256, .f32⟩
  | .local _ .vmem, ⟨39, _⟩ => ⟨S1024x256, .f32⟩
  | .local _ .vmem, ⟨40, _⟩ => ⟨S1024x256, .f32⟩
  | .local _ .vmem, ⟨41, _⟩ => ⟨S1024x256, .f32⟩
  | .local _ .vmem, ⟨42, _⟩ => ⟨S1024x256, .f32⟩
  | .local _ .vmem, ⟨43, _⟩ => ⟨S1024x256, .f32⟩
  | .local _ .vmem, ⟨44, _⟩ => ⟨S1024x256, .f32⟩
  | .local _ .vmem, ⟨45, _⟩ => ⟨S1024x256, .f32⟩
  | .local _ .vmem, ⟨46, _⟩ => ⟨S1024x256, .f32⟩
  | .local _ .vmem, ⟨47, _⟩ => ⟨S1024x256, .f32⟩
  | .local _ .vmem, ⟨48, _⟩ => ⟨S1280x256, .f32⟩
  | .local _ .vmem, ⟨49, _⟩ => ⟨S1x256, .f32⟩
  | .local _ .vmem, ⟨50, _⟩ => ⟨S1024x256, .f32⟩
  | .local _ .vmem, ⟨51, _⟩ => ⟨S1024x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_scratch0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg7_0 : Ref sig .tc := ⟨.vmem, 50, rfl⟩
abbrev cc4_stg7_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc4_sem4_0 : DmaSem sig := 42
abbrev cc4_sem4_1 : DmaSem sig := 43
abbrev cc4_sem5_0 : DmaSem sig := 44
abbrev cc4_sem6_0 : DmaSem sig := 45
abbrev cc4_sem7_0 : DmaSem sig := 46
abbrev cc4_sem7_1 : DmaSem sig := 47

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1024x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1280x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1024x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S256_S1x256 : S256.ShapeCasts S1x256
  inb_S1280x256_S256x256_0_0 : ∀ a, (![0, 0] : Fin 2 → Nat) a + S256x256.size a ≤ S1280x256.size a
  h_S256x256 : 0 < S256x256.numel
  inb_S1280x256_S256x256_256_0 : ∀ a, (![256, 0] : Fin 2 → Nat) a + S256x256.size a ≤ S1280x256.size a
  inb_S1280x256_S256x256_512_0 : ∀ a, (![512, 0] : Fin 2 → Nat) a + S256x256.size a ≤ S1280x256.size a
  inb_S1280x256_S256x256_768_0 : ∀ a, (![768, 0] : Fin 2 → Nat) a + S256x256.size a ≤ S1280x256.size a
  inb_S1280x256_S256x256_1024_0 : ∀ a, (![1024, 0] : Fin 2 → Nat) a + S256x256.size a ≤ S1280x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x1024_S1024x256_S1024x256_1_0_0_1_n_n_wf : DotDims.WF S1024x1024 S1024x256 S1024x256 [1] [0] [0] [1] [] []
  dot_S2048x2048_S2048x256_S2048x256_1_0_0_1_n_n_wf : DotDims.WF S2048x2048 S2048x256 S2048x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .bf16 = 32 ∨ (Rect.block (s := S8192x8192) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x256.size a
  hwx1_2 : ∀ i : grid1.Coords, EltTy.bits .f32 = 32 ∨ (Rect.block (s := S8192x256) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .bf16 = 32 ∨ (Rect.block (s := S8192x8192) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S8192x256.size a
  hwx2_2 : ∀ i : grid2.Coords, EltTy.bits .f32 = 32 ∨ (Rect.block (s := S8192x256) S2048x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S8192x256.size a
  hwx2_3 : ∀ i : grid2.Coords, EltTy.bits .f32 = 32 ∨ (Rect.block (s := S8192x256) S2048x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S8192x8192.size a
  hwx3_0 : ∀ i : grid3.Coords, EltTy.bits .bf16 = 32 ∨ (Rect.block (s := S8192x8192) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S8192x256.size a
  hwx3_1 : ∀ i : grid3.Coords, EltTy.bits .f32 = 32 ∨ (Rect.block (s := S8192x256) S2048x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S8192x256.size a
  hwx3_2 : ∀ i : grid3.Coords, EltTy.bits .f32 = 32 ∨ (Rect.block (s := S8192x256) S2048x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x256.size a ≤ S8192x256.size a
  hwx3_3 : ∀ i : grid3.Coords, EltTy.bits .f32 = 32 ∨ (Rect.block (s := S8192x256) S2048x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S8192x256.size a
  hwx4_0 : ∀ i : grid4.Coords, EltTy.bits .f32 = 32 ∨ (Rect.block (s := S8192x256) S1024x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S8192x256.size a
  hwx4_1 : ∀ i : grid4.Coords, EltTy.bits .f32 = 32 ∨ (Rect.block (s := S8192x256) S1024x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S8192x256.size a
  hwx4_2 : ∀ i : grid4.Coords, EltTy.bits .f32 = 32 ∨ (Rect.block (s := S8192x256) S1024x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x256.size a ≤ S8192x256.size a
  hwx4_3 : ∀ i : grid4.Coords, EltTy.bits .f32 = 32 ∨ (Rect.block (s := S8192x256) S1024x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x256.size a ≤ S8192x256.size a
  hwx4_4 : ∀ i : grid4.Coords, EltTy.bits .f32 = 32 ∨ (Rect.block (s := S8192x256) S1024x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1280x256.size a ≤ S1280x256.size a
  hwx4_5 : ∀ i : grid4.Coords, EltTy.bits .f32 = 32 ∨ (Rect.block (s := S1280x256) S1280x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x256.size a ≤ S8192x256.size a
  hwx4_7 : ∀ i : grid4.Coords, EltTy.bits .f32 = 32 ∨ (Rect.block (s := S8192x256) S1024x256.size (cc4_transform_7 i) (hinb4_7 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

abbrev win1_0 : Pipeline.Window sig grid1 :=
  Pipeline.Window.ofSpec (Memref.whole main_v0_1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0_1) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S2048x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v0_1) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S2048x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S2048x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_arg1) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0_0) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v1) S1024x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v2) S1024x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v3) S1024x256.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_arg2) S1280x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v4) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v5) S1024x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S8192x8192 : Shape := ⟨2, ![8192, 8192]⟩
abbrev S8192x256 : Shape := ⟨2, ![8192, 256]⟩
abbrev S1280x256 : Shape := ⟨2, ![1280, 256]⟩
abbrev S256 : Shape := ⟨1, ![256]⟩
abbrev S_ : Shape := ⟨0, ![]⟩
abbrev S8192x1280 : Shape := ⟨2, ![8192, 1280]⟩
abbrev S1x256 : Shape := ⟨2, ![1, 256]⟩

abbrev nBuf : Space → Nat
  | .hbm => 28
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S1280x256, .f32⟩
  | .hbm, ⟨3, _⟩ => ⟨S256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x1280, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  concatenates_S8192x256_S8192x256_S8192x256_S8192x256_S8192x256_S8192x1280_d1 : Shape.Concatenates [S8192x256, S8192x256, S8192x256, S8192x256, S8192x256] S8192x1280 1
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x8192_S8192x256_S8192x256_1_0_0_1_n_n_wf : DotDims.WF S8192x8192 S8192x256 S8192x256 [1] [0] [0] [1] [] []
  dot_S8192x1280_S1280x256_S8192x256_1_0_0_1_n_n_wf : DotDims.WF S8192x1280 S1280x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x1280_S1280x256_S8192x256_1_0_0_1_n_n : DotDims S8192x1280 S1280x256 S8192x256 where
  lhsContracting := [1]
  rhsContracting := [0]
  lhsNonContracting := [0]
  rhsNonContracting := [1]
  lhsBatch := []
  rhsBatch := []
  wf := dot_S8192x1280_S1280x256_S8192x256_1_0_0_1_n_n_wf

class Facts : Prop extends Facts₀ where

variable [Facts]
-- ==== Proof.K.RunCond.lean ====
import proofs.«104635_j41927470743646_2_alg».proof.Proof.Gen.Kernel.Regions

/-!
  The run of @main over its five kernel regions with the RESULT named: from one region record per pallas_call, entered
  from and left at the thread states of the generated conditional frame, every weakly fair execution terminates and the
  final memory holds, besides each argument as launched, the result array `main_v5` at what the last region leaves in
  it. The four regions before it and the reshape of the bias change other buffers only, so the last valuation read at
  `main_v5` is the last region's own contribution.
-/

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

/-- The last valuation at the result array is what the last region leaves there. -/
theorem V6_main_v5 (c : Dev nD) : V6 m outs c main_v5 = outs 6 main_v5 c := by
  simp only [V6, Function.update_self]

-- the launch theorem's implicit arguments are found by unifying its conclusion with this one
set_option backward.isDefEq.respectTransparency.types false in
/-- The run with the result named: the conditional frame's hypotheses, and in the post also `main_v5` at `outs 6 main_v5`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V2 m outs c) ∗ E 2 c) ⊢ R2.pre c)
    (hpost2 : ∀ c : Dev nD, R2.post c ⊢ iprop(StableHlo.held (c : Thread nD τ) (Pipeline.ucRefs τ sig) (V3 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V3 m outs c) ∗ E 3 c) ⊢ R3.pre c)
    (hpost3 : ∀ c : Dev nD, R3.post c ⊢ iprop(StableHlo.held (c : Thread nD τ) (Pipeline.ucRefs τ sig) (V4 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V5 m outs c) ∗ E 4 c) ⊢ R4.pre c)
    (hpost4 : ∀ c : Dev nD, R4.post c ⊢ iprop(StableHlo.held (c : Thread nD τ) (Pipeline.ucRefs τ sig) (V6 m outs c) ∗ E 5 c)) :
    θ_run defs (onTc (τ := τ) (main (F := F))) ⟨m, fun _ => 0, ρ⟩ (fun r => ∀ c : Dev nD,
      r.2.mem ((c.tc : Thread nD τ).loc main_v5) = outs 6 main_v5 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨hpre0 c, (hpost0 c).trans (hpre1 c), (hpost1 c).trans (hpre2 c), (hpost2 c).trans (hpre3 c), hpost3 c, hpre4 c, (hpost4 c).trans (sep_mono .rfl (hE5 c))⟩)
    (hinit := ?_) (QY := fun c s => s.mem ((c.tc : Thread nD τ).loc main_v5) = outs 6 main_v5 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨(h (Proc.devRef .tc main_v5) (Finset.mem_filter.mpr ⟨StableHlo.devRef_mem_tcRefs main_v5, by decide⟩)).trans (V6_main_v5 m outs c),
        (h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c),
        (h (Proc.devRef .tc main_arg2) (Finset.mem_filter.mpr ⟨StableHlo.devRef_mem_tcRefs main_arg2, by decide⟩)).trans (V6_main_arg2 m outs c),
        (h (Proc.devRef .tc main_arg3) (Finset.mem_filter.mpr ⟨StableHlo.devRef_mem_tcRefs main_arg3, by decide⟩)).trans (V6_main_arg3 m outs c)⟩
    · iexact HSI

end Cert.Kernel.Hand

end
-- ==== Proof.K.Reg0.Runs.lean ====
import proofs.«104635_j41927470743646_2_alg».proof.Proof.Gen.Kernel.Launch
import proofs.«104635_j41927470743646_2_alg».proof.Proof.Gen.Kernel.Skeleton
import proofs.«104635_j41927470743646_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the per-case runs and the frame half share -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 likewise: where it is not fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the accumulator is zeroed), from the grid coordinates. -/
abbrev cond0_0 (i : grid0.Coords) : Prop := (Scalar.cmpi .ne (Scalar.extui (Scalar.cmpi .eq (BitVec.ofNat 32 (i 1).val) 0#32)) 0#32) = 1#1
/-- It holds where the second coordinate is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the output block is written). -/
abbrev cond0_1 (i : grid0.Coords) : Prop := k0_cond2 i = 1#1
/-- It holds where the second coordinate is 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_4 : ∀ t : Fin cfg0.N, cfg0.idle 4 (grid0.coords t) = false := by decide +kernel
/-- Where the output block is not written, output 3 is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is written, output 3 is live. -/
theorem liveAt0_3 : ∀ t : Fin cfg0.N, cond0_1 (grid0.coords t) → cfg0.idle 3 (grid0.coords t) = false := by decide +kernel

/-! ## The staging and scratch memrefs -/

/-- One staging buffer of each output window, through which its contents are stated. -/
abbrev VO0_3 : View sig .tc .vmem S1024x256 .f32 := (Memref.whole cc0_stg3_0 : Memref sig .tc .vmem S1024x256 .f32).view
abbrev VO0_4 : View sig .tc .vmem S1024x1024 .bf16 := (Memref.whole cc0_stg4_0 : Memref sig .tc .vmem S1024x1024 .bf16).view
/-- Each window's current staging memref at point `t`, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The scratch operand: a whole scoped buffer of the kernel's own, carried between points. -/
abbrev scM0_0 : Memref sig .tc .vmem S1024x256 .f32 := Memref.whole cc0_scratch0
abbrev VS0_0 : View sig .tc .vmem S1024x256 .f32 := scM0_0.view

/-- The scoped buffers that are neither a staging buffer of this pipeline nor its scratch operand. -/
abbrev restBut0 (c : Dev nD) : sProp 𝕄 :=
  Pipeline.scopedRestBut (Ix := Unit) (Name := ℕ) (U := UR sig nD τ) (Lvl := ℕ) (Val := Elt F) spec0 c [cc0_scratch0]

/-- The class's invariant with the scratch operand as a memref owned at some contents. -/
theorem PhiA0_eq (c : Dev nD) :
    (Pipeline.ΦA spec0 c : sProp 𝕄)
      = iprop(iprop((∃ d, owns (c : Thread nD τ) scM0_0 fullShare d) ∗ restBut0 (F := F) c) ∗ (∃ r, prngReg c r)) := by
  unfold Pipeline.ΦA; rw [scopedRest0_split]; simp only [scM0_0, owns_whole]; try rfl

end Cert.Kernel.Reg0

end
-- ==== Proof.K.Reg0.RunA.lean ====
import proofs.«104635_j41927470743646_2_alg».proof.Proof.K.Reg0.Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's stores as pieces (last first) in the case A, with the proof that on whole staging memrefs — the
    inputs' at their contents, the idle output 3's at contents handed back untouched, output 4's at anything, the
    scratch at anything — the body runs to the continuation holding the inputs' as they were and each
    stored-into buffer with its pieces written. -/
noncomputable def kernelRun0_A (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : cond0_0 i) (hc1 : ¬cond0_1 i)
    (x0 : Vec F S1024x1024 .f32) (x1 : Vec F S1024x256 .f32) (x2 : Vec F S1024x256 .f32) :
    Σ' (L3 : List (View.Piece (Elt F) S1024x256 .f32)) (L4 : List (View.Piece (Elt F) S1024x1024 .bf16)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__cheb_kernel_cast i arg2 harg2 arg3 harg3 arg4 harg4 arg5 harg5 arg6 harg6 arg7 harg7) K } := by
  refine ⟨[], ?_, ?_, fun xi3 E K => ?run⟩
  case run =>
    simp only [cc0__cheb_kernel_cast_eq_skeleton]; unfold cc0__cheb_kernel_cast_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Reg0

end
-- ==== Proof.K.Reg0.RunB.lean ====
import proofs.«104635_j41927470743646_2_alg».proof.Proof.K.Reg0.Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's stores as pieces (last first) in the case B, with the proof that on whole staging memrefs — the
    inputs' at their contents, the idle output 3's at contents handed back untouched, output 4's at anything, the
    scratch at what the point before left — the body runs to the continuation holding the inputs' as they were and each
    stored-into buffer with its pieces written. -/
noncomputable def kernelRun0_B (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : ¬cond0_1 i)
    (x0 : Vec F S1024x1024 .f32) (x1 : Vec F S1024x256 .f32) (x2 : Vec F S1024x256 .f32) (xs0 : Vec F S1024x256 .f32) :
    Σ' (L3 : List (View.Piece (Elt F) S1024x256 .f32)) (L4 : List (View.Piece (Elt F) S1024x1024 .bf16)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__cheb_kernel_cast i arg2 harg2 arg3 harg3 arg4 harg4 arg5 harg5 arg6 harg6 arg7 harg7) K } := by
  refine ⟨[], ?_, ?_, fun xi3 E K => ?run⟩
  case run =>
    simp only [cc0__cheb_kernel_cast_eq_skeleton]; unfold cc0__cheb_kernel_cast_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Reg0

end
-- ==== Proof.K.Reg0.RunC.lean ====
import proofs.«104635_j41927470743646_2_alg».proof.Proof.K.Reg0.Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's stores as pieces (last first) in the case C, with the proof that on whole staging memrefs — the
    inputs' at their contents, output 3's at anything, output 4's at anything, the
    scratch at what the point before left — the body runs to the continuation holding the inputs' as they were and each
    stored-into buffer with its pieces written. -/
noncomputable def kernelRun0_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : cond0_1 i)
    (x0 : Vec F S1024x1024 .f32) (x1 : Vec F S1024x256 .f32) (x2 : Vec F S1024x256 .f32) (xs0 : Vec F S1024x256 .f32) :
    Σ' (L3 : List (View.Piece (Elt F) S1024x256 .f32)) (L4 : List (View.Piece (Elt F) S1024x1024 .bf16)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__cheb_kernel_cast i arg2 harg2 arg3 harg3 arg4 harg4 arg5 harg5 arg6 harg6 arg7 harg7) K } := by
  refine ⟨?_, ?_, ?_, fun E K => ?run⟩
  case run =>
    simp only [cc0__cheb_kernel_cast_eq_skeleton]; unfold cc0__cheb_kernel_cast_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Reg0

end
-- ==== Proof.K.Reg0.Data.lean ====
import proofs.«104635_j41927470743646_2_alg».proof.Proof.K.Reg0.RunA
import proofs.«104635_j41927470743646_2_alg».proof.Proof.K.Reg0.RunB
import proofs.«104635_j41927470743646_2_alg».proof.Proof.K.Reg0.RunC

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the outputs and the carried scratch hold after each point, and the proof data -/

/-- The case-A run at point `t`: on the point's staging memrefs and the input windows' blocks. -/
noncomputable def runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _)
    ((hcond0_0 t).mpr h0) (fun h => h1 ((hcond0_1 t).mp h)) (iblk0 V c 0 t) (iblk0 V c 1 t) (iblk0 V c 2 t)

/-- Its pieces for output 4 tile the block, so they cover it. -/
theorem cover_A_4 (c : Dev nD) (t : Fin cfg0.N) (h0 : t.val % 8 = 0) (h1 : ¬t.val % 8 = 7) (y : S1024x1024.Idx) :
    ∃ pc ∈ (runA V c t h0 h1).2.1, y ∈ pc.1.set :=
  View.cover_of_tiledL (runA V c t h0 h1).2.1 S1024x1024.size (by sl_kernel_rfl) y

/-- Its pieces for the scratch tile it, so they cover it. -/
theorem scover_A (c : Dev nD) (t : Fin cfg0.N) (h0 : t.val % 8 = 0) (h1 : ¬t.val % 8 = 7) (y : S1024x256.Idx) :
    ∃ pc ∈ (runA V c t h0 h1).2.2.1, y ∈ pc.1.set :=
  View.cover_of_tiledL (runA V c t h0 h1).2.2.1 S1024x256.size (by sl_kernel_rfl) y

/-- What case A leaves at point `t`: output 3's buffer (a placeholder: the window is idle there), output 4's buffer, the scratch — the pieces read back. -/
def outsA (c : Dev nD) (t : Fin cfg0.N) (h0 : t.val % 8 = 0) (h1 : ¬t.val % 8 = 7) : Vec F S1024x256 .f32 × Vec F S1024x1024 .bf16 × Vec F S1024x256 .f32 :=
  (VO0_3.read (Elt F) (VO0_3.writes (Elt F) VO0_3.junk (runA V c t h0 h1).1),
   VO0_4.read (Elt F) (VO0_4.writes (Elt F) VO0_4.junk (runA V c t h0 h1).2.1),
   VS0_0.read (Elt F) (VS0_0.writes (Elt F) VS0_0.junk (runA V c t h0 h1).2.2.1))

/-- The case-B run at point `t`: on the point's staging memrefs and the input windows' blocks. -/
noncomputable def runB (c : Dev nD) (t : Fin cfg0.N) (h0 : ¬t.val % 8 = 0) (h1 : ¬t.val % 8 = 7) (xs : Vec F S1024x256 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) (fun h => h1 ((hcond0_1 t).mp h)) (iblk0 V c 0 t) (iblk0 V c 1 t) (iblk0 V c 2 t) xs

/-- Its pieces for output 4 tile the block, so they cover it. -/
theorem cover_B_4 (c : Dev nD) (t : Fin cfg0.N) (h0 : ¬t.val % 8 = 0) (h1 : ¬t.val % 8 = 7) (xs : Vec F S1024x256 .f32) (y : S1024x1024.Idx) :
    ∃ pc ∈ (runB V c t h0 h1 xs).2.1, y ∈ pc.1.set :=
  View.cover_of_tiledL (runB V c t h0 h1 xs).2.1 S1024x1024.size (by sl_kernel_rfl) y

/-- Its pieces for the scratch tile it, so they cover it. -/
theorem scover_B (c : Dev nD) (t : Fin cfg0.N) (h0 : ¬t.val % 8 = 0) (h1 : ¬t.val % 8 = 7) (xs : Vec F S1024x256 .f32) (y : S1024x256.Idx) :
    ∃ pc ∈ (runB V c t h0 h1 xs).2.2.1, y ∈ pc.1.set :=
  View.cover_of_tiledL (runB V c t h0 h1 xs).2.2.1 S1024x256.size (by sl_kernel_rfl) y

/-- What case B leaves at point `t`: output 3's buffer (a placeholder: the window is idle there), output 4's buffer, the scratch — the pieces read back. -/
def outsB (c : Dev nD) (t : Fin cfg0.N) (h0 : ¬t.val % 8 = 0) (h1 : ¬t.val % 8 = 7) (xs : Vec F S1024x256 .f32) : Vec F S1024x256 .f32 × Vec F S1024x1024 .bf16 × Vec F S1024x256 .f32 :=
  (VO0_3.read (Elt F) (VO0_3.writes (Elt F) VO0_3.junk (runB V c t h0 h1 xs).1),
   VO0_4.read (Elt F) (VO0_4.writes (Elt F) VO0_4.junk (runB V c t h0 h1 xs).2.1),
   VS0_0.read (Elt F) (VS0_0.writes (Elt F) VS0_0.junk (runB V c t h0 h1 xs).2.2.1))

/-- The case-C run at point `t`: on the point's staging memrefs and the input windows' blocks. -/
noncomputable def runC (c : Dev nD) (t : Fin cfg0.N) (h0 : ¬t.val % 8 = 0) (h1 : t.val % 8 = 7) (xs : Vec F S1024x256 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1) (iblk0 V c 0 t) (iblk0 V c 1 t) (iblk0 V c 2 t) xs

/-- Its pieces for output 4 tile the block, so they cover it. -/
theorem cover_C_4 (c : Dev nD) (t : Fin cfg0.N) (h0 : ¬t.val % 8 = 0) (h1 : t.val % 8 = 7) (xs : Vec F S1024x256 .f32) (y : S1024x1024.Idx) :
    ∃ pc ∈ (runC V c t h0 h1 xs).2.1, y ∈ pc.1.set :=
  View.cover_of_tiledL (runC V c t h0 h1 xs).2.1 S1024x1024.size (by sl_kernel_rfl) y

/-- Its pieces for the scratch tile it, so they cover it. -/
theorem scover_C (c : Dev nD) (t : Fin cfg0.N) (h0 : ¬t.val % 8 = 0) (h1 : t.val % 8 = 7) (xs : Vec F S1024x256 .f32) (y : S1024x256.Idx) :
    ∃ pc ∈ (runC V c t h0 h1 xs).2.2.1, y ∈ pc.1.set :=
  View.cover_of_tiledL (runC V c t h0 h1 xs).2.2.1 S1024x256.size (by sl_kernel_rfl) y

/-- Its pieces for output 3 tile the block, so they cover it. -/
theorem cover_C_3 (c : Dev nD) (t : Fin cfg0.N) (h0 : ¬t.val % 8 = 0) (h1 : t.val % 8 = 7) (xs : Vec F S1024x256 .f32) (y : S1024x256.Idx) :
    ∃ pc ∈ (runC V c t h0 h1 xs).1, y ∈ pc.1.set :=
  View.cover_of_tiledL (runC V c t h0 h1 xs).1 S1024x256.size (by sl_kernel_rfl) y

/-- What case C leaves at point `t`: output 3's buffer, output 4's buffer, the scratch — the pieces read back. -/
def outsC (c : Dev nD) (t : Fin cfg0.N) (h0 : ¬t.val % 8 = 0) (h1 : t.val % 8 = 7) (xs : Vec F S1024x256 .f32) : Vec F S1024x256 .f32 × Vec F S1024x1024 .bf16 × Vec F S1024x256 .f32 :=
  (VO0_3.read (Elt F) (VO0_3.writes (Elt F) VO0_3.junk (runC V c t h0 h1 xs).1),
   VO0_4.read (Elt F) (VO0_4.writes (Elt F) VO0_4.junk (runC V c t h0 h1 xs).2.1),
   VS0_0.read (Elt F) (VS0_0.writes (Elt F) VS0_0.junk (runC V c t h0 h1 xs).2.2.1))

/-! ## What the outputs hold after each point -/

/-- What output 3's and output 4's staging buffers and the carried scratch hold after the body at position `n`: the
    case the point is in, the scratch read at what the point before left. -/
def outsAt0 (c : Dev nD) : (n : ℕ) → n < cfg0.N → Vec F S1024x256 .f32 × Vec F S1024x1024 .bf16 × Vec F S1024x256 .f32
  | 0, hn => outsA V c ⟨0, hn⟩ (Nat.zero_mod _) (show ¬ (0 % 8 = 7) from by decide)
  | n + 1, hn =>
    if h0 : (n + 1) % 8 = 0 then
      if h1 : (n + 1) % 8 = 7 then False.elim (by omega)
      else outsA V c ⟨n + 1, hn⟩ h0 h1
    else
      if h1 : (n + 1) % 8 = 7 then outsC V c ⟨n + 1, hn⟩ h0 h1 (outsAt0 c n (Nat.lt_of_succ_lt hn)).2.2
      else outsB V c ⟨n + 1, hn⟩ h0 h1 (outsAt0 c n (Nat.lt_of_succ_lt hn)).2.2

theorem outsAt0_A (c : Dev nD) (t : Fin cfg0.N) (h0 : t.val % 8 = 0) (h1 : ¬t.val % 8 = 7) :
    outsAt0 V c t.val t.isLt = outsA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = outsB V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = outsC V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The region invariant before position `n`: before the first point the class's; afterwards the scoped rest with the
    carried scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restBut0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restBut0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restBut0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the outputs' at `outsAt0`; the invariant `PhiS`; nothing owed; the input
    read through one window at the full share, the input read through two windows at the two halves of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem owed0 (c : Dev nD) (t) : (dat0 V c).owed t = 0 := rfl

theorem q0_0 (c : Dev nD) : (dat0 V c).q 0 = fullShare := rfl
theorem q0_1 (c : Dev nD) : (dat0 V c).q 1 = fullShare.left := rfl
theorem q0_2 (c : Dev nD) : (dat0 V c).q 2 = fullShare.right := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Reg0

end
-- ==== Proof.K.Reg0.Frame.lean ====
import proofs.«104635_j41927470743646_2_alg».proof.Proof.K.Reg0.Data

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the body obligation at a generic point, and the invariant's ends -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the second grid coordinate says which case the point
    is in; the invariant hands the body the carried scratch at what the point before left (at anything where the
    accumulator is zeroed first) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 4 t = owns (c : Thread nD τ) (ms0_4 t) fullShare ((dat0 V c).after 4 t) from by
    unfold Dat.leavesExact; rw [liveAt0_4 t], after0_4]
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold outsA; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩⟩
      iapply ((runA V c t h0 h1).2.2.2 _ Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A V c t h0 h1)
          iexact HR
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (cover_A_4 V c t h0 h1)
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((runA V c t h0 h1).2.2.2 _ Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A V c t h0 h1)
          iexact HR
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (cover_A_4 V c t h0 h1)
  · by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold outsC; (try dsimp only)
      by_cases hz : t.val = 0
      · exfalso; exact h0 (by rw [hz])
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((runC V c t h0 h1 _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_C V c t h0 h1 _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover_C_3 V c t h0 h1 _)
        unfold owns; iexists _; isplitr
        swap; · iexact H4
        ipureintro; exact View.read_writes_of_cover _ _ _ _ _ (cover_C_4 V c t h0 h1 _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold outsB; (try dsimp only)
      by_cases hz : t.val = 0
      · exfalso; exact h0 (by rw [hz])
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((runB V c t h0 h1 _).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_B V c t h0 h1 _)
            iexact HR
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover_B_4 V c t h0 h1 _)

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the carried scratch's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Reg0

end
-- ==== Proof.K.Reg0.Split.lean ====
import proofs.«104635_j41927470743646_2_alg».proof.Proof.Gen.Kernel.Launch
import proofs.«104635_j41927470743646_2_alg».proof.Proof.Gen.Kernel.Skeleton
import proofs.«104635_j41927470743646_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the entry and exit split of a core's unscoped buffers

Windows 1 and 2 stage the same array (`main_arg1`): the buffer behind it, whole at the full share, is dealt to
the two input windows at the two halves of the full share, and put back from them. -/

/-- The distinct buffers behind the windows' arrays, one by one. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_v0_0) ↦{fullShare} Vc main_v0_0) ∗ (((c : Thread nD τ).loc main_v0_1) ↦{fullShare} Vc main_v0_1)) := by
  unfold Pipeline.arrBufs
  exact bigSep_eq_bigSepL_of_eq [main_arg0, main_arg1, main_v0_0, main_v0_1] (by decide) (by decide) _

/-- The windows' arrays of any proof data that holds the single-window input at the full share and the two windows on
    `main_arg1` at its two halves, one by one at contents read off a valuation `Vc`. -/
theorem arrays0_eq {c : Dev nD} (dat : Dat τ (Elt F) Unit ℕ (UR sig nD τ) ℕ cfg0 c)
    (hq0 : dat.q 0 = fullShare) (hq1 : dat.q 1 = fullShare.left) (hq2 : dat.q 2 = fullShare.right)
    (Vc : (b : Ref sig .tc) → Buf (Elt F) ((c : Thread nD τ).loc b))
    (G : (w : Fin cfg0.W) → Buf (Elt F) ((cfg0.win w).arr.view.loc (c : Thread nD τ)))
    (hG : ∀ w, G w = Vc (Pipeline.arrRef spec0 w)) :
    (dat.arrays G : sProp 𝕄)
      = iprop((((c : Thread nD τ).loc main_arg0) ↦{fullShare} Vc main_arg0) ∗ (((c : Thread nD τ).loc main_arg1) ↦{fullShare.left} Vc main_arg1)
          ∗ (((c : Thread nD τ).loc main_arg1) ↦{fullShare.right} Vc main_arg1)
          ∗ (((c : Thread nD τ).loc main_v0_0) ↦{fullShare} Vc main_v0_0) ∗ (((c : Thread nD τ).loc main_v0_1) ↦{fullShare} Vc main_v0_1)) := by
  have h0 : dat.share 0 = fullShare := (if_neg (show ¬ ((cfg0.win 0).isOut = true) from by decide)).trans hq0
  have h1 : dat.share 1 = fullShare.left := (if_neg (show ¬ ((cfg0.win 1).isOut = true) from by decide)).trans hq1
  have h2 : dat.share 2 = fullShare.right := (if_neg (show ¬ ((cfg0.win 2).isOut = true) from by decide)).trans hq2
  have h3 : dat.share 3 = fullShare := if_pos (show (cfg0.win 3).isOut = true from rfl)
  have h4 : dat.share 4 = fullShare := if_pos (show (cfg0.win 4).isOut = true from rfl)
  unfold Dat.arrays; rw [bigSep_W0]; beta_reduce
  rw [h0, h1, h2, h3, h4, hG 0, hG 1, hG 2, hG 3, hG 4,
    (arr_whole0 0).set_eq_univ, (arr_whole0 1).set_eq_univ, (arr_whole0 3).set_eq_univ, (arr_whole0 4).set_eq_univ]

/-- ENTRY: a core's unscoped buffers at contents `Vc` are the region's arrays at contents read off `Vc` and the
    unscoped rest. -/
theorem arrays_split0_of {c : Dev nD} (dat : Dat τ (Elt F) Unit ℕ (UR sig nD τ) ℕ cfg0 c)
    (hq0 : dat.q 0 = fullShare) (hq1 : dat.q 1 = fullShare.left) (hq2 : dat.q 2 = fullShare.right)
    (Vc : (b : Ref sig .tc) → Buf (Elt F) ((c : Thread nD τ).loc b))
    (G : (w : Fin cfg0.W) → Buf (Elt F) ((cfg0.win w).arr.view.loc (c : Thread nD τ)))
    (hG : ∀ w, G w = Vc (Pipeline.arrRef spec0 w)) :
    (unscopedBufs c Vc : sProp 𝕄) ⊢ iprop(dat.arrays G ∗ Pipeline.unscopedRest (Ix := Unit) (Name := ℕ) (U := UR sig nD τ) (Lvl := ℕ) spec0 c Vc) := by
  rw [Pipeline.unscopedBufs_split₀ (fun _ : Unit => cfg0) () winFacts₀0.arr_unscoped c Vc, arrays0_eq dat hq0 hq1 hq2 Vc G hG]
  refine sep_mono ((Entails.of_eq (arrBufs0_eq c Vc)).trans ?_) .rfl
  iintro ⟨H0, H1, H3, H4⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  iexact H4

/-- EXIT: the region's arrays at contents `G` and the unscoped rest at `Vc` are the core's unscoped buffers at any
    valuation `Vc'` that has the arrays at `G` and agrees with `Vc` off them. -/
theorem arrays_join0_of {c : Dev nD} (dat : Dat τ (Elt F) Unit ℕ (UR sig nD τ) ℕ cfg0 c)
    (hq0 : dat.q 0 = fullShare) (hq1 : dat.q 1 = fullShare.left) (hq2 : dat.q 2 = fullShare.right)
    (Vc Vc' : (b : Ref sig .tc) → Buf (Elt F) ((c : Thread nD τ).loc b))
    (G : (w : Fin cfg0.W) → Buf (Elt F) ((cfg0.win w).arr.view.loc (c : Thread nD τ)))
    (hG : ∀ w, G w = Vc' (Pipeline.arrRef spec0 w))
    (hrest : ∀ b, b ∉ Finset.univ.image (Pipeline.arrRef spec0) → Vc' b = Vc b) :
    iprop(dat.arrays G ∗ Pipeline.unscopedRest (Ix := Unit) (Name := ℕ) (U := UR sig nD τ) (Lvl := ℕ) spec0 c Vc) ⊢ (unscopedBufs c Vc' : sProp 𝕄) := by
  rw [Pipeline.unscopedBufs_split₀ (fun _ : Unit => cfg0) () winFacts₀0.arr_unscoped c Vc', arrays0_eq dat hq0 hq1 hq2 Vc' G hG]
  refine sep_mono (BIBase.Entails.trans ?_ (Entails.of_eq (arrBufs0_eq c Vc').symm)) (Entails.of_eq ?_)
  · iintro ⟨H0, H1, H2, H3, H4⟩
    isplitl [H0]; · iexact H0
    isplitl [H1 H2]
    · iapply (pointsTo_share (PosShare.mem_left_op_right fullShare)).2
      isplitl [H1]; · iexact H1
      iexact H2
    isplitl [H3]; · iexact H3
    iexact H4
  · unfold Pipeline.unscopedRest
    exact bigSep_congr fun b hb => by rw [hrest b (Finset.mem_sdiff.mp hb).2]

end Cert.Kernel.Reg0

end
-- ==== Proof.K.Reg0.lean ====
import proofs.«104635_j41927470743646_2_alg».proof.Proof.K.Reg0.Frame
import proofs.«104635_j41927470743646_2_alg».proof.Proof.K.Reg0.Split

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 at the entry contents `V`: the proof data (`dat0`, `A_eq0`, `owed0`), the body obligation
(`body_obligation0`), the invariant's ends (`hin0`, `hout0`) — from the modules imported — and the entry and
exit split of the core's unscoped buffers at the proof data's shares. -/

/-- ENTRY: a core's unscoped buffers at the entry contents are the region's arrays at the proof data's entry contents
    — the array two input windows read dealt to them at the two halves of the full share — and the unscoped rest. -/
theorem arrays_split0 (c : Dev nD) :
    (unscopedBufs c (V c) : sProp 𝕄) ⊢ iprop((dat0 V c).arrays ((dat0 V c).arrAt · 0) ∗ Pipeline.unscopedRest (Ix := Unit) (Name := ℕ) (U := UR sig nD τ) (Lvl := ℕ) spec0 c (V c)) :=
  arrays_split0_of (dat0 V c) (q0_0 V c) (q0_1 V c) (q0_2 V c) (V c) _
    (fun w => (show (dat0 V c).arrAt w 0 = (dat0 V c).A w from rfl).trans (A_eq0 V c w))

/-- EXIT: the region's arrays after every write-back and the unscoped rest are the core's unscoped buffers at any
    valuation that has the arrays at those contents and agrees with the entry contents off them. -/
theorem arrays_join0 (c : Dev nD) (V' : (b : Ref sig .tc) → Buf (Elt F) ((c : Thread nD τ).loc b))
    (hF : ∀ w, (dat0 V c).arrAt w cfg0.N = V' (Pipeline.arrRef spec0 w))
    (hrest : ∀ b, b ∉ Finset.univ.image (Pipeline.arrRef spec0) → V' b = V c b) :
    iprop((dat0 V c).arrays ((dat0 V c).arrAt · cfg0.N) ∗ Pipeline.unscopedRest (Ix := Unit) (Name := ℕ) (U := UR sig nD τ) (Lvl := ℕ) spec0 c (V c)) ⊢ (unscopedBufs c V' : sProp 𝕄) :=
  arrays_join0_of (dat0 V c) (q0_0 V c) (q0_1 V c) (q0_2 V c) (V c) V' _ hF hrest

end Cert.Kernel.Reg0

end
-- ==== Proof.K.Reg1.Runs.lean ====
import proofs.«104635_j41927470743646_2_alg».proof.Proof.Gen.Kernel.Launch
import proofs.«104635_j41927470743646_2_alg».proof.Proof.Gen.Kernel.Skeleton
import proofs.«104635_j41927470743646_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if`: the reduction coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if`: the reduction coordinate is 3. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second condition fails the output window is idle: nothing is stored into it, -/
theorem idleAt1_3 : ∀ t : Fin cfg1.N, ¬cond1_1 (grid1.coords t) → cfg1.idle 3 (grid1.coords t) = true := by decide +kernel
/-- and the pipeline does not write its block back. -/
theorem noFlush1_3 : ∀ t : Fin cfg1.N, ¬cond1_1 (grid1.coords t) → (cfg1.win 3).flush t = false := by decide +kernel
/-- Where it holds the window is live. -/
theorem liveAt1_3 : ∀ t : Fin cfg1.N, cond1_1 (grid1.coords t) → cfg1.idle 3 (grid1.coords t) = false := by decide +kernel

/-! ## The staging memrefs and the scratch -/

/-- One staging buffer of output window 3, through which its contents are stated. -/
abbrev VO1_3 : View sig .tc .vmem S2048x256 .f32 := (Memref.whole cc1_stg3_0 : Memref sig .tc .vmem S2048x256 .f32).view
/-- Each window's current staging memref at point `t`, as the pipeline passes it, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S2048x256 .f32 := Memref.whole cc1_scratch0
/-- The scratch the kernel carries between points, as a view. -/
abbrev VS1_0 : View sig .tc .vmem S2048x256 .f32 := scM1_0.view

/-- The other scoped buffers of the core (the other calls' staging buffers and scratch), unopened. -/
abbrev restBut1 (c : Dev nD) : sProp 𝕄 :=
  Pipeline.scopedRestBut (Ix := Unit) (Name := ℕ) (U := UR sig nD τ) (Lvl := ℕ) (Val := Elt F) spec1 c [cc1_scratch0]

/-- The region invariant with the scratch operand as a memref owned at some contents, the other scoped buffers
    unopened, and the generator register at some state. -/
theorem PhiA1_eq (c : Dev nD) :
    (Pipeline.ΦA spec1 c : sProp 𝕄)
      = iprop(iprop((∃ d, owns (c : Thread nD τ) scM1_0 fullShare d) ∗ restBut1 (F := F) c) ∗ (∃ r, prngReg c r)) := by
  unfold Pipeline.ΦA; rw [scopedRest1_split]; simp only [scM1_0, owns_whole]; try rfl

end Cert.Kernel.Reg1

end
-- ==== Proof.K.Reg1.RunA.lean ====
import proofs.«104635_j41927470743646_2_alg».proof.Proof.K.Reg1.Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where the first condition holds and the second fails (the reduction coordinate is 0): on whole
    staging memrefs — the inputs' at their contents, the output's (idle here) at contents handed back untouched, the
    scratch at anything — the body runs to the continuation holding the inputs' as they were, the output's untouched
    and the scratch with its pieces written (the zero fill, then the accumulation). The pieces are the witness the
    run finds. -/
noncomputable def kernelRun1_A (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x1 : Vec F S2048x256 .f32) (x2 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__cheb_kernel i arg2 harg2 arg3 harg3 arg4 harg4 arg5 harg5 arg6 harg6) K } := by
  refine ⟨[], ?_, fun xi3 E K => ?run⟩
  case run =>
    simp only [cc1__cheb_kernel_eq_skeleton]; unfold cc1__cheb_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg1

end
-- ==== Proof.K.Reg1.RunB.lean ====
import proofs.«104635_j41927470743646_2_alg».proof.Proof.K.Reg1.RunA

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where both conditions fail (the reduction coordinate is 1 or 2): the inputs' at their contents,
    the output's (idle here) handed back untouched, the scratch at the contents the point before left; the scratch
    ends with its piece written (the accumulation). -/
noncomputable def kernelRun1_B (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x1 : Vec F S2048x256 .f32) (x2 : Vec F S2048x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__cheb_kernel i arg2 harg2 arg3 harg3 arg4 harg4 arg5 harg5 arg6 harg6) K } := by
  refine ⟨[], ?_, fun xi3 E K => ?run⟩
  case run =>
    simp only [cc1__cheb_kernel_eq_skeleton]; unfold cc1__cheb_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg1

end
-- ==== Proof.K.Reg1.RunC.lean ====
import proofs.«104635_j41927470743646_2_alg».proof.Proof.K.Reg1.RunB

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where the first condition fails and the second holds (the reduction coordinate is 3): the inputs'
    at their contents, the output's at anything, the scratch at the contents the point before left; the scratch ends
    with its piece written (the accumulation) and the output's buffer with its piece (the combination). -/
noncomputable def kernelRun1_C (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .f32) (x2 : Vec F S2048x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__cheb_kernel i arg2 harg2 arg3 harg3 arg4 harg4 arg5 harg5 arg6 harg6) K } := by
  refine ⟨?_, ?_, fun E K => ?run⟩
  case run =>
    simp only [cc1__cheb_kernel_eq_skeleton]; unfold cc1__cheb_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Reg1

end
-- ==== Proof.K.Reg1.Frame.lean ====
import proofs.«104635_j41927470743646_2_alg».proof.Proof.K.Reg1.RunC

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the scratch -/

/-- Where the reduction coordinate is 0 nothing is stored into the output (the window is idle and not written back):
    a placeholder nothing consults. -/
def out1_A_3 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x1 : Vec F S2048x256 .f32) (x2 : Vec F S2048x256 .f32) : Vec F S2048x256 .f32 :=
  VO1_3.read (Elt F) (VO1_3.writes (Elt F) VO1_3.junk (kernelRun1_A c i arg2 harg2 arg3 harg3 arg4 harg4 arg5 harg5 arg6 harg6 hc0 hc1 x0 x1 x2).1)

/-- There the scratch's pieces cover it. -/
theorem scover1_A_0 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x1 : Vec F S2048x256 .f32) (x2 : Vec F S2048x256 .f32) (y : S2048x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x256.size (by sl_kernel_rfl) y

/-- What the scratch holds after such a point: its pieces read back. -/
def sout1_A_0 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x1 : Vec F S2048x256 .f32) (x2 : Vec F S2048x256 .f32) : Vec F S2048x256 .f32 :=
  VS1_0.read (Elt F) (VS1_0.writes (Elt F) VS1_0.junk (kernelRun1_A c i arg2 harg2 arg3 harg3 arg4 harg4 arg5 harg5 arg6 harg6 hc0 hc1 x0 x1 x2).2.1)

/-- Where the reduction coordinate is 1 or 2 nothing is stored into the output either. -/
def out1_B_3 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x1 : Vec F S2048x256 .f32) (x2 : Vec F S2048x256 .f32) (xs0 : Vec F S2048x256 .f32) : Vec F S2048x256 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x1 : Vec F S2048x256 .f32) (x2 : Vec F S2048x256 .f32) (xs0 : Vec F S2048x256 .f32) (y : S2048x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x256.size (by sl_kernel_rfl) y

def sout1_B_0 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x1 : Vec F S2048x256 .f32) (x2 : Vec F S2048x256 .f32) (xs0 : Vec F S2048x256 .f32) : Vec F S2048x256 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Where the reduction coordinate is 3 the output's piece covers its block. -/
theorem cover1_C_3 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .f32) (x2 : Vec F S2048x256 .f32) (xs0 : Vec F S2048x256 .f32) (y : S2048x256.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x256.size (by sl_kernel_rfl) y

/-- What the output's staging buffer holds after such a point. -/
def out1_C_3 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .f32) (x2 : Vec F S2048x256 .f32) (xs0 : Vec F S2048x256 .f32) : Vec F S2048x256 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .f32) (x2 : Vec F S2048x256 .f32) (xs0 : Vec F S2048x256 .f32) (y : S2048x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x256.size (by sl_kernel_rfl) y

def sout1_C_0 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .f32) (x2 : Vec F S2048x256 .f32) (xs0 : Vec F S2048x256 .f32) : Vec F S2048x256 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the scratch hold after each point -/

/-- The accumulation: what the output's staging buffer and the carried scratch hold after the body at position `n`
    (the output's, then the scratch's): the case the closed forms select at `n`, run at the point's memrefs and input
    blocks, over the scratch the point before left. -/
def outsAt1 (c : Dev nD) : (n : ℕ) → n < cfg1.N → Vec F S2048x256 .f32 × Vec F S2048x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk V c 0 t) (iblk V c 1 t) (iblk V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk V c 0 t) (iblk V c 1 t) (iblk V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk V c 0 t) (iblk V c 1 t) (iblk V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk V c 0 t) (iblk V c 1 t) (iblk V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk V c 0 t) (iblk V c 1 t) (iblk V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the carried scratch at
    what the point before left in it, the other scoped buffers unopened, the generator register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2) ∗ restBut1 (F := F) c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ restBut1 (F := F) c) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t) : (dat1 V c).owed t = 0 := rfl

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk V c 0 t :=
  before1_0_of V (dat1 V c) (A_eq1 V c 0) (after1_0 V c) t d
theorem before1_1 (c : Dev nD) (t : Fin cfg1.N) (d) : (dat1 V c).before 1 t d = iblk V c 1 t :=
  before1_1_of V (dat1 V c) (A_eq1 V c 1) (after1_1 V c) t d
theorem before1_2 (c : Dev nD) (t : Fin cfg1.N) (d) : (dat1 V c).before 2 t d = iblk V c 2 t :=
  before1_2_of V (dat1 V c) (A_eq1 V c 2) (after1_2 V c) t d

/-! ## The body obligation, at a generic point -/

def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [show (dat1 V c).leavesExact 3 t = owns (c : Thread nD τ) (ms1_3 t) fullShare ((dat1 V c).after 3 t) from by
          unfold Dat.leavesExact; rw [liveAt1_3 t ((hcond1_1 t).mpr h1)], after1_3]
      rw [outsAt1_C V c t h0 h1]
      unfold out1_C_3 sout1_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out V c _ (by rw [Fin.val_last]; have : cfg1.N = 16 := N_1; omega)

end Cert.Kernel.Reg1

end
-- ==== Proof.K.Reg1.lean ====
import proofs.«104635_j41927470743646_2_alg».proof.Proof.K.Reg1.Frame

/-! Region 1 (the second Chebyshev step, `T₂ = 2·L·T₁ − T₀`) as a pipeline at region-entry contents `V`: the proof
data `Reg1.dat1`, its arrays (`Reg1.A_eq1`), nothing owed (`Reg1.owed1`), the body obligation
(`Reg1.body_obligation1`) and the invariant's two ends (`Reg1.hin1`, `Reg1.hout1`) are in the frame module imported
here; the body's run per control case, and what the cases share, are in the modules it imports. -/
-- ==== Proof.K.Reg2.Runs.lean ====
import proofs.«104635_j41927470743646_2_alg».proof.Proof.Gen.Kernel.Launch
import proofs.«104635_j41927470743646_2_alg».proof.Proof.Gen.Kernel.Skeleton
import proofs.«104635_j41927470743646_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if`: the reduction coordinate is 0. -/
abbrev cond2_0 (i : grid2.Coords) : Prop := (Scalar.cmpi .ne (Scalar.extui (Scalar.cmpi .eq (BitVec.ofNat 32 (i 1).val) 0#32)) 0#32) = 1#1
/-- It holds at the points ≡ 0 (mod 4) — decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second `scf.if`: the reduction coordinate is 3. -/
abbrev cond2_1 (i : grid2.Coords) : Prop := k2_cond2 i = 1#1
/-- It holds at the points ≡ 3 (mod 4) — decided over the grid. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the second condition fails the output window is idle: nothing is stored into it, -/
theorem idleAt2_3 : ∀ t : Fin cfg2.N, ¬cond2_1 (grid2.coords t) → cfg2.idle 3 (grid2.coords t) = true := by decide +kernel
/-- and the pipeline does not write its block back. -/
theorem noFlush2_3 : ∀ t : Fin cfg2.N, ¬cond2_1 (grid2.coords t) → (cfg2.win 3).flush t = false := by decide +kernel
/-- Where it holds the window is live. -/
theorem liveAt2_3 : ∀ t : Fin cfg2.N, cond2_1 (grid2.coords t) → cfg2.idle 3 (grid2.coords t) = false := by decide +kernel

/-! ## The staging memrefs and the scratch -/

/-- One staging buffer of output window 3, through which its contents are stated. -/
abbrev VO2_3 : View sig .tc .vmem S2048x256 .f32 := (Memref.whole cc2_stg3_0 : Memref sig .tc .vmem S2048x256 .f32).view
/-- Each window's current staging memref at point `t`, as the pipeline passes it, and its wholeness. -/
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
/-- The scratch operand: a whole scoped buffer of the kernel's own, passed beside the windows. -/
abbrev scM2_0 : Memref sig .tc .vmem S2048x256 .f32 := Memref.whole cc2_scratch0
/-- The scratch the kernel carries between points, as a view. -/
abbrev VS2_0 : View sig .tc .vmem S2048x256 .f32 := scM2_0.view

/-- The other scoped buffers of the core (the other calls' staging buffers and scratch), unopened. -/
abbrev restBut2 (c : Dev nD) : sProp 𝕄 :=
  Pipeline.scopedRestBut (Ix := Unit) (Name := ℕ) (U := UR sig nD τ) (Lvl := ℕ) (Val := Elt F) spec2 c [cc2_scratch0]

/-- The region invariant with the scratch operand as a memref owned at some contents, the other scoped buffers
    unopened, and the generator register at some state. -/
theorem PhiA2_eq (c : Dev nD) :
    (Pipeline.ΦA spec2 c : sProp 𝕄)
      = iprop(iprop((∃ d, owns (c : Thread nD τ) scM2_0 fullShare d) ∗ restBut2 (F := F) c) ∗ (∃ r, prngReg c r)) := by
  unfold Pipeline.ΦA; rw [scopedRest2_split]; simp only [scM2_0, owns_whole]; try rfl

end Cert.Kernel.Reg2

end
-- ==== Proof.K.Reg2.RunA.lean ====
import proofs.«104635_j41927470743646_2_alg».proof.Proof.K.Reg2.Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where the first condition holds and the second fails (the reduction coordinate is 0): on whole
    staging memrefs — the inputs' at their contents, the output's (idle here) at contents handed back untouched, the
    scratch at anything — the body runs to the continuation holding the inputs' as they were, the output's untouched
    and the scratch with its pieces written (the zero fill, then the accumulation). The pieces are the witness the
    run finds. -/
noncomputable def kernelRun2_A (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x1 : Vec F S2048x256 .f32) (x2 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__cheb_kernel i arg2 harg2 arg3 harg3 arg4 harg4 arg5 harg5 arg6 harg6) K } := by
  refine ⟨[], ?_, fun xi3 E K => ?run⟩
  case run =>
    simp only [cc2__cheb_kernel_eq_skeleton]; unfold cc2__cheb_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg2

end
-- ==== Proof.K.Reg2.RunB.lean ====
import proofs.«104635_j41927470743646_2_alg».proof.Proof.K.Reg2.RunA

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where both conditions fail (the reduction coordinate is 1 or 2): the inputs' at their contents,
    the output's (idle here) handed back untouched, the scratch at the contents the point before left; the scratch
    ends with its piece written (the accumulation). -/
noncomputable def kernelRun2_B (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x1 : Vec F S2048x256 .f32) (x2 : Vec F S2048x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__cheb_kernel i arg2 harg2 arg3 harg3 arg4 harg4 arg5 harg5 arg6 harg6) K } := by
  refine ⟨[], ?_, fun xi3 E K => ?run⟩
  case run =>
    simp only [cc2__cheb_kernel_eq_skeleton]; unfold cc2__cheb_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg2

end
-- ==== Proof.K.Reg2.RunC.lean ====
import proofs.«104635_j41927470743646_2_alg».proof.Proof.K.Reg2.RunB

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where the first condition fails and the second holds (the reduction coordinate is 3): the inputs'
    at their contents, the output's at anything, the scratch at the contents the point before left; the scratch ends
    with its piece written (the accumulation) and the output's buffer with its piece (the combination). -/
noncomputable def kernelRun2_C (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x256 .f32) (x2 : Vec F S2048x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__cheb_kernel i arg2 harg2 arg3 harg3 arg4 harg4 arg5 harg5 arg6 harg6) K } := by
  refine ⟨?_, ?_, fun E K => ?run⟩
  case run =>
    simp only [cc2__cheb_kernel_eq_skeleton]; unfold cc2__cheb_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Reg2

end
-- ==== Proof.K.Reg2.Frame.lean ====
import proofs.«104635_j41927470743646_2_alg».proof.Proof.K.Reg2.RunC

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the scratch -/

/-- Where the reduction coordinate is 0 nothing is stored into the output (the window is idle and not written back):
    a placeholder nothing consults. -/
def out2_A_3 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x1 : Vec F S2048x256 .f32) (x2 : Vec F S2048x256 .f32) : Vec F S2048x256 .f32 :=
  VO2_3.read (Elt F) (VO2_3.writes (Elt F) VO2_3.junk (kernelRun2_A c i arg2 harg2 arg3 harg3 arg4 harg4 arg5 harg5 arg6 harg6 hc0 hc1 x0 x1 x2).1)

/-- There the scratch's pieces cover it. -/
theorem scover2_A_0 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x1 : Vec F S2048x256 .f32) (x2 : Vec F S2048x256 .f32) (y : S2048x256.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2048x256.size (by sl_kernel_rfl) y

/-- What the scratch holds after such a point: its pieces read back. -/
def sout2_A_0 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x1 : Vec F S2048x256 .f32) (x2 : Vec F S2048x256 .f32) : Vec F S2048x256 .f32 :=
  VS2_0.read (Elt F) (VS2_0.writes (Elt F) VS2_0.junk (kernelRun2_A c i arg2 harg2 arg3 harg3 arg4 harg4 arg5 harg5 arg6 harg6 hc0 hc1 x0 x1 x2).2.1)

/-- Where the reduction coordinate is 1 or 2 nothing is stored into the output either. -/
def out2_B_3 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x1 : Vec F S2048x256 .f32) (x2 : Vec F S2048x256 .f32) (xs0 : Vec F S2048x256 .f32) : Vec F S2048x256 .f32 :=
  VO2_3.read (Elt F) (VO2_3.writes (Elt F) VO2_3.junk (kernelRun2_B c i arg2 harg2 arg3 harg3 arg4 harg4 arg5 harg5 arg6 harg6 hc0 hc1 x0 x1 x2 xs0).1)

theorem scover2_B_0 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x1 : Vec F S2048x256 .f32) (x2 : Vec F S2048x256 .f32) (xs0 : Vec F S2048x256 .f32) (y : S2048x256.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2048x256.size (by sl_kernel_rfl) y

def sout2_B_0 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x1 : Vec F S2048x256 .f32) (x2 : Vec F S2048x256 .f32) (xs0 : Vec F S2048x256 .f32) : Vec F S2048x256 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Where the reduction coordinate is 3 the output's piece covers its block. -/
theorem cover2_C_3 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x256 .f32) (x2 : Vec F S2048x256 .f32) (xs0 : Vec F S2048x256 .f32) (y : S2048x256.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2048x256.size (by sl_kernel_rfl) y

/-- What the output's staging buffer holds after such a point. -/
def out2_C_3 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x256 .f32) (x2 : Vec F S2048x256 .f32) (xs0 : Vec F S2048x256 .f32) : Vec F S2048x256 .f32 :=
  VO2_3.read (Elt F) (VO2_3.writes (Elt F) VO2_3.junk (kernelRun2_C c i arg2 harg2 arg3 harg3 arg4 harg4 arg5 harg5 arg6 harg6 hc0 hc1 x0 x1 x2 xs0).1)

theorem scover2_C_0 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x256 .f32) (x2 : Vec F S2048x256 .f32) (xs0 : Vec F S2048x256 .f32) (y : S2048x256.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2048x256.size (by sl_kernel_rfl) y

def sout2_C_0 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x256 .f32) (x2 : Vec F S2048x256 .f32) (xs0 : Vec F S2048x256 .f32) : Vec F S2048x256 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's buffer and the scratch hold after each point -/

/-- The accumulation: what the output's staging buffer and the carried scratch hold after the body at position `n`
    (the output's, then the scratch's): the case the closed forms select at `n`, run at the point's memrefs and input
    blocks, over the scratch the point before left. -/
def outsAt2 (c : Dev nD) : (n : ℕ) → n < cfg2.N → Vec F S2048x256 .f32 × Vec F S2048x256 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk V c 0 ⟨n + 1, hn⟩) (iblk V c 1 ⟨n + 1, hn⟩) (iblk V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk V c 0 ⟨n + 1, hn⟩) (iblk V c 1 ⟨n + 1, hn⟩) (iblk V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk V c 0 t) (iblk V c 1 t) (iblk V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk V c 0 t) (iblk V c 1 t) (iblk V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk V c 0 t) (iblk V c 1 t) (iblk V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk V c 0 t) (iblk V c 1 t) (iblk V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk V c 0 t) (iblk V c 1 t) (iblk V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the carried scratch at
    what the point before left in it, the other scoped buffers unopened, the generator register at some state. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2_0 fullShare ((outsAt2 V c n hn).2) ∗ restBut2 (F := F) c) ∗ (∃ r, prngReg c r)) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2) ∗ restBut2 (F := F) c) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt2`; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem owed2 (c : Dev nD) (t) : (dat2 V c).owed t = 0 := rfl

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk V c 0 t := by dsimp only [dat2]
theorem after2_1 (c : Dev nD) (t : Fin cfg2.N) : (dat2 V c).after 1 t = iblk V c 1 t := by dsimp only [dat2]
theorem after2_2 (c : Dev nD) (t : Fin cfg2.N) : (dat2 V c).after 2 t = iblk V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk V c 0 t :=
  before2_0_of V (dat2 V c) (A_eq2 V c 0) (after2_0 V c) t d
theorem before2_1 (c : Dev nD) (t : Fin cfg2.N) (d) : (dat2 V c).before 1 t d = iblk V c 1 t :=
  before2_1_of V (dat2 V c) (A_eq2 V c 1) (after2_1 V c) t d
theorem before2_2 (c : Dev nD) (t : Fin cfg2.N) (d) : (dat2 V c).before 2 t d = iblk V c 2 t :=
  before2_2_of V (dat2 V c) (A_eq2 V c 2) (after2_2 V c) t d

/-! ## The body obligation, at a generic point -/

def bodyPre (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 16 := lt_of_lt_of_eq t.isLt (show cfg2.N = 16 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [outsAt2_A V c t h0 h1]
      unfold sout2_A_0; (try dsimp only)
      by_cases hz : t.val = 0
      · rw [PhiS_castSucc V c t, PhiS_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3 t ((hcond2_1 t).mpr h1)], after2_3]
      rw [outsAt2_C V c t h0 h1]
      unfold out2_C_3 sout2_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the class's back: the scratch's named contents are forgotten. -/
theorem Phi_out (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out V c _ (by rw [Fin.val_last]; have : cfg2.N = 16 := N_2; omega)

end Cert.Kernel.Reg2

end
-- ==== Proof.K.Reg2.lean ====
import proofs.«104635_j41927470743646_2_alg».proof.Proof.K.Reg2.Frame

/-! Region 2 (the third Chebyshev step, `T₃ = 2·L·T₂ − T₁`) as a pipeline at region-entry contents `V`: the proof
data `Reg2.dat2`, its arrays (`Reg2.A_eq2`), nothing owed (`Reg2.owed2`), the body obligation
(`Reg2.body_obligation2`) and the invariant's two ends (`Reg2.hin2`, `Reg2.hout2`) are in the frame module imported
here; the body's run per control case, and what the cases share, are in the modules it imports. -/
-- ==== Proof.K.Reg3.Runs.lean ====
import proofs.«104635_j41927470743646_2_alg».proof.Proof.Gen.Kernel.Launch
import proofs.«104635_j41927470743646_2_alg».proof.Proof.Gen.Kernel.Skeleton
import proofs.«104635_j41927470743646_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if`: the reduction coordinate is 0. -/
abbrev cond3_0 (i : grid3.Coords) : Prop := (Scalar.cmpi .ne (Scalar.extui (Scalar.cmpi .eq (BitVec.ofNat 32 (i 1).val) 0#32)) 0#32) = 1#1
/-- It holds at the points ≡ 0 (mod 4) — decided over the grid. -/
theorem hcond3_0 : ∀ t : Fin cfg3.N, cond3_0 (grid3.coords t) ↔ t.val % 4 = 0 :=
  (by decide +kernel : ∀ t : Fin grid3.N, cond3_0 (grid3.coords t) ↔ t.val % 4 = 0)

/-- The condition of the body's second `scf.if`: the reduction coordinate is 3. -/
abbrev cond3_1 (i : grid3.Coords) : Prop := k3_cond2 i = 1#1
/-- It holds at the points ≡ 3 (mod 4) — decided over the grid. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where the second condition fails the output window is idle: nothing is stored into it, -/
theorem idleAt3_3 : ∀ t : Fin cfg3.N, ¬cond3_1 (grid3.coords t) → cfg3.idle 3 (grid3.coords t) = true := by decide +kernel
/-- and the pipeline does not write its block back. -/
theorem noFlush3_3 : ∀ t : Fin cfg3.N, ¬cond3_1 (grid3.coords t) → (cfg3.win 3).flush t = false := by decide +kernel
/-- Where it holds the window is live. -/
theorem liveAt3_3 : ∀ t : Fin cfg3.N, cond3_1 (grid3.coords t) → cfg3.idle 3 (grid3.coords t) = false := by decide +kernel

/-! ## The staging memrefs and the scratch -/

/-- One staging buffer of output window 3, through which its contents are stated. -/
abbrev VO3_3 : View sig .tc .vmem S2048x256 .f32 := (Memref.whole cc3_stg3_0 : Memref sig .tc .vmem S2048x256 .f32).view
/-- Each window's current staging memref at point `t`, as the pipeline passes it, and its wholeness. -/
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .f32 := win3_3.stage (cfg3.slots t 3)
abbrev hs3_3 (t : Fin cfg3.N) : (ms3_3 t).IsWhole := hstage3_3 ((cfg3.slots t 3).cast nbuf3_3)
/-- The scratch operand: a whole scoped buffer of the kernel's own, passed beside the windows. -/
abbrev scM3_0 : Memref sig .tc .vmem S2048x256 .f32 := Memref.whole cc3_scratch0
/-- The scratch the kernel carries between points, as a view. -/
abbrev VS3_0 : View sig .tc .vmem S2048x256 .f32 := scM3_0.view

/-- The other scoped buffers of the core (the other calls' staging buffers and scratch), unopened. -/
abbrev restBut3 (c : Dev nD) : sProp 𝕄 :=
  Pipeline.scopedRestBut (Ix := Unit) (Name := ℕ) (U := UR sig nD τ) (Lvl := ℕ) (Val := Elt F) spec3 c [cc3_scratch0]

/-- The region invariant with the scratch operand as a memref owned at some contents, the other scoped buffers
    unopened, and the generator register at some state. -/
theorem PhiA3_eq (c : Dev nD) :
    (Pipeline.ΦA spec3 c : sProp 𝕄)
      = iprop(iprop((∃ d, owns (c : Thread nD τ) scM3_0 fullShare d) ∗ restBut3 (F := F) c) ∗ (∃ r, prngReg c r)) := by
  unfold Pipeline.ΦA; rw [scopedRest3_split]; simp only [scM3_0, owns_whole]; try rfl

end Cert.Kernel.Reg3

end
-- ==== Proof.K.Reg3.RunA.lean ====
import proofs.«104635_j41927470743646_2_alg».proof.Proof.K.Reg3.Runs

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where the first condition holds and the second fails (the reduction coordinate is 0): on whole
    staging memrefs — the inputs' at their contents, the output's (idle here) at contents handed back untouched, the
    scratch at anything — the body runs to the continuation holding the inputs' as they were, the output's untouched
    and the scratch with its pieces written (the zero fill, then the accumulation). The pieces are the witness the
    run finds. -/
noncomputable def kernelRun3_A (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i)
    (x0 : Vec F S2048x2048 .bf16) (x1 : Vec F S2048x256 .f32) (x2 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__cheb_kernel i arg2 harg2 arg3 harg3 arg4 harg4 arg5 harg5 arg6 harg6) K } := by
  refine ⟨[], ?_, fun xi3 E K => ?run⟩
  case run =>
    simp only [cc3__cheb_kernel_eq_skeleton]; unfold cc3__cheb_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg3

end
-- ==== Proof.K.Reg3.RunB.lean ====
import proofs.«104635_j41927470743646_2_alg».proof.Proof.K.Reg3.RunA

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where both conditions fail (the reduction coordinate is 1 or 2): the inputs' at their contents,
    the output's (idle here) handed back untouched, the scratch at the contents the point before left; the scratch
    ends with its piece written (the accumulation). -/
noncomputable def kernelRun3_B (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : ¬cond3_1 i)
    (x0 : Vec F S2048x2048 .bf16) (x1 : Vec F S2048x256 .f32) (x2 : Vec F S2048x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__cheb_kernel i arg2 harg2 arg3 harg3 arg4 harg4 arg5 harg5 arg6 harg6) K } := by
  refine ⟨[], ?_, fun xi3 E K => ?run⟩
  case run =>
    simp only [cc3__cheb_kernel_eq_skeleton]; unfold cc3__cheb_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg3

end
-- ==== Proof.K.Reg3.RunC.lean ====
import proofs.«104635_j41927470743646_2_alg».proof.Proof.K.Reg3.RunB

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where the first condition fails and the second holds (the reduction coordinate is 3): the inputs'
    at their contents, the output's at anything, the scratch at the contents the point before left; the scratch ends
    with its piece written (the accumulation) and the output's buffer with its piece (the combination). -/
noncomputable def kernelRun3_C (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .f32) (x2 : Vec F S2048x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__cheb_kernel i arg2 harg2 arg3 harg3 arg4 harg4 arg5 harg5 arg6 harg6) K } := by
  refine ⟨?_, ?_, fun E K => ?run⟩
  case run =>
    simp only [cc3__cheb_kernel_eq_skeleton]; unfold cc3__cheb_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Reg3

end
-- ==== Proof.K.Reg3.Frame.lean ====
import proofs.«104635_j41927470743646_2_alg».proof.Proof.K.Reg3.RunC

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the scratch -/

/-- Where the reduction coordinate is 0 nothing is stored into the output (the window is idle and not written back):
    a placeholder nothing consults. -/
def out3_A_3 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i)
    (x0 : Vec F S2048x2048 .bf16) (x1 : Vec F S2048x256 .f32) (x2 : Vec F S2048x256 .f32) : Vec F S2048x256 .f32 :=
  VO3_3.read (Elt F) (VO3_3.writes (Elt F) VO3_3.junk (kernelRun3_A c i arg2 harg2 arg3 harg3 arg4 harg4 arg5 harg5 arg6 harg6 hc0 hc1 x0 x1 x2).1)

/-- There the scratch's pieces cover it. -/
theorem scover3_A_0 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i)
    (x0 : Vec F S2048x2048 .bf16) (x1 : Vec F S2048x256 .f32) (x2 : Vec F S2048x256 .f32) (y : S2048x256.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S2048x256.size (by sl_kernel_rfl) y

/-- What the scratch holds after such a point: its pieces read back. -/
def sout3_A_0 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i)
    (x0 : Vec F S2048x2048 .bf16) (x1 : Vec F S2048x256 .f32) (x2 : Vec F S2048x256 .f32) : Vec F S2048x256 .f32 :=
  VS3_0.read (Elt F) (VS3_0.writes (Elt F) VS3_0.junk (kernelRun3_A c i arg2 harg2 arg3 harg3 arg4 harg4 arg5 harg5 arg6 harg6 hc0 hc1 x0 x1 x2).2.1)

/-- Where the reduction coordinate is 1 or 2 nothing is stored into the output either. -/
def out3_B_3 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : ¬cond3_1 i)
    (x0 : Vec F S2048x2048 .bf16) (x1 : Vec F S2048x256 .f32) (x2 : Vec F S2048x256 .f32) (xs0 : Vec F S2048x256 .f32) : Vec F S2048x256 .f32 :=
  VO3_3.read (Elt F) (VO3_3.writes (Elt F) VO3_3.junk (kernelRun3_B c i arg2 harg2 arg3 harg3 arg4 harg4 arg5 harg5 arg6 harg6 hc0 hc1 x0 x1 x2 xs0).1)

theorem scover3_B_0 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : ¬cond3_1 i)
    (x0 : Vec F S2048x2048 .bf16) (x1 : Vec F S2048x256 .f32) (x2 : Vec F S2048x256 .f32) (xs0 : Vec F S2048x256 .f32) (y : S2048x256.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S2048x256.size (by sl_kernel_rfl) y

def sout3_B_0 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : ¬cond3_1 i)
    (x0 : Vec F S2048x2048 .bf16) (x1 : Vec F S2048x256 .f32) (x2 : Vec F S2048x256 .f32) (xs0 : Vec F S2048x256 .f32) : Vec F S2048x256 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Where the reduction coordinate is 3 the output's piece covers its block. -/
theorem cover3_C_3 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .f32) (x2 : Vec F S2048x256 .f32) (xs0 : Vec F S2048x256 .f32) (y : S2048x256.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S2048x256.size (by sl_kernel_rfl) y

/-- What the output's staging buffer holds after such a point. -/
def out3_C_3 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .f32) (x2 : Vec F S2048x256 .f32) (xs0 : Vec F S2048x256 .f32) : Vec F S2048x256 .f32 :=
  VO3_3.read (Elt F) (VO3_3.writes (Elt F) VO3_3.junk (kernelRun3_C c i arg2 harg2 arg3 harg3 arg4 harg4 arg5 harg5 arg6 harg6 hc0 hc1 x0 x1 x2 xs0).1)

theorem scover3_C_0 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .f32) (x2 : Vec F S2048x256 .f32) (xs0 : Vec F S2048x256 .f32) (y : S2048x256.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S2048x256.size (by sl_kernel_rfl) y

def sout3_C_0 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .f32) (x2 : Vec F S2048x256 .f32) (xs0 : Vec F S2048x256 .f32) : Vec F S2048x256 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output's buffer and the scratch hold after each point -/

/-- The accumulation: what the output's staging buffer and the carried scratch hold after the body at position `n`
    (the output's, then the scratch's): the case the closed forms select at `n`, run at the point's memrefs and input
    blocks, over the scratch the point before left. -/
def outsAt3 (c : Dev nD) : (n : ℕ) → n < cfg3.N → Vec F S2048x256 .f32 × Vec F S2048x256 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk V c 0 ⟨0, hn⟩) (iblk V c 1 ⟨0, hn⟩) (iblk V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk V c 0 ⟨n + 1, hn⟩) (iblk V c 1 ⟨n + 1, hn⟩) (iblk V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk V c 0 ⟨n + 1, hn⟩) (iblk V c 1 ⟨n + 1, hn⟩) (iblk V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk V c 0 ⟨n + 1, hn⟩) (iblk V c 1 ⟨n + 1, hn⟩) (iblk V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk V c 0 ⟨n + 1, hn⟩) (iblk V c 1 ⟨n + 1, hn⟩) (iblk V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk V c 0 ⟨n + 1, hn⟩) (iblk V c 1 ⟨n + 1, hn⟩) (iblk V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk V c 0 ⟨n + 1, hn⟩) (iblk V c 1 ⟨n + 1, hn⟩) (iblk V c 2 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk V c 0 t) (iblk V c 1 t) (iblk V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk V c 0 t) (iblk V c 1 t) (iblk V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk V c 0 t) (iblk V c 1 t) (iblk V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk V c 0 t) (iblk V c 1 t) (iblk V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk V c 0 t) (iblk V c 1 t) (iblk V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the carried scratch at
    what the point before left in it, the other scoped buffers unopened, the generator register at some state. -/
def PhiS (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM3_0 fullShare ((outsAt3 V c n hn).2) ∗ restBut3 (F := F) c) ∗ (∃ r, prngReg c r)) := rfl

theorem PhiS_pos (c : Dev nD) (n : ℕ) (h : n ≤ cfg3.N) (hz : n ≠ 0) :
    PhiS V c n h = iprop(iprop(owns (c : Thread nD τ) scM3_0 fullShare ((outsAt3 V c (n - 1) (by omega)).2) ∗ restBut3 (F := F) c) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt3`; the invariant `PhiS`; nothing owed; full shares. -/
def dat3 (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt3 V c t.val t.isLt).1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem owed3 (c : Dev nD) (t) : (dat3 V c).owed t = 0 := rfl

theorem PhiS_castSucc (c : Dev nD) (t : Fin cfg3.N) :
    (dat3 V c).Φ t.castSucc = PhiS V c t.val (Nat.le_of_lt t.isLt) := by
  dsimp only [dat3]; simp only [Fin.coe_castSucc]

theorem after3_0 (c : Dev nD) (t : Fin cfg3.N) : (dat3 V c).after 0 t = iblk V c 0 t := by dsimp only [dat3]
theorem after3_1 (c : Dev nD) (t : Fin cfg3.N) : (dat3 V c).after 1 t = iblk V c 1 t := by dsimp only [dat3]
theorem after3_2 (c : Dev nD) (t : Fin cfg3.N) : (dat3 V c).after 2 t = iblk V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk V c 0 t :=
  before3_0_of V (dat3 V c) (A_eq3 V c 0) (after3_0 V c) t d
theorem before3_1 (c : Dev nD) (t : Fin cfg3.N) (d) : (dat3 V c).before 1 t d = iblk V c 1 t :=
  before3_1_of V (dat3 V c) (A_eq3 V c 1) (after3_1 V c) t d
theorem before3_2 (c : Dev nD) (t : Fin cfg3.N) (d) : (dat3 V c).before 2 t d = iblk V c 2 t :=
  before3_2_of V (dat3 V c) (A_eq3 V c 2) (after3_2 V c) t d

/-! ## The body obligation, at a generic point -/

def bodyPre (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2]
  rw [show (dat3 V c).owesAt () t.succ = (dat3 V c).owesAt () t.castSucc from rfl]
  rw [show (dat3 V c).Φ t.succ = PhiS V c (t.val + 1) t.isLt from rfl, PhiS_succ]
  have hN : t.val < 16 := lt_of_lt_of_eq t.isLt (show cfg3.N = 16 from N_3)
  by_cases h0 : t.val % 4 = 0
  · by_cases h1 : t.val % 4 = 3
    · exfalso; omega
    · rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_A V c t h0 h1]
      unfold sout3_A_0; (try dsimp only)
      by_cases hz : t.val = 0
      · rw [PhiS_castSucc V c t, PhiS_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [show (dat3 V c).leavesExact 3 t = owns (c : Thread nD τ) (ms3_3 t) fullShare ((dat3 V c).after 3 t) from by
          unfold Dat.leavesExact; rw [liveAt3_3 t ((hcond3_1 t).mpr h1)], after3_3]
      rw [outsAt3_C V c t h0 h1]
      unfold out3_C_3 sout3_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body V c t

/-- What the launch hands the region is the invariant before the first point. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After any point but the first the invariant gives the class's back: the scratch's named contents are forgotten. -/
theorem Phi_out (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out V c _ (by rw [Fin.val_last]; have : cfg3.N = 16 := N_3; omega)

end Cert.Kernel.Reg3

end
-- ==== Proof.K.Reg3.lean ====
import proofs.«104635_j41927470743646_2_alg».proof.Proof.K.Reg3.Frame

/-! Region 3 (the fourth Chebyshev step, `T₄ = 2·L·T₃ − T₂`) as a pipeline at region-entry contents `V`: the proof
data `Reg3.dat3`, its arrays (`Reg3.A_eq3`), nothing owed (`Reg3.owed3`), the body obligation
(`Reg3.body_obligation3`) and the invariant's two ends (`Reg3.hin3`, `Reg3.hout3`) are in the frame module imported
here; the body's run per control case, and what the cases share, are in the modules it imports. -/
-- ==== Proof.K.Reg4.Blocks.lean ====
import proofs.«104635_j41927470743646_2_alg».proof.Proof.Gen.Kernel.Launch
import proofs.«104635_j41927470743646_2_alg».proof.Proof.Gen.Kernel.Skeleton
import proofs.«104635_j41927470743646_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The final region's windows: each window's block at a grid point, and what an input's staging buffer holds there

The region's grid has 8 points; point `t` takes rows `1024·t … 1024·t + 1023` of each of the five 8192×256 operands
and of the result. The 1280×256 weight and the 1×256 bias row are each one block, the same at every point, brought
in once at the first point and left in place afterwards. -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s (`hA`) and whose body leaves the block in place (`hafter`). The window is brought in at the first point only: at a later point its
    block index has not moved, so the buffer still holds the same block. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s (`hA`) and whose body leaves the block in place (`hafter`). The window is brought in at the first point only: at a later point its
    block index has not moved, so the buffer still holds the same block. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

end Cert.Kernel.Reg4

end
-- ==== Proof.K.Reg4.Kernel.lean ====
import proofs.«104635_j41927470743646_2_alg».proof.Proof.Gen.Kernel.Launch
import proofs.«104635_j41927470743646_2_alg».proof.Proof.Gen.Kernel.Skeleton
import proofs.«104635_j41927470743646_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The final region's kernel on its staging buffers

The body reads the five 1024×256 operand blocks whole, the 1280×256 weight buffer as five 256×256 slabs at row
offsets 0, 256, 512, 768, 1024, and the 1×256 bias row whole; it stores once, over the whole output buffer. -/

/-! ## The body's accesses -/

abbrev r4_0 : Rect S1024x256 := Rect.unit (s := S1024x256) ![0, 0] S1024x256.size inb_S1024x256_S1024x256_0_0
abbrev r4_1 : Rect S1280x256 := Rect.unit (s := S1280x256) ![0, 0] S256x256.size inb_S1280x256_S256x256_0_0
abbrev r4_2 : Rect S1280x256 := Rect.unit (s := S1280x256) ![256, 0] S256x256.size inb_S1280x256_S256x256_256_0
abbrev r4_3 : Rect S1280x256 := Rect.unit (s := S1280x256) ![512, 0] S256x256.size inb_S1280x256_S256x256_512_0
abbrev r4_4 : Rect S1280x256 := Rect.unit (s := S1280x256) ![768, 0] S256x256.size inb_S1280x256_S256x256_768_0
abbrev r4_5 : Rect S1280x256 := Rect.unit (s := S1280x256) ![1024, 0] S256x256.size inb_S1280x256_S256x256_1024_0
abbrev r4_6 : Rect S1x256 := Rect.unit (s := S1x256) ![0, 0] S1x256.size inb_S1x256_S1x256_0_0

/-! ## What the body leaves in the output window's buffer -/

/-- Window 7's staging buffer after the body, from the input windows' blocks: its one store as a piece. The value
    stored is the sum of the five slab products plus the broadcast bias row, clamped below at zero. -/
def out4_7 (x0 x1 x2 x3 x4 : Vec F S1024x256 .f32) (x5 : Vec F S1280x256 .f32) (x6 : Vec F S1x256 .f32) : Vec F S1024x256 .f32 :=
  View.canon [⟨r4_0, k4_pay1 (k4_pay2 (View.ld x0 r4_0) (View.ld x5 r4_1) (View.ld x1 r4_0) (View.ld x5 r4_2) (View.ld x2 r4_0) (View.ld x5 r4_3) (View.ld x3 r4_0) (View.ld x5 r4_4) (View.ld x4 r4_0) (View.ld x5 r4_5)) (View.ld x6 r4_6)⟩]

/-- The one store is over the whole buffer, so it covers it. -/
theorem cover4_7 (p0 : Vec F S1024x256 .f32) (y : S1024x256.Idx) :
    ∃ pc ∈ ([⟨r4_0, p0⟩] : List (View.Piece (Elt F) S1024x256 .f32)), y ∈ pc.1.set :=
  View.cover_of_tiled [⟨r4_0, p0⟩] S1024x256.size (by rfl) y

/-! ## The body's triple -/

set_option maxHeartbeats 1000000 in
/-- The kernel body on whole staging memrefs, the inputs' at read contents `x0 … x6` and the output's at anything,
    runs to the continuation holding the inputs' as they were and the output's at `out4_7` of the inputs'. -/
theorem sound_kernel4 (c : Dev nD) (E : Set ℕ) (i : grid4.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1280x256 .f32) (harg6 : arg6.IsWhole) (arg7 : Memref sig .tc .vmem S1x256 .f32) (harg7 : arg7.IsWhole) (arg8 : Memref sig .tc .vmem S1024x256 .f32) (harg8 : arg8.IsWhole)
    (x0 x1 x2 x3 x4 : Vec F S1024x256 .f32) (x5 : Vec F S1280x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__final_kernel i arg1 harg1 arg2 harg2 arg3 harg3 arg4 harg4 arg5 harg5 arg6 harg6 arg7 harg7 arg8 harg8) K := by
  simp only [cc4__final_kernel_eq_skeleton]; unfold cc4__final_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover4_7 _)

end Cert.Kernel.Reg4

end
-- ==== Proof.K.Reg4.lean ====
import proofs.«104635_j41927470743646_2_alg».proof.Proof.Gen.Kernel.Launch
import proofs.«104635_j41927470743646_2_alg».proof.Proof.Gen.Kernel.Skeleton
import proofs.«104635_j41927470743646_2_alg».proof.Proof.Gen.Kernel.Points
import proofs.«104635_j41927470743646_2_alg».proof.Proof.K.Reg4.Blocks
import proofs.«104635_j41927470743646_2_alg».proof.Proof.K.Reg4.Kernel
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The final region at the entry contents `V`: proof data and body obligation

The region's kernel has no conditional and keeps nothing between grid points: after the body at point `t` every
input's staging buffer still holds its block and the output's holds `out4_7` of the input blocks. The invariant is
the class's at every point (the scoped rest and the generator register, untouched); nothing is owed; full shares. -/

/-! ## The pipeline's proof data -/

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- Nothing is owed at any point. -/
theorem owed4 (c : Dev nD) (t) : (dat4 V c).owed t = 0 := rfl

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in
/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- The class invariant is the proof data's invariant at the first point, -/
theorem hin4 (c : Dev nD) : Pipeline.ΦA spec4 c ⊢ (dat4 V c).Φ 0 := .rfl

/-- and at the last point. -/
theorem hout4 (c : Dev nD) : (dat4 V c).Φ (Fin.last cfg4.N) ⊢ Pipeline.ΦA spec4 c := .rfl

end Cert.Kernel.Reg4

end
-- ==== Proof.K.Run.lean ====
import proofs.«104635_j41927470743646_2_alg».proof.Proof.K.RunCond
import proofs.«104635_j41927470743646_2_alg».proof.Proof.K.Reg0
import proofs.«104635_j41927470743646_2_alg».proof.Proof.K.Reg1
import proofs.«104635_j41927470743646_2_alg».proof.Proof.K.Reg2
import proofs.«104635_j41927470743646_2_alg».proof.Proof.K.Reg3
import proofs.«104635_j41927470743646_2_alg».proof.Proof.K.Reg4
import Idealize.ShloMosaic.Lib.Pipeline.RegionsLoop
import Idealize.ShloMosaic.Lib.Pipeline.Frame

/-!
  The five regions of @main as segment records over the thread state "every unscoped buffer at the contents the items
  before left, the generator register at some state, nothing owed", and the run of @main over them.
-/

noncomputable section

namespace Cert.Kernel.Hand

open Cert.Kernel Cert.Kernel.Gen
open Cert.Kernel.Reg0 Cert.Kernel.Reg1 Cert.Kernel.Reg2 Cert.Kernel.Reg3 Cert.Kernel.Reg4
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items of @main

Each region is entered from the contents the items before it left: the launch memory, then each region's output arrays at
what its write-backs leave (the proof data's `arrAt … N`), the bias reshaped by the one host operation. -/

/-- A valuation read at the TensorCore's references: what a region's proof data take. -/
abbrev atRefs (W : Dev nD → Valuation τ sig (Elt F)) : (c : Dev nD) → (b : Ref sig .tc) → Buf (Elt F) ((c : Thread nD τ).loc b) :=
  fun c b => W c b

/-- After region 0: `L @ x` in `main_v0_0` and the copy of `L` in `main_v0_1`. -/
def W1 (c : Dev nD) : Valuation τ sig (Elt F) :=
  Function.update (Function.update (V0 m c) main_v0_0 ((dat0 (atRefs (V0 m)) c).arrAt 3 cfg0.N)) main_v0_1 ((dat0 (atRefs (V0 m)) c).arrAt 4 cfg0.N)
/-- After region 1: the second Chebyshev feature in `main_v1`. -/
def W2 (c : Dev nD) : Valuation τ sig (Elt F) :=
  Function.update (W1 m c) main_v1 ((dat1 (atRefs (W1 m)) c).arrAt 3 cfg1.N)
/-- After region 2: the third feature in `main_v2`. -/
def W3 (c : Dev nD) : Valuation τ sig (Elt F) :=
  Function.update (W2 m c) main_v2 ((dat2 (atRefs (W2 m)) c).arrAt 3 cfg2.N)
/-- After region 3: the fourth feature in `main_v3`. -/
def W4 (c : Dev nD) : Valuation τ sig (Elt F) :=
  Function.update (W3 m c) main_v3 ((dat3 (atRefs (W3 m)) c).arrAt 3 cfg3.N)
/-- After the reshape of the bias into a row. -/
def W5 (c : Dev nD) : Valuation τ sig (Elt F) := StableHlo.after hostOps4 (W4 m c)
/-- After region 4: the result in `main_v5`. -/
def W6 (c : Dev nD) : Valuation τ sig (Elt F) :=
  Function.update (W5 m c) main_v5 ((dat4 (atRefs (W5 m)) c).arrAt 7 cfg4.N)

/-- What the regions leave, as the conditional frame's unknowns: after item `J − 1` the buffer `r` holds the
    valuation after that item read at `r`. -/
def outs : Outs (F := F) := fun J r c =>
  match J with
  | 1 => W1 m c r
  | 2 => W2 m c r
  | 3 => W3 m c r
  | 4 => W4 m c r
  | _ => W6 m c r

theorem V1_eq (c : Dev nD) : V1 m (outs m) c = W1 m c := by
  have e0 : outs m 1 main_v0_0 c = (dat0 (atRefs (V0 m)) c).arrAt 3 cfg0.N := by
    simp only [outs, W1]
    rw [Function.update_of_ne (StableHlo.devRef_ne_of_ne (by decide) : (Proc.devRef .tc main_v0_0 : DevRef τ sig) ≠ Proc.devRef .tc main_v0_1), Function.update_self]
  have e1 : outs m 1 main_v0_1 c = (dat0 (atRefs (V0 m)) c).arrAt 4 cfg0.N := by
    simp only [outs, W1, Function.update_self]
  simp only [V1, W1, e0, e1]
theorem V2_eq (c : Dev nD) : V2 m (outs m) c = W2 m c := by
  have e : outs m 2 main_v1 c = (dat1 (atRefs (W1 m)) c).arrAt 3 cfg1.N := by simp only [outs, W2, Function.update_self]
  show Function.update (V1 m (outs m) c) main_v1 (outs m 2 main_v1 c) = _
  rw [V1_eq m c, e]; rfl
theorem V3_eq (c : Dev nD) : V3 m (outs m) c = W3 m c := by
  have e : outs m 3 main_v2 c = (dat2 (atRefs (W2 m)) c).arrAt 3 cfg2.N := by simp only [outs, W3, Function.update_self]
  show Function.update (V2 m (outs m) c) main_v2 (outs m 3 main_v2 c) = _
  rw [V2_eq m c, e]; rfl
theorem V4_eq (c : Dev nD) : V4 m (outs m) c = W4 m c := by
  have e : outs m 4 main_v3 c = (dat3 (atRefs (W3 m)) c).arrAt 3 cfg3.N := by simp only [outs, W4, Function.update_self]
  show Function.update (V3 m (outs m) c) main_v3 (outs m 4 main_v3 c) = _
  rw [V3_eq m c, e]; rfl
theorem V5_eq (c : Dev nD) : V5 m (outs m) c = W5 m c := by
  show StableHlo.after hostOps4 (V4 m (outs m) c) = _
  rw [V4_eq m c]; rfl
theorem V6_eq (c : Dev nD) : V6 m (outs m) c = W6 m c := by
  have e : outs m 6 main_v5 c = (dat4 (atRefs (W5 m)) c).arrAt 7 cfg4.N := by simp only [outs, W6, Function.update_self]
  show Function.update (V5 m (outs m) c) main_v5 (outs m 6 main_v5 c) = _
  rw [V5_eq m c, e]; rfl

/-! ## The proof data family and what rides beside the buffers -/

/-- Every pipeline's proof data, each at its region's entry contents. -/
def pdats : (p : Fin 5) → (c : Dev nD) → Dat τ (Elt F) Unit ℕ (UR sig nD τ) ℕ (cfgs p) c
  | ⟨0, _⟩ => fun c => dat0 (atRefs (V0 m)) c
  | ⟨1, _⟩ => fun c => dat1 (atRefs (W1 m)) c
  | ⟨2, _⟩ => fun c => dat2 (atRefs (W2 m)) c
  | ⟨3, _⟩ => fun c => dat3 (atRefs (W3 m)) c
  | ⟨4, _⟩ => fun c => dat4 (atRefs (W5 m)) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)

/-! ## Region 4: the dense layer -/

/-- At region 4's exit each of its arrays holds what the pipeline leaves: an input its entry contents, the result the
    write-backs' fold. -/
theorem hF4 (c : Dev nD) (w : Fin cfg4.W) : (pdats m 4 c).arrAt w cfg4.N = atRefs (W6 m) c (Pipeline.arrRef spec4 w) := by
  show (dat4 (atRefs (W5 m)) c).arrAt w cfg4.N = _
  match w with
  | ⟨7, _⟩ => exact (show W6 m c (Proc.devRef .tc main_v5) = (dat4 (atRefs (W5 m)) c).arrAt 7 cfg4.N from by unfold W6; rw [Function.update_self]).symm
  | ⟨0, _⟩ => exact ((dat4 (atRefs (W5 m)) c).arrAt_in 0 rfl _).trans ((A_eq4 (atRefs (W5 m)) c 0).trans (Function.update_of_ne (StableHlo.devRef_ne_of_ne (by decide)) _ _).symm)
  | ⟨1, _⟩ => exact ((dat4 (atRefs (W5 m)) c).arrAt_in 1 rfl _).trans ((A_eq4 (atRefs (W5 m)) c 1).trans (Function.update_of_ne (StableHlo.devRef_ne_of_ne (by decide)) _ _).symm)
  | ⟨2, _⟩ => exact ((dat4 (atRefs (W5 m)) c).arrAt_in 2 rfl _).trans ((A_eq4 (atRefs (W5 m)) c 2).trans (Function.update_of_ne (StableHlo.devRef_ne_of_ne (by decide)) _ _).symm)
  | ⟨3, _⟩ => exact ((dat4 (atRefs (W5 m)) c).arrAt_in 3 rfl _).trans ((A_eq4 (atRefs (W5 m)) c 3).trans (Function.update_of_ne (StableHlo.devRef_ne_of_ne (by decide)) _ _).symm)
  | ⟨4, _⟩ => exact ((dat4 (atRefs (W5 m)) c).arrAt_in 4 rfl _).trans ((A_eq4 (atRefs (W5 m)) c 4).trans (Function.update_of_ne (StableHlo.devRef_ne_of_ne (by decide)) _ _).symm)
  | ⟨5, _⟩ => exact ((dat4 (atRefs (W5 m)) c).arrAt_in 5 rfl _).trans ((A_eq4 (atRefs (W5 m)) c 5).trans (Function.update_of_ne (StableHlo.devRef_ne_of_ne (by decide)) _ _).symm)
  | ⟨6, _⟩ => exact ((dat4 (atRefs (W5 m)) c).arrAt_in 6 rfl _).trans ((A_eq4 (atRefs (W5 m)) c 6).trans (Function.update_of_ne (StableHlo.devRef_ne_of_ne (by decide)) _ _).symm)

/-- Every buffer that is no array of region 4 leaves it as it entered. -/
theorem hrest4 (c : Dev nD) : ∀ b, b ∉ Finset.univ.image (Pipeline.arrRef spec4) → atRefs (W6 m) c b = atRefs (W5 m) c b :=
  fun b hb => Function.update_of_ne (StableHlo.devRef_ne_of_ne fun e => hb (Finset.mem_image.mpr ⟨7, Finset.mem_univ _, e.symm⟩)) _ _

-- a library lemma stated over the pinned configuration unifies with the printed one only when unification may unfold
-- plain definitions in a metavariable's type
set_option backward.isDefEq.respectTransparency.types false in
/-- Region 4 over the thread state: its arrays split out of the unscoped buffers at entry and put back at the exit
    contents; the generator register into the region's invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (W5 m)) c).loose
  hwaits := Pipeline.hwaits_of_owed_zero _ _ _ _ L lv 4 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec4 c (atRefs (W5 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (W5 m) c) fun w => A_eq4 (atRefs (W5 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (atRefs (W5 m)) c
    unfold Pipeline.ΦA at h
    rw [show (pdats m 4 c).Φ 0 = (dat4 (atRefs (W5 m)) c).Φ 0 from rfl]
    iintro ⟨Hp, -, Hr⟩
    iapply h
    isplitl [Hr]; · iexact Hr
    iexact Hp
  hout c := by
    rw [Pipeline.ownSems0_none]
    have h := hout4 (atRefs (W5 m)) c
    unfold Pipeline.ΦA at h
    rw [show (pdats m 4 c).Φ (Fin.last _) = (dat4 (atRefs (W5 m)) c).Φ (Fin.last cfg4.N) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (W5 m) c) (atRefs (W6 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: an input its entry contents, the output the
    write-backs' fold. -/
theorem hF1 (c : Dev nD) (w : Fin cfg1.W) : (pdats m 1 c).arrAt w cfg1.N = atRefs (W2 m) c (Pipeline.arrRef spec1 w) := by
  show (dat1 (atRefs (W1 m)) c).arrAt w cfg1.N = _
  match w with
  | ⟨3, _⟩ => exact (show W2 m c (Proc.devRef .tc main_v1) = (dat1 (atRefs (W1 m)) c).arrAt 3 cfg1.N from by unfold W2; rw [Function.update_self]).symm
  | ⟨0, _⟩ => exact ((dat1 (atRefs (W1 m)) c).arrAt_in 0 rfl _).trans ((A_eq1 (atRefs (W1 m)) c 0).trans (Function.update_of_ne (StableHlo.devRef_ne_of_ne (by decide)) _ _).symm)
  | ⟨1, _⟩ => exact ((dat1 (atRefs (W1 m)) c).arrAt_in 1 rfl _).trans ((A_eq1 (atRefs (W1 m)) c 1).trans (Function.update_of_ne (StableHlo.devRef_ne_of_ne (by decide)) _ _).symm)
  | ⟨2, _⟩ => exact ((dat1 (atRefs (W1 m)) c).arrAt_in 2 rfl _).trans ((A_eq1 (atRefs (W1 m)) c 2).trans (Function.update_of_ne (StableHlo.devRef_ne_of_ne (by decide)) _ _).symm)

/-- Every buffer that is no array of region 1 leaves it as it entered. -/
theorem hrest1 (c : Dev nD) : ∀ b, b ∉ Finset.univ.image (Pipeline.arrRef spec1) → atRefs (W2 m) c b = atRefs (W1 m) c b :=
  fun b hb => Function.update_of_ne (StableHlo.devRef_ne_of_ne fun e => hb (Finset.mem_image.mpr ⟨3, Finset.mem_univ _, e.symm⟩)) _ _

-- a library lemma stated over the pinned configuration unifies with the printed one only when unification may unfold
-- plain definitions in a metavariable's type
set_option backward.isDefEq.respectTransparency.types false in
/-- Region 1 over the thread state: its arrays split out of the unscoped buffers at entry and put back at the exit
    contents; the generator register into the region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (W1 m)) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (atRefs (W1 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (W1 m) c) fun w => A_eq1 (atRefs (W1 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (atRefs (W1 m)) c
    unfold Pipeline.ΦA at h
    rw [show (pdats m 1 c).Φ 0 = (dat1 (atRefs (W1 m)) c).Φ 0 from rfl]
    iintro ⟨Hp, -, Hr⟩
    iapply h
    isplitl [Hr]; · iexact Hr
    iexact Hp
  hout c := by
    rw [Pipeline.ownSems0_none]
    have h := hout1 (atRefs (W1 m)) c
    unfold Pipeline.ΦA at h
    rw [show (pdats m 1 c).Φ (Fin.last _) = (dat1 (atRefs (W1 m)) c).Φ (Fin.last cfg1.N) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (W1 m) c) (atRefs (W2 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: an input its entry contents, the output the
    write-backs' fold. -/
theorem hF2 (c : Dev nD) (w : Fin cfg2.W) : (pdats m 2 c).arrAt w cfg2.N = atRefs (W3 m) c (Pipeline.arrRef spec2 w) := by
  show (dat2 (atRefs (W2 m)) c).arrAt w cfg2.N = _
  match w with
  | ⟨3, _⟩ => exact (show W3 m c (Proc.devRef .tc main_v2) = (dat2 (atRefs (W2 m)) c).arrAt 3 cfg2.N from by unfold W3; rw [Function.update_self]).symm
  | ⟨0, _⟩ => exact ((dat2 (atRefs (W2 m)) c).arrAt_in 0 rfl _).trans ((A_eq2 (atRefs (W2 m)) c 0).trans (Function.update_of_ne (StableHlo.devRef_ne_of_ne (by decide)) _ _).symm)
  | ⟨1, _⟩ => exact ((dat2 (atRefs (W2 m)) c).arrAt_in 1 rfl _).trans ((A_eq2 (atRefs (W2 m)) c 1).trans (Function.update_of_ne (StableHlo.devRef_ne_of_ne (by decide)) _ _).symm)
  | ⟨2, _⟩ => exact ((dat2 (atRefs (W2 m)) c).arrAt_in 2 rfl _).trans ((A_eq2 (atRefs (W2 m)) c 2).trans (Function.update_of_ne (StableHlo.devRef_ne_of_ne (by decide)) _ _).symm)

/-- Every buffer that is no array of region 2 leaves it as it entered. -/
theorem hrest2 (c : Dev nD) : ∀ b, b ∉ Finset.univ.image (Pipeline.arrRef spec2) → atRefs (W3 m) c b = atRefs (W2 m) c b :=
  fun b hb => Function.update_of_ne (StableHlo.devRef_ne_of_ne fun e => hb (Finset.mem_image.mpr ⟨3, Finset.mem_univ _, e.symm⟩)) _ _

-- a library lemma stated over the pinned configuration unifies with the printed one only when unification may unfold
-- plain definitions in a metavariable's type
set_option backward.isDefEq.respectTransparency.types false in
/-- Region 2 over the thread state: its arrays split out of the unscoped buffers at entry and put back at the exit
    contents; the generator register into the region's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (W2 m)) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (atRefs (W2 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (W2 m) c) fun w => A_eq2 (atRefs (W2 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (atRefs (W2 m)) c
    unfold Pipeline.ΦA at h
    rw [show (pdats m 2 c).Φ 0 = (dat2 (atRefs (W2 m)) c).Φ 0 from rfl]
    iintro ⟨Hp, -, Hr⟩
    iapply h
    isplitl [Hr]; · iexact Hr
    iexact Hp
  hout c := by
    rw [Pipeline.ownSems0_none]
    have h := hout2 (atRefs (W2 m)) c
    unfold Pipeline.ΦA at h
    rw [show (pdats m 2 c).Φ (Fin.last _) = (dat2 (atRefs (W2 m)) c).Φ (Fin.last cfg2.N) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (W2 m) c) (atRefs (W3 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the pipeline leaves: an input its entry contents, the output the
    write-backs' fold. -/
theorem hF3 (c : Dev nD) (w : Fin cfg3.W) : (pdats m 3 c).arrAt w cfg3.N = atRefs (W4 m) c (Pipeline.arrRef spec3 w) := by
  show (dat3 (atRefs (W3 m)) c).arrAt w cfg3.N = _
  match w with
  | ⟨3, _⟩ => exact (show W4 m c (Proc.devRef .tc main_v3) = (dat3 (atRefs (W3 m)) c).arrAt 3 cfg3.N from by unfold W4; rw [Function.update_self]).symm
  | ⟨0, _⟩ => exact ((dat3 (atRefs (W3 m)) c).arrAt_in 0 rfl _).trans ((A_eq3 (atRefs (W3 m)) c 0).trans (Function.update_of_ne (StableHlo.devRef_ne_of_ne (by decide)) _ _).symm)
  | ⟨1, _⟩ => exact ((dat3 (atRefs (W3 m)) c).arrAt_in 1 rfl _).trans ((A_eq3 (atRefs (W3 m)) c 1).trans (Function.update_of_ne (StableHlo.devRef_ne_of_ne (by decide)) _ _).symm)
  | ⟨2, _⟩ => exact ((dat3 (atRefs (W3 m)) c).arrAt_in 2 rfl _).trans ((A_eq3 (atRefs (W3 m)) c 2).trans (Function.update_of_ne (StableHlo.devRef_ne_of_ne (by decide)) _ _).symm)

/-- Every buffer that is no array of region 3 leaves it as it entered. -/
theorem hrest3 (c : Dev nD) : ∀ b, b ∉ Finset.univ.image (Pipeline.arrRef spec3) → atRefs (W4 m) c b = atRefs (W3 m) c b :=
  fun b hb => Function.update_of_ne (StableHlo.devRef_ne_of_ne fun e => hb (Finset.mem_image.mpr ⟨3, Finset.mem_univ _, e.symm⟩)) _ _

-- a library lemma stated over the pinned configuration unifies with the printed one only when unification may unfold
-- plain definitions in a metavariable's type
set_option backward.isDefEq.respectTransparency.types false in
/-- Region 3 over the thread state: its arrays split out of the unscoped buffers at entry and put back at the exit
    contents; the generator register into the region's invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (W3 m)) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (atRefs (W3 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (W3 m) c) fun w => A_eq3 (atRefs (W3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (atRefs (W3 m)) c
    unfold Pipeline.ΦA at h
    rw [show (pdats m 3 c).Φ 0 = (dat3 (atRefs (W3 m)) c).Φ 0 from rfl]
    iintro ⟨Hp, -, Hr⟩
    iapply h
    isplitl [Hr]; · iexact Hr
    iexact Hp
  hout c := by
    rw [Pipeline.ownSems0_none]
    have h := hout3 (atRefs (W3 m)) c
    unfold Pipeline.ΦA at h
    rw [show (pdats m 3 c).Φ (Fin.last _) = (dat3 (atRefs (W3 m)) c).Φ (Fin.last cfg3.N) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (W3 m) c) (atRefs (W4 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 0: the first Chebyshev step, with the copy of `L` -/

/-- At region 0's exit each of its arrays holds what the pipeline leaves: `L` and `x` (staged by two windows) their entry
    contents, the two outputs their write-backs' folds. -/
theorem hF0 (c : Dev nD) (w : Fin cfg0.W) : (pdats m 0 c).arrAt w cfg0.N = atRefs (W1 m) c (Pipeline.arrRef spec0 w) := by
  show (dat0 (atRefs (V0 m)) c).arrAt w cfg0.N = _
  match w with
  | ⟨4, _⟩ => exact (show W1 m c (Proc.devRef .tc main_v0_1) = (dat0 (atRefs (V0 m)) c).arrAt 4 cfg0.N from by unfold W1; rw [Function.update_self]).symm
  | ⟨3, _⟩ => exact (show W1 m c (Proc.devRef .tc main_v0_0) = (dat0 (atRefs (V0 m)) c).arrAt 3 cfg0.N from by
      unfold W1; rw [Function.update_of_ne (StableHlo.devRef_ne_of_ne (by decide) : (Proc.devRef .tc main_v0_0 : DevRef τ sig) ≠ Proc.devRef .tc main_v0_1), Function.update_self]).symm
  | ⟨0, _⟩ => exact ((dat0 (atRefs (V0 m)) c).arrAt_in 0 rfl _).trans ((A_eq0 (atRefs (V0 m)) c 0).trans ((Function.update_of_ne (StableHlo.devRef_ne_of_ne (by decide)) _ _).trans (Function.update_of_ne (StableHlo.devRef_ne_of_ne (by decide)) _ _)).symm)
  | ⟨1, _⟩ => exact ((dat0 (atRefs (V0 m)) c).arrAt_in 1 rfl _).trans ((A_eq0 (atRefs (V0 m)) c 1).trans ((Function.update_of_ne (StableHlo.devRef_ne_of_ne (by decide)) _ _).trans (Function.update_of_ne (StableHlo.devRef_ne_of_ne (by decide)) _ _)).symm)
  | ⟨2, _⟩ => exact ((dat0 (atRefs (V0 m)) c).arrAt_in 2 rfl _).trans ((A_eq0 (atRefs (V0 m)) c 2).trans ((Function.update_of_ne (StableHlo.devRef_ne_of_ne (by decide)) _ _).trans (Function.update_of_ne (StableHlo.devRef_ne_of_ne (by decide)) _ _)).symm)

/-- Every buffer that is no array of region 0 leaves it as it entered. -/
theorem hrest0 (c : Dev nD) : ∀ b, b ∉ Finset.univ.image (Pipeline.arrRef spec0) → atRefs (W1 m) c b = atRefs (V0 m) c b :=
  fun b hb => (Function.update_of_ne (StableHlo.devRef_ne_of_ne fun e => hb (Finset.mem_image.mpr ⟨4, Finset.mem_univ _, e.symm⟩)) _ _).trans
    (Function.update_of_ne (StableHlo.devRef_ne_of_ne fun e => hb (Finset.mem_image.mpr ⟨3, Finset.mem_univ _, e.symm⟩)) _ _)

set_option backward.isDefEq.respectTransparency.types false in
/-- Region 0 over the thread state. Two of its input windows stage the same array `x`, each at one half of the full
    share; the entry deals the two half shares out of the unscoped buffers and the exit joins them again. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (atRefs (V0 m)) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (atRefs (V0 m) c)
  hentry c := by
    rw [Pipeline.ownSems0_none]
    have hsplit := arrays_split0 (atRefs (V0 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (atRefs (V0 m)) c
    unfold Pipeline.ΦA at h
    rw [show (pdats m 0 c).Φ 0 = (dat0 (atRefs (V0 m)) c).Φ 0 from rfl]
    iintro ⟨Hp, -, Hr⟩
    iapply h
    isplitl [Hr]; · iexact Hr
    iexact Hp
  hout c := by
    rw [Pipeline.ownSems0_none]
    have h := hout0 (atRefs (V0 m)) c
    unfold Pipeline.ΦA at h
    rw [show (pdats m 0 c).Φ (Fin.last _) = (dat0 (atRefs (V0 m)) c).Φ (Fin.last cfg0.N) from rfl]
    iintro Hf
    ihave H := h $$ Hf
    icases H with ⟨Hr, Hp⟩
    isplitl [Hp]; · iexact Hp
    isplitr; · iempintro
    iexact Hr
  hexit c := by
    have hjoin := arrays_join0 (atRefs (V0 m)) c (atRefs (W1 m) c) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run of @main -/

-- the launch theorem's implicit arguments are found by unifying its conclusion with this one
set_option backward.isDefEq.respectTransparency.types false in
/-- Every weakly fair execution of @main from memory `m` with zero counters terminates, and the final memory holds the
    result array at what the last region's write-backs leave and each argument as launched. -/
theorem run (ρ : Dev nD → PrngReg) : θ_run defs (onTc (τ := τ) (main (F := F))) ⟨m, fun _ => 0, ρ⟩ (fun r => ∀ c : Dev nD,
      r.2.mem ((c.tc : Thread nD τ).loc main_v5) = (dat4 (atRefs (W5 m)) c).arrAt 7 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_cond (F := F) m (emb₁) () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE5 := fun c => by
      iintro ⟨-, HO⟩; iexact HO)
    (reg0 m) (fun c => .rfl) (fun c => by rw [V1_eq m c]; exact .rfl)
    (reg1 m) (fun c => by rw [V1_eq m c]; exact .rfl) (fun c => by rw [V2_eq m c]; exact .rfl)
    (reg2 m) (fun c => by rw [V2_eq m c]; exact .rfl) (fun c => by rw [V3_eq m c]; exact .rfl)
    (reg3 m) (fun c => by rw [V3_eq m c]; exact .rfl) (fun c => by rw [V4_eq m c]; exact .rfl)
    (reg4 m) (fun c => by rw [V5_eq m c]; exact .rfl) (fun c => by rw [V6_eq m c]; exact .rfl)
  refine h.mono fun r hr c => ⟨(hr c).1.trans ?_, (hr c).2⟩
  simp only [outs, W6, Function.update_self]

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (run m ρ).mono fun r hr c => (hr c).2

end Cert.Kernel.Hand

end
-- ==== Proof.KI.RunCond.lean ====
import proofs.«104635_j41927470743646_2_alg».proof.Proof.Gen.KernelIdeal.Regions

/-!
  The run of @main over its five kernel regions with the RESULT named: from one region record per pallas_call, entered
  from and left at the thread states of the generated conditional frame, every weakly fair execution terminates and the
  final memory holds, besides each argument as launched, the result array `main_v5` at what the last region leaves in
  it. The four regions before it and the reshape of the bias change other buffers only, so the last valuation read at
  `main_v5` is the last region's own contribution.
-/

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

/-- The last valuation at the result array is what the last region leaves there. -/
theorem V6_main_v5 (c : Dev nD) : V6 m outs c main_v5 = outs 6 main_v5 c := by
  simp only [V6, Function.update_self]

-- the launch theorem's implicit arguments are found by unifying its conclusion with this one
set_option backward.isDefEq.respectTransparency.types false in
/-- The run with the result named: the conditional frame's hypotheses, and in the post also `main_v5` at `outs 6 main_v5`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V2 m outs c) ∗ E 2 c) ⊢ R2.pre c)
    (hpost2 : ∀ c : Dev nD, R2.post c ⊢ iprop(StableHlo.held (c : Thread nD τ) (Pipeline.ucRefs τ sig) (V3 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V3 m outs c) ∗ E 3 c) ⊢ R3.pre c)
    (hpost3 : ∀ c : Dev nD, R3.post c ⊢ iprop(StableHlo.held (c : Thread nD τ) (Pipeline.ucRefs τ sig) (V4 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V5 m outs c) ∗ E 4 c) ⊢ R4.pre c)
    (hpost4 : ∀ c : Dev nD, R4.post c ⊢ iprop(StableHlo.held (c : Thread nD τ) (Pipeline.ucRefs τ sig) (V6 m outs c) ∗ E 5 c)) :
    θ_run defs (onTc (τ := τ) (main (F := F))) ⟨m, fun _ => 0, ρ⟩ (fun r => ∀ c : Dev nD,
      r.2.mem ((c.tc : Thread nD τ).loc main_v5) = outs 6 main_v5 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨hpre0 c, (hpost0 c).trans (hpre1 c), (hpost1 c).trans (hpre2 c), (hpost2 c).trans (hpre3 c), hpost3 c, hpre4 c, (hpost4 c).trans (sep_mono .rfl (hE5 c))⟩)
    (hinit := ?_) (QY := fun c s => s.mem ((c.tc : Thread nD τ).loc main_v5) = outs 6 main_v5 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨(h (Proc.devRef .tc main_v5) (Finset.mem_filter.mpr ⟨StableHlo.devRef_mem_tcRefs main_v5, by decide⟩)).trans (V6_main_v5 m outs c),
        (h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c),
        (h (Proc.devRef .tc main_arg2) (Finset.mem_filter.mpr ⟨StableHlo.devRef_mem_tcRefs main_arg2, by decide⟩)).trans (V6_main_arg2 m outs c),
        (h (Proc.devRef .tc main_arg3) (Finset.mem_filter.mpr ⟨StableHlo.devRef_mem_tcRefs main_arg3, by decide⟩)).trans (V6_main_arg3 m outs c)⟩
    · iexact HSI

end Cert.KernelIdeal.Hand

end
-- ==== Proof.KI.Reg0.Runs.lean ====
import proofs.«104635_j41927470743646_2_alg».proof.Proof.Gen.KernelIdeal.Launch
import proofs.«104635_j41927470743646_2_alg».proof.Proof.Gen.KernelIdeal.Skeleton
import proofs.«104635_j41927470743646_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the per-case runs and the frame half share -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 likewise: where it is not fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the accumulator is zeroed), from the grid coordinates. -/
abbrev cond0_0 (i : grid0.Coords) : Prop := (Scalar.cmpi .ne (Scalar.extui (Scalar.cmpi .eq (BitVec.ofNat 32 (i 1).val) 0#32)) 0#32) = 1#1
/-- It holds where the second coordinate is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the output block is written). -/
abbrev cond0_1 (i : grid0.Coords) : Prop := k0_cond2 i = 1#1
/-- It holds where the second coordinate is 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_4 : ∀ t : Fin cfg0.N, cfg0.idle 4 (grid0.coords t) = false := by decide +kernel
/-- Where the output block is not written, output 3 is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is written, output 3 is live. -/
theorem liveAt0_3 : ∀ t : Fin cfg0.N, cond0_1 (grid0.coords t) → cfg0.idle 3 (grid0.coords t) = false := by decide +kernel

/-! ## The staging and scratch memrefs -/

/-- One staging buffer of each output window, through which its contents are stated. -/
abbrev VO0_3 : View sig .tc .vmem S1024x256 .f32 := (Memref.whole cc0_stg3_0 : Memref sig .tc .vmem S1024x256 .f32).view
abbrev VO0_4 : View sig .tc .vmem S1024x1024 .bf16 := (Memref.whole cc0_stg4_0 : Memref sig .tc .vmem S1024x1024 .bf16).view
/-- Each window's current staging memref at point `t`, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The scratch operand: a whole scoped buffer of the kernel's own, carried between points. -/
abbrev scM0_0 : Memref sig .tc .vmem S1024x256 .f32 := Memref.whole cc0_scratch0
abbrev VS0_0 : View sig .tc .vmem S1024x256 .f32 := scM0_0.view

/-- The scoped buffers that are neither a staging buffer of this pipeline nor its scratch operand. -/
abbrev restBut0 (c : Dev nD) : sProp 𝕄 :=
  Pipeline.scopedRestBut (Ix := Unit) (Name := ℕ) (U := UR sig nD τ) (Lvl := ℕ) (Val := Elt F) spec0 c [cc0_scratch0]

/-- The class's invariant with the scratch operand as a memref owned at some contents. -/
theorem PhiA0_eq (c : Dev nD) :
    (Pipeline.ΦA spec0 c : sProp 𝕄)
      = iprop(iprop((∃ d, owns (c : Thread nD τ) scM0_0 fullShare d) ∗ restBut0 (F := F) c) ∗ (∃ r, prngReg c r)) := by
  unfold Pipeline.ΦA; rw [scopedRest0_split]; simp only [scM0_0, owns_whole]; try rfl

end Cert.KernelIdeal.Reg0

end
-- ==== Proof.KI.Reg0.RunA.lean ====
import proofs.«104635_j41927470743646_2_alg».proof.Proof.KI.Reg0.Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's stores as pieces (last first) in the case A, with the proof that on whole staging memrefs — the
    inputs' at their contents, the idle output 3's at contents handed back untouched, output 4's at anything, the
    scratch at anything — the body runs to the continuation holding the inputs' as they were and each
    stored-into buffer with its pieces written. -/
noncomputable def kernelRun0_A (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : cond0_0 i) (hc1 : ¬cond0_1 i)
    (x0 : Vec F S1024x1024 .f32) (x1 : Vec F S1024x256 .f32) (x2 : Vec F S1024x256 .f32) :
    Σ' (L3 : List (View.Piece (Elt F) S1024x256 .f32)) (L4 : List (View.Piece (Elt F) S1024x1024 .bf16)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__cheb_kernel_cast i arg2 harg2 arg3 harg3 arg4 harg4 arg5 harg5 arg6 harg6 arg7 harg7) K } := by
  refine ⟨[], ?_, ?_, fun xi3 E K => ?run⟩
  case run =>
    simp only [cc0__cheb_kernel_cast_eq_skeleton]; unfold cc0__cheb_kernel_cast_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Reg0

end
-- ==== Proof.KI.Reg0.RunB.lean ====
import proofs.«104635_j41927470743646_2_alg».proof.Proof.KI.Reg0.Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's stores as pieces (last first) in the case B, with the proof that on whole staging memrefs — the
    inputs' at their contents, the idle output 3's at contents handed back untouched, output 4's at anything, the
    scratch at what the point before left — the body runs to the continuation holding the inputs' as they were and each
    stored-into buffer with its pieces written. -/
noncomputable def kernelRun0_B (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : ¬cond0_1 i)
    (x0 : Vec F S1024x1024 .f32) (x1 : Vec F S1024x256 .f32) (x2 : Vec F S1024x256 .f32) (xs0 : Vec F S1024x256 .f32) :
    Σ' (L3 : List (View.Piece (Elt F) S1024x256 .f32)) (L4 : List (View.Piece (Elt F) S1024x1024 .bf16)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__cheb_kernel_cast i arg2 harg2 arg3 harg3 arg4 harg4 arg5 harg5 arg6 harg6 arg7 harg7) K } := by
  refine ⟨[], ?_, ?_, fun xi3 E K => ?run⟩
  case run =>
    simp only [cc0__cheb_kernel_cast_eq_skeleton]; unfold cc0__cheb_kernel_cast_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Reg0

end
-- ==== Proof.KI.Reg0.RunC.lean ====
import proofs.«104635_j41927470743646_2_alg».proof.Proof.KI.Reg0.Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's stores as pieces (last first) in the case C, with the proof that on whole staging memrefs — the
    inputs' at their contents, output 3's at anything, output 4's at anything, the
    scratch at what the point before left — the body runs to the continuation holding the inputs' as they were and each
    stored-into buffer with its pieces written. -/
noncomputable def kernelRun0_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : cond0_1 i)
    (x0 : Vec F S1024x1024 .f32) (x1 : Vec F S1024x256 .f32) (x2 : Vec F S1024x256 .f32) (xs0 : Vec F S1024x256 .f32) :
    Σ' (L3 : List (View.Piece (Elt F) S1024x256 .f32)) (L4 : List (View.Piece (Elt F) S1024x1024 .bf16)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__cheb_kernel_cast i arg2 harg2 arg3 harg3 arg4 harg4 arg5 harg5 arg6 harg6 arg7 harg7) K } := by
  refine ⟨?_, ?_, ?_, fun E K => ?run⟩
  case run =>
    simp only [cc0__cheb_kernel_cast_eq_skeleton]; unfold cc0__cheb_kernel_cast_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Reg0

end
-- ==== Proof.KI.Reg0.Data.lean ====
import proofs.«104635_j41927470743646_2_alg».proof.Proof.KI.Reg0.RunA
import proofs.«104635_j41927470743646_2_alg».proof.Proof.KI.Reg0.RunB
import proofs.«104635_j41927470743646_2_alg».proof.Proof.KI.Reg0.RunC

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the outputs and the carried scratch hold after each point, and the proof data -/

/-- The case-A run at point `t`: on the point's staging memrefs and the input windows' blocks. -/
noncomputable def runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _)
    ((hcond0_0 t).mpr h0) (fun h => h1 ((hcond0_1 t).mp h)) (iblk0 V c 0 t) (iblk0 V c 1 t) (iblk0 V c 2 t)

/-- Its pieces for output 4 tile the block, so they cover it. -/
theorem cover_A_4 (c : Dev nD) (t : Fin cfg0.N) (h0 : t.val % 8 = 0) (h1 : ¬t.val % 8 = 7) (y : S1024x1024.Idx) :
    ∃ pc ∈ (runA V c t h0 h1).2.1, y ∈ pc.1.set :=
  View.cover_of_tiledL (runA V c t h0 h1).2.1 S1024x1024.size (by sl_kernel_rfl) y

/-- Its pieces for the scratch tile it, so they cover it. -/
theorem scover_A (c : Dev nD) (t : Fin cfg0.N) (h0 : t.val % 8 = 0) (h1 : ¬t.val % 8 = 7) (y : S1024x256.Idx) :
    ∃ pc ∈ (runA V c t h0 h1).2.2.1, y ∈ pc.1.set :=
  View.cover_of_tiledL (runA V c t h0 h1).2.2.1 S1024x256.size (by sl_kernel_rfl) y

/-- What case A leaves at point `t`: output 3's buffer (a placeholder: the window is idle there), output 4's buffer, the scratch — the pieces read back. -/
def outsA (c : Dev nD) (t : Fin cfg0.N) (h0 : t.val % 8 = 0) (h1 : ¬t.val % 8 = 7) : Vec F S1024x256 .f32 × Vec F S1024x1024 .bf16 × Vec F S1024x256 .f32 :=
  (VO0_3.read (Elt F) (VO0_3.writes (Elt F) VO0_3.junk (runA V c t h0 h1).1),
   VO0_4.read (Elt F) (VO0_4.writes (Elt F) VO0_4.junk (runA V c t h0 h1).2.1),
   VS0_0.read (Elt F) (VS0_0.writes (Elt F) VS0_0.junk (runA V c t h0 h1).2.2.1))

/-- The case-B run at point `t`: on the point's staging memrefs and the input windows' blocks. -/
noncomputable def runB (c : Dev nD) (t : Fin cfg0.N) (h0 : ¬t.val % 8 = 0) (h1 : ¬t.val % 8 = 7) (xs : Vec F S1024x256 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) (fun h => h1 ((hcond0_1 t).mp h)) (iblk0 V c 0 t) (iblk0 V c 1 t) (iblk0 V c 2 t) xs

/-- Its pieces for output 4 tile the block, so they cover it. -/
theorem cover_B_4 (c : Dev nD) (t : Fin cfg0.N) (h0 : ¬t.val % 8 = 0) (h1 : ¬t.val % 8 = 7) (xs : Vec F S1024x256 .f32) (y : S1024x1024.Idx) :
    ∃ pc ∈ (runB V c t h0 h1 xs).2.1, y ∈ pc.1.set :=
  View.cover_of_tiledL (runB V c t h0 h1 xs).2.1 S1024x1024.size (by sl_kernel_rfl) y

/-- Its pieces for the scratch tile it, so they cover it. -/
theorem scover_B (c : Dev nD) (t : Fin cfg0.N) (h0 : ¬t.val % 8 = 0) (h1 : ¬t.val % 8 = 7) (xs : Vec F S1024x256 .f32) (y : S1024x256.Idx) :
    ∃ pc ∈ (runB V c t h0 h1 xs).2.2.1, y ∈ pc.1.set :=
  View.cover_of_tiledL (runB V c t h0 h1 xs).2.2.1 S1024x256.size (by sl_kernel_rfl) y

/-- What case B leaves at point `t`: output 3's buffer (a placeholder: the window is idle there), output 4's buffer, the scratch — the pieces read back. -/
def outsB (c : Dev nD) (t : Fin cfg0.N) (h0 : ¬t.val % 8 = 0) (h1 : ¬t.val % 8 = 7) (xs : Vec F S1024x256 .f32) : Vec F S1024x256 .f32 × Vec F S1024x1024 .bf16 × Vec F S1024x256 .f32 :=
  (VO0_3.read (Elt F) (VO0_3.writes (Elt F) VO0_3.junk (runB V c t h0 h1 xs).1),
   VO0_4.read (Elt F) (VO0_4.writes (Elt F) VO0_4.junk (runB V c t h0 h1 xs).2.1),
   VS0_0.read (Elt F) (VS0_0.writes (Elt F) VS0_0.junk (runB V c t h0 h1 xs).2.2.1))

/-- The case-C run at point `t`: on the point's staging memrefs and the input windows' blocks. -/
noncomputable def runC (c : Dev nD) (t : Fin cfg0.N) (h0 : ¬t.val % 8 = 0) (h1 : t.val % 8 = 7) (xs : Vec F S1024x256 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1) (iblk0 V c 0 t) (iblk0 V c 1 t) (iblk0 V c 2 t) xs

/-- Its pieces for output 4 tile the block, so they cover it. -/
theorem cover_C_4 (c : Dev nD) (t : Fin cfg0.N) (h0 : ¬t.val % 8 = 0) (h1 : t.val % 8 = 7) (xs : Vec F S1024x256 .f32) (y : S1024x1024.Idx) :
    ∃ pc ∈ (runC V c t h0 h1 xs).2.1, y ∈ pc.1.set :=
  View.cover_of_tiledL (runC V c t h0 h1 xs).2.1 S1024x1024.size (by sl_kernel_rfl) y

/-- Its pieces for the scratch tile it, so they cover it. -/
theorem scover_C (c : Dev nD) (t : Fin cfg0.N) (h0 : ¬t.val % 8 = 0) (h1 : t.val % 8 = 7) (xs : Vec F S1024x256 .f32) (y : S1024x256.Idx) :
    ∃ pc ∈ (runC V c t h0 h1 xs).2.2.1, y ∈ pc.1.set :=
  View.cover_of_tiledL (runC V c t h0 h1 xs).2.2.1 S1024x256.size (by sl_kernel_rfl) y

/-- Its pieces for output 3 tile the block, so they cover it. -/
theorem cover_C_3 (c : Dev nD) (t : Fin cfg0.N) (h0 : ¬t.val % 8 = 0) (h1 : t.val % 8 = 7) (xs : Vec F S1024x256 .f32) (y : S1024x256.Idx) :
    ∃ pc ∈ (runC V c t h0 h1 xs).1, y ∈ pc.1.set :=
  View.cover_of_tiledL (runC V c t h0 h1 xs).1 S1024x256.size (by sl_kernel_rfl) y

/-- What case C leaves at point `t`: output 3's buffer, output 4's buffer, the scratch — the pieces read back. -/
def outsC (c : Dev nD) (t : Fin cfg0.N) (h0 : ¬t.val % 8 = 0) (h1 : t.val % 8 = 7) (xs : Vec F S1024x256 .f32) : Vec F S1024x256 .f32 × Vec F S1024x1024 .bf16 × Vec F S1024x256 .f32 :=
  (VO0_3.read (Elt F) (VO0_3.writes (Elt F) VO0_3.junk (runC V c t h0 h1 xs).1),
   VO0_4.read (Elt F) (VO0_4.writes (Elt F) VO0_4.junk (runC V c t h0 h1 xs).2.1),
   VS0_0.read (Elt F) (VS0_0.writes (Elt F) VS0_0.junk (runC V c t h0 h1 xs).2.2.1))

/-! ## What the outputs hold after each point -/

/-- What output 3's and output 4's staging buffers and the carried scratch hold after the body at position `n`: the
    case the point is in, the scratch read at what the point before left. -/
def outsAt0 (c : Dev nD) : (n : ℕ) → n < cfg0.N → Vec F S1024x256 .f32 × Vec F S1024x1024 .bf16 × Vec F S1024x256 .f32
  | 0, hn => outsA V c ⟨0, hn⟩ (Nat.zero_mod _) (show ¬ (0 % 8 = 7) from by decide)
  | n + 1, hn =>
    if h0 : (n + 1) % 8 = 0 then
      if h1 : (n + 1) % 8 = 7 then False.elim (by omega)
      else outsA V c ⟨n + 1, hn⟩ h0 h1
    else
      if h1 : (n + 1) % 8 = 7 then outsC V c ⟨n + 1, hn⟩ h0 h1 (outsAt0 c n (Nat.lt_of_succ_lt hn)).2.2
      else outsB V c ⟨n + 1, hn⟩ h0 h1 (outsAt0 c n (Nat.lt_of_succ_lt hn)).2.2

theorem outsAt0_A (c : Dev nD) (t : Fin cfg0.N) (h0 : t.val % 8 = 0) (h1 : ¬t.val % 8 = 7) :
    outsAt0 V c t.val t.isLt = outsA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = outsB V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = outsC V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The region invariant before position `n`: before the first point the class's; afterwards the scoped rest with the
    carried scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restBut0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restBut0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restBut0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the outputs' at `outsAt0`; the invariant `PhiS`; nothing owed; the input
    read through one window at the full share, the input read through two windows at the two halves of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem owed0 (c : Dev nD) (t) : (dat0 V c).owed t = 0 := rfl

theorem q0_0 (c : Dev nD) : (dat0 V c).q 0 = fullShare := rfl
theorem q0_1 (c : Dev nD) : (dat0 V c).q 1 = fullShare.left := rfl
theorem q0_2 (c : Dev nD) : (dat0 V c).q 2 = fullShare.right := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Reg0

end
-- ==== Proof.KI.Reg0.Frame.lean ====
import proofs.«104635_j41927470743646_2_alg».proof.Proof.KI.Reg0.Data

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the body obligation at a generic point, and the invariant's ends -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the second grid coordinate says which case the point
    is in; the invariant hands the body the carried scratch at what the point before left (at anything where the
    accumulator is zeroed first) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 4 t = owns (c : Thread nD τ) (ms0_4 t) fullShare ((dat0 V c).after 4 t) from by
    unfold Dat.leavesExact; rw [liveAt0_4 t], after0_4]
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold outsA; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩⟩
      iapply ((runA V c t h0 h1).2.2.2 _ Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A V c t h0 h1)
          iexact HR
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (cover_A_4 V c t h0 h1)
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((runA V c t h0 h1).2.2.2 _ Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A V c t h0 h1)
          iexact HR
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (cover_A_4 V c t h0 h1)
  · by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold outsC; (try dsimp only)
      by_cases hz : t.val = 0
      · exfalso; exact h0 (by rw [hz])
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((runC V c t h0 h1 _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_C V c t h0 h1 _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover_C_3 V c t h0 h1 _)
        unfold owns; iexists _; isplitr
        swap; · iexact H4
        ipureintro; exact View.read_writes_of_cover _ _ _ _ _ (cover_C_4 V c t h0 h1 _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold outsB; (try dsimp only)
      by_cases hz : t.val = 0
      · exfalso; exact h0 (by rw [hz])
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((runB V c t h0 h1 _).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_B V c t h0 h1 _)
            iexact HR
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover_B_4 V c t h0 h1 _)

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the carried scratch's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Reg0

end
-- ==== Proof.KI.Reg0.Split.lean ====
import proofs.«104635_j41927470743646_2_alg».proof.Proof.Gen.KernelIdeal.Launch
import proofs.«104635_j41927470743646_2_alg».proof.Proof.Gen.KernelIdeal.Skeleton
import proofs.«104635_j41927470743646_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the entry and exit split of a core's unscoped buffers

Windows 1 and 2 stage the same array (`main_arg1`): the buffer behind it, whole at the full share, is dealt to
the two input windows at the two halves of the full share, and put back from them. -/

/-- The distinct buffers behind the windows' arrays, one by one. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_v0_0) ↦{fullShare} Vc main_v0_0) ∗ (((c : Thread nD τ).loc main_v0_1) ↦{fullShare} Vc main_v0_1)) := by
  unfold Pipeline.arrBufs
  exact bigSep_eq_bigSepL_of_eq [main_arg0, main_arg1, main_v0_0, main_v0_1] (by decide) (by decide) _

/-- The windows' arrays of any proof data that holds the single-window input at the full share and the two windows on
    `main_arg1` at its two halves, one by one at contents read off a valuation `Vc`. -/
theorem arrays0_eq {c : Dev nD} (dat : Dat τ (Elt F) Unit ℕ (UR sig nD τ) ℕ cfg0 c)
    (hq0 : dat.q 0 = fullShare) (hq1 : dat.q 1 = fullShare.left) (hq2 : dat.q 2 = fullShare.right)
    (Vc : (b : Ref sig .tc) → Buf (Elt F) ((c : Thread nD τ).loc b))
    (G : (w : Fin cfg0.W) → Buf (Elt F) ((cfg0.win w).arr.view.loc (c : Thread nD τ)))
    (hG : ∀ w, G w = Vc (Pipeline.arrRef spec0 w)) :
    (dat.arrays G : sProp 𝕄)
      = iprop((((c : Thread nD τ).loc main_arg0) ↦{fullShare} Vc main_arg0) ∗ (((c : Thread nD τ).loc main_arg1) ↦{fullShare.left} Vc main_arg1)
          ∗ (((c : Thread nD τ).loc main_arg1) ↦{fullShare.right} Vc main_arg1)
          ∗ (((c : Thread nD τ).loc main_v0_0) ↦{fullShare} Vc main_v0_0) ∗ (((c : Thread nD τ).loc main_v0_1) ↦{fullShare} Vc main_v0_1)) := by
  have h0 : dat.share 0 = fullShare := (if_neg (show ¬ ((cfg0.win 0).isOut = true) from by decide)).trans hq0
  have h1 : dat.share 1 = fullShare.left := (if_neg (show ¬ ((cfg0.win 1).isOut = true) from by decide)).trans hq1
  have h2 : dat.share 2 = fullShare.right := (if_neg (show ¬ ((cfg0.win 2).isOut = true) from by decide)).trans hq2
  have h3 : dat.share 3 = fullShare := if_pos (show (cfg0.win 3).isOut = true from rfl)
  have h4 : dat.share 4 = fullShare := if_pos (show (cfg0.win 4).isOut = true from rfl)
  unfold Dat.arrays; rw [bigSep_W0]; beta_reduce
  rw [h0, h1, h2, h3, h4, hG 0, hG 1, hG 2, hG 3, hG 4,
    (arr_whole0 0).set_eq_univ, (arr_whole0 1).set_eq_univ, (arr_whole0 3).set_eq_univ, (arr_whole0 4).set_eq_univ]

/-- ENTRY: a core's unscoped buffers at contents `Vc` are the region's arrays at contents read off `Vc` and the
    unscoped rest. -/
theorem arrays_split0_of {c : Dev nD} (dat : Dat τ (Elt F) Unit ℕ (UR sig nD τ) ℕ cfg0 c)
    (hq0 : dat.q 0 = fullShare) (hq1 : dat.q 1 = fullShare.left) (hq2 : dat.q 2 = fullShare.right)
    (Vc : (b : Ref sig .tc) → Buf (Elt F) ((c : Thread nD τ).loc b))
    (G : (w : Fin cfg0.W) → Buf (Elt F) ((cfg0.win w).arr.view.loc (c : Thread nD τ)))
    (hG : ∀ w, G w = Vc (Pipeline.arrRef spec0 w)) :
    (unscopedBufs c Vc : sProp 𝕄) ⊢ iprop(dat.arrays G ∗ Pipeline.unscopedRest (Ix := Unit) (Name := ℕ) (U := UR sig nD τ) (Lvl := ℕ) spec0 c Vc) := by
  rw [Pipeline.unscopedBufs_split₀ (fun _ : Unit => cfg0) () winFacts₀0.arr_unscoped c Vc, arrays0_eq dat hq0 hq1 hq2 Vc G hG]
  refine sep_mono ((Entails.of_eq (arrBufs0_eq c Vc)).trans ?_) .rfl
  iintro ⟨H0, H1, H3, H4⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  iexact H4

/-- EXIT: the region's arrays at contents `G` and the unscoped rest at `Vc` are the core's unscoped buffers at any
    valuation `Vc'` that has the arrays at `G` and agrees with `Vc` off them. -/
theorem arrays_join0_of {c : Dev nD} (dat : Dat τ (Elt F) Unit ℕ (UR sig nD τ) ℕ cfg0 c)
    (hq0 : dat.q 0 = fullShare) (hq1 : dat.q 1 = fullShare.left) (hq2 : dat.q 2 = fullShare.right)
    (Vc Vc' : (b : Ref sig .tc) → Buf (Elt F) ((c : Thread nD τ).loc b))
    (G : (w : Fin cfg0.W) → Buf (Elt F) ((cfg0.win w).arr.view.loc (c : Thread nD τ)))
    (hG : ∀ w, G w = Vc' (Pipeline.arrRef spec0 w))
    (hrest : ∀ b, b ∉ Finset.univ.image (Pipeline.arrRef spec0) → Vc' b = Vc b) :
    iprop(dat.arrays G ∗ Pipeline.unscopedRest (Ix := Unit) (Name := ℕ) (U := UR sig nD τ) (Lvl := ℕ) spec0 c Vc) ⊢ (unscopedBufs c Vc' : sProp 𝕄) := by
  rw [Pipeline.unscopedBufs_split₀ (fun _ : Unit => cfg0) () winFacts₀0.arr_unscoped c Vc', arrays0_eq dat hq0 hq1 hq2 Vc' G hG]
  refine sep_mono (BIBase.Entails.trans ?_ (Entails.of_eq (arrBufs0_eq c Vc').symm)) (Entails.of_eq ?_)
  · iintro ⟨H0, H1, H2, H3, H4⟩
    isplitl [H0]; · iexact H0
    isplitl [H1 H2]
    · iapply (pointsTo_share (PosShare.mem_left_op_right fullShare)).2
      isplitl [H1]; · iexact H1
      iexact H2
    isplitl [H3]; · iexact H3
    iexact H4
  · unfold Pipeline.unscopedRest
    exact bigSep_congr fun b hb => by rw [hrest b (Finset.mem_sdiff.mp hb).2]

end Cert.KernelIdeal.Reg0

end
-- ==== Proof.KI.Reg0.lean ====
import proofs.«104635_j41927470743646_2_alg».proof.Proof.KI.Reg0.Frame
import proofs.«104635_j41927470743646_2_alg».proof.Proof.KI.Reg0.Split

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 at the entry contents `V`: the proof data (`dat0`, `A_eq0`, `owed0`), the body obligation
(`body_obligation0`), the invariant's ends (`hin0`, `hout0`) — from the modules imported — and the entry and
exit split of the core's unscoped buffers at the proof data's shares. -/

/-- ENTRY: a core's unscoped buffers at the entry contents are the region's arrays at the proof data's entry contents
    — the array two input windows read dealt to them at the two halves of the full share — and the unscoped rest. -/
theorem arrays_split0 (c : Dev nD) :
    (unscopedBufs c (V c) : sProp 𝕄) ⊢ iprop((dat0 V c).arrays ((dat0 V c).arrAt · 0) ∗ Pipeline.unscopedRest (Ix := Unit) (Name := ℕ) (U := UR sig nD τ) (Lvl := ℕ) spec0 c (V c)) :=
  arrays_split0_of (dat0 V c) (q0_0 V c) (q0_1 V c) (q0_2 V c) (V c) _
    (fun w => (show (dat0 V c).arrAt w 0 = (dat0 V c).A w from rfl).trans (A_eq0 V c w))

/-- EXIT: the region's arrays after every write-back and the unscoped rest are the core's unscoped buffers at any
    valuation that has the arrays at those contents and agrees with the entry contents off them. -/
theorem arrays_join0 (c : Dev nD) (V' : (b : Ref sig .tc) → Buf (Elt F) ((c : Thread nD τ).loc b))
    (hF : ∀ w, (dat0 V c).arrAt w cfg0.N = V' (Pipeline.arrRef spec0 w))
    (hrest : ∀ b, b ∉ Finset.univ.image (Pipeline.arrRef spec0) → V' b = V c b) :
    iprop((dat0 V c).arrays ((dat0 V c).arrAt · cfg0.N) ∗ Pipeline.unscopedRest (Ix := Unit) (Name := ℕ) (U := UR sig nD τ) (Lvl := ℕ) spec0 c (V c)) ⊢ (unscopedBufs c V' : sProp 𝕄) :=
  arrays_join0_of (dat0 V c) (q0_0 V c) (q0_1 V c) (q0_2 V c) (V c) V' _ hF hrest

end Cert.KernelIdeal.Reg0

end
-- ==== Proof.KI.Reg1.Runs.lean ====
import proofs.«104635_j41927470743646_2_alg».proof.Proof.Gen.KernelIdeal.Launch
import proofs.«104635_j41927470743646_2_alg».proof.Proof.Gen.KernelIdeal.Skeleton
import proofs.«104635_j41927470743646_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if`: the reduction coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if`: the reduction coordinate is 3. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second condition fails the output window is idle: nothing is stored into it, -/
theorem idleAt1_3 : ∀ t : Fin cfg1.N, ¬cond1_1 (grid1.coords t) → cfg1.idle 3 (grid1.coords t) = true := by decide +kernel
/-- and the pipeline does not write its block back. -/
theorem noFlush1_3 : ∀ t : Fin cfg1.N, ¬cond1_1 (grid1.coords t) → (cfg1.win 3).flush t = false := by decide +kernel
/-- Where it holds the window is live. -/
theorem liveAt1_3 : ∀ t : Fin cfg1.N, cond1_1 (grid1.coords t) → cfg1.idle 3 (grid1.coords t) = false := by decide +kernel

/-! ## The staging memrefs and the scratch -/

/-- One staging buffer of output window 3, through which its contents are stated. -/
abbrev VO1_3 : View sig .tc .vmem S2048x256 .f32 := (Memref.whole cc1_stg3_0 : Memref sig .tc .vmem S2048x256 .f32).view
/-- Each window's current staging memref at point `t`, as the pipeline passes it, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S2048x256 .f32 := Memref.whole cc1_scratch0
/-- The scratch the kernel carries between points, as a view. -/
abbrev VS1_0 : View sig .tc .vmem S2048x256 .f32 := scM1_0.view

/-- The other scoped buffers of the core (the other calls' staging buffers and scratch), unopened. -/
abbrev restBut1 (c : Dev nD) : sProp 𝕄 :=
  Pipeline.scopedRestBut (Ix := Unit) (Name := ℕ) (U := UR sig nD τ) (Lvl := ℕ) (Val := Elt F) spec1 c [cc1_scratch0]

/-- The region invariant with the scratch operand as a memref owned at some contents, the other scoped buffers
    unopened, and the generator register at some state. -/
theorem PhiA1_eq (c : Dev nD) :
    (Pipeline.ΦA spec1 c : sProp 𝕄)
      = iprop(iprop((∃ d, owns (c : Thread nD τ) scM1_0 fullShare d) ∗ restBut1 (F := F) c) ∗ (∃ r, prngReg c r)) := by
  unfold Pipeline.ΦA; rw [scopedRest1_split]; simp only [scM1_0, owns_whole]; try rfl

end Cert.KernelIdeal.Reg1

end
-- ==== Proof.KI.Reg1.RunA.lean ====
import proofs.«104635_j41927470743646_2_alg».proof.Proof.KI.Reg1.Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where the first condition holds and the second fails (the reduction coordinate is 0): on whole
    staging memrefs — the inputs' at their contents, the output's (idle here) at contents handed back untouched, the
    scratch at anything — the body runs to the continuation holding the inputs' as they were, the output's untouched
    and the scratch with its pieces written (the zero fill, then the accumulation). The pieces are the witness the
    run finds. -/
noncomputable def kernelRun1_A (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x1 : Vec F S2048x256 .f32) (x2 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__cheb_kernel i arg2 harg2 arg3 harg3 arg4 harg4 arg5 harg5 arg6 harg6) K } := by
  refine ⟨[], ?_, fun xi3 E K => ?run⟩
  case run =>
    simp only [cc1__cheb_kernel_eq_skeleton]; unfold cc1__cheb_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg1

end
-- ==== Proof.KI.Reg1.RunB.lean ====
import proofs.«104635_j41927470743646_2_alg».proof.Proof.KI.Reg1.RunA

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where both conditions fail (the reduction coordinate is 1 or 2): the inputs' at their contents,
    the output's (idle here) handed back untouched, the scratch at the contents the point before left; the scratch
    ends with its piece written (the accumulation). -/
noncomputable def kernelRun1_B (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x1 : Vec F S2048x256 .f32) (x2 : Vec F S2048x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__cheb_kernel i arg2 harg2 arg3 harg3 arg4 harg4 arg5 harg5 arg6 harg6) K } := by
  refine ⟨[], ?_, fun xi3 E K => ?run⟩
  case run =>
    simp only [cc1__cheb_kernel_eq_skeleton]; unfold cc1__cheb_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg1

end
-- ==== Proof.KI.Reg1.RunC.lean ====
import proofs.«104635_j41927470743646_2_alg».proof.Proof.KI.Reg1.RunB

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where the first condition fails and the second holds (the reduction coordinate is 3): the inputs'
    at their contents, the output's at anything, the scratch at the contents the point before left; the scratch ends
    with its piece written (the accumulation) and the output's buffer with its piece (the combination). -/
noncomputable def kernelRun1_C (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .f32) (x2 : Vec F S2048x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__cheb_kernel i arg2 harg2 arg3 harg3 arg4 harg4 arg5 harg5 arg6 harg6) K } := by
  refine ⟨?_, ?_, fun E K => ?run⟩
  case run =>
    simp only [cc1__cheb_kernel_eq_skeleton]; unfold cc1__cheb_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Reg1

end
-- ==== Proof.KI.Reg1.Frame.lean ====
import proofs.«104635_j41927470743646_2_alg».proof.Proof.KI.Reg1.RunC

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the scratch -/

/-- Where the reduction coordinate is 0 nothing is stored into the output (the window is idle and not written back):
    a placeholder nothing consults. -/
def out1_A_3 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x1 : Vec F S2048x256 .f32) (x2 : Vec F S2048x256 .f32) : Vec F S2048x256 .f32 :=
  VO1_3.read (Elt F) (VO1_3.writes (Elt F) VO1_3.junk (kernelRun1_A c i arg2 harg2 arg3 harg3 arg4 harg4 arg5 harg5 arg6 harg6 hc0 hc1 x0 x1 x2).1)

/-- There the scratch's pieces cover it. -/
theorem scover1_A_0 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x1 : Vec F S2048x256 .f32) (x2 : Vec F S2048x256 .f32) (y : S2048x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x256.size (by sl_kernel_rfl) y

/-- What the scratch holds after such a point: its pieces read back. -/
def sout1_A_0 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x1 : Vec F S2048x256 .f32) (x2 : Vec F S2048x256 .f32) : Vec F S2048x256 .f32 :=
  VS1_0.read (Elt F) (VS1_0.writes (Elt F) VS1_0.junk (kernelRun1_A c i arg2 harg2 arg3 harg3 arg4 harg4 arg5 harg5 arg6 harg6 hc0 hc1 x0 x1 x2).2.1)

/-- Where the reduction coordinate is 1 or 2 nothing is stored into the output either. -/
def out1_B_3 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x1 : Vec F S2048x256 .f32) (x2 : Vec F S2048x256 .f32) (xs0 : Vec F S2048x256 .f32) : Vec F S2048x256 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x1 : Vec F S2048x256 .f32) (x2 : Vec F S2048x256 .f32) (xs0 : Vec F S2048x256 .f32) (y : S2048x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x256.size (by sl_kernel_rfl) y

def sout1_B_0 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x1 : Vec F S2048x256 .f32) (x2 : Vec F S2048x256 .f32) (xs0 : Vec F S2048x256 .f32) : Vec F S2048x256 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Where the reduction coordinate is 3 the output's piece covers its block. -/
theorem cover1_C_3 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .f32) (x2 : Vec F S2048x256 .f32) (xs0 : Vec F S2048x256 .f32) (y : S2048x256.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x256.size (by sl_kernel_rfl) y

/-- What the output's staging buffer holds after such a point. -/
def out1_C_3 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .f32) (x2 : Vec F S2048x256 .f32) (xs0 : Vec F S2048x256 .f32) : Vec F S2048x256 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .f32) (x2 : Vec F S2048x256 .f32) (xs0 : Vec F S2048x256 .f32) (y : S2048x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x256.size (by sl_kernel_rfl) y

def sout1_C_0 (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .f32) (x2 : Vec F S2048x256 .f32) (xs0 : Vec F S2048x256 .f32) : Vec F S2048x256 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the scratch hold after each point -/

/-- The accumulation: what the output's staging buffer and the carried scratch hold after the body at position `n`
    (the output's, then the scratch's): the case the closed forms select at `n`, run at the point's memrefs and input
    blocks, over the scratch the point before left. -/
def outsAt1 (c : Dev nD) : (n : ℕ) → n < cfg1.N → Vec F S2048x256 .f32 × Vec F S2048x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk V c 0 t) (iblk V c 1 t) (iblk V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk V c 0 t) (iblk V c 1 t) (iblk V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk V c 0 t) (iblk V c 1 t) (iblk V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk V c 0 t) (iblk V c 1 t) (iblk V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk V c 0 t) (iblk V c 1 t) (iblk V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the carried scratch at
    what the point before left in it, the other scoped buffers unopened, the generator register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2) ∗ restBut1 (F := F) c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ restBut1 (F := F) c) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t) : (dat1 V c).owed t = 0 := rfl

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk V c 0 t :=
  before1_0_of V (dat1 V c) (A_eq1 V c 0) (after1_0 V c) t d
theorem before1_1 (c : Dev nD) (t : Fin cfg1.N) (d) : (dat1 V c).before 1 t d = iblk V c 1 t :=
  before1_1_of V (dat1 V c) (A_eq1 V c 1) (after1_1 V c) t d
theorem before1_2 (c : Dev nD) (t : Fin cfg1.N) (d) : (dat1 V c).before 2 t d = iblk V c 2 t :=
  before1_2_of V (dat1 V c) (A_eq1 V c 2) (after1_2 V c) t d

/-! ## The body obligation, at a generic point -/

def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [show (dat1 V c).leavesExact 3 t = owns (c : Thread nD τ) (ms1_3 t) fullShare ((dat1 V c).after 3 t) from by
          unfold Dat.leavesExact; rw [liveAt1_3 t ((hcond1_1 t).mpr h1)], after1_3]
      rw [outsAt1_C V c t h0 h1]
      unfold out1_C_3 sout1_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out V c _ (by rw [Fin.val_last]; have : cfg1.N = 16 := N_1; omega)

end Cert.KernelIdeal.Reg1

end
-- ==== Proof.KI.Reg1.lean ====
import proofs.«104635_j41927470743646_2_alg».proof.Proof.KI.Reg1.Frame

/-! Region 1 (the second Chebyshev step, `T₂ = 2·L·T₁ − T₀`) as a pipeline at region-entry contents `V`: the proof
data `Reg1.dat1`, its arrays (`Reg1.A_eq1`), nothing owed (`Reg1.owed1`), the body obligation
(`Reg1.body_obligation1`) and the invariant's two ends (`Reg1.hin1`, `Reg1.hout1`) are in the frame module imported
here; the body's run per control case, and what the cases share, are in the modules it imports. -/
-- ==== Proof.KI.Reg2.Runs.lean ====
import proofs.«104635_j41927470743646_2_alg».proof.Proof.Gen.KernelIdeal.Launch
import proofs.«104635_j41927470743646_2_alg».proof.Proof.Gen.KernelIdeal.Skeleton
import proofs.«104635_j41927470743646_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if`: the reduction coordinate is 0. -/
abbrev cond2_0 (i : grid2.Coords) : Prop := (Scalar.cmpi .ne (Scalar.extui (Scalar.cmpi .eq (BitVec.ofNat 32 (i 1).val) 0#32)) 0#32) = 1#1
/-- It holds at the points ≡ 0 (mod 4) — decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second `scf.if`: the reduction coordinate is 3. -/
abbrev cond2_1 (i : grid2.Coords) : Prop := k2_cond2 i = 1#1
/-- It holds at the points ≡ 3 (mod 4) — decided over the grid. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the second condition fails the output window is idle: nothing is stored into it, -/
theorem idleAt2_3 : ∀ t : Fin cfg2.N, ¬cond2_1 (grid2.coords t) → cfg2.idle 3 (grid2.coords t) = true := by decide +kernel
/-- and the pipeline does not write its block back. -/
theorem noFlush2_3 : ∀ t : Fin cfg2.N, ¬cond2_1 (grid2.coords t) → (cfg2.win 3).flush t = false := by decide +kernel
/-- Where it holds the window is live. -/
theorem liveAt2_3 : ∀ t : Fin cfg2.N, cond2_1 (grid2.coords t) → cfg2.idle 3 (grid2.coords t) = false := by decide +kernel

/-! ## The staging memrefs and the scratch -/

/-- One staging buffer of output window 3, through which its contents are stated. -/
abbrev VO2_3 : View sig .tc .vmem S2048x256 .f32 := (Memref.whole cc2_stg3_0 : Memref sig .tc .vmem S2048x256 .f32).view
/-- Each window's current staging memref at point `t`, as the pipeline passes it, and its wholeness. -/
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
/-- The scratch operand: a whole scoped buffer of the kernel's own, passed beside the windows. -/
abbrev scM2_0 : Memref sig .tc .vmem S2048x256 .f32 := Memref.whole cc2_scratch0
/-- The scratch the kernel carries between points, as a view. -/
abbrev VS2_0 : View sig .tc .vmem S2048x256 .f32 := scM2_0.view

/-- The other scoped buffers of the core (the other calls' staging buffers and scratch), unopened. -/
abbrev restBut2 (c : Dev nD) : sProp 𝕄 :=
  Pipeline.scopedRestBut (Ix := Unit) (Name := ℕ) (U := UR sig nD τ) (Lvl := ℕ) (Val := Elt F) spec2 c [cc2_scratch0]

/-- The region invariant with the scratch operand as a memref owned at some contents, the other scoped buffers
    unopened, and the generator register at some state. -/
theorem PhiA2_eq (c : Dev nD) :
    (Pipeline.ΦA spec2 c : sProp 𝕄)
      = iprop(iprop((∃ d, owns (c : Thread nD τ) scM2_0 fullShare d) ∗ restBut2 (F := F) c) ∗ (∃ r, prngReg c r)) := by
  unfold Pipeline.ΦA; rw [scopedRest2_split]; simp only [scM2_0, owns_whole]; try rfl

end Cert.KernelIdeal.Reg2

end
-- ==== Proof.KI.Reg2.RunA.lean ====
import proofs.«104635_j41927470743646_2_alg».proof.Proof.KI.Reg2.Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where the first condition holds and the second fails (the reduction coordinate is 0): on whole
    staging memrefs — the inputs' at their contents, the output's (idle here) at contents handed back untouched, the
    scratch at anything — the body runs to the continuation holding the inputs' as they were, the output's untouched
    and the scratch with its pieces written (the zero fill, then the accumulation). The pieces are the witness the
    run finds. -/
noncomputable def kernelRun2_A (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x1 : Vec F S2048x256 .f32) (x2 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__cheb_kernel i arg2 harg2 arg3 harg3 arg4 harg4 arg5 harg5 arg6 harg6) K } := by
  refine ⟨[], ?_, fun xi3 E K => ?run⟩
  case run =>
    simp only [cc2__cheb_kernel_eq_skeleton]; unfold cc2__cheb_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg2

end
-- ==== Proof.KI.Reg2.RunB.lean ====
import proofs.«104635_j41927470743646_2_alg».proof.Proof.KI.Reg2.RunA

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where both conditions fail (the reduction coordinate is 1 or 2): the inputs' at their contents,
    the output's (idle here) handed back untouched, the scratch at the contents the point before left; the scratch
    ends with its piece written (the accumulation). -/
noncomputable def kernelRun2_B (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x1 : Vec F S2048x256 .f32) (x2 : Vec F S2048x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__cheb_kernel i arg2 harg2 arg3 harg3 arg4 harg4 arg5 harg5 arg6 harg6) K } := by
  refine ⟨[], ?_, fun xi3 E K => ?run⟩
  case run =>
    simp only [cc2__cheb_kernel_eq_skeleton]; unfold cc2__cheb_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg2

end
-- ==== Proof.KI.Reg2.RunC.lean ====
import proofs.«104635_j41927470743646_2_alg».proof.Proof.KI.Reg2.RunB

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where the first condition fails and the second holds (the reduction coordinate is 3): the inputs'
    at their contents, the output's at anything, the scratch at the contents the point before left; the scratch ends
    with its piece written (the accumulation) and the output's buffer with its piece (the combination). -/
noncomputable def kernelRun2_C (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x256 .f32) (x2 : Vec F S2048x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__cheb_kernel i arg2 harg2 arg3 harg3 arg4 harg4 arg5 harg5 arg6 harg6) K } := by
  refine ⟨?_, ?_, fun E K => ?run⟩
  case run =>
    simp only [cc2__cheb_kernel_eq_skeleton]; unfold cc2__cheb_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Reg2

end
-- ==== Proof.KI.Reg2.Frame.lean ====
import proofs.«104635_j41927470743646_2_alg».proof.Proof.KI.Reg2.RunC

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the scratch -/

/-- Where the reduction coordinate is 0 nothing is stored into the output (the window is idle and not written back):
    a placeholder nothing consults. -/
def out2_A_3 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x1 : Vec F S2048x256 .f32) (x2 : Vec F S2048x256 .f32) : Vec F S2048x256 .f32 :=
  VO2_3.read (Elt F) (VO2_3.writes (Elt F) VO2_3.junk (kernelRun2_A c i arg2 harg2 arg3 harg3 arg4 harg4 arg5 harg5 arg6 harg6 hc0 hc1 x0 x1 x2).1)

/-- There the scratch's pieces cover it. -/
theorem scover2_A_0 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x1 : Vec F S2048x256 .f32) (x2 : Vec F S2048x256 .f32) (y : S2048x256.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2048x256.size (by sl_kernel_rfl) y

/-- What the scratch holds after such a point: its pieces read back. -/
def sout2_A_0 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x1 : Vec F S2048x256 .f32) (x2 : Vec F S2048x256 .f32) : Vec F S2048x256 .f32 :=
  VS2_0.read (Elt F) (VS2_0.writes (Elt F) VS2_0.junk (kernelRun2_A c i arg2 harg2 arg3 harg3 arg4 harg4 arg5 harg5 arg6 harg6 hc0 hc1 x0 x1 x2).2.1)

/-- Where the reduction coordinate is 1 or 2 nothing is stored into the output either. -/
def out2_B_3 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x1 : Vec F S2048x256 .f32) (x2 : Vec F S2048x256 .f32) (xs0 : Vec F S2048x256 .f32) : Vec F S2048x256 .f32 :=
  VO2_3.read (Elt F) (VO2_3.writes (Elt F) VO2_3.junk (kernelRun2_B c i arg2 harg2 arg3 harg3 arg4 harg4 arg5 harg5 arg6 harg6 hc0 hc1 x0 x1 x2 xs0).1)

theorem scover2_B_0 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x1 : Vec F S2048x256 .f32) (x2 : Vec F S2048x256 .f32) (xs0 : Vec F S2048x256 .f32) (y : S2048x256.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2048x256.size (by sl_kernel_rfl) y

def sout2_B_0 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S2048x2048 .bf16) (x1 : Vec F S2048x256 .f32) (x2 : Vec F S2048x256 .f32) (xs0 : Vec F S2048x256 .f32) : Vec F S2048x256 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Where the reduction coordinate is 3 the output's piece covers its block. -/
theorem cover2_C_3 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x256 .f32) (x2 : Vec F S2048x256 .f32) (xs0 : Vec F S2048x256 .f32) (y : S2048x256.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2048x256.size (by sl_kernel_rfl) y

/-- What the output's staging buffer holds after such a point. -/
def out2_C_3 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x256 .f32) (x2 : Vec F S2048x256 .f32) (xs0 : Vec F S2048x256 .f32) : Vec F S2048x256 .f32 :=
  VO2_3.read (Elt F) (VO2_3.writes (Elt F) VO2_3.junk (kernelRun2_C c i arg2 harg2 arg3 harg3 arg4 harg4 arg5 harg5 arg6 harg6 hc0 hc1 x0 x1 x2 xs0).1)

theorem scover2_C_0 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x256 .f32) (x2 : Vec F S2048x256 .f32) (xs0 : Vec F S2048x256 .f32) (y : S2048x256.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2048x256.size (by sl_kernel_rfl) y

def sout2_C_0 (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x256 .f32) (x2 : Vec F S2048x256 .f32) (xs0 : Vec F S2048x256 .f32) : Vec F S2048x256 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's buffer and the scratch hold after each point -/

/-- The accumulation: what the output's staging buffer and the carried scratch hold after the body at position `n`
    (the output's, then the scratch's): the case the closed forms select at `n`, run at the point's memrefs and input
    blocks, over the scratch the point before left. -/
def outsAt2 (c : Dev nD) : (n : ℕ) → n < cfg2.N → Vec F S2048x256 .f32 × Vec F S2048x256 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk V c 0 ⟨n + 1, hn⟩) (iblk V c 1 ⟨n + 1, hn⟩) (iblk V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk V c 0 ⟨n + 1, hn⟩) (iblk V c 1 ⟨n + 1, hn⟩) (iblk V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk V c 0 t) (iblk V c 1 t) (iblk V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk V c 0 t) (iblk V c 1 t) (iblk V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk V c 0 t) (iblk V c 1 t) (iblk V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk V c 0 t) (iblk V c 1 t) (iblk V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk V c 0 t) (iblk V c 1 t) (iblk V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the carried scratch at
    what the point before left in it, the other scoped buffers unopened, the generator register at some state. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2_0 fullShare ((outsAt2 V c n hn).2) ∗ restBut2 (F := F) c) ∗ (∃ r, prngReg c r)) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2) ∗ restBut2 (F := F) c) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt2`; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem owed2 (c : Dev nD) (t) : (dat2 V c).owed t = 0 := rfl

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk V c 0 t := by dsimp only [dat2]
theorem after2_1 (c : Dev nD) (t : Fin cfg2.N) : (dat2 V c).after 1 t = iblk V c 1 t := by dsimp only [dat2]
theorem after2_2 (c : Dev nD) (t : Fin cfg2.N) : (dat2 V c).after 2 t = iblk V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk V c 0 t :=
  before2_0_of V (dat2 V c) (A_eq2 V c 0) (after2_0 V c) t d
theorem before2_1 (c : Dev nD) (t : Fin cfg2.N) (d) : (dat2 V c).before 1 t d = iblk V c 1 t :=
  before2_1_of V (dat2 V c) (A_eq2 V c 1) (after2_1 V c) t d
theorem before2_2 (c : Dev nD) (t : Fin cfg2.N) (d) : (dat2 V c).before 2 t d = iblk V c 2 t :=
  before2_2_of V (dat2 V c) (A_eq2 V c 2) (after2_2 V c) t d

/-! ## The body obligation, at a generic point -/

def bodyPre (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 16 := lt_of_lt_of_eq t.isLt (show cfg2.N = 16 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [outsAt2_A V c t h0 h1]
      unfold sout2_A_0; (try dsimp only)
      by_cases hz : t.val = 0
      · rw [PhiS_castSucc V c t, PhiS_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3 t ((hcond2_1 t).mpr h1)], after2_3]
      rw [outsAt2_C V c t h0 h1]
      unfold out2_C_3 sout2_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the class's back: the scratch's named contents are forgotten. -/
theorem Phi_out (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out V c _ (by rw [Fin.val_last]; have : cfg2.N = 16 := N_2; omega)

end Cert.KernelIdeal.Reg2

end
-- ==== Proof.KI.Reg2.lean ====
import proofs.«104635_j41927470743646_2_alg».proof.Proof.KI.Reg2.Frame

/-! Region 2 (the third Chebyshev step, `T₃ = 2·L·T₂ − T₁`) as a pipeline at region-entry contents `V`: the proof
data `Reg2.dat2`, its arrays (`Reg2.A_eq2`), nothing owed (`Reg2.owed2`), the body obligation
(`Reg2.body_obligation2`) and the invariant's two ends (`Reg2.hin2`, `Reg2.hout2`) are in the frame module imported
here; the body's run per control case, and what the cases share, are in the modules it imports. -/
-- ==== Proof.KI.Reg3.Runs.lean ====
import proofs.«104635_j41927470743646_2_alg».proof.Proof.Gen.KernelIdeal.Launch
import proofs.«104635_j41927470743646_2_alg».proof.Proof.Gen.KernelIdeal.Skeleton
import proofs.«104635_j41927470743646_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if`: the reduction coordinate is 0. -/
abbrev cond3_0 (i : grid3.Coords) : Prop := (Scalar.cmpi .ne (Scalar.extui (Scalar.cmpi .eq (BitVec.ofNat 32 (i 1).val) 0#32)) 0#32) = 1#1
/-- It holds at the points ≡ 0 (mod 4) — decided over the grid. -/
theorem hcond3_0 : ∀ t : Fin cfg3.N, cond3_0 (grid3.coords t) ↔ t.val % 4 = 0 :=
  (by decide +kernel : ∀ t : Fin grid3.N, cond3_0 (grid3.coords t) ↔ t.val % 4 = 0)

/-- The condition of the body's second `scf.if`: the reduction coordinate is 3. -/
abbrev cond3_1 (i : grid3.Coords) : Prop := k3_cond2 i = 1#1
/-- It holds at the points ≡ 3 (mod 4) — decided over the grid. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where the second condition fails the output window is idle: nothing is stored into it, -/
theorem idleAt3_3 : ∀ t : Fin cfg3.N, ¬cond3_1 (grid3.coords t) → cfg3.idle 3 (grid3.coords t) = true := by decide +kernel
/-- and the pipeline does not write its block back. -/
theorem noFlush3_3 : ∀ t : Fin cfg3.N, ¬cond3_1 (grid3.coords t) → (cfg3.win 3).flush t = false := by decide +kernel
/-- Where it holds the window is live. -/
theorem liveAt3_3 : ∀ t : Fin cfg3.N, cond3_1 (grid3.coords t) → cfg3.idle 3 (grid3.coords t) = false := by decide +kernel

/-! ## The staging memrefs and the scratch -/

/-- One staging buffer of output window 3, through which its contents are stated. -/
abbrev VO3_3 : View sig .tc .vmem S2048x256 .f32 := (Memref.whole cc3_stg3_0 : Memref sig .tc .vmem S2048x256 .f32).view
/-- Each window's current staging memref at point `t`, as the pipeline passes it, and its wholeness. -/
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .f32 := win3_3.stage (cfg3.slots t 3)
abbrev hs3_3 (t : Fin cfg3.N) : (ms3_3 t).IsWhole := hstage3_3 ((cfg3.slots t 3).cast nbuf3_3)
/-- The scratch operand: a whole scoped buffer of the kernel's own, passed beside the windows. -/
abbrev scM3_0 : Memref sig .tc .vmem S2048x256 .f32 := Memref.whole cc3_scratch0
/-- The scratch the kernel carries between points, as a view. -/
abbrev VS3_0 : View sig .tc .vmem S2048x256 .f32 := scM3_0.view

/-- The other scoped buffers of the core (the other calls' staging buffers and scratch), unopened. -/
abbrev restBut3 (c : Dev nD) : sProp 𝕄 :=
  Pipeline.scopedRestBut (Ix := Unit) (Name := ℕ) (U := UR sig nD τ) (Lvl := ℕ) (Val := Elt F) spec3 c [cc3_scratch0]

/-- The region invariant with the scratch operand as a memref owned at some contents, the other scoped buffers
    unopened, and the generator register at some state. -/
theorem PhiA3_eq (c : Dev nD) :
    (Pipeline.ΦA spec3 c : sProp 𝕄)
      = iprop(iprop((∃ d, owns (c : Thread nD τ) scM3_0 fullShare d) ∗ restBut3 (F := F) c) ∗ (∃ r, prngReg c r)) := by
  unfold Pipeline.ΦA; rw [scopedRest3_split]; simp only [scM3_0, owns_whole]; try rfl

end Cert.KernelIdeal.Reg3

end
-- ==== Proof.KI.Reg3.RunA.lean ====
import proofs.«104635_j41927470743646_2_alg».proof.Proof.KI.Reg3.Runs

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where the first condition holds and the second fails (the reduction coordinate is 0): on whole
    staging memrefs — the inputs' at their contents, the output's (idle here) at contents handed back untouched, the
    scratch at anything — the body runs to the continuation holding the inputs' as they were, the output's untouched
    and the scratch with its pieces written (the zero fill, then the accumulation). The pieces are the witness the
    run finds. -/
noncomputable def kernelRun3_A (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i)
    (x0 : Vec F S2048x2048 .bf16) (x1 : Vec F S2048x256 .f32) (x2 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__cheb_kernel i arg2 harg2 arg3 harg3 arg4 harg4 arg5 harg5 arg6 harg6) K } := by
  refine ⟨[], ?_, fun xi3 E K => ?run⟩
  case run =>
    simp only [cc3__cheb_kernel_eq_skeleton]; unfold cc3__cheb_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg3

end
-- ==== Proof.KI.Reg3.RunB.lean ====
import proofs.«104635_j41927470743646_2_alg».proof.Proof.KI.Reg3.RunA

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where both conditions fail (the reduction coordinate is 1 or 2): the inputs' at their contents,
    the output's (idle here) handed back untouched, the scratch at the contents the point before left; the scratch
    ends with its piece written (the accumulation). -/
noncomputable def kernelRun3_B (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : ¬cond3_1 i)
    (x0 : Vec F S2048x2048 .bf16) (x1 : Vec F S2048x256 .f32) (x2 : Vec F S2048x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__cheb_kernel i arg2 harg2 arg3 harg3 arg4 harg4 arg5 harg5 arg6 harg6) K } := by
  refine ⟨[], ?_, fun xi3 E K => ?run⟩
  case run =>
    simp only [cc3__cheb_kernel_eq_skeleton]; unfold cc3__cheb_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg3

end
-- ==== Proof.KI.Reg3.RunC.lean ====
import proofs.«104635_j41927470743646_2_alg».proof.Proof.KI.Reg3.RunB

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run where the first condition fails and the second holds (the reduction coordinate is 3): the inputs'
    at their contents, the output's at anything, the scratch at the contents the point before left; the scratch ends
    with its piece written (the accumulation) and the output's buffer with its piece (the combination). -/
noncomputable def kernelRun3_C (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .f32) (x2 : Vec F S2048x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__cheb_kernel i arg2 harg2 arg3 harg3 arg4 harg4 arg5 harg5 arg6 harg6) K } := by
  refine ⟨?_, ?_, fun E K => ?run⟩
  case run =>
    simp only [cc3__cheb_kernel_eq_skeleton]; unfold cc3__cheb_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Reg3

end
-- ==== Proof.KI.Reg3.Frame.lean ====
import proofs.«104635_j41927470743646_2_alg».proof.Proof.KI.Reg3.RunC

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the scratch -/

/-- Where the reduction coordinate is 0 nothing is stored into the output (the window is idle and not written back):
    a placeholder nothing consults. -/
def out3_A_3 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i)
    (x0 : Vec F S2048x2048 .bf16) (x1 : Vec F S2048x256 .f32) (x2 : Vec F S2048x256 .f32) : Vec F S2048x256 .f32 :=
  VO3_3.read (Elt F) (VO3_3.writes (Elt F) VO3_3.junk (kernelRun3_A c i arg2 harg2 arg3 harg3 arg4 harg4 arg5 harg5 arg6 harg6 hc0 hc1 x0 x1 x2).1)

/-- There the scratch's pieces cover it. -/
theorem scover3_A_0 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i)
    (x0 : Vec F S2048x2048 .bf16) (x1 : Vec F S2048x256 .f32) (x2 : Vec F S2048x256 .f32) (y : S2048x256.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S2048x256.size (by sl_kernel_rfl) y

/-- What the scratch holds after such a point: its pieces read back. -/
def sout3_A_0 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i)
    (x0 : Vec F S2048x2048 .bf16) (x1 : Vec F S2048x256 .f32) (x2 : Vec F S2048x256 .f32) : Vec F S2048x256 .f32 :=
  VS3_0.read (Elt F) (VS3_0.writes (Elt F) VS3_0.junk (kernelRun3_A c i arg2 harg2 arg3 harg3 arg4 harg4 arg5 harg5 arg6 harg6 hc0 hc1 x0 x1 x2).2.1)

/-- Where the reduction coordinate is 1 or 2 nothing is stored into the output either. -/
def out3_B_3 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : ¬cond3_1 i)
    (x0 : Vec F S2048x2048 .bf16) (x1 : Vec F S2048x256 .f32) (x2 : Vec F S2048x256 .f32) (xs0 : Vec F S2048x256 .f32) : Vec F S2048x256 .f32 :=
  VO3_3.read (Elt F) (VO3_3.writes (Elt F) VO3_3.junk (kernelRun3_B c i arg2 harg2 arg3 harg3 arg4 harg4 arg5 harg5 arg6 harg6 hc0 hc1 x0 x1 x2 xs0).1)

theorem scover3_B_0 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : ¬cond3_1 i)
    (x0 : Vec F S2048x2048 .bf16) (x1 : Vec F S2048x256 .f32) (x2 : Vec F S2048x256 .f32) (xs0 : Vec F S2048x256 .f32) (y : S2048x256.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S2048x256.size (by sl_kernel_rfl) y

def sout3_B_0 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : ¬cond3_1 i)
    (x0 : Vec F S2048x2048 .bf16) (x1 : Vec F S2048x256 .f32) (x2 : Vec F S2048x256 .f32) (xs0 : Vec F S2048x256 .f32) : Vec F S2048x256 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Where the reduction coordinate is 3 the output's piece covers its block. -/
theorem cover3_C_3 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .f32) (x2 : Vec F S2048x256 .f32) (xs0 : Vec F S2048x256 .f32) (y : S2048x256.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S2048x256.size (by sl_kernel_rfl) y

/-- What the output's staging buffer holds after such a point. -/
def out3_C_3 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .f32) (x2 : Vec F S2048x256 .f32) (xs0 : Vec F S2048x256 .f32) : Vec F S2048x256 .f32 :=
  VO3_3.read (Elt F) (VO3_3.writes (Elt F) VO3_3.junk (kernelRun3_C c i arg2 harg2 arg3 harg3 arg4 harg4 arg5 harg5 arg6 harg6 hc0 hc1 x0 x1 x2 xs0).1)

theorem scover3_C_0 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .f32) (x2 : Vec F S2048x256 .f32) (xs0 : Vec F S2048x256 .f32) (y : S2048x256.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S2048x256.size (by sl_kernel_rfl) y

def sout3_C_0 (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .f32) (x2 : Vec F S2048x256 .f32) (xs0 : Vec F S2048x256 .f32) : Vec F S2048x256 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output's buffer and the scratch hold after each point -/

/-- The accumulation: what the output's staging buffer and the carried scratch hold after the body at position `n`
    (the output's, then the scratch's): the case the closed forms select at `n`, run at the point's memrefs and input
    blocks, over the scratch the point before left. -/
def outsAt3 (c : Dev nD) : (n : ℕ) → n < cfg3.N → Vec F S2048x256 .f32 × Vec F S2048x256 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk V c 0 ⟨0, hn⟩) (iblk V c 1 ⟨0, hn⟩) (iblk V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk V c 0 ⟨n + 1, hn⟩) (iblk V c 1 ⟨n + 1, hn⟩) (iblk V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk V c 0 ⟨n + 1, hn⟩) (iblk V c 1 ⟨n + 1, hn⟩) (iblk V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk V c 0 ⟨n + 1, hn⟩) (iblk V c 1 ⟨n + 1, hn⟩) (iblk V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk V c 0 ⟨n + 1, hn⟩) (iblk V c 1 ⟨n + 1, hn⟩) (iblk V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk V c 0 ⟨n + 1, hn⟩) (iblk V c 1 ⟨n + 1, hn⟩) (iblk V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk V c 0 ⟨n + 1, hn⟩) (iblk V c 1 ⟨n + 1, hn⟩) (iblk V c 2 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk V c 0 t) (iblk V c 1 t) (iblk V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk V c 0 t) (iblk V c 1 t) (iblk V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk V c 0 t) (iblk V c 1 t) (iblk V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk V c 0 t) (iblk V c 1 t) (iblk V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk V c 0 t) (iblk V c 1 t) (iblk V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the carried scratch at
    what the point before left in it, the other scoped buffers unopened, the generator register at some state. -/
def PhiS (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM3_0 fullShare ((outsAt3 V c n hn).2) ∗ restBut3 (F := F) c) ∗ (∃ r, prngReg c r)) := rfl

theorem PhiS_pos (c : Dev nD) (n : ℕ) (h : n ≤ cfg3.N) (hz : n ≠ 0) :
    PhiS V c n h = iprop(iprop(owns (c : Thread nD τ) scM3_0 fullShare ((outsAt3 V c (n - 1) (by omega)).2) ∗ restBut3 (F := F) c) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt3`; the invariant `PhiS`; nothing owed; full shares. -/
def dat3 (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt3 V c t.val t.isLt).1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem owed3 (c : Dev nD) (t) : (dat3 V c).owed t = 0 := rfl

theorem PhiS_castSucc (c : Dev nD) (t : Fin cfg3.N) :
    (dat3 V c).Φ t.castSucc = PhiS V c t.val (Nat.le_of_lt t.isLt) := by
  dsimp only [dat3]; simp only [Fin.coe_castSucc]

theorem after3_0 (c : Dev nD) (t : Fin cfg3.N) : (dat3 V c).after 0 t = iblk V c 0 t := by dsimp only [dat3]
theorem after3_1 (c : Dev nD) (t : Fin cfg3.N) : (dat3 V c).after 1 t = iblk V c 1 t := by dsimp only [dat3]
theorem after3_2 (c : Dev nD) (t : Fin cfg3.N) : (dat3 V c).after 2 t = iblk V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk V c 0 t :=
  before3_0_of V (dat3 V c) (A_eq3 V c 0) (after3_0 V c) t d
theorem before3_1 (c : Dev nD) (t : Fin cfg3.N) (d) : (dat3 V c).before 1 t d = iblk V c 1 t :=
  before3_1_of V (dat3 V c) (A_eq3 V c 1) (after3_1 V c) t d
theorem before3_2 (c : Dev nD) (t : Fin cfg3.N) (d) : (dat3 V c).before 2 t d = iblk V c 2 t :=
  before3_2_of V (dat3 V c) (A_eq3 V c 2) (after3_2 V c) t d

/-! ## The body obligation, at a generic point -/

def bodyPre (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2]
  rw [show (dat3 V c).owesAt () t.succ = (dat3 V c).owesAt () t.castSucc from rfl]
  rw [show (dat3 V c).Φ t.succ = PhiS V c (t.val + 1) t.isLt from rfl, PhiS_succ]
  have hN : t.val < 16 := lt_of_lt_of_eq t.isLt (show cfg3.N = 16 from N_3)
  by_cases h0 : t.val % 4 = 0
  · by_cases h1 : t.val % 4 = 3
    · exfalso; omega
    · rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_A V c t h0 h1]
      unfold sout3_A_0; (try dsimp only)
      by_cases hz : t.val = 0
      · rw [PhiS_castSucc V c t, PhiS_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [show (dat3 V c).leavesExact 3 t = owns (c : Thread nD τ) (ms3_3 t) fullShare ((dat3 V c).after 3 t) from by
          unfold Dat.leavesExact; rw [liveAt3_3 t ((hcond3_1 t).mpr h1)], after3_3]
      rw [outsAt3_C V c t h0 h1]
      unfold out3_C_3 sout3_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body V c t

/-- What the launch hands the region is the invariant before the first point. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After any point but the first the invariant gives the class's back: the scratch's named contents are forgotten. -/
theorem Phi_out (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out V c _ (by rw [Fin.val_last]; have : cfg3.N = 16 := N_3; omega)

end Cert.KernelIdeal.Reg3

end
-- ==== Proof.KI.Reg3.lean ====
import proofs.«104635_j41927470743646_2_alg».proof.Proof.KI.Reg3.Frame

/-! Region 3 (the fourth Chebyshev step, `T₄ = 2·L·T₃ − T₂`) as a pipeline at region-entry contents `V`: the proof
data `Reg3.dat3`, its arrays (`Reg3.A_eq3`), nothing owed (`Reg3.owed3`), the body obligation
(`Reg3.body_obligation3`) and the invariant's two ends (`Reg3.hin3`, `Reg3.hout3`) are in the frame module imported
here; the body's run per control case, and what the cases share, are in the modules it imports. -/
-- ==== Proof.KI.Reg4.Blocks.lean ====
import proofs.«104635_j41927470743646_2_alg».proof.Proof.Gen.KernelIdeal.Launch
import proofs.«104635_j41927470743646_2_alg».proof.Proof.Gen.KernelIdeal.Skeleton
import proofs.«104635_j41927470743646_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The final region's windows: each window's block at a grid point, and what an input's staging buffer holds there

The region's grid has 8 points; point `t` takes rows `1024·t … 1024·t + 1023` of each of the five 8192×256 operands
and of the result. The 1280×256 weight and the 1×256 bias row are each one block, the same at every point, brought
in once at the first point and left in place afterwards. -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s (`hA`) and whose body leaves the block in place (`hafter`). The window is brought in at the first point only: at a later point its
    block index has not moved, so the buffer still holds the same block. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s (`hA`) and whose body leaves the block in place (`hafter`). The window is brought in at the first point only: at a later point its
    block index has not moved, so the buffer still holds the same block. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

end Cert.KernelIdeal.Reg4

end
-- ==== Proof.KI.Reg4.Kernel.lean ====
import proofs.«104635_j41927470743646_2_alg».proof.Proof.Gen.KernelIdeal.Launch
import proofs.«104635_j41927470743646_2_alg».proof.Proof.Gen.KernelIdeal.Skeleton
import proofs.«104635_j41927470743646_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The final region's kernel on its staging buffers

The body reads the five 1024×256 operand blocks whole, the 1280×256 weight buffer as five 256×256 slabs at row
offsets 0, 256, 512, 768, 1024, and the 1×256 bias row whole; it stores once, over the whole output buffer. -/

/-! ## The body's accesses -/

abbrev r4_0 : Rect S1024x256 := Rect.unit (s := S1024x256) ![0, 0] S1024x256.size inb_S1024x256_S1024x256_0_0
abbrev r4_1 : Rect S1280x256 := Rect.unit (s := S1280x256) ![0, 0] S256x256.size inb_S1280x256_S256x256_0_0
abbrev r4_2 : Rect S1280x256 := Rect.unit (s := S1280x256) ![256, 0] S256x256.size inb_S1280x256_S256x256_256_0
abbrev r4_3 : Rect S1280x256 := Rect.unit (s := S1280x256) ![512, 0] S256x256.size inb_S1280x256_S256x256_512_0
abbrev r4_4 : Rect S1280x256 := Rect.unit (s := S1280x256) ![768, 0] S256x256.size inb_S1280x256_S256x256_768_0
abbrev r4_5 : Rect S1280x256 := Rect.unit (s := S1280x256) ![1024, 0] S256x256.size inb_S1280x256_S256x256_1024_0
abbrev r4_6 : Rect S1x256 := Rect.unit (s := S1x256) ![0, 0] S1x256.size inb_S1x256_S1x256_0_0

/-! ## What the body leaves in the output window's buffer -/

/-- Window 7's staging buffer after the body, from the input windows' blocks: its one store as a piece. The value
    stored is the sum of the five slab products plus the broadcast bias row, clamped below at zero. -/
def out4_7 (x0 x1 x2 x3 x4 : Vec F S1024x256 .f32) (x5 : Vec F S1280x256 .f32) (x6 : Vec F S1x256 .f32) : Vec F S1024x256 .f32 :=
  View.canon [⟨r4_0, k4_pay1 (k4_pay2 (View.ld x0 r4_0) (View.ld x5 r4_1) (View.ld x1 r4_0) (View.ld x5 r4_2) (View.ld x2 r4_0) (View.ld x5 r4_3) (View.ld x3 r4_0) (View.ld x5 r4_4) (View.ld x4 r4_0) (View.ld x5 r4_5)) (View.ld x6 r4_6)⟩]

/-- The one store is over the whole buffer, so it covers it. -/
theorem cover4_7 (p0 : Vec F S1024x256 .f32) (y : S1024x256.Idx) :
    ∃ pc ∈ ([⟨r4_0, p0⟩] : List (View.Piece (Elt F) S1024x256 .f32)), y ∈ pc.1.set :=
  View.cover_of_tiled [⟨r4_0, p0⟩] S1024x256.size (by rfl) y

/-! ## The body's triple -/

set_option maxHeartbeats 1000000 in
/-- The kernel body on whole staging memrefs, the inputs' at read contents `x0 … x6` and the output's at anything,
    runs to the continuation holding the inputs' as they were and the output's at `out4_7` of the inputs'. -/
theorem sound_kernel4 (c : Dev nD) (E : Set ℕ) (i : grid4.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1280x256 .f32) (harg6 : arg6.IsWhole) (arg7 : Memref sig .tc .vmem S1x256 .f32) (harg7 : arg7.IsWhole) (arg8 : Memref sig .tc .vmem S1024x256 .f32) (harg8 : arg8.IsWhole)
    (x0 x1 x2 x3 x4 : Vec F S1024x256 .f32) (x5 : Vec F S1280x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__final_kernel i arg1 harg1 arg2 harg2 arg3 harg3 arg4 harg4 arg5 harg5 arg6 harg6 arg7 harg7 arg8 harg8) K := by
  simp only [cc4__final_kernel_eq_skeleton]; unfold cc4__final_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover4_7 _)

end Cert.KernelIdeal.Reg4

end
-- ==== Proof.KI.Reg4.lean ====
import proofs.«104635_j41927470743646_2_alg».proof.Proof.Gen.KernelIdeal.Launch
import proofs.«104635_j41927470743646_2_alg».proof.Proof.Gen.KernelIdeal.Skeleton
import proofs.«104635_j41927470743646_2_alg».proof.Proof.Gen.KernelIdeal.Points
import proofs.«104635_j41927470743646_2_alg».proof.Proof.KI.Reg4.Blocks
import proofs.«104635_j41927470743646_2_alg».proof.Proof.KI.Reg4.Kernel
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The final region at the entry contents `V`: proof data and body obligation

The region's kernel has no conditional and keeps nothing between grid points: after the body at point `t` every
input's staging buffer still holds its block and the output's holds `out4_7` of the input blocks. The invariant is
the class's at every point (the scoped rest and the generator register, untouched); nothing is owed; full shares. -/

/-! ## The pipeline's proof data -/

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- Nothing is owed at any point. -/
theorem owed4 (c : Dev nD) (t) : (dat4 V c).owed t = 0 := rfl

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in
/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- The class invariant is the proof data's invariant at the first point, -/
theorem hin4 (c : Dev nD) : Pipeline.ΦA spec4 c ⊢ (dat4 V c).Φ 0 := .rfl

/-- and at the last point. -/
theorem hout4 (c : Dev nD) : (dat4 V c).Φ (Fin.last cfg4.N) ⊢ Pipeline.ΦA spec4 c := .rfl

end Cert.KernelIdeal.Reg4

end
-- ==== Proof.KI.Run.lean ====
import proofs.«104635_j41927470743646_2_alg».proof.Proof.KI.RunCond
import proofs.«104635_j41927470743646_2_alg».proof.Proof.KI.Reg0
import proofs.«104635_j41927470743646_2_alg».proof.Proof.KI.Reg1
import proofs.«104635_j41927470743646_2_alg».proof.Proof.KI.Reg2
import proofs.«104635_j41927470743646_2_alg».proof.Proof.KI.Reg3
import proofs.«104635_j41927470743646_2_alg».proof.Proof.KI.Reg4
import Idealize.ShloMosaic.Lib.Pipeline.RegionsLoop
import Idealize.ShloMosaic.Lib.Pipeline.Frame

/-!
  The five regions of @main as segment records over the thread state "every unscoped buffer at the contents the items
  before left, the generator register at some state, nothing owed", and the run of @main over them.
-/

noncomputable section

namespace Cert.KernelIdeal.Hand

open Cert.KernelIdeal Cert.KernelIdeal.Gen
open Cert.KernelIdeal.Reg0 Cert.KernelIdeal.Reg1 Cert.KernelIdeal.Reg2 Cert.KernelIdeal.Reg3 Cert.KernelIdeal.Reg4
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items of @main

Each region is entered from the contents the items before it left: the launch memory, then each region's output arrays at
what its write-backs leave (the proof data's `arrAt … N`), the bias reshaped by the one host operation. -/

/-- A valuation read at the TensorCore's references: what a region's proof data take. -/
abbrev atRefs (W : Dev nD → Valuation τ sig (Elt F)) : (c : Dev nD) → (b : Ref sig .tc) → Buf (Elt F) ((c : Thread nD τ).loc b) :=
  fun c b => W c b

/-- After region 0: `L @ x` in `main_v0_0` and the copy of `L` in `main_v0_1`. -/
def W1 (c : Dev nD) : Valuation τ sig (Elt F) :=
  Function.update (Function.update (V0 m c) main_v0_0 ((dat0 (atRefs (V0 m)) c).arrAt 3 cfg0.N)) main_v0_1 ((dat0 (atRefs (V0 m)) c).arrAt 4 cfg0.N)
/-- After region 1: the second Chebyshev feature in `main_v1`. -/
def W2 (c : Dev nD) : Valuation τ sig (Elt F) :=
  Function.update (W1 m c) main_v1 ((dat1 (atRefs (W1 m)) c).arrAt 3 cfg1.N)
/-- After region 2: the third feature in `main_v2`. -/
def W3 (c : Dev nD) : Valuation τ sig (Elt F) :=
  Function.update (W2 m c) main_v2 ((dat2 (atRefs (W2 m)) c).arrAt 3 cfg2.N)
/-- After region 3: the fourth feature in `main_v3`. -/
def W4 (c : Dev nD) : Valuation τ sig (Elt F) :=
  Function.update (W3 m c) main_v3 ((dat3 (atRefs (W3 m)) c).arrAt 3 cfg3.N)
/-- After the reshape of the bias into a row. -/
def W5 (c : Dev nD) : Valuation τ sig (Elt F) := StableHlo.after hostOps4 (W4 m c)
/-- After region 4: the result in `main_v5`. -/
def W6 (c : Dev nD) : Valuation τ sig (Elt F) :=
  Function.update (W5 m c) main_v5 ((dat4 (atRefs (W5 m)) c).arrAt 7 cfg4.N)

/-- What the regions leave, as the conditional frame's unknowns: after item `J − 1` the buffer `r` holds the
    valuation after that item read at `r`. -/
def outs : Outs (F := F) := fun J r c =>
  match J with
  | 1 => W1 m c r
  | 2 => W2 m c r
  | 3 => W3 m c r
  | 4 => W4 m c r
  | _ => W6 m c r

theorem V1_eq (c : Dev nD) : V1 m (outs m) c = W1 m c := by
  have e0 : outs m 1 main_v0_0 c = (dat0 (atRefs (V0 m)) c).arrAt 3 cfg0.N := by
    simp only [outs, W1]
    rw [Function.update_of_ne (StableHlo.devRef_ne_of_ne (by decide) : (Proc.devRef .tc main_v0_0 : DevRef τ sig) ≠ Proc.devRef .tc main_v0_1), Function.update_self]
  have e1 : outs m 1 main_v0_1 c = (dat0 (atRefs (V0 m)) c).arrAt 4 cfg0.N := by
    simp only [outs, W1, Function.update_self]
  simp only [V1, W1, e0, e1]
theorem V2_eq (c : Dev nD) : V2 m (outs m) c = W2 m c := by
  have e : outs m 2 main_v1 c = (dat1 (atRefs (W1 m)) c).arrAt 3 cfg1.N := by simp only [outs, W2, Function.update_self]
  show Function.update (V1 m (outs m) c) main_v1 (outs m 2 main_v1 c) = _
  rw [V1_eq m c, e]; rfl
theorem V3_eq (c : Dev nD) : V3 m (outs m) c = W3 m c := by
  have e : outs m 3 main_v2 c = (dat2 (atRefs (W2 m)) c).arrAt 3 cfg2.N := by simp only [outs, W3, Function.update_self]
  show Function.update (V2 m (outs m) c) main_v2 (outs m 3 main_v2 c) = _
  rw [V2_eq m c, e]; rfl
theorem V4_eq (c : Dev nD) : V4 m (outs m) c = W4 m c := by
  have e : outs m 4 main_v3 c = (dat3 (atRefs (W3 m)) c).arrAt 3 cfg3.N := by simp only [outs, W4, Function.update_self]
  show Function.update (V3 m (outs m) c) main_v3 (outs m 4 main_v3 c) = _
  rw [V3_eq m c, e]; rfl
theorem V5_eq (c : Dev nD) : V5 m (outs m) c = W5 m c := by
  show StableHlo.after hostOps4 (V4 m (outs m) c) = _
  rw [V4_eq m c]; rfl
theorem V6_eq (c : Dev nD) : V6 m (outs m) c = W6 m c := by
  have e : outs m 6 main_v5 c = (dat4 (atRefs (W5 m)) c).arrAt 7 cfg4.N := by simp only [outs, W6, Function.update_self]
  show Function.update (V5 m (outs m) c) main_v5 (outs m 6 main_v5 c) = _
  rw [V5_eq m c, e]; rfl

/-! ## The proof data family and what rides beside the buffers -/

/-- Every pipeline's proof data, each at its region's entry contents. -/
def pdats : (p : Fin 5) → (c : Dev nD) → Dat τ (Elt F) Unit ℕ (UR sig nD τ) ℕ (cfgs p) c
  | ⟨0, _⟩ => fun c => dat0 (atRefs (V0 m)) c
  | ⟨1, _⟩ => fun c => dat1 (atRefs (W1 m)) c
  | ⟨2, _⟩ => fun c => dat2 (atRefs (W2 m)) c
  | ⟨3, _⟩ => fun c => dat3 (atRefs (W3 m)) c
  | ⟨4, _⟩ => fun c => dat4 (atRefs (W5 m)) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)

/-! ## Region 4: the dense layer -/

/-- At region 4's exit each of its arrays holds what the pipeline leaves: an input its entry contents, the result the
    write-backs' fold. -/
theorem hF4 (c : Dev nD) (w : Fin cfg4.W) : (pdats m 4 c).arrAt w cfg4.N = atRefs (W6 m) c (Pipeline.arrRef spec4 w) := by
  show (dat4 (atRefs (W5 m)) c).arrAt w cfg4.N = _
  match w with
  | ⟨7, _⟩ => exact (show W6 m c (Proc.devRef .tc main_v5) = (dat4 (atRefs (W5 m)) c).arrAt 7 cfg4.N from by unfold W6; rw [Function.update_self]).symm
  | ⟨0, _⟩ => exact ((dat4 (atRefs (W5 m)) c).arrAt_in 0 rfl _).trans ((A_eq4 (atRefs (W5 m)) c 0).trans (Function.update_of_ne (StableHlo.devRef_ne_of_ne (by decide)) _ _).symm)
  | ⟨1, _⟩ => exact ((dat4 (atRefs (W5 m)) c).arrAt_in 1 rfl _).trans ((A_eq4 (atRefs (W5 m)) c 1).trans (Function.update_of_ne (StableHlo.devRef_ne_of_ne (by decide)) _ _).symm)
  | ⟨2, _⟩ => exact ((dat4 (atRefs (W5 m)) c).arrAt_in 2 rfl _).trans ((A_eq4 (atRefs (W5 m)) c 2).trans (Function.update_of_ne (StableHlo.devRef_ne_of_ne (by decide)) _ _).symm)
  | ⟨3, _⟩ => exact ((dat4 (atRefs (W5 m)) c).arrAt_in 3 rfl _).trans ((A_eq4 (atRefs (W5 m)) c 3).trans (Function.update_of_ne (StableHlo.devRef_ne_of_ne (by decide)) _ _).symm)
  | ⟨4, _⟩ => exact ((dat4 (atRefs (W5 m)) c).arrAt_in 4 rfl _).trans ((A_eq4 (atRefs (W5 m)) c 4).trans (Function.update_of_ne (StableHlo.devRef_ne_of_ne (by decide)) _ _).symm)
  | ⟨5, _⟩ => exact ((dat4 (atRefs (W5 m)) c).arrAt_in 5 rfl _).trans ((A_eq4 (atRefs (W5 m)) c 5).trans (Function.update_of_ne (StableHlo.devRef_ne_of_ne (by decide)) _ _).symm)
  | ⟨6, _⟩ => exact ((dat4 (atRefs (W5 m)) c).arrAt_in 6 rfl _).trans ((A_eq4 (atRefs (W5 m)) c 6).trans (Function.update_of_ne (StableHlo.devRef_ne_of_ne (by decide)) _ _).symm)

/-- Every buffer that is no array of region 4 leaves it as it entered. -/
theorem hrest4 (c : Dev nD) : ∀ b, b ∉ Finset.univ.image (Pipeline.arrRef spec4) → atRefs (W6 m) c b = atRefs (W5 m) c b :=
  fun b hb => Function.update_of_ne (StableHlo.devRef_ne_of_ne fun e => hb (Finset.mem_image.mpr ⟨7, Finset.mem_univ _, e.symm⟩)) _ _

-- a library lemma stated over the pinned configuration unifies with the printed one only when unification may unfold
-- plain definitions in a metavariable's type
set_option backward.isDefEq.respectTransparency.types false in
/-- Region 4 over the thread state: its arrays split out of the unscoped buffers at entry and put back at the exit
    contents; the generator register into the region's invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (W5 m)) c).loose
  hwaits := Pipeline.hwaits_of_owed_zero _ _ _ _ L lv 4 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec4 c (atRefs (W5 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (W5 m) c) fun w => A_eq4 (atRefs (W5 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (atRefs (W5 m)) c
    unfold Pipeline.ΦA at h
    rw [show (pdats m 4 c).Φ 0 = (dat4 (atRefs (W5 m)) c).Φ 0 from rfl]
    iintro ⟨Hp, -, Hr⟩
    iapply h
    isplitl [Hr]; · iexact Hr
    iexact Hp
  hout c := by
    rw [Pipeline.ownSems0_none]
    have h := hout4 (atRefs (W5 m)) c
    unfold Pipeline.ΦA at h
    rw [show (pdats m 4 c).Φ (Fin.last _) = (dat4 (atRefs (W5 m)) c).Φ (Fin.last cfg4.N) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (W5 m) c) (atRefs (W6 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: an input its entry contents, the output the
    write-backs' fold. -/
theorem hF1 (c : Dev nD) (w : Fin cfg1.W) : (pdats m 1 c).arrAt w cfg1.N = atRefs (W2 m) c (Pipeline.arrRef spec1 w) := by
  show (dat1 (atRefs (W1 m)) c).arrAt w cfg1.N = _
  match w with
  | ⟨3, _⟩ => exact (show W2 m c (Proc.devRef .tc main_v1) = (dat1 (atRefs (W1 m)) c).arrAt 3 cfg1.N from by unfold W2; rw [Function.update_self]).symm
  | ⟨0, _⟩ => exact ((dat1 (atRefs (W1 m)) c).arrAt_in 0 rfl _).trans ((A_eq1 (atRefs (W1 m)) c 0).trans (Function.update_of_ne (StableHlo.devRef_ne_of_ne (by decide)) _ _).symm)
  | ⟨1, _⟩ => exact ((dat1 (atRefs (W1 m)) c).arrAt_in 1 rfl _).trans ((A_eq1 (atRefs (W1 m)) c 1).trans (Function.update_of_ne (StableHlo.devRef_ne_of_ne (by decide)) _ _).symm)
  | ⟨2, _⟩ => exact ((dat1 (atRefs (W1 m)) c).arrAt_in 2 rfl _).trans ((A_eq1 (atRefs (W1 m)) c 2).trans (Function.update_of_ne (StableHlo.devRef_ne_of_ne (by decide)) _ _).symm)

/-- Every buffer that is no array of region 1 leaves it as it entered. -/
theorem hrest1 (c : Dev nD) : ∀ b, b ∉ Finset.univ.image (Pipeline.arrRef spec1) → atRefs (W2 m) c b = atRefs (W1 m) c b :=
  fun b hb => Function.update_of_ne (StableHlo.devRef_ne_of_ne fun e => hb (Finset.mem_image.mpr ⟨3, Finset.mem_univ _, e.symm⟩)) _ _

-- a library lemma stated over the pinned configuration unifies with the printed one only when unification may unfold
-- plain definitions in a metavariable's type
set_option backward.isDefEq.respectTransparency.types false in
/-- Region 1 over the thread state: its arrays split out of the unscoped buffers at entry and put back at the exit
    contents; the generator register into the region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (W1 m)) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (atRefs (W1 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (W1 m) c) fun w => A_eq1 (atRefs (W1 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (atRefs (W1 m)) c
    unfold Pipeline.ΦA at h
    rw [show (pdats m 1 c).Φ 0 = (dat1 (atRefs (W1 m)) c).Φ 0 from rfl]
    iintro ⟨Hp, -, Hr⟩
    iapply h
    isplitl [Hr]; · iexact Hr
    iexact Hp
  hout c := by
    rw [Pipeline.ownSems0_none]
    have h := hout1 (atRefs (W1 m)) c
    unfold Pipeline.ΦA at h
    rw [show (pdats m 1 c).Φ (Fin.last _) = (dat1 (atRefs (W1 m)) c).Φ (Fin.last cfg1.N) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (W1 m) c) (atRefs (W2 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: an input its entry contents, the output the
    write-backs' fold. -/
theorem hF2 (c : Dev nD) (w : Fin cfg2.W) : (pdats m 2 c).arrAt w cfg2.N = atRefs (W3 m) c (Pipeline.arrRef spec2 w) := by
  show (dat2 (atRefs (W2 m)) c).arrAt w cfg2.N = _
  match w with
  | ⟨3, _⟩ => exact (show W3 m c (Proc.devRef .tc main_v2) = (dat2 (atRefs (W2 m)) c).arrAt 3 cfg2.N from by unfold W3; rw [Function.update_self]).symm
  | ⟨0, _⟩ => exact ((dat2 (atRefs (W2 m)) c).arrAt_in 0 rfl _).trans ((A_eq2 (atRefs (W2 m)) c 0).trans (Function.update_of_ne (StableHlo.devRef_ne_of_ne (by decide)) _ _).symm)
  | ⟨1, _⟩ => exact ((dat2 (atRefs (W2 m)) c).arrAt_in 1 rfl _).trans ((A_eq2 (atRefs (W2 m)) c 1).trans (Function.update_of_ne (StableHlo.devRef_ne_of_ne (by decide)) _ _).symm)
  | ⟨2, _⟩ => exact ((dat2 (atRefs (W2 m)) c).arrAt_in 2 rfl _).trans ((A_eq2 (atRefs (W2 m)) c 2).trans (Function.update_of_ne (StableHlo.devRef_ne_of_ne (by decide)) _ _).symm)

/-- Every buffer that is no array of region 2 leaves it as it entered. -/
theorem hrest2 (c : Dev nD) : ∀ b, b ∉ Finset.univ.image (Pipeline.arrRef spec2) → atRefs (W3 m) c b = atRefs (W2 m) c b :=
  fun b hb => Function.update_of_ne (StableHlo.devRef_ne_of_ne fun e => hb (Finset.mem_image.mpr ⟨3, Finset.mem_univ _, e.symm⟩)) _ _

-- a library lemma stated over the pinned configuration unifies with the printed one only when unification may unfold
-- plain definitions in a metavariable's type
set_option backward.isDefEq.respectTransparency.types false in
/-- Region 2 over the thread state: its arrays split out of the unscoped buffers at entry and put back at the exit
    contents; the generator register into the region's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (W2 m)) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (atRefs (W2 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (W2 m) c) fun w => A_eq2 (atRefs (W2 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (atRefs (W2 m)) c
    unfold Pipeline.ΦA at h
    rw [show (pdats m 2 c).Φ 0 = (dat2 (atRefs (W2 m)) c).Φ 0 from rfl]
    iintro ⟨Hp, -, Hr⟩
    iapply h
    isplitl [Hr]; · iexact Hr
    iexact Hp
  hout c := by
    rw [Pipeline.ownSems0_none]
    have h := hout2 (atRefs (W2 m)) c
    unfold Pipeline.ΦA at h
    rw [show (pdats m 2 c).Φ (Fin.last _) = (dat2 (atRefs (W2 m)) c).Φ (Fin.last cfg2.N) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (W2 m) c) (atRefs (W3 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the pipeline leaves: an input its entry contents, the output the
    write-backs' fold. -/
theorem hF3 (c : Dev nD) (w : Fin cfg3.W) : (pdats m 3 c).arrAt w cfg3.N = atRefs (W4 m) c (Pipeline.arrRef spec3 w) := by
  show (dat3 (atRefs (W3 m)) c).arrAt w cfg3.N = _
  match w with
  | ⟨3, _⟩ => exact (show W4 m c (Proc.devRef .tc main_v3) = (dat3 (atRefs (W3 m)) c).arrAt 3 cfg3.N from by unfold W4; rw [Function.update_self]).symm
  | ⟨0, _⟩ => exact ((dat3 (atRefs (W3 m)) c).arrAt_in 0 rfl _).trans ((A_eq3 (atRefs (W3 m)) c 0).trans (Function.update_of_ne (StableHlo.devRef_ne_of_ne (by decide)) _ _).symm)
  | ⟨1, _⟩ => exact ((dat3 (atRefs (W3 m)) c).arrAt_in 1 rfl _).trans ((A_eq3 (atRefs (W3 m)) c 1).trans (Function.update_of_ne (StableHlo.devRef_ne_of_ne (by decide)) _ _).symm)
  | ⟨2, _⟩ => exact ((dat3 (atRefs (W3 m)) c).arrAt_in 2 rfl _).trans ((A_eq3 (atRefs (W3 m)) c 2).trans (Function.update_of_ne (StableHlo.devRef_ne_of_ne (by decide)) _ _).symm)

/-- Every buffer that is no array of region 3 leaves it as it entered. -/
theorem hrest3 (c : Dev nD) : ∀ b, b ∉ Finset.univ.image (Pipeline.arrRef spec3) → atRefs (W4 m) c b = atRefs (W3 m) c b :=
  fun b hb => Function.update_of_ne (StableHlo.devRef_ne_of_ne fun e => hb (Finset.mem_image.mpr ⟨3, Finset.mem_univ _, e.symm⟩)) _ _

-- a library lemma stated over the pinned configuration unifies with the printed one only when unification may unfold
-- plain definitions in a metavariable's type
set_option backward.isDefEq.respectTransparency.types false in
/-- Region 3 over the thread state: its arrays split out of the unscoped buffers at entry and put back at the exit
    contents; the generator register into the region's invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (W3 m)) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (atRefs (W3 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (W3 m) c) fun w => A_eq3 (atRefs (W3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (atRefs (W3 m)) c
    unfold Pipeline.ΦA at h
    rw [show (pdats m 3 c).Φ 0 = (dat3 (atRefs (W3 m)) c).Φ 0 from rfl]
    iintro ⟨Hp, -, Hr⟩
    iapply h
    isplitl [Hr]; · iexact Hr
    iexact Hp
  hout c := by
    rw [Pipeline.ownSems0_none]
    have h := hout3 (atRefs (W3 m)) c
    unfold Pipeline.ΦA at h
    rw [show (pdats m 3 c).Φ (Fin.last _) = (dat3 (atRefs (W3 m)) c).Φ (Fin.last cfg3.N) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (W3 m) c) (atRefs (W4 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 0: the first Chebyshev step, with the copy of `L` -/

/-- At region 0's exit each of its arrays holds what the pipeline leaves: `L` and `x` (staged by two windows) their entry
    contents, the two outputs their write-backs' folds. -/
theorem hF0 (c : Dev nD) (w : Fin cfg0.W) : (pdats m 0 c).arrAt w cfg0.N = atRefs (W1 m) c (Pipeline.arrRef spec0 w) := by
  show (dat0 (atRefs (V0 m)) c).arrAt w cfg0.N = _
  match w with
  | ⟨4, _⟩ => exact (show W1 m c (Proc.devRef .tc main_v0_1) = (dat0 (atRefs (V0 m)) c).arrAt 4 cfg0.N from by unfold W1; rw [Function.update_self]).symm
  | ⟨3, _⟩ => exact (show W1 m c (Proc.devRef .tc main_v0_0) = (dat0 (atRefs (V0 m)) c).arrAt 3 cfg0.N from by
      unfold W1; rw [Function.update_of_ne (StableHlo.devRef_ne_of_ne (by decide) : (Proc.devRef .tc main_v0_0 : DevRef τ sig) ≠ Proc.devRef .tc main_v0_1), Function.update_self]).symm
  | ⟨0, _⟩ => exact ((dat0 (atRefs (V0 m)) c).arrAt_in 0 rfl _).trans ((A_eq0 (atRefs (V0 m)) c 0).trans ((Function.update_of_ne (StableHlo.devRef_ne_of_ne (by decide)) _ _).trans (Function.update_of_ne (StableHlo.devRef_ne_of_ne (by decide)) _ _)).symm)
  | ⟨1, _⟩ => exact ((dat0 (atRefs (V0 m)) c).arrAt_in 1 rfl _).trans ((A_eq0 (atRefs (V0 m)) c 1).trans ((Function.update_of_ne (StableHlo.devRef_ne_of_ne (by decide)) _ _).trans (Function.update_of_ne (StableHlo.devRef_ne_of_ne (by decide)) _ _)).symm)
  | ⟨2, _⟩ => exact ((dat0 (atRefs (V0 m)) c).arrAt_in 2 rfl _).trans ((A_eq0 (atRefs (V0 m)) c 2).trans ((Function.update_of_ne (StableHlo.devRef_ne_of_ne (by decide)) _ _).trans (Function.update_of_ne (StableHlo.devRef_ne_of_ne (by decide)) _ _)).symm)

/-- Every buffer that is no array of region 0 leaves it as it entered. -/
theorem hrest0 (c : Dev nD) : ∀ b, b ∉ Finset.univ.image (Pipeline.arrRef spec0) → atRefs (W1 m) c b = atRefs (V0 m) c b :=
  fun b hb => (Function.update_of_ne (StableHlo.devRef_ne_of_ne fun e => hb (Finset.mem_image.mpr ⟨4, Finset.mem_univ _, e.symm⟩)) _ _).trans
    (Function.update_of_ne (StableHlo.devRef_ne_of_ne fun e => hb (Finset.mem_image.mpr ⟨3, Finset.mem_univ _, e.symm⟩)) _ _)

set_option backward.isDefEq.respectTransparency.types false in
/-- Region 0 over the thread state. Two of its input windows stage the same array `x`, each at one half of the full
    share; the entry deals the two half shares out of the unscoped buffers and the exit joins them again. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (atRefs (V0 m)) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (atRefs (V0 m) c)
  hentry c := by
    rw [Pipeline.ownSems0_none]
    have hsplit := arrays_split0 (atRefs (V0 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (atRefs (V0 m)) c
    unfold Pipeline.ΦA at h
    rw [show (pdats m 0 c).Φ 0 = (dat0 (atRefs (V0 m)) c).Φ 0 from rfl]
    iintro ⟨Hp, -, Hr⟩
    iapply h
    isplitl [Hr]; · iexact Hr
    iexact Hp
  hout c := by
    rw [Pipeline.ownSems0_none]
    have h := hout0 (atRefs (V0 m)) c
    unfold Pipeline.ΦA at h
    rw [show (pdats m 0 c).Φ (Fin.last _) = (dat0 (atRefs (V0 m)) c).Φ (Fin.last cfg0.N) from rfl]
    iintro Hf
    ihave H := h $$ Hf
    icases H with ⟨Hr, Hp⟩
    isplitl [Hp]; · iexact Hp
    isplitr; · iempintro
    iexact Hr
  hexit c := by
    have hjoin := arrays_join0 (atRefs (V0 m)) c (atRefs (W1 m) c) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run of @main -/

-- the launch theorem's implicit arguments are found by unifying its conclusion with this one
set_option backward.isDefEq.respectTransparency.types false in
/-- Every weakly fair execution of @main from memory `m` with zero counters terminates, and the final memory holds the
    result array at what the last region's write-backs leave and each argument as launched. -/
theorem run (ρ : Dev nD → PrngReg) : θ_run defs (onTc (τ := τ) (main (F := F))) ⟨m, fun _ => 0, ρ⟩ (fun r => ∀ c : Dev nD,
      r.2.mem ((c.tc : Thread nD τ).loc main_v5) = (dat4 (atRefs (W5 m)) c).arrAt 7 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_cond (F := F) m (emb₁) () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE5 := fun c => by
      iintro ⟨-, HO⟩; iexact HO)
    (reg0 m) (fun c => .rfl) (fun c => by rw [V1_eq m c]; exact .rfl)
    (reg1 m) (fun c => by rw [V1_eq m c]; exact .rfl) (fun c => by rw [V2_eq m c]; exact .rfl)
    (reg2 m) (fun c => by rw [V2_eq m c]; exact .rfl) (fun c => by rw [V3_eq m c]; exact .rfl)
    (reg3 m) (fun c => by rw [V3_eq m c]; exact .rfl) (fun c => by rw [V4_eq m c]; exact .rfl)
    (reg4 m) (fun c => by rw [V5_eq m c]; exact .rfl) (fun c => by rw [V6_eq m c]; exact .rfl)
  refine h.mono fun r hr c => ⟨(hr c).1.trans ?_, (hr c).2⟩
  simp only [outs, W6, Function.update_self]

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (run m ρ).mono fun r hr c => (hr c).2

end Cert.KernelIdeal.Hand

end
-- ==== Proof.Spec.lean ====
import Idealize.ShloMosaic.PureOps.Ideal
import Idealize.ShloMosaic.Lib.ValueIdx

/-!
# The specification: four Chebyshev steps and a dense layer

For a square matrix `L`, a feature matrix `x`, weights `W` (five slabs of 256 rows) and a bias `b`, over the
extended reals:

* `T1 = L·x`, `T2 = 2·L·T1 − x`, `T3 = 2·L·T2 − T1`, `T4 = 2·L·T3 − T2` (the Chebyshev recurrence);
* `out = max (x·W₀ + T1·W₁ + T2·W₂ + T3·W₃ + T4·W₄ + b) 0`, the five products added left to right.

Every function is stated index by index over the literal shapes; the float word of the constant two is kept as a word.
-/

noncomputable section

open scoped BigOperators

namespace Cert.Spec

open Idealize.ShloMosaic Idealize.ShloMosaic.ValueIdx

/-- The square operator `L`: 8192 × 8192. -/
abbrev SL : Shape := ⟨2, ![8192, 8192]⟩
/-- A feature matrix: 8192 × 256. -/
abbrev SX : Shape := ⟨2, ![8192, 256]⟩
/-- The dense weights: 1280 × 256, five slabs of 256 rows. -/
abbrev SW : Shape := ⟨2, ![1280, 256]⟩
/-- The bias: 256. -/
abbrev SB : Shape := ⟨1, ![256]⟩

/-- The constant two, as the extended real its float word denotes. -/
def two : EReal := Ideal.ofBits .f32 0x40000000#32

/-- The product `L·t` at an entry: the contraction over the 8192 columns of `L`. -/
def mm (L : SL.Idx → EReal) (t : SX.Idx → EReal) : SX.Idx → EReal :=
  fun i => ∑ k : Fin 8192, L (ix2 (i 0 : Fin 8192) k) * t (ix2 k (i 1 : Fin 256))

/-- First Chebyshev term: `L·x`. -/
def T1 (L : SL.Idx → EReal) (x : SX.Idx → EReal) : SX.Idx → EReal := mm L x
/-- Second: `2·L·T1 − x`. -/
def T2 (L : SL.Idx → EReal) (x : SX.Idx → EReal) : SX.Idx → EReal :=
  fun i => two * mm L (T1 L x) i - x i
/-- Third: `2·L·T2 − T1`. -/
def T3 (L : SL.Idx → EReal) (x : SX.Idx → EReal) : SX.Idx → EReal :=
  fun i => two * mm L (T2 L x) i - T1 L x i
/-- Fourth: `2·L·T3 − T2`. -/
def T4 (L : SL.Idx → EReal) (x : SX.Idx → EReal) : SX.Idx → EReal :=
  fun i => two * mm L (T3 L x) i - T2 L x i

/-- One slab's product at an entry: `t` against the 256 rows of `W` starting at row `o`. -/
def slab (o : Nat) (ho : o + 256 ≤ 1280) (t : SX.Idx → EReal) (W : SW.Idx → EReal) (i : SX.Idx) : EReal :=
  ∑ d : Fin 256, t (ix2 (i 0 : Fin 8192) d) * W (ix2 (⟨o + d.val, by have := d.isLt; omega⟩ : Fin 1280) (i 1 : Fin 256))

/-- The dense layer: the five slab products added left to right, then the bias, then the maximum with zero. -/
def dense (t0 t1 t2 t3 t4 : SX.Idx → EReal) (W : SW.Idx → EReal) (b : SB.Idx → EReal) : SX.Idx → EReal :=
  fun i => max ((((((slab 0 (by norm_num) t0 W i) + slab 256 (by norm_num) t1 W i) + slab 512 (by norm_num) t2 W i)
    + slab 768 (by norm_num) t3 W i) + slab 1024 (by norm_num) t4 W i) + b (ix1 (i 1 : Fin 256))) 0

/-- The whole result. -/
def out (L : SL.Idx → EReal) (x : SX.Idx → EReal) (W : SW.Idx → EReal) (b : SB.Idx → EReal) : SX.Idx → EReal :=
  dense x (T1 L x) (T2 L x) (T3 L x) (T4 L x) W b

end Cert.Spec

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.SpecLaws.lean ====
import Mathlib.Algebra.BigOperators.Fin
import Idealize.ShloMosaic.PureOps.Ideal
import Idealize.ShloMosaic.PureOps.Ideal.Laws
import proofs.«104635_j41927470743646_2_alg».proof.Proof.LibBlockSum

/-!
# Laws between the arrangements of the sums, and the constants

Only commutativity and associativity of addition are used for the sums (an additive commutative monoid; the extended
reals are one), so no finiteness hypothesis appears.

* `sum_slabs`: one sum over 1280 columns is the five sums over its consecutive slabs of 256, added left to right.
* `acc`: the left-to-right fold over consecutive blocks of `B` terms, starting from zero; `acc_full`: after all `A`
  blocks it is the sum over all `A·B` terms. Instances: 8 blocks of 1024 and 4 blocks of 2048 (both 8192 terms).
* the float words of `1`, `-1` and `0` as extended reals, and the identities `a + (-1)·y = a - y`, `1·a + 0·x = a`.
-/

noncomputable section

open scoped BigOperators

namespace Cert.SpecLaws

open Idealize.ShloMosaic

section Sums

variable {M : Type*} [AddCommMonoid M]

/-- A sum over 1280 columns, slab by slab: five slabs of 256 consecutive columns, added left to right. -/
theorem sum_slabs (f : Fin 1280 → M) :
    ∑ k : Fin 1280, f k
      = ((((∑ d : Fin 256, f ⟨0 + d.val, by have := d.isLt; omega⟩)
          + ∑ d : Fin 256, f ⟨256 + d.val, by have := d.isLt; omega⟩)
          + ∑ d : Fin 256, f ⟨512 + d.val, by have := d.isLt; omega⟩)
          + ∑ d : Fin 256, f ⟨768 + d.val, by have := d.isLt; omega⟩)
          + ∑ d : Fin 256, f ⟨1024 + d.val, by have := d.isLt; omega⟩ := by
  refine (Cert.LibBlockSum.sum_blocks 5 256 f).symm.trans ?_
  rw [Fin.sum_univ_five]
  rfl

/-- Term `r` of block `n` (blocks of `B` terms) is among the first `A·B` terms when block `n` is one of the `A`. -/
theorem block_lt {A B n r : ℕ} (hn : n + 1 ≤ A) (hr : r < B) : n * B + r < A * B :=
  calc n * B + r < n * B + B := by omega
    _ = (n + 1) * B := (Nat.succ_mul n B).symm
    _ ≤ A * B := Nat.mul_le_mul_right B hn

/-- The fold over the first `n` blocks of `B` consecutive terms, from zero, one block's sum added at a time. -/
def acc (A B : ℕ) (f : Fin (A * B) → M) : (n : ℕ) → n ≤ A → M
  | 0, _ => 0
  | n + 1, h => acc A B f n (Nat.le_of_succ_le h) + ∑ r : Fin B, f ⟨n * B + r.val, block_lt h r.isLt⟩

theorem acc_zero (A B : ℕ) (f : Fin (A * B) → M) (h : 0 ≤ A) : acc A B f 0 h = 0 := rfl

theorem acc_succ (A B : ℕ) (f : Fin (A * B) → M) (n : ℕ) (h : n + 1 ≤ A) :
    acc A B f (n + 1) h
      = acc A B f n (Nat.le_of_succ_le h) + ∑ r : Fin B, f ⟨n * B + r.val, block_lt h r.isLt⟩ := rfl

/-- The fold over the first `n` blocks is the double sum over those blocks and their terms. -/
theorem acc_eq_sum (A B : ℕ) (f : Fin (A * B) → M) (n : ℕ) (h : n ≤ A) :
    acc A B f n h
      = ∑ p : Fin n, ∑ r : Fin B, f ⟨p.val * B + r.val, block_lt (by have := p.isLt; omega) r.isLt⟩ := by
  induction n with
  | zero => rw [acc_zero, Fin.sum_univ_zero]
  | succ n ih => rw [acc_succ, ih, Fin.sum_univ_castSucc]; rfl

/-- After all `A` blocks the fold is the sum over all `A·B` terms. -/
theorem acc_full (A B : ℕ) (f : Fin (A * B) → M) : acc A B f A le_rfl = ∑ k : Fin (A * B), f k := by
  rw [acc_eq_sum, ← Cert.LibBlockSum.sum_blocks A B f]
  refine Finset.sum_congr rfl fun p _ => Finset.sum_congr rfl fun r _ => congrArg f (Fin.ext ?_)
  show p.val * B + r.val = B * p.val + r.val
  rw [Nat.mul_comm]

/-- 8192 terms as 8 consecutive blocks of 1024, folded left to right from zero. -/
theorem acc_8x1024 (f : Fin 8192 → M) : acc 8 1024 f 8 le_rfl = ∑ k : Fin 8192, f k := acc_full 8 1024 f

/-- 8192 terms as 4 consecutive blocks of 2048, folded left to right from zero. -/
theorem acc_4x2048 (f : Fin 8192 → M) : acc 4 2048 f 4 le_rfl = ∑ k : Fin 8192, f k := acc_full 4 2048 f

end Sums

/-! ## The constants' words, and the identities they are used in -/

/-- The word of `1.0` denotes `1`. -/
theorem ofBits_one : Ideal.ofBits .f32 0x3F800000#32 = 1 := by
  simp [Ideal.ofBits, Ideal.ieee, -EReal.coe_mul]; norm_num

/-- The word of `-1.0` denotes `-1`. -/
theorem ofBits_negone : Ideal.ofBits .f32 0xBF800000#32 = ((-1 : ℝ) : EReal) := by
  simp [Ideal.ofBits, Ideal.ieee, -EReal.coe_mul]; norm_num

/-- The word of `+0.0` denotes `0`. -/
theorem ofBits_zero : Ideal.ofBits .f32 0x00000000#32 = 0 := Ideal.ofBits_zero_f32

/-- Adding `(-1)·y` is subtracting `y`, on every extended real. -/
theorem add_negone_mul (a y : EReal) : a + ((-1 : ℝ) : EReal) * y = a - y := by
  rw [EReal.coe_neg, EReal.coe_one, neg_one_mul, sub_eq_add_neg]

/-- The same with the constant still a word. -/
theorem add_ofBits_negone_mul (a y : EReal) : a + Ideal.ofBits .f32 0xBF800000#32 * y = a - y := by
  rw [ofBits_negone, add_negone_mul]

/-- `1·a + 0·x = a`, on every extended real. -/
theorem one_mul_add_zero_mul (a x : EReal) : (1 : EReal) * a + 0 * x = a := by
  rw [one_mul, zero_mul, add_zero]

/-- The same with the constants still words. -/
theorem ofBits_one_mul_add_ofBits_zero_mul (a x : EReal) :
    Ideal.ofBits .f32 0x3F800000#32 * a + Ideal.ofBits .f32 0x00000000#32 * x = a := by
  rw [ofBits_one, ofBits_zero, one_mul_add_zero_mul]

end Cert.SpecLaws

end
-- ==== Proof.KernelForm.lean ====
import proofs.«104635_j41927470743646_2_alg».proof.Proof.Spec
import proofs.«104635_j41927470743646_2_alg».proof.Proof.SpecLaws

/-!
# The blockwise arrangement of each step, and its equality with the specification

The same mathematics as the specification, arranged block by block:

* `mm8` / `mm4`: the contraction over the 8192 columns of `L` taken as the left-to-right fold, from zero, over 8
  consecutive blocks of 1024 columns (over 4 blocks of 2048);
* `step0`: `1·(L·x) + 0·x`, the first Chebyshev term; `step`: `2·(L·t₁) + (−1)·t₀`, the recurrence's step;
* `dense2`: the dense layer with the bias held as a one-row matrix and the maximum taken against the zero word.

Each equals the specification's function (`mm8_eq`, `mm4_eq`, `step0_eq`, `step_eq`, `dense2_eq`), and the five steps
composed are the specification's result (`out_eq`). No finiteness hypothesis is needed.
-/

noncomputable section

open scoped BigOperators

namespace Cert.KernelForm

open Idealize.ShloMosaic Idealize.ShloMosaic.ValueIdx Cert.Spec

/-- `L·t` at an entry, the contraction folded left to right over 8 blocks of 1024 columns, from zero. -/
def mm8 (L : SL.Idx → EReal) (t : SX.Idx → EReal) : SX.Idx → EReal :=
  fun i => Cert.SpecLaws.acc 8 1024
    (fun k : Fin 8192 => L (ix2 (i 0 : Fin 8192) k) * t (ix2 k (i 1 : Fin 256))) 8 le_rfl

/-- `L·t` at an entry, the contraction folded left to right over 4 blocks of 2048 columns, from zero. -/
def mm4 (L : SL.Idx → EReal) (t : SX.Idx → EReal) : SX.Idx → EReal :=
  fun i => Cert.SpecLaws.acc 4 2048
    (fun k : Fin 8192 => L (ix2 (i 0 : Fin 8192) k) * t (ix2 k (i 1 : Fin 256))) 4 le_rfl

/-- The first step: `1·(L·x) + 0·x`. -/
def step0 (L : SL.Idx → EReal) (x : SX.Idx → EReal) : SX.Idx → EReal :=
  fun i => Ideal.ofBits .f32 0x3F800000#32 * mm8 L x i + Ideal.ofBits .f32 0x00000000#32 * x i

/-- A step of the recurrence: `2·(L·t₁) + (−1)·t₀`. -/
def step (L : SL.Idx → EReal) (t1 t0 : SX.Idx → EReal) : SX.Idx → EReal :=
  fun i => Cert.Spec.two * mm4 L t1 i + Ideal.ofBits .f32 0xBF800000#32 * t0 i

/-- The dense layer with the bias a one-row matrix, the maximum against the zero word. -/
def dense2 (t0 t1 t2 t3 t4 : SX.Idx → EReal) (W : SW.Idx → EReal) (b2 : (⟨2, ![1, 256]⟩ : Shape).Idx → EReal) :
    SX.Idx → EReal :=
  fun i => max ((((((slab 0 (by norm_num) t0 W i) + slab 256 (by norm_num) t1 W i) + slab 512 (by norm_num) t2 W i)
    + slab 768 (by norm_num) t3 W i) + slab 1024 (by norm_num) t4 W i) + b2 (ix2 (0 : Fin 1) (i 1 : Fin 256)))
    (Ideal.ofBits .f32 0x00000000#32)

/-- The fold over 8 blocks of 1024 is the contraction. -/
theorem mm8_eq (L : SL.Idx → EReal) (t : SX.Idx → EReal) : mm8 L t = Cert.Spec.mm L t :=
  funext fun _ => Cert.SpecLaws.acc_8x1024 _

/-- The fold over 4 blocks of 2048 is the contraction. -/
theorem mm4_eq (L : SL.Idx → EReal) (t : SX.Idx → EReal) : mm4 L t = Cert.Spec.mm L t :=
  funext fun _ => Cert.SpecLaws.acc_4x2048 _

/-- The first step is the first Chebyshev term. -/
theorem step0_eq (L : SL.Idx → EReal) (x : SX.Idx → EReal) : step0 L x = Cert.Spec.T1 L x := by
  funext i
  unfold step0
  rw [Cert.SpecLaws.ofBits_one_mul_add_ofBits_zero_mul, mm8_eq]
  rfl

/-- A step is `2·(L·t₁) − t₀`. -/
theorem step_eq (L : SL.Idx → EReal) (t1 t0 : SX.Idx → EReal) :
    step L t1 t0 = fun i => Cert.Spec.two * Cert.Spec.mm L t1 i - t0 i := by
  funext i
  unfold step
  rw [Cert.SpecLaws.add_ofBits_negone_mul, mm4_eq]

/-- The dense layer with the bias as a row, against the zero word, is the specification's. -/
theorem dense2_eq (t0 t1 t2 t3 t4 : SX.Idx → EReal) (W : SW.Idx → EReal) (b : SB.Idx → EReal)
    (b2 : (⟨2, ![1, 256]⟩ : Shape).Idx → EReal) (hb : ∀ j : Fin 256, b2 (ix2 (0 : Fin 1) j) = b (ix1 j)) :
    dense2 t0 t1 t2 t3 t4 W b2 = Cert.Spec.dense t0 t1 t2 t3 t4 W b := by
  funext i
  unfold dense2 Cert.Spec.dense
  rw [hb (i 1), Cert.SpecLaws.ofBits_zero]

/-- The five steps composed are the specification's result. -/
theorem out_eq (L : SL.Idx → EReal) (x : SX.Idx → EReal) (W : SW.Idx → EReal) (b : SB.Idx → EReal)
    (b2 : (⟨2, ![1, 256]⟩ : Shape).Idx → EReal) (hb : ∀ j : Fin 256, b2 (ix2 (0 : Fin 1) j) = b (ix1 j)) :
    dense2 x (step0 L x) (step L (step0 L x) x) (step L (step L (step0 L x) x) (step0 L x))
      (step L (step L (step L (step0 L x) x) (step0 L x)) (step L (step0 L x) x)) W b2
      = Cert.Spec.out L x W b := by
  have e1 : step0 L x = Cert.Spec.T1 L x := step0_eq L x
  have e2 : step L (Cert.Spec.T1 L x) x = Cert.Spec.T2 L x := step_eq L _ _
  have e3 : step L (Cert.Spec.T2 L x) (Cert.Spec.T1 L x) = Cert.Spec.T3 L x := step_eq L _ _
  have e4 : step L (Cert.Spec.T3 L x) (Cert.Spec.T2 L x) = Cert.Spec.T4 L x := step_eq L _ _
  rw [e1, e2, e3, e4, dense2_eq _ _ _ _ _ W b b2 hb]
  rfl

end Cert.KernelForm

end
-- ==== Proof.KI.Value.lean ====
import proofs.«104635_j41927470743646_2_alg».proof.Proof.KI.Run
import proofs.«104635_j41927470743646_2_alg».proof.Proof.KernelForm
import Idealize.ShloMosaic.Lib.ValueLayout

/-!
# The kernel's result is the specification

Between the items of the program each buffer holds what the items before left. Read at a reference, those contents are
the launch contents (an argument is never written), a region's output at what its write-backs leave, and the bias row
the bias read row-major. Given what each region's write-backs leave as a function of its entry contents — the blockwise
arrangement of a Chebyshev step, or of the dense layer — the result array is the five steps composed, which is the
specification.
-/

noncomputable section

namespace Cert.KernelIdeal.Hand

open Cert.KernelIdeal Cert.KernelIdeal.Gen
open Cert.KernelIdeal.Reg0 Cert.KernelIdeal.Reg1 Cert.KernelIdeal.Reg2 Cert.KernelIdeal.Reg3 Cert.KernelIdeal.Reg4
open Idealize.ShloMosaic Idealize.ShloMosaic.TcCoe Idealize.ShloMosaic.ValueIdx
open Idealize.SL.Sem

/-! ## The contents between the items, read at a reference -/

section Reads

variable {F : FTy → Type} [FloatOps F]
variable (m : (ℓ : Loc nD τ sig) → Buf (Elt F) ℓ) (c : Dev nD)

/-- After region 0 a reference other than its two outputs holds its launch contents. -/
theorem W1_of (r : Ref sig .tc) (h0 : r ≠ main_v0_0) (h1 : r ≠ main_v0_1) : W1 m c r = V0 m c r := by
  unfold W1
  rw [Function.update_of_ne (StableHlo.devRef_ne_of_ne h1), Function.update_of_ne (StableHlo.devRef_ne_of_ne h0)]
/-- After region 0 its first output holds what its write-backs leave. -/
theorem W1_v0_0 : W1 m c main_v0_0 = (dat0 (atRefs (V0 m)) c).arrAt 3 cfg0.N := by
  unfold W1
  rw [Function.update_of_ne (StableHlo.devRef_ne_of_ne (by decide) : (Proc.devRef .tc main_v0_0 : DevRef τ sig) ≠ Proc.devRef .tc main_v0_1),
    Function.update_self]
/-- After region 0 its second output holds what its write-backs leave. -/
theorem W1_v0_1 : W1 m c main_v0_1 = (dat0 (atRefs (V0 m)) c).arrAt 4 cfg0.N := by
  unfold W1; rw [Function.update_self]

/-- After region 1 a reference other than its output holds what region 0 left. -/
theorem W2_of (r : Ref sig .tc) (h : r ≠ main_v1) : W2 m c r = W1 m c r := by
  unfold W2; rw [Function.update_of_ne (StableHlo.devRef_ne_of_ne h)]
theorem W2_v1 : W2 m c main_v1 = (dat1 (atRefs (W1 m)) c).arrAt 3 cfg1.N := by
  unfold W2; rw [Function.update_self]

/-- After region 2 a reference other than its output holds what region 1 left. -/
theorem W3_of (r : Ref sig .tc) (h : r ≠ main_v2) : W3 m c r = W2 m c r := by
  unfold W3; rw [Function.update_of_ne (StableHlo.devRef_ne_of_ne h)]
theorem W3_v2 : W3 m c main_v2 = (dat2 (atRefs (W2 m)) c).arrAt 3 cfg2.N := by
  unfold W3; rw [Function.update_self]

/-- After region 3 a reference other than its output holds what region 2 left. -/
theorem W4_of (r : Ref sig .tc) (h : r ≠ main_v3) : W4 m c r = W3 m c r := by
  unfold W4; rw [Function.update_of_ne (StableHlo.devRef_ne_of_ne h)]
theorem W4_v3 : W4 m c main_v3 = (dat3 (atRefs (W3 m)) c).arrAt 3 cfg3.N := by
  unfold W4; rw [Function.update_self]

/-- The reshape of the bias writes the row only. -/
theorem W5_of (r : Ref sig .tc) (h : r ∉ hostOps4_W) : W5 m c r = W4 m c r :=
  StableHlo.after_of_writes_sub hostOps4 _ hostOps4_writes h

end Reads

/-! ## The bias row -/

section Bias

variable {F : FTy → Type} [FloatOps F]
variable (m : (ℓ : Loc nD τ sig) → Buf (Elt F) ℓ) (c : Dev nD)

/-- The bias is never written: before the reshape it holds its launch contents. -/
theorem W4_arg3 : W4 m c main_arg3 = m ((c.tc : Thread nD τ).loc main_arg3) :=
  (W4_of m c main_arg3 (by decide)).trans <| (W3_of m c main_arg3 (by decide)).trans <|
    (W2_of m c main_arg3 (by decide)).trans <| (W1_of m c main_arg3 (by decide) (by decide)).trans rfl

/-- After the reshape the row holds the bias read row-major at the row's shape. -/
theorem W5_v4 : W5 m c main_v4 = shapeCast S1x256 (W4 m c main_arg3) shapeCasts_S256_S1x256 := by
  show StableHlo.after hostOps4 (W4 m c) (Proc.devRef .tc main_v4) = _
  after_results
  rfl

/-- The row at column `j` is the bias at `j`, as launched. -/
theorem W5_v4_apply (j : Fin 256) :
    W5 m c main_v4 (ix2 (0 : Fin 1) j) = m ((c.tc : Thread nD τ).loc main_arg3) (ix1 j) := by
  rw [W5_v4]
  exact (shapeCast_a_1a_apply (a := 256) (W4 m c main_arg3) shapeCasts_S256_S1x256 0 j).trans
    (congrFun (W4_arg3 m c) _)

end Bias

/-! ## The kernel's result is the specification -/

section Result

variable (m : (ℓ : Loc nD τ sig) → Buf (Elt Ideal) ℓ) (c : Dev nD)

/-- What the five regions' write-backs leave, as functions of each region's entry contents: the blockwise arrangement
    of the Chebyshev steps and of the dense layer. -/
structure RegionValues : Prop where
  out0_T : ∀ (V : (c : Dev nD) → (b : Ref sig .tc) → Buf (Elt Ideal) ((c : Thread nD τ).loc b)) (c : Dev nD),
    (dat0 (F := Ideal) V c).arrAt 3 cfg0.N = Cert.KernelForm.step0 (V c main_arg0) (V c main_arg1)
  out0_L : ∀ (V : (c : Dev nD) → (b : Ref sig .tc) → Buf (Elt Ideal) ((c : Thread nD τ).loc b)) (c : Dev nD),
    (dat0 (F := Ideal) V c).arrAt 4 cfg0.N = V c main_arg0
  out1 : ∀ (V : (c : Dev nD) → (b : Ref sig .tc) → Buf (Elt Ideal) ((c : Thread nD τ).loc b)) (c : Dev nD),
    (dat1 (F := Ideal) V c).arrAt 3 cfg1.N = Cert.KernelForm.step (V c main_v0_1) (V c main_v0_0) (V c main_arg1)
  out2 : ∀ (V : (c : Dev nD) → (b : Ref sig .tc) → Buf (Elt Ideal) ((c : Thread nD τ).loc b)) (c : Dev nD),
    (dat2 (F := Ideal) V c).arrAt 3 cfg2.N = Cert.KernelForm.step (V c main_v0_1) (V c main_v1) (V c main_v0_0)
  out3 : ∀ (V : (c : Dev nD) → (b : Ref sig .tc) → Buf (Elt Ideal) ((c : Thread nD τ).loc b)) (c : Dev nD),
    (dat3 (F := Ideal) V c).arrAt 3 cfg3.N = Cert.KernelForm.step (V c main_v0_1) (V c main_v2) (V c main_v1)
  out4 : ∀ (V : (c : Dev nD) → (b : Ref sig .tc) → Buf (Elt Ideal) ((c : Thread nD τ).loc b)) (c : Dev nD),
    (dat4 (F := Ideal) V c).arrAt 7 cfg4.N = Cert.KernelForm.dense2 (V c main_arg1) (V c main_v0_0) (V c main_v1) (V c main_v2)
      (V c main_v3) (V c main_arg2) (V c main_v4)

variable (hv : RegionValues)
include hv

/-- Region 0 leaves the first step in its first output … -/
theorem W1_v0_0_value : W1 m c main_v0_0
    = Cert.KernelForm.step0 (m ((c.tc : Thread nD τ).loc main_arg0)) (m ((c.tc : Thread nD τ).loc main_arg1)) :=
  (W1_v0_0 m c).trans (hv.out0_T (atRefs (V0 m)) c)
/-- … and `L` itself in its second. -/
theorem W1_v0_1_value : W1 m c main_v0_1 = m ((c.tc : Thread nD τ).loc main_arg0) :=
  (W1_v0_1 m c).trans (hv.out0_L (atRefs (V0 m)) c)

/-- Region 1 leaves the second step. -/
theorem W2_v1_value : W2 m c main_v1
    = Cert.KernelForm.step (m ((c.tc : Thread nD τ).loc main_arg0))
        (Cert.KernelForm.step0 (m ((c.tc : Thread nD τ).loc main_arg0)) (m ((c.tc : Thread nD τ).loc main_arg1)))
        (m ((c.tc : Thread nD τ).loc main_arg1)) := by
  refine (W2_v1 m c).trans ((hv.out1 (atRefs (W1 m)) c).trans ?_)
  show Cert.KernelForm.step (W1 m c main_v0_1) (W1 m c main_v0_0) (W1 m c main_arg1) = _
  rw [W1_v0_1_value m c hv, W1_v0_0_value m c hv, W1_of m c main_arg1 (by decide) (by decide)]

/-- Region 2 leaves the third step. -/
theorem W3_v2_value : W3 m c main_v2
    = Cert.KernelForm.step (m ((c.tc : Thread nD τ).loc main_arg0)) (W2 m c main_v1) (W1 m c main_v0_0) := by
  refine (W3_v2 m c).trans ((hv.out2 (atRefs (W2 m)) c).trans ?_)
  show Cert.KernelForm.step (W2 m c main_v0_1) (W2 m c main_v1) (W2 m c main_v0_0) = _
  rw [W2_of m c main_v0_1 (by decide), W2_of m c main_v0_0 (by decide), W1_v0_1_value m c hv]

/-- Region 3 leaves the fourth step. -/
theorem W4_v3_value : W4 m c main_v3
    = Cert.KernelForm.step (m ((c.tc : Thread nD τ).loc main_arg0)) (W3 m c main_v2) (W2 m c main_v1) := by
  refine (W4_v3 m c).trans ((hv.out3 (atRefs (W3 m)) c).trans ?_)
  show Cert.KernelForm.step (W3 m c main_v0_1) (W3 m c main_v2) (W3 m c main_v1) = _
  rw [W3_of m c main_v0_1 (by decide), W2_of m c main_v0_1 (by decide), W3_of m c main_v1 (by decide),
    W1_v0_1_value m c hv]

/-- The result array after the last region is the specification of the launch contents of the arguments. -/
theorem result_eq_of : (dat4 (F := Ideal) (atRefs (W5 m)) c).arrAt 7 cfg4.N
    = Cert.Spec.out (m ((c.tc : Thread nD τ).loc main_arg0)) (m ((c.tc : Thread nD τ).loc main_arg1))
        (m ((c.tc : Thread nD τ).loc main_arg2)) (m ((c.tc : Thread nD τ).loc main_arg3)) := by
  refine (hv.out4 (atRefs (W5 m)) c).trans ?_
  show Cert.KernelForm.dense2 (W5 m c main_arg1) (W5 m c main_v0_0) (W5 m c main_v1) (W5 m c main_v2) (W5 m c main_v3)
    (W5 m c main_arg2) (W5 m c main_v4) = _
  have e1 : W5 m c main_arg1 = m ((c.tc : Thread nD τ).loc main_arg1) :=
    (W5_of m c main_arg1 (by decide)).trans <| (W4_of m c main_arg1 (by decide)).trans <|
      (W3_of m c main_arg1 (by decide)).trans <| (W2_of m c main_arg1 (by decide)).trans <|
      (W1_of m c main_arg1 (by decide) (by decide)).trans rfl
  have e2 : W5 m c main_arg2 = m ((c.tc : Thread nD τ).loc main_arg2) :=
    (W5_of m c main_arg2 (by decide)).trans <| (W4_of m c main_arg2 (by decide)).trans <|
      (W3_of m c main_arg2 (by decide)).trans <| (W2_of m c main_arg2 (by decide)).trans <|
      (W1_of m c main_arg2 (by decide) (by decide)).trans rfl
  have e00 : W5 m c main_v0_0 = W1 m c main_v0_0 :=
    (W5_of m c main_v0_0 (by decide)).trans <| (W4_of m c main_v0_0 (by decide)).trans <|
      (W3_of m c main_v0_0 (by decide)).trans (W2_of m c main_v0_0 (by decide))
  have ev1 : W5 m c main_v1 = W2 m c main_v1 :=
    (W5_of m c main_v1 (by decide)).trans <| (W4_of m c main_v1 (by decide)).trans (W3_of m c main_v1 (by decide))
  have ev2 : W5 m c main_v2 = W3 m c main_v2 :=
    (W5_of m c main_v2 (by decide)).trans (W4_of m c main_v2 (by decide))
  have ev3 : W5 m c main_v3 = W4 m c main_v3 := W5_of m c main_v3 (by decide)
  rw [e1, e2, e00, ev1, ev2, ev3, W4_v3_value m c hv, W3_v2_value m c hv, W2_v1_value m c hv, W1_v0_0_value m c hv]
  exact Cert.KernelForm.out_eq _ _ _ _ _ (W5_v4_apply m c)

/-- Every weakly fair execution of the kernel program terminates with its result the specification of the arguments'
    launch contents, and the arguments unchanged. -/
theorem run_spec_of (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
          = Cert.Spec.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (run (F := Ideal) m ρ).mono fun r hr c => ⟨(hr c).1.trans (result_eq_of m c hv), (hr c).2⟩

end Result

end Cert.KernelIdeal.Hand

end
-- ==== Proof.KI.Reg0.Pieces.lean ====
import proofs.«104635_j41927470743646_2_alg».proof.Proof.KI.Reg0.Data
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each case leaves in each buffer, as the payloads of the input blocks -/

theorem hz : (![0, 0] : Fin 2 → Nat) = fun _ => 0 := funext fun a => by fin_cases a <;> rfl

/-! ## Case A -/

theorem gcover_A_4 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : cond0_0 i) (hc1 : ¬cond0_1 i) (x0 : Vec F S1024x1024 .f32) (x1 : Vec F S1024x256 .f32) (x2 : Vec F S1024x256 .f32) (y : S1024x1024.Idx) : ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1024x1024.size (by sl_kernel_rfl) y

theorem gscover_A (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : cond0_0 i) (hc1 : ¬cond0_1 i) (x0 : Vec F S1024x1024 .f32) (x1 : Vec F S1024x256 .f32) (x2 : Vec F S1024x256 .f32) (y : S1024x256.Idx) : ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1024x256.size (by sl_kernel_rfl) y

/-- Case A leaves in output 4 the cast of the operator's tile. -/
theorem piece_A_4 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : cond0_0 i) (hc1 : ¬cond0_1 i) (x0 : Vec F S1024x1024 .f32) (x1 : Vec F S1024x256 .f32) (x2 : Vec F S1024x256 .f32) :
    VO0_4.read (Elt F) (VO0_4.writes (Elt F) VO0_4.junk (kernelRun0_A c i arg2 harg2 arg3 harg3 arg4 harg4 arg5 harg5 arg6 harg6 arg7 harg7 hc0 hc1 x0 x1 x2).2.1) = k0_pay2 x0 := by
  rw [View.read_writes_eq_canon _ _ _ (gcover_A_4 c i arg2 harg2 arg3 harg3 arg4 harg4 arg5 harg5 arg6 harg6 arg7 harg7 hc0 hc1 x0 x1 x2)]
  unfold kernelRun0_A
  dsimp only
  try sl_unfold_words
  rw [View.canon_unit_zero hz]
  simp only [View.readAt_eq_ld, harg2.read_unread, View.ld_unit_zero (S := S1024x1024) hz]

/-- Case A leaves in the scratch zero plus the tile product. -/
theorem piece_A_s (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : cond0_0 i) (hc1 : ¬cond0_1 i) (x0 : Vec F S1024x1024 .f32) (x1 : Vec F S1024x256 .f32) (x2 : Vec F S1024x256 .f32) :
    VS0_0.read (Elt F) (VS0_0.writes (Elt F) VS0_0.junk (kernelRun0_A c i arg2 harg2 arg3 harg3 arg4 harg4 arg5 harg5 arg6 harg6 arg7 harg7 hc0 hc1 x0 x1 x2).2.2.1) = k0_pay3 x0 x1 (k0_pay1 (F := F)) := by
  rw [View.read_writes_eq_canon _ _ _ (gscover_A c i arg2 harg2 arg3 harg3 arg4 harg4 arg5 harg5 arg6 harg6 arg7 harg7 hc0 hc1 x0 x1 x2)]
  unfold kernelRun0_A
  dsimp only
  try sl_unfold_words
  rw [View.canon_cons_unit_zero hz]
  simp only [View.readAt_eq_ld, harg2.read_unread, harg3.read_unread, harg7.read_unread, View.ld_unit_zero (S := S1024x1024) hz, View.ld_unit_zero (S := S1024x256) hz, View.readCov_unit_zero (S := S1024x256) _ hz]

/-! ## Case B -/

theorem gcover_B_4 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : ¬cond0_1 i) (x0 : Vec F S1024x1024 .f32) (x1 : Vec F S1024x256 .f32) (x2 : Vec F S1024x256 .f32) (xs0 : Vec F S1024x256 .f32) (y : S1024x1024.Idx) : ∃ pc ∈ (kernelRun0_B c i arg2 harg2 arg3 harg3 arg4 harg4 arg5 harg5 arg6 harg6 arg7 harg7 hc0 hc1 x0 x1 x2 xs0).2.1, y ∈ pc.1.set :=
  View.cover_of_tiledL (kernelRun0_B c i arg2 harg2 arg3 harg3 arg4 harg4 arg5 harg5 arg6 harg6 arg7 harg7 hc0 hc1 x0 x1 x2 xs0).2.1 S1024x1024.size (by sl_kernel_rfl) y

theorem gscover_B (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : ¬cond0_1 i) (x0 : Vec F S1024x1024 .f32) (x1 : Vec F S1024x256 .f32) (x2 : Vec F S1024x256 .f32) (xs0 : Vec F S1024x256 .f32) (y : S1024x256.Idx) : ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S1024x256.size (by sl_kernel_rfl) y

/-- Case B leaves in output 4 the cast of the operator's tile. -/
theorem piece_B_4 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : ¬cond0_1 i) (x0 : Vec F S1024x1024 .f32) (x1 : Vec F S1024x256 .f32) (x2 : Vec F S1024x256 .f32) (xs0 : Vec F S1024x256 .f32) :
    VO0_4.read (Elt F) (VO0_4.writes (Elt F) VO0_4.junk (kernelRun0_B c i arg2 harg2 arg3 harg3 arg4 harg4 arg5 harg5 arg6 harg6 arg7 harg7 hc0 hc1 x0 x1 x2 xs0).2.1) = k0_pay2 x0 := by
  rw [View.read_writes_eq_canon _ _ _ (gcover_B_4 c i arg2 harg2 arg3 harg3 arg4 harg4 arg5 harg5 arg6 harg6 arg7 harg7 hc0 hc1 x0 x1 x2 xs0)]
  unfold kernelRun0_B
  dsimp only
  try sl_unfold_words
  rw [View.canon_unit_zero hz]
  simp only [View.readAt_eq_ld, harg2.read_unread, View.ld_unit_zero (S := S1024x1024) hz]

/-- Case B leaves in the scratch what it held plus the tile product. -/
theorem piece_B_s (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : ¬cond0_1 i) (x0 : Vec F S1024x1024 .f32) (x1 : Vec F S1024x256 .f32) (x2 : Vec F S1024x256 .f32) (xs0 : Vec F S1024x256 .f32) :
    VS0_0.read (Elt F) (VS0_0.writes (Elt F) VS0_0.junk (kernelRun0_B c i arg2 harg2 arg3 harg3 arg4 harg4 arg5 harg5 arg6 harg6 arg7 harg7 hc0 hc1 x0 x1 x2 xs0).2.2.1) = k0_pay3 x0 x1 xs0 := by
  rw [View.read_writes_eq_canon _ _ _ (gscover_B c i arg2 harg2 arg3 harg3 arg4 harg4 arg5 harg5 arg6 harg6 arg7 harg7 hc0 hc1 x0 x1 x2 xs0)]
  unfold kernelRun0_B
  dsimp only
  try sl_unfold_words
  rw [View.canon_cons_unit_zero hz]
  simp only [View.readAt_eq_ld, harg2.read_unread, harg3.read_unread, harg7.read_unread, View.ld_unit_zero (S := S1024x1024) hz, View.ld_unit_zero (S := S1024x256) hz, View.readCov_unit_zero (S := S1024x256) _ hz]

/-! ## Case C -/

theorem gcover_C_4 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : cond0_1 i) (x0 : Vec F S1024x1024 .f32) (x1 : Vec F S1024x256 .f32) (x2 : Vec F S1024x256 .f32) (xs0 : Vec F S1024x256 .f32) (y : S1024x1024.Idx) : ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S1024x1024.size (by sl_kernel_rfl) y

theorem gscover_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : cond0_1 i) (x0 : Vec F S1024x1024 .f32) (x1 : Vec F S1024x256 .f32) (x2 : Vec F S1024x256 .f32) (xs0 : Vec F S1024x256 .f32) (y : S1024x256.Idx) : ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S1024x256.size (by sl_kernel_rfl) y

/-- Case C leaves in output 4 the cast of the operator's tile. -/
theorem piece_C_4 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : cond0_1 i) (x0 : Vec F S1024x1024 .f32) (x1 : Vec F S1024x256 .f32) (x2 : Vec F S1024x256 .f32) (xs0 : Vec F S1024x256 .f32) :
    VO0_4.read (Elt F) (VO0_4.writes (Elt F) VO0_4.junk (kernelRun0_C c i arg2 harg2 arg3 harg3 arg4 harg4 arg5 harg5 arg6 harg6 arg7 harg7 hc0 hc1 x0 x1 x2 xs0).2.1) = k0_pay2 x0 := by
  rw [View.read_writes_eq_canon _ _ _ (gcover_C_4 c i arg2 harg2 arg3 harg3 arg4 harg4 arg5 harg5 arg6 harg6 arg7 harg7 hc0 hc1 x0 x1 x2 xs0)]
  unfold kernelRun0_C
  dsimp only
  try sl_unfold_words
  rw [View.canon_unit_zero hz]
  simp only [View.readAt_eq_ld, harg2.read_unread, View.ld_unit_zero (S := S1024x1024) hz]

/-- Case C leaves in the scratch what it held plus the tile product. -/
theorem piece_C_s (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : cond0_1 i) (x0 : Vec F S1024x1024 .f32) (x1 : Vec F S1024x256 .f32) (x2 : Vec F S1024x256 .f32) (xs0 : Vec F S1024x256 .f32) :
    VS0_0.read (Elt F) (VS0_0.writes (Elt F) VS0_0.junk (kernelRun0_C c i arg2 harg2 arg3 harg3 arg4 harg4 arg5 harg5 arg6 harg6 arg7 harg7 hc0 hc1 x0 x1 x2 xs0).2.2.1) = k0_pay3 x0 x1 xs0 := by
  rw [View.read_writes_eq_canon _ _ _ (gscover_C c i arg2 harg2 arg3 harg3 arg4 harg4 arg5 harg5 arg6 harg6 arg7 harg7 hc0 hc1 x0 x1 x2 xs0)]
  unfold kernelRun0_C
  dsimp only
  try sl_unfold_words
  rw [View.canon_cons_unit_zero hz]
  simp only [View.readAt_eq_ld, harg2.read_unread, harg3.read_unread, harg7.read_unread, View.ld_unit_zero (S := S1024x1024) hz, View.ld_unit_zero (S := S1024x256) hz, View.readCov_unit_zero (S := S1024x256) _ hz]

theorem gcover_C_3 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : cond0_1 i) (x0 : Vec F S1024x1024 .f32) (x1 : Vec F S1024x256 .f32) (x2 : Vec F S1024x256 .f32) (xs0 : Vec F S1024x256 .f32) (y : S1024x256.Idx) : ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S1024x256.size (by sl_kernel_rfl) y

/-- Case C leaves in output 3 the combination of the finished accumulator and the second input's block. -/
theorem piece_C_3 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1024x256 .f32) (harg7 : arg7.IsWhole) (hc0 : ¬cond0_0 i) (hc1 : cond0_1 i) (x0 : Vec F S1024x1024 .f32) (x1 : Vec F S1024x256 .f32) (x2 : Vec F S1024x256 .f32) (xs0 : Vec F S1024x256 .f32) :
    VO0_3.read (Elt F) (VO0_3.writes (Elt F) VO0_3.junk (kernelRun0_C c i arg2 harg2 arg3 harg3 arg4 harg4 arg5 harg5 arg6 harg6 arg7 harg7 hc0 hc1 x0 x1 x2 xs0).1) = k0_pay4 (k0_pay3 x0 x1 xs0) x2 := by
  rw [View.read_writes_eq_canon _ _ _ (gcover_C_3 c i arg2 harg2 arg3 harg3 arg4 harg4 arg5 harg5 arg6 harg6 arg7 harg7 hc0 hc1 x0 x1 x2 xs0)]
  unfold kernelRun0_C
  dsimp only
  try sl_unfold_words
  rw [View.canon_unit_zero hz]
  simp only [View.readAt_eq_ld, harg2.read_unread, harg3.read_unread, harg4.read_unread, harg7.read_unread, View.ld_unit_zero (S := S1024x1024) hz, View.ld_unit_zero (S := S1024x256) hz, View.readCov_unit_zero (S := S1024x256) _ hz]

end Cert.KernelIdeal.Reg0

end
-- ==== Proof.KI.Reg0.IdealMath.lean ====
import proofs.«104635_j41927470743646_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Reg0

open Cert.KernelIdeal Cert.KernelIdeal.Gen
open Idealize.ShloMosaic Idealize.ShloMosaic.ValueIdx

/-! # Region 0's payloads at the ideal values, read at an entry -/

/-- The tile product's dimension numbers: rows × contraction times contraction × columns. -/
abbrev D0 : DotDims S1024x1024 S1024x256 S1024x256 := dot_S1024x1024_S1024x256_S1024x256_1_0_0_1_n_n

theorem D0_lhs (a : Fin 1024) (j : Fin 256) (r : Fin 1024) :
    D0.lhsIdx (ix2 a j) ((contrEquiv1 D0 1024 rfl rfl).symm r) = ix2 a r := by
  funext ax; apply Fin.ext
  match ax with
  | ⟨0, _⟩ => rfl
  | ⟨1, _⟩ => exact (show (D0.lhsIdx (ix2 a j) ((contrEquiv1 D0 1024 rfl rfl).symm r) 1).val = (((contrEquiv1 D0 1024 rfl rfl).symm r) ⟨0, by decide⟩).val from rfl).trans (contrEquiv1_symm_val D0 1024 rfl rfl r)

theorem D0_rhs (a : Fin 1024) (j : Fin 256) (r : Fin 1024) :
    D0.rhsIdx (ix2 a j) ((contrEquiv1 D0 1024 rfl rfl).symm r) = ix2 r j := by
  funext ax; apply Fin.ext
  match ax with
  | ⟨0, _⟩ => exact (show (D0.rhsIdx (ix2 a j) ((contrEquiv1 D0 1024 rfl rfl).symm r) 0).val = (((contrEquiv1 D0 1024 rfl rfl).symm r) ⟨0, by decide⟩).val from rfl).trans (contrEquiv1_symm_val D0 1024 rfl rfl r)
  | ⟨1, _⟩ => rfl

/-- A tile product into the zero accumulator at an entry: the sum over the tile's 1024 columns. -/
theorem mm_tile {φ₁ φ₂ : FTy} (lhs : FVec Ideal S1024x1024 φ₁) (rhs : FVec Ideal S1024x256 φ₂) (a : Fin 1024) (j : Fin 256) :
    FloatOps.matmul D0 none lhs rhs (constant S1024x256 .f32 0x00000000#32) (ix2 a j)
      = ∑ r : Fin 1024, lhs (ix2 a r) * rhs (ix2 r j) := by
  rw [Ideal.matmul_constant_zero_apply, ← Equiv.sum_comp (contrEquiv1 D0 1024 rfl rfl).symm]
  exact Finset.sum_congr rfl fun r _ => by rw [D0_lhs, D0_rhs]

/-- The zeroed accumulator. -/
theorem pay1_apply (i : S1024x256.Idx) : k0_pay1 (F := Ideal) i = 0 := by
  unfold k0_pay1
  simp only [shapeCast_self]
  exact Ideal.ofBits_zero_f32

/-- The cast to the narrower format is the identity at the ideal values. -/
theorem pay2_eq (x0 : Vec Ideal S1024x1024 .f32) : k0_pay2 (F := Ideal) x0 = x0 := rfl

/-- The accumulation: what the accumulator held plus the tile product. -/
theorem pay3_apply (x0 : Vec Ideal S1024x1024 .f32) (x1 : Vec Ideal S1024x256 .f32) (xs : Vec Ideal S1024x256 .f32)
    (a : Fin 1024) (j : Fin 256) :
    k0_pay3 (F := Ideal) x0 x1 xs (ix2 a j) = xs (ix2 a j) + ∑ r : Fin 1024, x0 (ix2 a r) * x1 (ix2 r j) := by
  unfold k0_pay3
  simp only [shapeCast_self]
  exact congrArg (xs (ix2 a j) + ·) (mm_tile (k0_pay2 (F := Ideal) x0) (truncf .bf16 x1 bitsLt_bf16_f32) a j)

/-- The output: one times the accumulator plus zero times the second input's block. -/
theorem pay4_apply (acc : Vec Ideal S1024x256 .f32) (x2 : Vec Ideal S1024x256 .f32) (i : S1024x256.Idx) :
    k0_pay4 (F := Ideal) acc x2 i = Ideal.ofBits .f32 0x3F800000#32 * acc i + Ideal.ofBits .f32 0x00000000#32 * x2 i := rfl

end Cert.KernelIdeal.Reg0

end
-- ==== Proof.KI.Reg0.Blocks.lean ====
import proofs.«104635_j41927470743646_2_alg».proof.Proof.KI.Reg0.Data
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the windows' block indices in closed form, and the input blocks entry by entry

Point `t` of the 8 × 8 grid has first coordinate `t / 8` (the row block) and second `t % 8` (the contraction block). -/

theorem idx0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx0_1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx0_2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx0_3 : ∀ t : Fin cfg0.N, win0_3.index t 0 = t.val / 8 ∧ win0_3.index t 1 = 0 :=
  (by decide +kernel : ∀ t : Fin grid0.N, win0_3.index t 0 = t.val / 8 ∧ win0_3.index t 1 = 0)
theorem idx0_4 : ∀ t : Fin cfg0.N, win0_4.index t 0 = t.val / 8 ∧ win0_4.index t 1 = t.val % 8 :=
  (by decide +kernel : ∀ t : Fin grid0.N, win0_4.index t 0 = t.val / 8 ∧ win0_4.index t 1 = t.val % 8)

/-- Window 0's block at point `t`, entry by entry, as entries of its array. -/
theorem iblk0_0_apply (c : Dev nD) (t : Fin cfg0.N) (x : S1024x1024.Idx) (k : S8192x8192.Idx)
    (hk0 : (k 0).val = (t.val / 8) * 1024 + (x 0).val) (hk1 : (k 1).val = (t.val % 8) * 1024 + (x 1).val) :
    (iblk0 V c 0 t : Vec F S1024x1024 .f32) x = (V c main_arg0 : S8192x8192.Idx → Elt F .f32) k := by
  unfold iblk0
  rw [View.read_apply]
  show V c main_arg0 _ = V c main_arg0 _
  congr 1
  funext a
  apply Fin.ext
  match a with
  | ⟨0, _⟩ => show win0_0.index t 0 * 1024 + 1 * (x 0).val = (k 0).val; rw [(idx0_0 t).1, hk0]; omega
  | ⟨1, _⟩ => show win0_0.index t 1 * 1024 + 1 * (x 1).val = (k 1).val; rw [(idx0_0 t).2, hk1]; omega

/-- Window 1's block at point `t`, entry by entry, as entries of its array. -/
theorem iblk0_1_apply (c : Dev nD) (t : Fin cfg0.N) (x : S1024x256.Idx) (k : S8192x256.Idx)
    (hk0 : (k 0).val = (t.val % 8) * 1024 + (x 0).val) (hk1 : (k 1).val = 0 * 256 + (x 1).val) :
    (iblk0 V c 1 t : Vec F S1024x256 .f32) x = (V c main_arg1 : S8192x256.Idx → Elt F .f32) k := by
  unfold iblk0
  rw [View.read_apply]
  show V c main_arg1 _ = V c main_arg1 _
  congr 1
  funext a
  apply Fin.ext
  match a with
  | ⟨0, _⟩ => show win0_1.index t 0 * 1024 + 1 * (x 0).val = (k 0).val; rw [(idx0_1 t).1, hk0]; omega
  | ⟨1, _⟩ => show win0_1.index t 1 * 256 + 1 * (x 1).val = (k 1).val; rw [(idx0_1 t).2, hk1]; omega

/-- Window 2's block at point `t`, entry by entry, as entries of its array. -/
theorem iblk0_2_apply (c : Dev nD) (t : Fin cfg0.N) (x : S1024x256.Idx) (k : S8192x256.Idx)
    (hk0 : (k 0).val = (t.val / 8) * 1024 + (x 0).val) (hk1 : (k 1).val = 0 * 256 + (x 1).val) :
    (iblk0 V c 2 t : Vec F S1024x256 .f32) x = (V c main_arg1 : S8192x256.Idx → Elt F .f32) k := by
  unfold iblk0
  rw [View.read_apply]
  show V c main_arg1 _ = V c main_arg1 _
  congr 1
  funext a
  apply Fin.ext
  match a with
  | ⟨0, _⟩ => show win0_2.index t 0 * 1024 + 1 * (x 0).val = (k 0).val; rw [(idx0_2 t).1, hk0]; omega
  | ⟨1, _⟩ => show win0_2.index t 1 * 256 + 1 * (x 1).val = (k 1).val; rw [(idx0_2 t).2, hk1]; omega

end Cert.KernelIdeal.Reg0

end
-- ==== Proof.KI.Reg0.Invariant.lean ====
import proofs.«104635_j41927470743646_2_alg».proof.Proof.KI.Reg0.Pieces
import proofs.«104635_j41927470743646_2_alg».proof.Proof.KI.Reg0.IdealMath
import proofs.«104635_j41927470743646_2_alg».proof.Proof.KI.Reg0.Blocks
import proofs.«104635_j41927470743646_2_alg».proof.Proof.SpecLaws

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! # Region 0 at the ideal values: the carried accumulator after each point

After the point with row block `t / 8` and contraction block `t % 8` the accumulator holds, at row `a` and column
`j`, the left-to-right fold over the first `t % 8 + 1` blocks of 1024 products of row `(t / 8)·1024 + a` of the
operator against column `j` of the first input. -/

/-- The operator and the first input as the region finds them. -/
abbrev Lm (c : Dev nD) : S8192x8192.Idx → EReal := V c main_arg0
abbrev Xm (c : Dev nD) : S8192x256.Idx → EReal := V c main_arg1

/-- The products summed at row `R`, column `j`. -/
def term (c : Dev nD) (R : Fin 8192) (j : Fin 256) : Fin (8 * 1024) → EReal :=
  fun k => Lm V c (ix2 R k) * Xm V c (ix2 k j)

/-- The array row of row `a` of the block at point `t`. -/
def rowOf (t : Fin cfg0.N) (a : Fin 1024) : Fin 8192 :=
  ⟨(t.val / 8) * 1024 + a.val, by have := t.isLt; have hN : cfg0.N = 64 := N_0; have := a.isLt; omega⟩

theorem acc_congr {M : Type*} [AddCommMonoid M] (A B : ℕ) {f f' : Fin (A * B) → M} (hf : f = f') {n n' : ℕ} (hn : n = n')
    (h : n ≤ A) (h' : n' ≤ A) : Cert.SpecLaws.acc A B f n h = Cert.SpecLaws.acc A B f' n' h' := by
  subst hf; subst hn; rfl

/-! ## What the cases leave, at a point -/

theorem outsA_s (c : Dev nD) (t : Fin cfg0.N) (h0 : t.val % 8 = 0) (h1 : ¬t.val % 8 = 7) :
    (outsA V c t h0 h1).2.2 = k0_pay3 (iblk0 V c 0 t) (iblk0 V c 1 t) (k0_pay1 (F := Ideal)) := by
  unfold outsA runA
  dsimp only
  exact piece_A_s (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)

theorem outsA_4 (c : Dev nD) (t : Fin cfg0.N) (h0 : t.val % 8 = 0) (h1 : ¬t.val % 8 = 7) :
    (outsA V c t h0 h1).2.1 = k0_pay2 (iblk0 V c 0 t) := by
  unfold outsA runA
  dsimp only
  exact piece_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)

theorem outsB_s (c : Dev nD) (t : Fin cfg0.N) (h0 : ¬t.val % 8 = 0) (h1 : ¬t.val % 8 = 7) (xs : Vec Ideal S1024x256 .f32) :
    (outsB V c t h0 h1 xs).2.2 = k0_pay3 (iblk0 V c 0 t) (iblk0 V c 1 t) xs := by
  unfold outsB runB
  dsimp only
  exact piece_B_s (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) xs

theorem outsB_4 (c : Dev nD) (t : Fin cfg0.N) (h0 : ¬t.val % 8 = 0) (h1 : ¬t.val % 8 = 7) (xs : Vec Ideal S1024x256 .f32) :
    (outsB V c t h0 h1 xs).2.1 = k0_pay2 (iblk0 V c 0 t) := by
  unfold outsB runB
  dsimp only
  exact piece_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) xs

theorem outsC_s (c : Dev nD) (t : Fin cfg0.N) (h0 : ¬t.val % 8 = 0) (h1 : t.val % 8 = 7) (xs : Vec Ideal S1024x256 .f32) :
    (outsC V c t h0 h1 xs).2.2 = k0_pay3 (iblk0 V c 0 t) (iblk0 V c 1 t) xs := by
  unfold outsC runC
  dsimp only
  exact piece_C_s (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs

theorem outsC_4 (c : Dev nD) (t : Fin cfg0.N) (h0 : ¬t.val % 8 = 0) (h1 : t.val % 8 = 7) (xs : Vec Ideal S1024x256 .f32) :
    (outsC V c t h0 h1 xs).2.1 = k0_pay2 (iblk0 V c 0 t) := by
  unfold outsC runC
  dsimp only
  exact piece_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs

theorem outsC_3 (c : Dev nD) (t : Fin cfg0.N) (h0 : ¬t.val % 8 = 0) (h1 : t.val % 8 = 7) (xs : Vec Ideal S1024x256 .f32) :
    (outsC V c t h0 h1 xs).1 = k0_pay4 (k0_pay3 (iblk0 V c 0 t) (iblk0 V c 1 t) xs) (iblk0 V c 2 t) := by
  unfold outsC runC
  dsimp only
  exact piece_C_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs

/-! ## One accumulation step at an entry -/

theorem blk_lt (t : Fin cfg0.N) (r : Fin 1024) : (t.val % 8) * 1024 + r.val < 8 * 1024 := by
  have := r.isLt; omega

/-- The accumulation at point `t`, at an entry: what the accumulator held plus block `t % 8` of the products. -/
theorem pay3_sum (c : Dev nD) (t : Fin cfg0.N) (xs : Vec Ideal S1024x256 .f32) (a : Fin 1024) (j : Fin 256) :
    k0_pay3 (F := Ideal) (iblk0 V c 0 t) (iblk0 V c 1 t) xs (ix2 a j)
      = xs (ix2 a j) + ∑ r : Fin 1024, term V c (rowOf t a) j ⟨(t.val % 8) * 1024 + r.val, blk_lt t r⟩ := by
  rw [pay3_apply]
  refine congrArg (xs (ix2 a j) + ·) (Finset.sum_congr rfl fun r _ => ?_)
  unfold term Lm Xm
  rw [iblk0_0_apply V c t (ix2 a r) (ix2 (rowOf t a) ⟨(t.val % 8) * 1024 + r.val, blk_lt t r⟩) rfl rfl,
    iblk0_1_apply V c t (ix2 r j) (ix2 ⟨(t.val % 8) * 1024 + r.val, blk_lt t r⟩ j) rfl (by show j.val = 0 * 256 + j.val; omega)]

/-! ## The invariant -/

theorem scratch_inv (c : Dev nD) (n : ℕ) : ∀ (hn : n < cfg0.N) (a : Fin 1024) (j : Fin 256),
    (outsAt0 V c n hn).2.2 (ix2 a j)
      = Cert.SpecLaws.acc 8 1024 (term V c (rowOf ⟨n, hn⟩ a) j) (n % 8 + 1) (by omega) := by
  induction n using Nat.strong_induction_on with
  | _ n ih =>
    intro hn a j
    have hN : cfg0.N = 64 := N_0
    by_cases h0 : n % 8 = 0
    · have h1 : ¬n % 8 = 7 := by omega
      rw [outsAt0_A V c ⟨n, hn⟩ h0 h1, outsA_s, pay3_sum, pay1_apply, Cert.SpecLaws.acc_succ]
      exact congrArg (· + _)
        (((acc_congr 8 1024 rfl h0 (by omega) (Nat.zero_le _)).trans (Cert.SpecLaws.acc_zero 8 1024 _ (Nat.zero_le _))).symm)
    · have hprev : (outsAt0 V c (n - 1) (by omega)).2.2 (ix2 a j)
          = Cert.SpecLaws.acc 8 1024 (term V c (rowOf ⟨n, hn⟩ a) j) (n % 8) (by omega) := by
        rw [ih (n - 1) (by omega) (by omega) a j]
        have hr : rowOf ⟨n - 1, by omega⟩ a = rowOf ⟨n, hn⟩ a := by
          apply Fin.ext; show (n - 1) / 8 * 1024 + a.val = n / 8 * 1024 + a.val; omega
        exact acc_congr 8 1024 (by rw [hr]) (by omega) _ _
      by_cases h1 : n % 8 = 7
      · rw [outsAt0_C V c ⟨n, hn⟩ h0 h1, outsC_s, pay3_sum, Cert.SpecLaws.acc_succ]
        exact congrArg (· + _) hprev
      · rw [outsAt0_B V c ⟨n, hn⟩ h0 h1, outsB_s, pay3_sum, Cert.SpecLaws.acc_succ]
        exact congrArg (· + _) hprev

end Cert.KernelIdeal.Reg0

end
-- ==== Proof.KI.Reg0Value.lean ====
import proofs.«104635_j41927470743646_2_alg».proof.Proof.KI.Reg0.Invariant
import proofs.«104635_j41927470743646_2_alg».proof.Proof.KernelForm

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! # Region 0 at the ideal values: the two output arrays after the region

The first output ends holding the first Chebyshev step in its blockwise arrangement; the second output ends holding
the operator itself (the cast to the narrower format is the identity at the ideal values). -/

/-- The windows are uncut: the part a transfer moves is the whole block. -/
theorem xsize0_3 : ∀ t : Fin cfg0.N, win0_3.xsize (grid0.coords t) 0 = 1024 ∧ win0_3.xsize (grid0.coords t) 1 = 256 :=
  (by decide +kernel : ∀ t : Fin grid0.N, win0_3.xsize (grid0.coords t) 0 = 1024 ∧ win0_3.xsize (grid0.coords t) 1 = 256)
theorem xsize0_4 : ∀ t : Fin cfg0.N, win0_4.xsize (grid0.coords t) 0 = 1024 ∧ win0_4.xsize (grid0.coords t) 1 = 1024 :=
  (by decide +kernel : ∀ t : Fin grid0.N, win0_4.xsize (grid0.coords t) 0 = 1024 ∧ win0_4.xsize (grid0.coords t) 1 = 1024)

/-! ## The first output -/

/-- What a writing point leaves in output 3's buffer, at an entry: the step's value at the entry's place in the array. -/
theorem out3_apply (c : Dev nD) (t : Fin cfg0.N) (h1 : t.val % 8 = 7) (a : Fin 1024) (j : Fin 256) :
    (outsAt0 V c t.val t.isLt).1 (ix2 a j) = Cert.KernelForm.step0 (Lm V c) (Xm V c) (ix2 (rowOf t a) j) := by
  have h0 : ¬t.val % 8 = 0 := by omega
  have hs := scratch_inv V c t.val t.isLt a j
  rw [outsAt0_C V c t h0 h1] at hs ⊢
  rw [outsC_s] at hs
  rw [outsC_3, pay4_apply, hs, iblk0_2_apply V c t (ix2 a j) (ix2 (rowOf t a) j) rfl (by show j.val = 0 * 256 + j.val; omega)]
  unfold Cert.KernelForm.step0 Cert.KernelForm.mm8
  refine congrArg (fun z => _ * z + _) ?_
  exact acc_congr 8 1024 rfl (by omega) _ _

/-- The place in the array of an entry of output 3's block at point `t`. -/
theorem emb3 (t : Fin cfg0.N) (a : Fin 1024) (j : Fin 256) :
    ((cfg0.win 3).blk t).view.emb (ix2 a j) = ix2 (rowOf t a) j := by
  funext ax
  apply Fin.ext
  match ax with
  | ⟨0, _⟩ => show win0_3.index t 0 * 1024 + 1 * a.val = t.val / 8 * 1024 + a.val; rw [(idx0_3 t).1]; omega
  | ⟨1, _⟩ => show win0_3.index t 1 * 256 + 1 * j.val = j.val; rw [(idx0_3 t).2]; omega

/-- Every write-back of output 3 writes the block of the step. -/
theorem flushed3_eq (c : Dev nD) (t : Fin cfg0.N) (hf : (cfg0.win 3).flush t = true) :
    (dat0 V c).flushed 3 t = ((cfg0.win 3).blk t).view.read (Elt Ideal) (Cert.KernelForm.step0 (Lm V c) (Xm V c)) := by
  have h1 : t.val % 8 = 7 := (flush0_3 t).mp hf
  show (cfg0.win 3).cut (grid0.coords t) ((dat0 V c).after 3 t) = _
  rw [after0_3]
  refine funext fun (x : S1024x256.Idx) => ?_
  obtain ⟨a, j, rfl⟩ : ∃ (a : Fin 1024) (j : Fin 256), x = ix2 a j := ⟨x 0, x 1, eq_ix2 x⟩
  rw [View.read_apply]
  show (outsAt0 V c t.val t.isLt).1 (ix2 a j) = Cert.KernelForm.step0 (Lm V c) (Xm V c) (((cfg0.win 3).blk t).view.emb (ix2 a j))
  rw [emb3, out3_apply V c t h1]

/-- The writing points' blocks cover the array. -/
theorem cover3 (i : S8192x256.Idx) :
    ∃ t : Fin cfg0.N, (cfg0.win 3).flush t = true ∧ i ∈ ((cfg0.win 3).blk t).view.set := by
  have hN : cfg0.N = 64 := N_0
  have hi0 : (i 0 : Nat) < 8192 := (i 0).isLt
  have hi1 : (i 1 : Nat) < 256 := (i 1).isLt
  have hT : (i 0 : Nat) / 1024 * 8 + 7 < cfg0.N := by omega
  refine ⟨⟨(i 0 : Nat) / 1024 * 8 + 7, hT⟩, (flush0_3 _).mpr (by show ((i 0 : Nat) / 1024 * 8 + 7) % 8 = 7; omega), ?_⟩
  show i ∈ ((View.whole main_v0_0).slice (win0_3.rect ⟨(i 0 : Nat) / 1024 * 8 + 7, hT⟩)).set
  rw [View.set_slice_whole, Rect.mem_set_unit]
  intro ax
  match ax with
  | ⟨0, _⟩ =>
    show win0_3.index ⟨(i 0 : Nat) / 1024 * 8 + 7, hT⟩ 0 * win0_3.size 0 ≤ (i 0 : Nat) ∧ (i 0 : Nat) < win0_3.index ⟨(i 0 : Nat) / 1024 * 8 + 7, hT⟩ 0 * win0_3.size 0 + win0_3.xsize (grid0.coords ⟨(i 0 : Nat) / 1024 * 8 + 7, hT⟩) 0
    rw [(idx0_3 _).1, (xsize0_3 _).1, show win0_3.size 0 = 1024 from rfl]
    show ((i 0 : Nat) / 1024 * 8 + 7) / 8 * 1024 ≤ (i 0 : Nat) ∧ (i 0 : Nat) < ((i 0 : Nat) / 1024 * 8 + 7) / 8 * 1024 + 1024
    omega
  | ⟨1, _⟩ =>
    show win0_3.index ⟨(i 0 : Nat) / 1024 * 8 + 7, hT⟩ 1 * win0_3.size 1 ≤ (i 1 : Nat) ∧ (i 1 : Nat) < win0_3.index ⟨(i 0 : Nat) / 1024 * 8 + 7, hT⟩ 1 * win0_3.size 1 + win0_3.xsize (grid0.coords ⟨(i 0 : Nat) / 1024 * 8 + 7, hT⟩) 1
    rw [(idx0_3 _).2, (xsize0_3 _).2, show win0_3.size 1 = 256 from rfl]
    omega

/-- THE FIRST OUTPUT after the region: the first step, in its blockwise arrangement, of the operator and the first
    input as the region finds them. -/
theorem out0_value_T (c : Dev nD) :
    (dat0 V c).arrAt 3 cfg0.N = Cert.KernelForm.step0 (V c main_arg0) (V c main_arg1) :=
  (dat0 V c).arrAt_eq_of_cover 3 (Cert.KernelForm.step0 (Lm V c) (Xm V c)) (flushed3_eq V c) cover3

/-! ## The second output -/

/-- Every point leaves the operator's tile in output 4's buffer. -/
theorem out4_eq (c : Dev nD) (t : Fin cfg0.N) : (outsAt0 V c t.val t.isLt).2.1 = iblk0 V c 0 t := by
  by_cases h0 : t.val % 8 = 0
  · have h1 : ¬t.val % 8 = 7 := by omega
    rw [outsAt0_A V c t h0 h1, outsA_4]; rfl
  · by_cases h1 : t.val % 8 = 7
    · rw [outsAt0_C V c t h0 h1, outsC_4]; rfl
    · rw [outsAt0_B V c t h0 h1, outsB_4]; rfl

/-- Every write-back of output 4 writes the block of the operator. -/
theorem flushed4_eq (c : Dev nD) (t : Fin cfg0.N) (hf : (cfg0.win 4).flush t = true) :
    (dat0 V c).flushed 4 t = ((cfg0.win 4).blk t).view.read (Elt Ideal) (Lm V c) := by
  show (cfg0.win 4).cut (grid0.coords t) ((dat0 V c).after 4 t) = _
  rw [after0_4, out4_eq]
  refine funext fun (x : S1024x1024.Idx) => ?_
  rw [View.read_apply]
  show iblk0 V c 0 t x = Lm V c (((cfg0.win 4).blk t).view.emb x)
  refine iblk0_0_apply V c t x _ ?_ ?_
  · show win0_4.index t 0 * 1024 + 1 * (x 0).val = t.val / 8 * 1024 + (x 0).val; rw [(idx0_4 t).1]; omega
  · show win0_4.index t 1 * 1024 + 1 * (x 1).val = t.val % 8 * 1024 + (x 1).val; rw [(idx0_4 t).2]; omega

/-- The points' blocks cover the array. -/
theorem cover4 (i : S8192x8192.Idx) :
    ∃ t : Fin cfg0.N, (cfg0.win 4).flush t = true ∧ i ∈ ((cfg0.win 4).blk t).view.set := by
  have hN : cfg0.N = 64 := N_0
  have hi0 : (i 0 : Nat) < 8192 := (i 0).isLt
  have hi1 : (i 1 : Nat) < 8192 := (i 1).isLt
  have hT : (i 0 : Nat) / 1024 * 8 + (i 1 : Nat) / 1024 < cfg0.N := by omega
  refine ⟨⟨(i 0 : Nat) / 1024 * 8 + (i 1 : Nat) / 1024, hT⟩, flush0_4 _, ?_⟩
  show i ∈ ((View.whole main_v0_1).slice (win0_4.rect ⟨(i 0 : Nat) / 1024 * 8 + (i 1 : Nat) / 1024, hT⟩)).set
  rw [View.set_slice_whole, Rect.mem_set_unit]
  intro ax
  match ax with
  | ⟨0, _⟩ =>
    show win0_4.index ⟨(i 0 : Nat) / 1024 * 8 + (i 1 : Nat) / 1024, hT⟩ 0 * win0_4.size 0 ≤ (i 0 : Nat) ∧ (i 0 : Nat) < win0_4.index ⟨(i 0 : Nat) / 1024 * 8 + (i 1 : Nat) / 1024, hT⟩ 0 * win0_4.size 0 + win0_4.xsize (grid0.coords ⟨(i 0 : Nat) / 1024 * 8 + (i 1 : Nat) / 1024, hT⟩) 0
    rw [(idx0_4 _).1, (xsize0_4 _).1, show win0_4.size 0 = 1024 from rfl]
    show ((i 0 : Nat) / 1024 * 8 + (i 1 : Nat) / 1024) / 8 * 1024 ≤ (i 0 : Nat) ∧ (i 0 : Nat) < ((i 0 : Nat) / 1024 * 8 + (i 1 : Nat) / 1024) / 8 * 1024 + 1024
    omega
  | ⟨1, _⟩ =>
    show win0_4.index ⟨(i 0 : Nat) / 1024 * 8 + (i 1 : Nat) / 1024, hT⟩ 1 * win0_4.size 1 ≤ (i 1 : Nat) ∧ (i 1 : Nat) < win0_4.index ⟨(i 0 : Nat) / 1024 * 8 + (i 1 : Nat) / 1024, hT⟩ 1 * win0_4.size 1 + win0_4.xsize (grid0.coords ⟨(i 0 : Nat) / 1024 * 8 + (i 1 : Nat) / 1024, hT⟩) 1
    rw [(idx0_4 _).2, (xsize0_4 _).2, show win0_4.size 1 = 1024 from rfl]
    show ((i 0 : Nat) / 1024 * 8 + (i 1 : Nat) / 1024) % 8 * 1024 ≤ (i 1 : Nat) ∧ (i 1 : Nat) < ((i 0 : Nat) / 1024 * 8 + (i 1 : Nat) / 1024) % 8 * 1024 + 1024
    omega

/-- THE SECOND OUTPUT after the region: the operator as the region finds it. -/
theorem out0_value_L (c : Dev nD) : (dat0 V c).arrAt 4 cfg0.N = V c main_arg0 :=
  (dat0 V c).arrAt_eq_of_cover 4 (Lm V c) (flushed4_eq V c) cover4

end Cert.KernelIdeal.Reg0

end
-- ==== Proof.KI.Reg1Value.lean ====
import proofs.«104635_j41927470743646_2_alg».proof.Proof.KI.Reg1
import proofs.«104635_j41927470743646_2_alg».proof.Proof.Spec
import proofs.«104635_j41927470743646_2_alg».proof.Proof.SpecLaws
import proofs.«104635_j41927470743646_2_alg».proof.Proof.KernelForm
import Idealize.ShloMosaic.Lib.Pipeline.Value
import Idealize.ShloMosaic.Lib.ValueIdx
import Idealize.ShloMosaic.PureOps.Ideal.Laws
import Idealize.ShloMosaic.Lib.Tactic

/-! The value of region 1 at the ideal values: after the region the output window's array holds, entry by entry, twice
the left-to-right fold over the four column blocks of the operator's row against the second array's column, plus
minus one times the third array (`Reg1.out1_value`). First what each control case leaves as payloads of the blocks
(any float instance), then the payloads, the blocks and the fold at the ideal values. -/

set_option maxRecDepth 16384

noncomputable section

open scoped BigOperators

namespace Cert.KernelIdeal.Reg1

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz : (![0, 0] : Fin 2 → Nat) = fun _ => 0 := funext fun a => by fin_cases a <;> rfl

/-! ## What each case leaves, as payloads of the blocks -/

/-- Where the reduction coordinate is 0 the scratch ends at the accumulation over the zero fill. -/
theorem soutA_eq (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i) (x0 : Vec F S2048x2048 .bf16) (x1 : Vec F S2048x256 .f32) (x2 : Vec F S2048x256 .f32) :
    sout1_A_0 c i arg2 harg2 arg3 harg3 arg4 harg4 arg5 harg5 arg6 harg6 hc0 hc1 x0 x1 x2 = k1_pay2 x0 x1 k1_pay1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  try sl_unfold_words
  rw [View.canon_cons_unit_zero (S := S2048x256) hz, View.readCov_unit_zero (S := S2048x256) _ hz]
  simp only [View.readAt_eq_ld, harg2.read_unread, harg3.read_unread, harg4.read_unread, harg6.read_unread, View.ld_unit_zero (S := S2048x2048) hz, View.ld_unit_zero (S := S2048x256) hz]

/-- Where it is 1 or 2 the scratch ends at the accumulation over what it held. -/
theorem soutB_eq (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i) (x0 : Vec F S2048x2048 .bf16) (x1 : Vec F S2048x256 .f32) (x2 : Vec F S2048x256 .f32) (xs0 : Vec F S2048x256 .f32) :
    sout1_B_0 c i arg2 harg2 arg3 harg3 arg4 harg4 arg5 harg5 arg6 harg6 hc0 hc1 x0 x1 x2 xs0 = k1_pay2 x0 x1 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  try sl_unfold_words
  rw [View.canon_unit_zero hz]
  simp only [View.readAt_eq_ld, harg2.read_unread, harg3.read_unread, harg4.read_unread, harg6.read_unread, View.ld_unit_zero (S := S2048x2048) hz, View.ld_unit_zero (S := S2048x256) hz]

/-- Where it is 3 likewise, -/
theorem soutC_eq (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i) (x0 : Vec F S2048x2048 .bf16) (x1 : Vec F S2048x256 .f32) (x2 : Vec F S2048x256 .f32) (xs0 : Vec F S2048x256 .f32) :
    sout1_C_0 c i arg2 harg2 arg3 harg3 arg4 harg4 arg5 harg5 arg6 harg6 hc0 hc1 x0 x1 x2 xs0 = k1_pay2 x0 x1 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  try sl_unfold_words
  rw [View.canon_unit_zero hz]
  simp only [View.readAt_eq_ld, harg2.read_unread, harg3.read_unread, harg4.read_unread, harg6.read_unread, View.ld_unit_zero (S := S2048x2048) hz, View.ld_unit_zero (S := S2048x256) hz]

/-- and the output's buffer ends at the combination of that accumulation and the third input's block. -/
theorem outC_eq (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i) (x0 : Vec F S2048x2048 .bf16) (x1 : Vec F S2048x256 .f32) (x2 : Vec F S2048x256 .f32) (xs0 : Vec F S2048x256 .f32) :
    out1_C_3 c i arg2 harg2 arg3 harg3 arg4 harg4 arg5 harg5 arg6 harg6 hc0 hc1 x0 x1 x2 xs0 = k1_pay3 (k1_pay2 x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  try sl_unfold_words
  rw [View.canon_unit_zero hz, View.readCov_unit_zero (S := S2048x256) _ hz]
  simp only [View.readAt_eq_ld, harg2.read_unread, harg3.read_unread, harg4.read_unread, harg6.read_unread, View.ld_unit_zero (S := S2048x2048) hz, View.ld_unit_zero (S := S2048x256) hz]

/-! ## The payloads at the ideal values, entry by entry -/

/-- The contraction of a 2048 × 2048 block against a 2048 × 256 block. -/
abbrev D1 : DotDims S2048x2048 S2048x256 S2048x256 := dot_S2048x2048_S2048x256_S2048x256_1_0_0_1_n_n

theorem D1_lhs (ra : Fin 2048) (j : Fin 256) (r : Fin 2048) :
    D1.lhsIdx (ix2 ra j) ((contrEquiv1 D1 2048 rfl rfl).symm r) = ix2 ra r := by
  have c2 := contrEquiv1_symm_val D1 2048 rfl rfl r
  funext ax; apply Fin.ext
  match ax with
  | ⟨0, _⟩ => simp [DotDims.lhsIdx, D1, dot_S2048x2048_S2048x256_S2048x256_1_0_0_1_n_n]; rfl
  | ⟨1, _⟩ => simp [DotDims.lhsIdx, D1, dot_S2048x2048_S2048x256_S2048x256_1_0_0_1_n_n]; exact c2

theorem D1_rhs (ra : Fin 2048) (j : Fin 256) (r : Fin 2048) :
    D1.rhsIdx (ix2 ra j) ((contrEquiv1 D1 2048 rfl rfl).symm r) = ix2 r j := by
  have c2 := contrEquiv1_symm_val D1 2048 rfl rfl r
  funext ax; apply Fin.ext
  match ax with
  | ⟨0, _⟩ => simp [DotDims.rhsIdx, D1, dot_S2048x2048_S2048x256_S2048x256_1_0_0_1_n_n]; exact c2
  | ⟨1, _⟩ => simp [DotDims.rhsIdx, D1, dot_S2048x2048_S2048x256_S2048x256_1_0_0_1_n_n]; rfl

/-- The zero fill reads zero. -/
theorem pay1_apply (y : S2048x256.Idx) : (k1_pay1 (F := Ideal)) y = 0 := by
  unfold k1_pay1
  simp only [shapeCast_self]
  exact Ideal.ofBits_zero_f32

/-- The accumulation at an entry: what the scratch held plus the block's row against the block's column (the
    narrowing to bf16 is the identity on the ideal values). -/
theorem pay2_apply (x0 : Vec Ideal S2048x2048 .bf16) (x1 xs : Vec Ideal S2048x256 .f32) (ra : Fin 2048) (j : Fin 256) :
    k1_pay2 x0 x1 xs (ix2 ra j) = xs (ix2 ra j) + ∑ r : Fin 2048, x0 (ix2 ra r) * x1 (ix2 r j) := by
  unfold k1_pay2
  simp only [shapeCast_self]
  show xs (ix2 ra j) + FloatOps.matmul (F := Ideal) D1 none (x0 : FVec Ideal S2048x2048 .bf16) (truncf (F := Ideal) .bf16 (x1 : FVec Ideal S2048x256 .f32) bitsLt_bf16_f32) (constant (F := Ideal) S2048x256 .f32 0x00000000#32) (ix2 ra j) = _
  rw [Ideal.matmul_constant_zero_apply, ← Equiv.sum_comp (contrEquiv1 D1 2048 rfl rfl).symm]
  refine congrArg (xs (ix2 ra j) + ·) (Finset.sum_congr rfl fun r _ => ?_)
  rw [D1_lhs, D1_rhs]
  rfl

/-- The combination at an entry: twice the accumulation plus minus one times the third block, the constants kept as
    their float words. -/
theorem pay3_apply (v17 v20 : Vec Ideal S2048x256 .f32) (y : S2048x256.Idx) :
    k1_pay3 v17 v20 y = Ideal.ofBits .f32 0x40000000#32 * v17 y + Ideal.ofBits .f32 0xBF800000#32 * v20 y := by
  unfold k1_pay3
  try simp only [shapeCast_self]
  rfl

/-! ## The blocks as entries of the arrays -/

variable (V : (c : Dev nD) → (b : Ref sig .tc) → Buf (Elt Ideal) ((c : Thread nD τ).loc b))

/-- The windows' block indices in closed form, decided over the grid: the first coordinate is `t / 4`, the second
    (the reduction coordinate) `t % 4`. -/
theorem index1_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem index1_1 : ∀ t : Fin cfg1.N, win1_1.index t 0 = t.val % 4 ∧ win1_1.index t 1 = 0 :=
  (by decide +kernel : ∀ t : Fin grid1.N, win1_1.index t 0 = t.val % 4 ∧ win1_1.index t 1 = 0)
theorem index1_2 : ∀ t : Fin cfg1.N, win1_2.index t 0 = t.val / 4 ∧ win1_2.index t 1 = 0 :=
  (by decide +kernel : ∀ t : Fin grid1.N, win1_2.index t 0 = t.val / 4 ∧ win1_2.index t 1 = 0)
theorem index1_3 : ∀ t : Fin cfg1.N, win1_3.index t 0 = t.val / 4 ∧ win1_3.index t 1 = 0 :=
  (by decide +kernel : ∀ t : Fin grid1.N, win1_3.index t 0 = t.val / 4 ∧ win1_3.index t 1 = 0)

/-- The first input's block at point `t` is rows `2048·(t/4) …` and columns `2048·(t%4) …` of its array. -/
theorem iblk0_apply (c : Dev nD) (t : Fin cfg1.N) (x : S2048x2048.Idx) (k : S8192x8192.Idx)
    (hk0 : (k 0).val = t.val / 4 * 2048 + (x 0).val) (hk1 : (k 1).val = t.val % 4 * 2048 + (x 1).val) :
    (iblk V c 0 t : Vec Ideal S2048x2048 .bf16) x = (V c main_v0_1 : S8192x8192.Idx → Elt Ideal .bf16) k := by
  have hi := index1_0 t
  unfold iblk
  rw [View.read_apply]
  show V c main_v0_1 _ = V c main_v0_1 _
  congr 1
  funext a
  apply Fin.ext
  match a with
  | ⟨0, _⟩ => show win1_0.index t 0 * 2048 + 1 * (x 0).val = (k 0).val; rw [hi.1, hk0]; omega
  | ⟨1, _⟩ => show win1_0.index t 1 * 2048 + 1 * (x 1).val = (k 1).val; rw [hi.2, hk1]; omega

/-- The second input's block is rows `2048·(t%4) …` of its array. -/
theorem iblk1_apply (c : Dev nD) (t : Fin cfg1.N) (x : S2048x256.Idx) (k : S8192x256.Idx)
    (hk0 : (k 0).val = t.val % 4 * 2048 + (x 0).val) (hk1 : (k 1).val = (x 1).val) :
    (iblk V c 1 t : Vec Ideal S2048x256 .f32) x = (V c main_v0_0 : S8192x256.Idx → Elt Ideal .f32) k := by
  have hi := index1_1 t
  unfold iblk
  rw [View.read_apply]
  show V c main_v0_0 _ = V c main_v0_0 _
  congr 1
  funext a
  apply Fin.ext
  match a with
  | ⟨0, _⟩ => show win1_1.index t 0 * 2048 + 1 * (x 0).val = (k 0).val; rw [hi.1, hk0]; omega
  | ⟨1, _⟩ => show win1_1.index t 1 * 256 + 1 * (x 1).val = (k 1).val; rw [hi.2, hk1]; omega

/-- The third input's block is rows `2048·(t/4) …` of its array. -/
theorem iblk2_apply (c : Dev nD) (t : Fin cfg1.N) (x : S2048x256.Idx) (k : S8192x256.Idx)
    (hk0 : (k 0).val = t.val / 4 * 2048 + (x 0).val) (hk1 : (k 1).val = (x 1).val) :
    (iblk V c 2 t : Vec Ideal S2048x256 .f32) x = (V c main_arg1 : S8192x256.Idx → Elt Ideal .f32) k := by
  have hi := index1_2 t
  unfold iblk
  rw [View.read_apply]
  show V c main_arg1 _ = V c main_arg1 _
  congr 1
  funext a
  apply Fin.ext
  match a with
  | ⟨0, _⟩ => show win1_2.index t 0 * 2048 + 1 * (x 0).val = (k 0).val; rw [hi.1, hk0]; omega
  | ⟨1, _⟩ => show win1_2.index t 1 * 256 + 1 * (x 1).val = (k 1).val; rw [hi.2, hk1]; omega

/-! ## The scratch and the output after a point, over the point's blocks -/

/-- The three inputs' blocks at a point, as functions of the literal block index into the extended reals. -/
abbrev B0 (c : Dev nD) (t : Fin cfg1.N) : S2048x2048.Idx → EReal := iblk V c 0 t
abbrev B1 (c : Dev nD) (t : Fin cfg1.N) : S2048x256.Idx → EReal := iblk V c 1 t
abbrev B2 (c : Dev nD) (t : Fin cfg1.N) : S2048x256.Idx → EReal := iblk V c 2 t

/-- After a point whose reduction coordinate is 0 the scratch holds zero plus the blocks' product. -/
theorem scr_A (c : Dev nD) (t : Fin cfg1.N) (h0 : t.val % 4 = 0) (h1 : ¬t.val % 4 = 3) (ra : Fin 2048) (j : Fin 256) :
    (outsAt1 V c t.val t.isLt).2 (ix2 ra j)
      = 0 + ∑ r : Fin 2048, B0 V c t (ix2 ra r) * B1 V c t (ix2 r j) := by
  rw [outsAt1_A V c t h0 h1]
  dsimp only
  rw [soutA_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk V c 0 t) (iblk V c 1 t) (iblk V c 2 t)]
  rw [pay2_apply, pay1_apply]

/-- After a point whose reduction coordinate is 1 or 2 it holds what it held plus the blocks' product. -/
theorem scr_B (c : Dev nD) (t : Fin cfg1.N) (h0 : ¬t.val % 4 = 0) (h1 : ¬t.val % 4 = 3) (ra : Fin 2048) (j : Fin 256) :
    (outsAt1 V c t.val t.isLt).2 (ix2 ra j)
      = (outsAt1 V c (t.val - 1) (Nat.lt_of_le_of_lt (Nat.sub_le _ _) t.isLt)).2 (ix2 ra j) + ∑ r : Fin 2048, B0 V c t (ix2 ra r) * B1 V c t (ix2 r j) := by
  rw [outsAt1_B V c t h0 h1]
  dsimp only
  rw [soutB_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk V c 0 t) (iblk V c 1 t) (iblk V c 2 t) (outsAt1 V c (t.val - 1) (Nat.lt_of_le_of_lt (Nat.sub_le _ _) t.isLt)).2]
  rw [pay2_apply]

/-- Likewise where it is 3, -/
theorem scr_C (c : Dev nD) (t : Fin cfg1.N) (h0 : ¬t.val % 4 = 0) (h1 : t.val % 4 = 3) (ra : Fin 2048) (j : Fin 256) :
    (outsAt1 V c t.val t.isLt).2 (ix2 ra j)
      = (outsAt1 V c (t.val - 1) (Nat.lt_of_le_of_lt (Nat.sub_le _ _) t.isLt)).2 (ix2 ra j) + ∑ r : Fin 2048, B0 V c t (ix2 ra r) * B1 V c t (ix2 r j) := by
  rw [outsAt1_C V c t h0 h1]
  dsimp only
  rw [soutC_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk V c 0 t) (iblk V c 1 t) (iblk V c 2 t) (outsAt1 V c (t.val - 1) (Nat.lt_of_le_of_lt (Nat.sub_le _ _) t.isLt)).2]
  rw [pay2_apply]

/-- and the output's buffer holds twice that plus minus one times the third block. -/
theorem out_C (c : Dev nD) (t : Fin cfg1.N) (h0 : ¬t.val % 4 = 0) (h1 : t.val % 4 = 3) (y : S2048x256.Idx) :
    (outsAt1 V c t.val t.isLt).1 y
      = Ideal.ofBits .f32 0x40000000#32 * (outsAt1 V c t.val t.isLt).2 y
        + Ideal.ofBits .f32 0xBF800000#32 * B2 V c t y := by
  rw [outsAt1_C V c t h0 h1]
  dsimp only
  rw [outC_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk V c 0 t) (iblk V c 1 t) (iblk V c 2 t) (outsAt1 V c (t.val - 1) (Nat.lt_of_le_of_lt (Nat.sub_le _ _) t.isLt)).2]
  rw [soutC_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk V c 0 t) (iblk V c 1 t) (iblk V c 2 t) (outsAt1 V c (t.val - 1) (Nat.lt_of_le_of_lt (Nat.sub_le _ _) t.isLt)).2]
  rw [pay3_apply]

/-! ## The fold: the scratch after each point, the output after a row block's last point -/

/-- One term of the contraction: row `g` of the operator against column `j` of the second array. -/
abbrev Lc (c : Dev nD) : Cert.Spec.SL.Idx → EReal := V c main_v0_1
abbrev Pc (c : Dev nD) : Cert.Spec.SX.Idx → EReal := V c main_v0_0
abbrev Tc (c : Dev nD) : Cert.Spec.SX.Idx → EReal := V c main_arg1
abbrev fLP (c : Dev nD) (g : Fin 8192) (j : Fin 256) : Fin 8192 → EReal :=
  fun k => Lc V c (ix2 g k) * Pc V c (ix2 k j)

theorem scr_B' (c : Dev nD) (t : Fin cfg1.N) (h0 : ¬t.val % 4 = 0) (h1 : ¬t.val % 4 = 3) (ra : Fin 2048) (j : Fin 256)
    (n' : ℕ) (hn' : n' + 1 = t.val) :
    (outsAt1 V c t.val t.isLt).2 (ix2 ra j)
      = (outsAt1 V c n' (by have := t.isLt; omega)).2 (ix2 ra j) + ∑ r : Fin 2048, B0 V c t (ix2 ra r) * B1 V c t (ix2 r j) := by
  obtain rfl : n' = t.val - 1 := by omega
  exact scr_B V c t h0 h1 ra j

theorem scr_C' (c : Dev nD) (t : Fin cfg1.N) (h0 : ¬t.val % 4 = 0) (h1 : t.val % 4 = 3) (ra : Fin 2048) (j : Fin 256)
    (n' : ℕ) (hn' : n' + 1 = t.val) :
    (outsAt1 V c t.val t.isLt).2 (ix2 ra j)
      = (outsAt1 V c n' (by have := t.isLt; omega)).2 (ix2 ra j) + ∑ r : Fin 2048, B0 V c t (ix2 ra r) * B1 V c t (ix2 r j) := by
  obtain rfl : n' = t.val - 1 := by omega
  exact scr_C V c t h0 h1 ra j

/-- The blocks' product at point `4a + k` is block `k` of the contraction's terms for row `2048a + ra`. -/
theorem block_term (c : Dev nD) (a k : ℕ) (ha : a < 4) (hk : k < 4) (hn : 4 * a + k < cfg1.N) (ra : Fin 2048) (j : Fin 256)
    (r : Fin 2048) :
    B0 V c ⟨4 * a + k, hn⟩ (ix2 ra r) * B1 V c ⟨4 * a + k, hn⟩ (ix2 r j)
      = fLP V c ⟨a * 2048 + ra.val, by omega⟩ j ⟨k * 2048 + r.val, by omega⟩ := by
  unfold B0 B1
  rw [iblk0_apply V c ⟨4 * a + k, hn⟩ (ix2 ra r) (ix2 (⟨a * 2048 + ra.val, by omega⟩ : Fin 8192) (⟨k * 2048 + r.val, by omega⟩ : Fin 8192))
      (by show a * 2048 + ra.val = (4 * a + k) / 4 * 2048 + ra.val; omega)
      (by show k * 2048 + r.val = (4 * a + k) % 4 * 2048 + r.val; omega),
    iblk1_apply V c ⟨4 * a + k, hn⟩ (ix2 r j) (ix2 (⟨k * 2048 + r.val, by omega⟩ : Fin 8192) j)
      (by show k * 2048 + r.val = (4 * a + k) % 4 * 2048 + r.val; omega) rfl]

/-- THE INVARIANT: after point `4a + k` the scratch holds, at entry `(ra, j)`, the fold over the first `k + 1`
    column blocks of row `2048a + ra` of the operator against column `j`. -/
theorem scratch_inv (c : Dev nD) (a : ℕ) (ha : a < 4) (ra : Fin 2048) (j : Fin 256) :
    ∀ (k : ℕ) (hk : k < 4) (hn : 4 * a + k < cfg1.N),
      (outsAt1 V c (4 * a + k) hn).2 (ix2 ra j)
        = Cert.SpecLaws.acc 4 2048 (fLP V c ⟨a * 2048 + ra.val, by omega⟩ j) (k + 1) (by omega)
  | 0, hk, hn => by
    refine (scr_A V c ⟨4 * a + 0, hn⟩ (by dsimp only; omega) (by dsimp only; omega) ra j).trans ?_
    refine Eq.trans ?_ (Cert.SpecLaws.acc_succ 4 2048 (fLP V c ⟨a * 2048 + ra.val, by omega⟩ j) 0 (by omega)).symm
    refine congr (congrArg HAdd.hAdd (Cert.SpecLaws.acc_zero 4 2048 _ (by omega)).symm) (Finset.sum_congr rfl fun r _ => ?_)
    exact block_term V c a 0 ha hk hn ra j r
  | k + 1, hk, hn => by
    have ih := scratch_inv c a ha ra j k (by omega) (by omega)
    have hstep : (outsAt1 V c (4 * a + (k + 1)) hn).2 (ix2 ra j)
        = (outsAt1 V c (4 * a + k) (by omega)).2 (ix2 ra j) + ∑ r : Fin 2048, B0 V c ⟨4 * a + (k + 1), hn⟩ (ix2 ra r) * B1 V c ⟨4 * a + (k + 1), hn⟩ (ix2 r j) := by
      by_cases h1 : (4 * a + (k + 1)) % 4 = 3
      · exact scr_C' V c ⟨4 * a + (k + 1), hn⟩ (by dsimp only; omega) h1 ra j (4 * a + k) (by dsimp only; omega)
      · exact scr_B' V c ⟨4 * a + (k + 1), hn⟩ (by dsimp only; omega) h1 ra j (4 * a + k) (by dsimp only; omega)
    refine hstep.trans ?_
    refine Eq.trans ?_ (Cert.SpecLaws.acc_succ 4 2048 (fLP V c ⟨a * 2048 + ra.val, by omega⟩ j) (k + 1) (by omega)).symm
    refine congr (congrArg HAdd.hAdd ih) (Finset.sum_congr rfl fun r _ => ?_)
    exact block_term V c a (k + 1) ha hk hn ra j r

/-- The result array, entry by entry: twice the fold over the four column blocks plus minus one times the third
    array, the two constants kept as their float words. -/
def G1 (c : Dev nD) : Cert.Spec.SX.Idx → EReal := fun i =>
  Ideal.ofBits .f32 0x40000000#32 * Cert.SpecLaws.acc 4 2048 (fun k : Fin 8192 => Lc V c (ix2 (i 0 : Fin 8192) k) * Pc V c (ix2 k (i 1 : Fin 256))) 4 le_rfl
    + Ideal.ofBits .f32 0xBF800000#32 * Tc V c i

/-- After the last point of row block `a` the output's buffer holds that block of `G1`. -/
theorem out_inv (c : Dev nD) (a : ℕ) (ha : a < 4) (hn : 4 * a + 3 < cfg1.N) (ra : Fin 2048) (j : Fin 256) :
    (outsAt1 V c (4 * a + 3) hn).1 (ix2 ra j) = G1 V c (ix2 (⟨a * 2048 + ra.val, by omega⟩ : Fin 8192) j) := by
  refine (out_C V c ⟨4 * a + 3, hn⟩ (by dsimp only; omega) (by dsimp only; omega) (ix2 ra j)).trans ?_
  unfold B2
  rw [scratch_inv V c a ha ra j 3 (by omega) hn,
    iblk2_apply V c ⟨4 * a + 3, hn⟩ (ix2 ra j) (ix2 (⟨a * 2048 + ra.val, by omega⟩ : Fin 8192) j)
      (by show a * 2048 + ra.val = (4 * a + 3) / 4 * 2048 + ra.val; omega) rfl]
  rfl

/-! ## The write-backs and the result array -/

theorem xsize1_3 : ∀ t : Fin cfg1.N, win1_3.xsize (grid1.coords t) 0 = 2048 ∧ win1_3.xsize (grid1.coords t) 1 = 256 :=
  (by decide +kernel : ∀ t : Fin grid1.N, win1_3.xsize (grid1.coords t) 0 = 2048 ∧ win1_3.xsize (grid1.coords t) 1 = 256)

/-- An entry of the output window's block at point `t` sits in the array at row `2048·(t/4) + ` its row, same column. -/
theorem emb1_3 (t : Fin cfg1.N) (ra : Fin 2048) (j : Fin 256) (h : t.val / 4 * 2048 + ra.val < 8192) :
    (((cfg1.win 3).blk t).view.emb (ix2 ra j) : S8192x256.Idx) = ix2 (⟨t.val / 4 * 2048 + ra.val, h⟩ : Fin 8192) j := by
  have hi := index1_3 t
  funext ax
  apply Fin.ext
  match ax with
  | ⟨0, _⟩ => show win1_3.index t 0 * 2048 + 1 * ra.val = t.val / 4 * 2048 + ra.val; rw [hi.1]; omega
  | ⟨1, _⟩ => show win1_3.index t 1 * 256 + 1 * j.val = j.val; rw [hi.2]; omega

/-- Every write-back writes its block of `G1`. -/
theorem flushed_eq (c : Dev nD) (t : Fin cfg1.N) (hf : (cfg1.win 3).flush t = true) :
    (dat1 V c).flushed 3 t = ((cfg1.win 3).blk t).view.read (Elt Ideal) (G1 V c) := by
  have hN : cfg1.N = 16 := N_1
  have hb : ∀ a : ℕ, a < 4 → 4 * a + 3 < cfg1.N := fun a ha => by omega
  have h3 : t.val % 4 = 3 := (flush1_3 t).mp hf
  obtain ⟨a, ha, rfl⟩ : ∃ a, ∃ (ha : a < 4), t = ⟨4 * a + 3, hb a ha⟩ :=
    ⟨t.val / 4, by have := t.isLt; omega, Fin.ext (by dsimp only; omega)⟩
  show (cfg1.win 3).cut (grid1.coords _) ((dat1 V c).after 3 _) = _
  rw [after1_3]
  refine funext fun (x : S2048x256.Idx) => ?_
  obtain ⟨ra, j, rfl⟩ : ∃ (ra : Fin 2048) (j : Fin 256), x = ix2 ra j := ⟨x 0, x 1, eq_ix2 x⟩
  rw [View.read_apply]
  show (outsAt1 V c (4 * a + 3) _).1 (ix2 ra j) = G1 V c (((cfg1.win 3).blk ⟨4 * a + 3, hb a ha⟩).view.emb (ix2 ra j))
  rw [out_inv V c a ha _ ra j, emb1_3 ⟨4 * a + 3, hb a ha⟩ ra j (by dsimp only; omega)]
  congr 2
  apply Fin.ext
  show a * 2048 + ra.val = (4 * a + 3) / 4 * 2048 + ra.val
  omega

/-- Every entry of the result array lies in the block written back after its row block's last point. -/
theorem mem_blk1_3 (t : Fin cfg1.N) (i : S8192x256.Idx)
    (hi : t.val / 4 * 2048 ≤ (i 0).val ∧ (i 0).val < t.val / 4 * 2048 + 2048) :
    i ∈ ((cfg1.win 3).blk t).view.set := by
  show i ∈ ((View.whole main_v1).slice (win1_3.rect t)).set
  rw [View.set_slice_whole, Rect.mem_set_unit]
  intro ax
  have h1 : (i 1 : Nat) < 256 := (i 1).isLt
  match ax with
  | ⟨0, _⟩ =>
    show win1_3.index t 0 * win1_3.size 0 ≤ (i 0 : Nat) ∧ (i 0 : Nat) < win1_3.index t 0 * win1_3.size 0 + win1_3.xsize (grid1.coords t) 0
    rw [(index1_3 t).1, (xsize1_3 t).1, show win1_3.size 0 = 2048 from rfl]; exact hi
  | ⟨1, _⟩ =>
    show win1_3.index t 1 * win1_3.size 1 ≤ (i 1 : Nat) ∧ (i 1 : Nat) < win1_3.index t 1 * win1_3.size 1 + win1_3.xsize (grid1.coords t) 1
    rw [(index1_3 t).2, (xsize1_3 t).2, show win1_3.size 1 = 256 from rfl]; omega

/-- THE VALUE: after the region the output window's array holds `G1`. -/
theorem out1_value' (c : Dev nD) : (dat1 V c).arrAt 3 cfg1.N = G1 V c :=
  (dat1 V c).arrAt_eq_of_cover 3 (G1 V c) (flushed_eq V c) fun i => by
    have hN : cfg1.N = 16 := N_1
    have h0 : ((i : S8192x256.Idx) 0 : Nat) < 8192 := ((i : S8192x256.Idx) 0).isLt
    refine ⟨⟨4 * (((i : S8192x256.Idx) 0 : Nat) / 2048) + 3, by omega⟩, (flush1_3 _).mpr (by dsimp only; omega), ?_⟩
    exact mem_blk1_3 _ i (by dsimp only; omega)

/-- The same, as the recurrence's step of the blockwise form. -/
theorem out1_value (c : Dev nD) :
    (dat1 V c).arrAt 3 cfg1.N = Cert.KernelForm.step (V c main_v0_1) (V c main_v0_0) (V c main_arg1) :=
  (out1_value' V c).trans rfl

end Cert.KernelIdeal.Reg1

end
-- ==== Proof.KI.Reg2Value.lean ====
import proofs.«104635_j41927470743646_2_alg».proof.Proof.KI.Reg2
import proofs.«104635_j41927470743646_2_alg».proof.Proof.Spec
import proofs.«104635_j41927470743646_2_alg».proof.Proof.SpecLaws
import proofs.«104635_j41927470743646_2_alg».proof.Proof.KernelForm
import Idealize.ShloMosaic.Lib.Pipeline.Value
import Idealize.ShloMosaic.Lib.ValueIdx
import Idealize.ShloMosaic.PureOps.Ideal.Laws
import Idealize.ShloMosaic.Lib.Tactic

/-! The value of region 2 at the ideal values: after the region the output window's array holds, entry by entry, twice
the left-to-right fold over the four column blocks of the operator's row against the second array's column, plus
minus one times the third array (`Reg2.out2_value`). First what each control case leaves as payloads of the blocks
(any float instance), then the payloads, the blocks and the fold at the ideal values. -/

set_option maxRecDepth 16384

noncomputable section

open scoped BigOperators

namespace Cert.KernelIdeal.Reg2

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz : (![0, 0] : Fin 2 → Nat) = fun _ => 0 := funext fun a => by fin_cases a <;> rfl

/-! ## What each case leaves, as payloads of the blocks -/

/-- Where the reduction coordinate is 0 the scratch ends at the accumulation over the zero fill. -/
theorem soutA_eq (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i) (x0 : Vec F S2048x2048 .bf16) (x1 : Vec F S2048x256 .f32) (x2 : Vec F S2048x256 .f32) :
    sout2_A_0 c i arg2 harg2 arg3 harg3 arg4 harg4 arg5 harg5 arg6 harg6 hc0 hc1 x0 x1 x2 = k2_pay2 x0 x1 k2_pay1 := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  try sl_unfold_words
  rw [View.canon_cons_unit_zero (S := S2048x256) hz, View.readCov_unit_zero (S := S2048x256) _ hz]
  simp only [View.readAt_eq_ld, harg2.read_unread, harg3.read_unread, harg4.read_unread, harg6.read_unread, View.ld_unit_zero (S := S2048x2048) hz, View.ld_unit_zero (S := S2048x256) hz]

/-- Where it is 1 or 2 the scratch ends at the accumulation over what it held. -/
theorem soutB_eq (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i) (x0 : Vec F S2048x2048 .bf16) (x1 : Vec F S2048x256 .f32) (x2 : Vec F S2048x256 .f32) (xs0 : Vec F S2048x256 .f32) :
    sout2_B_0 c i arg2 harg2 arg3 harg3 arg4 harg4 arg5 harg5 arg6 harg6 hc0 hc1 x0 x1 x2 xs0 = k2_pay2 x0 x1 xs0 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  try sl_unfold_words
  rw [View.canon_unit_zero hz]
  simp only [View.readAt_eq_ld, harg2.read_unread, harg3.read_unread, harg4.read_unread, harg6.read_unread, View.ld_unit_zero (S := S2048x2048) hz, View.ld_unit_zero (S := S2048x256) hz]

/-- Where it is 3 likewise, -/
theorem soutC_eq (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i) (x0 : Vec F S2048x2048 .bf16) (x1 : Vec F S2048x256 .f32) (x2 : Vec F S2048x256 .f32) (xs0 : Vec F S2048x256 .f32) :
    sout2_C_0 c i arg2 harg2 arg3 harg3 arg4 harg4 arg5 harg5 arg6 harg6 hc0 hc1 x0 x1 x2 xs0 = k2_pay2 x0 x1 xs0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  try sl_unfold_words
  rw [View.canon_unit_zero hz]
  simp only [View.readAt_eq_ld, harg2.read_unread, harg3.read_unread, harg4.read_unread, harg6.read_unread, View.ld_unit_zero (S := S2048x2048) hz, View.ld_unit_zero (S := S2048x256) hz]

/-- and the output's buffer ends at the combination of that accumulation and the third input's block. -/
theorem outC_eq (c : Dev nD) (i : grid2.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i) (x0 : Vec F S2048x2048 .bf16) (x1 : Vec F S2048x256 .f32) (x2 : Vec F S2048x256 .f32) (xs0 : Vec F S2048x256 .f32) :
    out2_C_3 c i arg2 harg2 arg3 harg3 arg4 harg4 arg5 harg5 arg6 harg6 hc0 hc1 x0 x1 x2 xs0 = k2_pay3 (k2_pay2 x0 x1 xs0) x2 := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  try sl_unfold_words
  rw [View.canon_unit_zero hz, View.readCov_unit_zero (S := S2048x256) _ hz]
  simp only [View.readAt_eq_ld, harg2.read_unread, harg3.read_unread, harg4.read_unread, harg6.read_unread, View.ld_unit_zero (S := S2048x2048) hz, View.ld_unit_zero (S := S2048x256) hz]

/-! ## The payloads at the ideal values, entry by entry -/

/-- The contraction of a 2048 × 2048 block against a 2048 × 256 block. -/
abbrev D1 : DotDims S2048x2048 S2048x256 S2048x256 := dot_S2048x2048_S2048x256_S2048x256_1_0_0_1_n_n

theorem D2_lhs (ra : Fin 2048) (j : Fin 256) (r : Fin 2048) :
    D1.lhsIdx (ix2 ra j) ((contrEquiv1 D1 2048 rfl rfl).symm r) = ix2 ra r := by
  have c2 := contrEquiv1_symm_val D1 2048 rfl rfl r
  funext ax; apply Fin.ext
  match ax with
  | ⟨0, _⟩ => simp [DotDims.lhsIdx, D1, dot_S2048x2048_S2048x256_S2048x256_1_0_0_1_n_n]; rfl
  | ⟨1, _⟩ => simp [DotDims.lhsIdx, D1, dot_S2048x2048_S2048x256_S2048x256_1_0_0_1_n_n]; exact c2

theorem D2_rhs (ra : Fin 2048) (j : Fin 256) (r : Fin 2048) :
    D1.rhsIdx (ix2 ra j) ((contrEquiv1 D1 2048 rfl rfl).symm r) = ix2 r j := by
  have c2 := contrEquiv1_symm_val D1 2048 rfl rfl r
  funext ax; apply Fin.ext
  match ax with
  | ⟨0, _⟩ => simp [DotDims.rhsIdx, D1, dot_S2048x2048_S2048x256_S2048x256_1_0_0_1_n_n]; exact c2
  | ⟨1, _⟩ => simp [DotDims.rhsIdx, D1, dot_S2048x2048_S2048x256_S2048x256_1_0_0_1_n_n]; rfl

/-- The zero fill reads zero. -/
theorem pay1_apply (y : S2048x256.Idx) : (k2_pay1 (F := Ideal)) y = 0 := by
  unfold k2_pay1
  simp only [shapeCast_self]
  exact Ideal.ofBits_zero_f32

/-- The accumulation at an entry: what the scratch held plus the block's row against the block's column (the
    narrowing to bf16 is the identity on the ideal values). -/
theorem pay2_apply (x0 : Vec Ideal S2048x2048 .bf16) (x1 xs : Vec Ideal S2048x256 .f32) (ra : Fin 2048) (j : Fin 256) :
    k2_pay2 x0 x1 xs (ix2 ra j) = xs (ix2 ra j) + ∑ r : Fin 2048, x0 (ix2 ra r) * x1 (ix2 r j) := by
  unfold k2_pay2
  simp only [shapeCast_self]
  show xs (ix2 ra j) + FloatOps.matmul (F := Ideal) D1 none (x0 : FVec Ideal S2048x2048 .bf16) (truncf (F := Ideal) .bf16 (x1 : FVec Ideal S2048x256 .f32) bitsLt_bf16_f32) (constant (F := Ideal) S2048x256 .f32 0x00000000#32) (ix2 ra j) = _
  rw [Ideal.matmul_constant_zero_apply, ← Equiv.sum_comp (contrEquiv1 D1 2048 rfl rfl).symm]
  refine congrArg (xs (ix2 ra j) + ·) (Finset.sum_congr rfl fun r _ => ?_)
  rw [D2_lhs, D2_rhs]
  rfl

/-- The combination at an entry: twice the accumulation plus minus one times the third block, the constants kept as
    their float words. -/
theorem pay3_apply (v17 v20 : Vec Ideal S2048x256 .f32) (y : S2048x256.Idx) :
    k2_pay3 v17 v20 y = Ideal.ofBits .f32 0x40000000#32 * v17 y + Ideal.ofBits .f32 0xBF800000#32 * v20 y := by
  unfold k2_pay3
  try simp only [shapeCast_self]
  rfl

/-! ## The blocks as entries of the arrays -/

variable (V : (c : Dev nD) → (b : Ref sig .tc) → Buf (Elt Ideal) ((c : Thread nD τ).loc b))

/-- The windows' block indices in closed form, decided over the grid: the first coordinate is `t / 4`, the second
    (the reduction coordinate) `t % 4`. -/
theorem index2_0 : ∀ t : Fin cfg2.N, win2_0.index t 0 = t.val / 4 ∧ win2_0.index t 1 = t.val % 4 :=
  (by decide +kernel : ∀ t : Fin grid2.N, win2_0.index t 0 = t.val / 4 ∧ win2_0.index t 1 = t.val % 4)
theorem index2_1 : ∀ t : Fin cfg2.N, win2_1.index t 0 = t.val % 4 ∧ win2_1.index t 1 = 0 :=
  (by decide +kernel : ∀ t : Fin grid2.N, win2_1.index t 0 = t.val % 4 ∧ win2_1.index t 1 = 0)
theorem index2_2 : ∀ t : Fin cfg2.N, win2_2.index t 0 = t.val / 4 ∧ win2_2.index t 1 = 0 :=
  (by decide +kernel : ∀ t : Fin grid2.N, win2_2.index t 0 = t.val / 4 ∧ win2_2.index t 1 = 0)
theorem index2_3 : ∀ t : Fin cfg2.N, win2_3.index t 0 = t.val / 4 ∧ win2_3.index t 1 = 0 :=
  (by decide +kernel : ∀ t : Fin grid2.N, win2_3.index t 0 = t.val / 4 ∧ win2_3.index t 1 = 0)

/-- The first input's block at point `t` is rows `2048·(t/4) …` and columns `2048·(t%4) …` of its array. -/
theorem iblk0_apply (c : Dev nD) (t : Fin cfg2.N) (x : S2048x2048.Idx) (k : S8192x8192.Idx)
    (hk0 : (k 0).val = t.val / 4 * 2048 + (x 0).val) (hk1 : (k 1).val = t.val % 4 * 2048 + (x 1).val) :
    (iblk V c 0 t : Vec Ideal S2048x2048 .bf16) x = (V c main_v0_1 : S8192x8192.Idx → Elt Ideal .bf16) k := by
  have hi := index2_0 t
  unfold iblk
  rw [View.read_apply]
  show V c main_v0_1 _ = V c main_v0_1 _
  congr 1
  funext a
  apply Fin.ext
  match a with
  | ⟨0, _⟩ => show win2_0.index t 0 * 2048 + 1 * (x 0).val = (k 0).val; rw [hi.1, hk0]; omega
  | ⟨1, _⟩ => show win2_0.index t 1 * 2048 + 1 * (x 1).val = (k 1).val; rw [hi.2, hk1]; omega

/-- The second input's block is rows `2048·(t%4) …` of its array. -/
theorem iblk1_apply (c : Dev nD) (t : Fin cfg2.N) (x : S2048x256.Idx) (k : S8192x256.Idx)
    (hk0 : (k 0).val = t.val % 4 * 2048 + (x 0).val) (hk1 : (k 1).val = (x 1).val) :
    (iblk V c 1 t : Vec Ideal S2048x256 .f32) x = (V c main_v1 : S8192x256.Idx → Elt Ideal .f32) k := by
  have hi := index2_1 t
  unfold iblk
  rw [View.read_apply]
  show V c main_v1 _ = V c main_v1 _
  congr 1
  funext a
  apply Fin.ext
  match a with
  | ⟨0, _⟩ => show win2_1.index t 0 * 2048 + 1 * (x 0).val = (k 0).val; rw [hi.1, hk0]; omega
  | ⟨1, _⟩ => show win2_1.index t 1 * 256 + 1 * (x 1).val = (k 1).val; rw [hi.2, hk1]; omega

/-- The third input's block is rows `2048·(t/4) …` of its array. -/
theorem iblk2_apply (c : Dev nD) (t : Fin cfg2.N) (x : S2048x256.Idx) (k : S8192x256.Idx)
    (hk0 : (k 0).val = t.val / 4 * 2048 + (x 0).val) (hk1 : (k 1).val = (x 1).val) :
    (iblk V c 2 t : Vec Ideal S2048x256 .f32) x = (V c main_v0_0 : S8192x256.Idx → Elt Ideal .f32) k := by
  have hi := index2_2 t
  unfold iblk
  rw [View.read_apply]
  show V c main_v0_0 _ = V c main_v0_0 _
  congr 1
  funext a
  apply Fin.ext
  match a with
  | ⟨0, _⟩ => show win2_2.index t 0 * 2048 + 1 * (x 0).val = (k 0).val; rw [hi.1, hk0]; omega
  | ⟨1, _⟩ => show win2_2.index t 1 * 256 + 1 * (x 1).val = (k 1).val; rw [hi.2, hk1]; omega

/-! ## The scratch and the output after a point, over the point's blocks -/

/-- The three inputs' blocks at a point, as functions of the literal block index into the extended reals. -/
abbrev B0 (c : Dev nD) (t : Fin cfg2.N) : S2048x2048.Idx → EReal := iblk V c 0 t
abbrev B1 (c : Dev nD) (t : Fin cfg2.N) : S2048x256.Idx → EReal := iblk V c 1 t
abbrev B2 (c : Dev nD) (t : Fin cfg2.N) : S2048x256.Idx → EReal := iblk V c 2 t

/-- After a point whose reduction coordinate is 0 the scratch holds zero plus the blocks' product. -/
theorem scr_A (c : Dev nD) (t : Fin cfg2.N) (h0 : t.val % 4 = 0) (h1 : ¬t.val % 4 = 3) (ra : Fin 2048) (j : Fin 256) :
    (outsAt2 V c t.val t.isLt).2 (ix2 ra j)
      = 0 + ∑ r : Fin 2048, B0 V c t (ix2 ra r) * B1 V c t (ix2 r j) := by
  rw [outsAt2_A V c t h0 h1]
  dsimp only
  rw [soutA_eq c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk V c 0 t) (iblk V c 1 t) (iblk V c 2 t)]
  rw [pay2_apply, pay1_apply]

/-- After a point whose reduction coordinate is 1 or 2 it holds what it held plus the blocks' product. -/
theorem scr_B (c : Dev nD) (t : Fin cfg2.N) (h0 : ¬t.val % 4 = 0) (h1 : ¬t.val % 4 = 3) (ra : Fin 2048) (j : Fin 256) :
    (outsAt2 V c t.val t.isLt).2 (ix2 ra j)
      = (outsAt2 V c (t.val - 1) (Nat.lt_of_le_of_lt (Nat.sub_le _ _) t.isLt)).2 (ix2 ra j) + ∑ r : Fin 2048, B0 V c t (ix2 ra r) * B1 V c t (ix2 r j) := by
  rw [outsAt2_B V c t h0 h1]
  dsimp only
  rw [soutB_eq c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk V c 0 t) (iblk V c 1 t) (iblk V c 2 t) (outsAt2 V c (t.val - 1) (Nat.lt_of_le_of_lt (Nat.sub_le _ _) t.isLt)).2]
  rw [pay2_apply]

/-- Likewise where it is 3, -/
theorem scr_C (c : Dev nD) (t : Fin cfg2.N) (h0 : ¬t.val % 4 = 0) (h1 : t.val % 4 = 3) (ra : Fin 2048) (j : Fin 256) :
    (outsAt2 V c t.val t.isLt).2 (ix2 ra j)
      = (outsAt2 V c (t.val - 1) (Nat.lt_of_le_of_lt (Nat.sub_le _ _) t.isLt)).2 (ix2 ra j) + ∑ r : Fin 2048, B0 V c t (ix2 ra r) * B1 V c t (ix2 r j) := by
  rw [outsAt2_C V c t h0 h1]
  dsimp only
  rw [soutC_eq c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk V c 0 t) (iblk V c 1 t) (iblk V c 2 t) (outsAt2 V c (t.val - 1) (Nat.lt_of_le_of_lt (Nat.sub_le _ _) t.isLt)).2]
  rw [pay2_apply]

/-- and the output's buffer holds twice that plus minus one times the third block. -/
theorem out_C (c : Dev nD) (t : Fin cfg2.N) (h0 : ¬t.val % 4 = 0) (h1 : t.val % 4 = 3) (y : S2048x256.Idx) :
    (outsAt2 V c t.val t.isLt).1 y
      = Ideal.ofBits .f32 0x40000000#32 * (outsAt2 V c t.val t.isLt).2 y
        + Ideal.ofBits .f32 0xBF800000#32 * B2 V c t y := by
  rw [outsAt2_C V c t h0 h1]
  dsimp only
  rw [outC_eq c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk V c 0 t) (iblk V c 1 t) (iblk V c 2 t) (outsAt2 V c (t.val - 1) (Nat.lt_of_le_of_lt (Nat.sub_le _ _) t.isLt)).2]
  rw [soutC_eq c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk V c 0 t) (iblk V c 1 t) (iblk V c 2 t) (outsAt2 V c (t.val - 1) (Nat.lt_of_le_of_lt (Nat.sub_le _ _) t.isLt)).2]
  rw [pay3_apply]

/-! ## The fold: the scratch after each point, the output after a row block's last point -/

/-- One term of the contraction: row `g` of the operator against column `j` of the second array. -/
abbrev Lc (c : Dev nD) : Cert.Spec.SL.Idx → EReal := V c main_v0_1
abbrev Pc (c : Dev nD) : Cert.Spec.SX.Idx → EReal := V c main_v1
abbrev Tc (c : Dev nD) : Cert.Spec.SX.Idx → EReal := V c main_v0_0
abbrev fLP (c : Dev nD) (g : Fin 8192) (j : Fin 256) : Fin 8192 → EReal :=
  fun k => Lc V c (ix2 g k) * Pc V c (ix2 k j)

theorem scr_B' (c : Dev nD) (t : Fin cfg2.N) (h0 : ¬t.val % 4 = 0) (h1 : ¬t.val % 4 = 3) (ra : Fin 2048) (j : Fin 256)
    (n' : ℕ) (hn' : n' + 1 = t.val) :
    (outsAt2 V c t.val t.isLt).2 (ix2 ra j)
      = (outsAt2 V c n' (by have := t.isLt; omega)).2 (ix2 ra j) + ∑ r : Fin 2048, B0 V c t (ix2 ra r) * B1 V c t (ix2 r j) := by
  obtain rfl : n' = t.val - 1 := by omega
  exact scr_B V c t h0 h1 ra j

theorem scr_C' (c : Dev nD) (t : Fin cfg2.N) (h0 : ¬t.val % 4 = 0) (h1 : t.val % 4 = 3) (ra : Fin 2048) (j : Fin 256)
    (n' : ℕ) (hn' : n' + 1 = t.val) :
    (outsAt2 V c t.val t.isLt).2 (ix2 ra j)
      = (outsAt2 V c n' (by have := t.isLt; omega)).2 (ix2 ra j) + ∑ r : Fin 2048, B0 V c t (ix2 ra r) * B1 V c t (ix2 r j) := by
  obtain rfl : n' = t.val - 1 := by omega
  exact scr_C V c t h0 h1 ra j

/-- The blocks' product at point `4a + k` is block `k` of the contraction's terms for row `2048a + ra`. -/
theorem block_term (c : Dev nD) (a k : ℕ) (ha : a < 4) (hk : k < 4) (hn : 4 * a + k < cfg2.N) (ra : Fin 2048) (j : Fin 256)
    (r : Fin 2048) :
    B0 V c ⟨4 * a + k, hn⟩ (ix2 ra r) * B1 V c ⟨4 * a + k, hn⟩ (ix2 r j)
      = fLP V c ⟨a * 2048 + ra.val, by omega⟩ j ⟨k * 2048 + r.val, by omega⟩ := by
  unfold B0 B1
  rw [iblk0_apply V c ⟨4 * a + k, hn⟩ (ix2 ra r) (ix2 (⟨a * 2048 + ra.val, by omega⟩ : Fin 8192) (⟨k * 2048 + r.val, by omega⟩ : Fin 8192))
      (by show a * 2048 + ra.val = (4 * a + k) / 4 * 2048 + ra.val; omega)
      (by show k * 2048 + r.val = (4 * a + k) % 4 * 2048 + r.val; omega),
    iblk1_apply V c ⟨4 * a + k, hn⟩ (ix2 r j) (ix2 (⟨k * 2048 + r.val, by omega⟩ : Fin 8192) j)
      (by show k * 2048 + r.val = (4 * a + k) % 4 * 2048 + r.val; omega) rfl]

/-- THE INVARIANT: after point `4a + k` the scratch holds, at entry `(ra, j)`, the fold over the first `k + 1`
    column blocks of row `2048a + ra` of the operator against column `j`. -/
theorem scratch_inv (c : Dev nD) (a : ℕ) (ha : a < 4) (ra : Fin 2048) (j : Fin 256) :
    ∀ (k : ℕ) (hk : k < 4) (hn : 4 * a + k < cfg2.N),
      (outsAt2 V c (4 * a + k) hn).2 (ix2 ra j)
        = Cert.SpecLaws.acc 4 2048 (fLP V c ⟨a * 2048 + ra.val, by omega⟩ j) (k + 1) (by omega)
  | 0, hk, hn => by
    refine (scr_A V c ⟨4 * a + 0, hn⟩ (by dsimp only; omega) (by dsimp only; omega) ra j).trans ?_
    refine Eq.trans ?_ (Cert.SpecLaws.acc_succ 4 2048 (fLP V c ⟨a * 2048 + ra.val, by omega⟩ j) 0 (by omega)).symm
    refine congr (congrArg HAdd.hAdd (Cert.SpecLaws.acc_zero 4 2048 _ (by omega)).symm) (Finset.sum_congr rfl fun r _ => ?_)
    exact block_term V c a 0 ha hk hn ra j r
  | k + 1, hk, hn => by
    have ih := scratch_inv c a ha ra j k (by omega) (by omega)
    have hstep : (outsAt2 V c (4 * a + (k + 1)) hn).2 (ix2 ra j)
        = (outsAt2 V c (4 * a + k) (by omega)).2 (ix2 ra j) + ∑ r : Fin 2048, B0 V c ⟨4 * a + (k + 1), hn⟩ (ix2 ra r) * B1 V c ⟨4 * a + (k + 1), hn⟩ (ix2 r j) := by
      by_cases h1 : (4 * a + (k + 1)) % 4 = 3
      · exact scr_C' V c ⟨4 * a + (k + 1), hn⟩ (by dsimp only; omega) h1 ra j (4 * a + k) (by dsimp only; omega)
      · exact scr_B' V c ⟨4 * a + (k + 1), hn⟩ (by dsimp only; omega) h1 ra j (4 * a + k) (by dsimp only; omega)
    refine hstep.trans ?_
    refine Eq.trans ?_ (Cert.SpecLaws.acc_succ 4 2048 (fLP V c ⟨a * 2048 + ra.val, by omega⟩ j) (k + 1) (by omega)).symm
    refine congr (congrArg HAdd.hAdd ih) (Finset.sum_congr rfl fun r _ => ?_)
    exact block_term V c a (k + 1) ha hk hn ra j r

/-- The result array, entry by entry: twice the fold over the four column blocks plus minus one times the third
    array, the two constants kept as their float words. -/
def G2 (c : Dev nD) : Cert.Spec.SX.Idx → EReal := fun i =>
  Ideal.ofBits .f32 0x40000000#32 * Cert.SpecLaws.acc 4 2048 (fun k : Fin 8192 => Lc V c (ix2 (i 0 : Fin 8192) k) * Pc V c (ix2 k (i 1 : Fin 256))) 4 le_rfl
    + Ideal.ofBits .f32 0xBF800000#32 * Tc V c i

/-- After the last point of row block `a` the output's buffer holds that block of `G2`. -/
theorem out_inv (c : Dev nD) (a : ℕ) (ha : a < 4) (hn : 4 * a + 3 < cfg2.N) (ra : Fin 2048) (j : Fin 256) :
    (outsAt2 V c (4 * a + 3) hn).1 (ix2 ra j) = G2 V c (ix2 (⟨a * 2048 + ra.val, by omega⟩ : Fin 8192) j) := by
  refine (out_C V c ⟨4 * a + 3, hn⟩ (by dsimp only; omega) (by dsimp only; omega) (ix2 ra j)).trans ?_
  unfold B2
  rw [scratch_inv V c a ha ra j 3 (by omega) hn,
    iblk2_apply V c ⟨4 * a + 3, hn⟩ (ix2 ra j) (ix2 (⟨a * 2048 + ra.val, by omega⟩ : Fin 8192) j)
      (by show a * 2048 + ra.val = (4 * a + 3) / 4 * 2048 + ra.val; omega) rfl]
  rfl

/-! ## The write-backs and the result array -/

theorem xsize2_3 : ∀ t : Fin cfg2.N, win2_3.xsize (grid2.coords t) 0 = 2048 ∧ win2_3.xsize (grid2.coords t) 1 = 256 :=
  (by decide +kernel : ∀ t : Fin grid2.N, win2_3.xsize (grid2.coords t) 0 = 2048 ∧ win2_3.xsize (grid2.coords t) 1 = 256)

/-- An entry of the output window's block at point `t` sits in the array at row `2048·(t/4) + ` its row, same column. -/
theorem emb2_3 (t : Fin cfg2.N) (ra : Fin 2048) (j : Fin 256) (h : t.val / 4 * 2048 + ra.val < 8192) :
    (((cfg2.win 3).blk t).view.emb (ix2 ra j) : S8192x256.Idx) = ix2 (⟨t.val / 4 * 2048 + ra.val, h⟩ : Fin 8192) j := by
  have hi := index2_3 t
  funext ax
  apply Fin.ext
  match ax with
  | ⟨0, _⟩ => show win2_3.index t 0 * 2048 + 1 * ra.val = t.val / 4 * 2048 + ra.val; rw [hi.1]; omega
  | ⟨1, _⟩ => show win2_3.index t 1 * 256 + 1 * j.val = j.val; rw [hi.2]; omega

/-- Every write-back writes its block of `G2`. -/
theorem flushed_eq (c : Dev nD) (t : Fin cfg2.N) (hf : (cfg2.win 3).flush t = true) :
    (dat2 V c).flushed 3 t = ((cfg2.win 3).blk t).view.read (Elt Ideal) (G2 V c) := by
  have hN : cfg2.N = 16 := N_2
  have hb : ∀ a : ℕ, a < 4 → 4 * a + 3 < cfg2.N := fun a ha => by omega
  have h3 : t.val % 4 = 3 := (flush2_3 t).mp hf
  obtain ⟨a, ha, rfl⟩ : ∃ a, ∃ (ha : a < 4), t = ⟨4 * a + 3, hb a ha⟩ :=
    ⟨t.val / 4, by have := t.isLt; omega, Fin.ext (by dsimp only; omega)⟩
  show (cfg2.win 3).cut (grid2.coords _) ((dat2 V c).after 3 _) = _
  rw [after2_3]
  refine funext fun (x : S2048x256.Idx) => ?_
  obtain ⟨ra, j, rfl⟩ : ∃ (ra : Fin 2048) (j : Fin 256), x = ix2 ra j := ⟨x 0, x 1, eq_ix2 x⟩
  rw [View.read_apply]
  show (outsAt2 V c (4 * a + 3) _).1 (ix2 ra j) = G2 V c (((cfg2.win 3).blk ⟨4 * a + 3, hb a ha⟩).view.emb (ix2 ra j))
  rw [out_inv V c a ha _ ra j, emb2_3 ⟨4 * a + 3, hb a ha⟩ ra j (by dsimp only; omega)]
  congr 2
  apply Fin.ext
  show a * 2048 + ra.val = (4 * a + 3) / 4 * 2048 + ra.val
  omega

/-- Every entry of the result array lies in the block written back after its row block's last point. -/
theorem mem_blk2_3 (t : Fin cfg2.N) (i : S8192x256.Idx)
    (hi : t.val / 4 * 2048 ≤ (i 0).val ∧ (i 0).val < t.val / 4 * 2048 + 2048) :
    i ∈ ((cfg2.win 3).blk t).view.set := by
  show i ∈ ((View.whole main_v2).slice (win2_3.rect t)).set
  rw [View.set_slice_whole, Rect.mem_set_unit]
  intro ax
  have h1 : (i 1 : Nat) < 256 := (i 1).isLt
  match ax with
  | ⟨0, _⟩ =>
    show win2_3.index t 0 * win2_3.size 0 ≤ (i 0 : Nat) ∧ (i 0 : Nat) < win2_3.index t 0 * win2_3.size 0 + win2_3.xsize (grid2.coords t) 0
    rw [(index2_3 t).1, (xsize2_3 t).1, show win2_3.size 0 = 2048 from rfl]; exact hi
  | ⟨1, _⟩ =>
    show win2_3.index t 1 * win2_3.size 1 ≤ (i 1 : Nat) ∧ (i 1 : Nat) < win2_3.index t 1 * win2_3.size 1 + win2_3.xsize (grid2.coords t) 1
    rw [(index2_3 t).2, (xsize2_3 t).2, show win2_3.size 1 = 256 from rfl]; omega

/-- THE VALUE: after the region the output window's array holds `G2`. -/
theorem out2_value' (c : Dev nD) : (dat2 V c).arrAt 3 cfg2.N = G2 V c :=
  (dat2 V c).arrAt_eq_of_cover 3 (G2 V c) (flushed_eq V c) fun i => by
    have hN : cfg2.N = 16 := N_2
    have h0 : ((i : S8192x256.Idx) 0 : Nat) < 8192 := ((i : S8192x256.Idx) 0).isLt
    refine ⟨⟨4 * (((i : S8192x256.Idx) 0 : Nat) / 2048) + 3, by omega⟩, (flush2_3 _).mpr (by dsimp only; omega), ?_⟩
    exact mem_blk2_3 _ i (by dsimp only; omega)

/-- The same, as the recurrence's step of the blockwise form. -/
theorem out2_value (c : Dev nD) :
    (dat2 V c).arrAt 3 cfg2.N = Cert.KernelForm.step (V c main_v0_1) (V c main_v1) (V c main_v0_0) :=
  (out2_value' V c).trans rfl

end Cert.KernelIdeal.Reg2

end
-- ==== Proof.KI.Reg3Value.lean ====
import proofs.«104635_j41927470743646_2_alg».proof.Proof.KI.Reg3
import proofs.«104635_j41927470743646_2_alg».proof.Proof.Spec
import proofs.«104635_j41927470743646_2_alg».proof.Proof.SpecLaws
import proofs.«104635_j41927470743646_2_alg».proof.Proof.KernelForm
import Idealize.ShloMosaic.Lib.Pipeline.Value
import Idealize.ShloMosaic.Lib.ValueIdx
import Idealize.ShloMosaic.PureOps.Ideal.Laws
import Idealize.ShloMosaic.Lib.Tactic

/-! The value of region 3 at the ideal values: after the region the output window's array holds, entry by entry, twice
the left-to-right fold over the four column blocks of the operator's row against the second array's column, plus
minus one times the third array (`Reg3.out3_value`). First what each control case leaves as payloads of the blocks
(any float instance), then the payloads, the blocks and the fold at the ideal values. -/

set_option maxRecDepth 16384

noncomputable section

open scoped BigOperators

namespace Cert.KernelIdeal.Reg3

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz : (![0, 0] : Fin 2 → Nat) = fun _ => 0 := funext fun a => by fin_cases a <;> rfl

/-! ## What each case leaves, as payloads of the blocks -/

/-- Where the reduction coordinate is 0 the scratch ends at the accumulation over the zero fill. -/
theorem soutA_eq (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i) (x0 : Vec F S2048x2048 .bf16) (x1 : Vec F S2048x256 .f32) (x2 : Vec F S2048x256 .f32) :
    sout3_A_0 c i arg2 harg2 arg3 harg3 arg4 harg4 arg5 harg5 arg6 harg6 hc0 hc1 x0 x1 x2 = k3_pay2 x0 x1 k3_pay1 := by
  unfold sout3_A_0
  rw [View.read_writes_eq_canon _ _ _ (scover3_A_0 c i arg2 harg2 arg3 harg3 arg4 harg4 arg5 harg5 arg6 harg6 hc0 hc1 x0 x1 x2)]
  unfold kernelRun3_A
  dsimp only
  try sl_unfold_words
  rw [View.canon_cons_unit_zero (S := S2048x256) hz, View.readCov_unit_zero (S := S2048x256) _ hz]
  simp only [View.readAt_eq_ld, harg2.read_unread, harg3.read_unread, harg4.read_unread, harg6.read_unread, View.ld_unit_zero (S := S2048x2048) hz, View.ld_unit_zero (S := S2048x256) hz]

/-- Where it is 1 or 2 the scratch ends at the accumulation over what it held. -/
theorem soutB_eq (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : ¬cond3_1 i) (x0 : Vec F S2048x2048 .bf16) (x1 : Vec F S2048x256 .f32) (x2 : Vec F S2048x256 .f32) (xs0 : Vec F S2048x256 .f32) :
    sout3_B_0 c i arg2 harg2 arg3 harg3 arg4 harg4 arg5 harg5 arg6 harg6 hc0 hc1 x0 x1 x2 xs0 = k3_pay2 x0 x1 xs0 := by
  unfold sout3_B_0
  rw [View.read_writes_eq_canon _ _ _ (scover3_B_0 c i arg2 harg2 arg3 harg3 arg4 harg4 arg5 harg5 arg6 harg6 hc0 hc1 x0 x1 x2 xs0)]
  unfold kernelRun3_B
  dsimp only
  try sl_unfold_words
  rw [View.canon_unit_zero hz]
  simp only [View.readAt_eq_ld, harg2.read_unread, harg3.read_unread, harg4.read_unread, harg6.read_unread, View.ld_unit_zero (S := S2048x2048) hz, View.ld_unit_zero (S := S2048x256) hz]

/-- Where it is 3 likewise, -/
theorem soutC_eq (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i) (x0 : Vec F S2048x2048 .bf16) (x1 : Vec F S2048x256 .f32) (x2 : Vec F S2048x256 .f32) (xs0 : Vec F S2048x256 .f32) :
    sout3_C_0 c i arg2 harg2 arg3 harg3 arg4 harg4 arg5 harg5 arg6 harg6 hc0 hc1 x0 x1 x2 xs0 = k3_pay2 x0 x1 xs0 := by
  unfold sout3_C_0
  rw [View.read_writes_eq_canon _ _ _ (scover3_C_0 c i arg2 harg2 arg3 harg3 arg4 harg4 arg5 harg5 arg6 harg6 hc0 hc1 x0 x1 x2 xs0)]
  unfold kernelRun3_C
  dsimp only
  try sl_unfold_words
  rw [View.canon_unit_zero hz]
  simp only [View.readAt_eq_ld, harg2.read_unread, harg3.read_unread, harg4.read_unread, harg6.read_unread, View.ld_unit_zero (S := S2048x2048) hz, View.ld_unit_zero (S := S2048x256) hz]

/-- and the output's buffer ends at the combination of that accumulation and the third input's block. -/
theorem outC_eq (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i) (x0 : Vec F S2048x2048 .bf16) (x1 : Vec F S2048x256 .f32) (x2 : Vec F S2048x256 .f32) (xs0 : Vec F S2048x256 .f32) :
    out3_C_3 c i arg2 harg2 arg3 harg3 arg4 harg4 arg5 harg5 arg6 harg6 hc0 hc1 x0 x1 x2 xs0 = k3_pay3 (k3_pay2 x0 x1 xs0) x2 := by
  unfold out3_C_3
  rw [View.read_writes_eq_canon _ _ _ (cover3_C_3 c i arg2 harg2 arg3 harg3 arg4 harg4 arg5 harg5 arg6 harg6 hc0 hc1 x0 x1 x2 xs0)]
  unfold kernelRun3_C
  dsimp only
  try sl_unfold_words
  rw [View.canon_unit_zero hz, View.readCov_unit_zero (S := S2048x256) _ hz]
  simp only [View.readAt_eq_ld, harg2.read_unread, harg3.read_unread, harg4.read_unread, harg6.read_unread, View.ld_unit_zero (S := S2048x2048) hz, View.ld_unit_zero (S := S2048x256) hz]

/-! ## The payloads at the ideal values, entry by entry -/

/-- The contraction of a 2048 × 2048 block against a 2048 × 256 block. -/
abbrev D1 : DotDims S2048x2048 S2048x256 S2048x256 := dot_S2048x2048_S2048x256_S2048x256_1_0_0_1_n_n

theorem D3_lhs (ra : Fin 2048) (j : Fin 256) (r : Fin 2048) :
    D1.lhsIdx (ix2 ra j) ((contrEquiv1 D1 2048 rfl rfl).symm r) = ix2 ra r := by
  have c2 := contrEquiv1_symm_val D1 2048 rfl rfl r
  funext ax; apply Fin.ext
  match ax with
  | ⟨0, _⟩ => simp [DotDims.lhsIdx, D1, dot_S2048x2048_S2048x256_S2048x256_1_0_0_1_n_n]; rfl
  | ⟨1, _⟩ => simp [DotDims.lhsIdx, D1, dot_S2048x2048_S2048x256_S2048x256_1_0_0_1_n_n]; exact c2

theorem D3_rhs (ra : Fin 2048) (j : Fin 256) (r : Fin 2048) :
    D1.rhsIdx (ix2 ra j) ((contrEquiv1 D1 2048 rfl rfl).symm r) = ix2 r j := by
  have c2 := contrEquiv1_symm_val D1 2048 rfl rfl r
  funext ax; apply Fin.ext
  match ax with
  | ⟨0, _⟩ => simp [DotDims.rhsIdx, D1, dot_S2048x2048_S2048x256_S2048x256_1_0_0_1_n_n]; exact c2
  | ⟨1, _⟩ => simp [DotDims.rhsIdx, D1, dot_S2048x2048_S2048x256_S2048x256_1_0_0_1_n_n]; rfl

/-- The zero fill reads zero. -/
theorem pay1_apply (y : S2048x256.Idx) : (k3_pay1 (F := Ideal)) y = 0 := by
  unfold k3_pay1
  simp only [shapeCast_self]
  exact Ideal.ofBits_zero_f32

/-- The accumulation at an entry: what the scratch held plus the block's row against the block's column (the
    narrowing to bf16 is the identity on the ideal values). -/
theorem pay2_apply (x0 : Vec Ideal S2048x2048 .bf16) (x1 xs : Vec Ideal S2048x256 .f32) (ra : Fin 2048) (j : Fin 256) :
    k3_pay2 x0 x1 xs (ix2 ra j) = xs (ix2 ra j) + ∑ r : Fin 2048, x0 (ix2 ra r) * x1 (ix2 r j) := by
  unfold k3_pay2
  simp only [shapeCast_self]
  show xs (ix2 ra j) + FloatOps.matmul (F := Ideal) D1 none (x0 : FVec Ideal S2048x2048 .bf16) (truncf (F := Ideal) .bf16 (x1 : FVec Ideal S2048x256 .f32) bitsLt_bf16_f32) (constant (F := Ideal) S2048x256 .f32 0x00000000#32) (ix2 ra j) = _
  rw [Ideal.matmul_constant_zero_apply, ← Equiv.sum_comp (contrEquiv1 D1 2048 rfl rfl).symm]
  refine congrArg (xs (ix2 ra j) + ·) (Finset.sum_congr rfl fun r _ => ?_)
  rw [D3_lhs, D3_rhs]
  rfl

/-- The combination at an entry: twice the accumulation plus minus one times the third block, the constants kept as
    their float words. -/
theorem pay3_apply (v17 v20 : Vec Ideal S2048x256 .f32) (y : S2048x256.Idx) :
    k3_pay3 v17 v20 y = Ideal.ofBits .f32 0x40000000#32 * v17 y + Ideal.ofBits .f32 0xBF800000#32 * v20 y := by
  unfold k3_pay3
  try simp only [shapeCast_self]
  rfl

/-! ## The blocks as entries of the arrays -/

variable (V : (c : Dev nD) → (b : Ref sig .tc) → Buf (Elt Ideal) ((c : Thread nD τ).loc b))

/-- The windows' block indices in closed form, decided over the grid: the first coordinate is `t / 4`, the second
    (the reduction coordinate) `t % 4`. -/
theorem index3_0 : ∀ t : Fin cfg3.N, win3_0.index t 0 = t.val / 4 ∧ win3_0.index t 1 = t.val % 4 :=
  (by decide +kernel : ∀ t : Fin grid3.N, win3_0.index t 0 = t.val / 4 ∧ win3_0.index t 1 = t.val % 4)
theorem index3_1 : ∀ t : Fin cfg3.N, win3_1.index t 0 = t.val % 4 ∧ win3_1.index t 1 = 0 :=
  (by decide +kernel : ∀ t : Fin grid3.N, win3_1.index t 0 = t.val % 4 ∧ win3_1.index t 1 = 0)
theorem index3_2 : ∀ t : Fin cfg3.N, win3_2.index t 0 = t.val / 4 ∧ win3_2.index t 1 = 0 :=
  (by decide +kernel : ∀ t : Fin grid3.N, win3_2.index t 0 = t.val / 4 ∧ win3_2.index t 1 = 0)
theorem index3_3 : ∀ t : Fin cfg3.N, win3_3.index t 0 = t.val / 4 ∧ win3_3.index t 1 = 0 :=
  (by decide +kernel : ∀ t : Fin grid3.N, win3_3.index t 0 = t.val / 4 ∧ win3_3.index t 1 = 0)

/-- The first input's block at point `t` is rows `2048·(t/4) …` and columns `2048·(t%4) …` of its array. -/
theorem iblk0_apply (c : Dev nD) (t : Fin cfg3.N) (x : S2048x2048.Idx) (k : S8192x8192.Idx)
    (hk0 : (k 0).val = t.val / 4 * 2048 + (x 0).val) (hk1 : (k 1).val = t.val % 4 * 2048 + (x 1).val) :
    (iblk V c 0 t : Vec Ideal S2048x2048 .bf16) x = (V c main_v0_1 : S8192x8192.Idx → Elt Ideal .bf16) k := by
  have hi := index3_0 t
  unfold iblk
  rw [View.read_apply]
  show V c main_v0_1 _ = V c main_v0_1 _
  congr 1
  funext a
  apply Fin.ext
  match a with
  | ⟨0, _⟩ => show win3_0.index t 0 * 2048 + 1 * (x 0).val = (k 0).val; rw [hi.1, hk0]; omega
  | ⟨1, _⟩ => show win3_0.index t 1 * 2048 + 1 * (x 1).val = (k 1).val; rw [hi.2, hk1]; omega

/-- The second input's block is rows `2048·(t%4) …` of its array. -/
theorem iblk1_apply (c : Dev nD) (t : Fin cfg3.N) (x : S2048x256.Idx) (k : S8192x256.Idx)
    (hk0 : (k 0).val = t.val % 4 * 2048 + (x 0).val) (hk1 : (k 1).val = (x 1).val) :
    (iblk V c 1 t : Vec Ideal S2048x256 .f32) x = (V c main_v2 : S8192x256.Idx → Elt Ideal .f32) k := by
  have hi := index3_1 t
  unfold iblk
  rw [View.read_apply]
  show V c main_v2 _ = V c main_v2 _
  congr 1
  funext a
  apply Fin.ext
  match a with
  | ⟨0, _⟩ => show win3_1.index t 0 * 2048 + 1 * (x 0).val = (k 0).val; rw [hi.1, hk0]; omega
  | ⟨1, _⟩ => show win3_1.index t 1 * 256 + 1 * (x 1).val = (k 1).val; rw [hi.2, hk1]; omega

/-- The third input's block is rows `2048·(t/4) …` of its array. -/
theorem iblk2_apply (c : Dev nD) (t : Fin cfg3.N) (x : S2048x256.Idx) (k : S8192x256.Idx)
    (hk0 : (k 0).val = t.val / 4 * 2048 + (x 0).val) (hk1 : (k 1).val = (x 1).val) :
    (iblk V c 2 t : Vec Ideal S2048x256 .f32) x = (V c main_v1 : S8192x256.Idx → Elt Ideal .f32) k := by
  have hi := index3_2 t
  unfold iblk
  rw [View.read_apply]
  show V c main_v1 _ = V c main_v1 _
  congr 1
  funext a
  apply Fin.ext
  match a with
  | ⟨0, _⟩ => show win3_2.index t 0 * 2048 + 1 * (x 0).val = (k 0).val; rw [hi.1, hk0]; omega
  | ⟨1, _⟩ => show win3_2.index t 1 * 256 + 1 * (x 1).val = (k 1).val; rw [hi.2, hk1]; omega

/-! ## The scratch and the output after a point, over the point's blocks -/

/-- The three inputs' blocks at a point, as functions of the literal block index into the extended reals. -/
abbrev B0 (c : Dev nD) (t : Fin cfg3.N) : S2048x2048.Idx → EReal := iblk V c 0 t
abbrev B1 (c : Dev nD) (t : Fin cfg3.N) : S2048x256.Idx → EReal := iblk V c 1 t
abbrev B2 (c : Dev nD) (t : Fin cfg3.N) : S2048x256.Idx → EReal := iblk V c 2 t

/-- After a point whose reduction coordinate is 0 the scratch holds zero plus the blocks' product. -/
theorem scr_A (c : Dev nD) (t : Fin cfg3.N) (h0 : t.val % 4 = 0) (h1 : ¬t.val % 4 = 3) (ra : Fin 2048) (j : Fin 256) :
    (outsAt3 V c t.val t.isLt).2 (ix2 ra j)
      = 0 + ∑ r : Fin 2048, B0 V c t (ix2 ra r) * B1 V c t (ix2 r j) := by
  rw [outsAt3_A V c t h0 h1]
  dsimp only
  rw [soutA_eq c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk V c 0 t) (iblk V c 1 t) (iblk V c 2 t)]
  rw [pay2_apply, pay1_apply]

/-- After a point whose reduction coordinate is 1 or 2 it holds what it held plus the blocks' product. -/
theorem scr_B (c : Dev nD) (t : Fin cfg3.N) (h0 : ¬t.val % 4 = 0) (h1 : ¬t.val % 4 = 3) (ra : Fin 2048) (j : Fin 256) :
    (outsAt3 V c t.val t.isLt).2 (ix2 ra j)
      = (outsAt3 V c (t.val - 1) (Nat.lt_of_le_of_lt (Nat.sub_le _ _) t.isLt)).2 (ix2 ra j) + ∑ r : Fin 2048, B0 V c t (ix2 ra r) * B1 V c t (ix2 r j) := by
  rw [outsAt3_B V c t h0 h1]
  dsimp only
  rw [soutB_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk V c 0 t) (iblk V c 1 t) (iblk V c 2 t) (outsAt3 V c (t.val - 1) (Nat.lt_of_le_of_lt (Nat.sub_le _ _) t.isLt)).2]
  rw [pay2_apply]

/-- Likewise where it is 3, -/
theorem scr_C (c : Dev nD) (t : Fin cfg3.N) (h0 : ¬t.val % 4 = 0) (h1 : t.val % 4 = 3) (ra : Fin 2048) (j : Fin 256) :
    (outsAt3 V c t.val t.isLt).2 (ix2 ra j)
      = (outsAt3 V c (t.val - 1) (Nat.lt_of_le_of_lt (Nat.sub_le _ _) t.isLt)).2 (ix2 ra j) + ∑ r : Fin 2048, B0 V c t (ix2 ra r) * B1 V c t (ix2 r j) := by
  rw [outsAt3_C V c t h0 h1]
  dsimp only
  rw [soutC_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk V c 0 t) (iblk V c 1 t) (iblk V c 2 t) (outsAt3 V c (t.val - 1) (Nat.lt_of_le_of_lt (Nat.sub_le _ _) t.isLt)).2]
  rw [pay2_apply]

/-- and the output's buffer holds twice that plus minus one times the third block. -/
theorem out_C (c : Dev nD) (t : Fin cfg3.N) (h0 : ¬t.val % 4 = 0) (h1 : t.val % 4 = 3) (y : S2048x256.Idx) :
    (outsAt3 V c t.val t.isLt).1 y
      = Ideal.ofBits .f32 0x40000000#32 * (outsAt3 V c t.val t.isLt).2 y
        + Ideal.ofBits .f32 0xBF800000#32 * B2 V c t y := by
  rw [outsAt3_C V c t h0 h1]
  dsimp only
  rw [outC_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk V c 0 t) (iblk V c 1 t) (iblk V c 2 t) (outsAt3 V c (t.val - 1) (Nat.lt_of_le_of_lt (Nat.sub_le _ _) t.isLt)).2]
  rw [soutC_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk V c 0 t) (iblk V c 1 t) (iblk V c 2 t) (outsAt3 V c (t.val - 1) (Nat.lt_of_le_of_lt (Nat.sub_le _ _) t.isLt)).2]
  rw [pay3_apply]

/-! ## The fold: the scratch after each point, the output after a row block's last point -/

/-- One term of the contraction: row `g` of the operator against column `j` of the second array. -/
abbrev Lc (c : Dev nD) : Cert.Spec.SL.Idx → EReal := V c main_v0_1
abbrev Pc (c : Dev nD) : Cert.Spec.SX.Idx → EReal := V c main_v2
abbrev Tc (c : Dev nD) : Cert.Spec.SX.Idx → EReal := V c main_v1
abbrev fLP (c : Dev nD) (g : Fin 8192) (j : Fin 256) : Fin 8192 → EReal :=
  fun k => Lc V c (ix2 g k) * Pc V c (ix2 k j)

theorem scr_B' (c : Dev nD) (t : Fin cfg3.N) (h0 : ¬t.val % 4 = 0) (h1 : ¬t.val % 4 = 3) (ra : Fin 2048) (j : Fin 256)
    (n' : ℕ) (hn' : n' + 1 = t.val) :
    (outsAt3 V c t.val t.isLt).2 (ix2 ra j)
      = (outsAt3 V c n' (by have := t.isLt; omega)).2 (ix2 ra j) + ∑ r : Fin 2048, B0 V c t (ix2 ra r) * B1 V c t (ix2 r j) := by
  obtain rfl : n' = t.val - 1 := by omega
  exact scr_B V c t h0 h1 ra j

theorem scr_C' (c : Dev nD) (t : Fin cfg3.N) (h0 : ¬t.val % 4 = 0) (h1 : t.val % 4 = 3) (ra : Fin 2048) (j : Fin 256)
    (n' : ℕ) (hn' : n' + 1 = t.val) :
    (outsAt3 V c t.val t.isLt).2 (ix2 ra j)
      = (outsAt3 V c n' (by have := t.isLt; omega)).2 (ix2 ra j) + ∑ r : Fin 2048, B0 V c t (ix2 ra r) * B1 V c t (ix2 r j) := by
  obtain rfl : n' = t.val - 1 := by omega
  exact scr_C V c t h0 h1 ra j

/-- The blocks' product at point `4a + k` is block `k` of the contraction's terms for row `2048a + ra`. -/
theorem block_term (c : Dev nD) (a k : ℕ) (ha : a < 4) (hk : k < 4) (hn : 4 * a + k < cfg3.N) (ra : Fin 2048) (j : Fin 256)
    (r : Fin 2048) :
    B0 V c ⟨4 * a + k, hn⟩ (ix2 ra r) * B1 V c ⟨4 * a + k, hn⟩ (ix2 r j)
      = fLP V c ⟨a * 2048 + ra.val, by omega⟩ j ⟨k * 2048 + r.val, by omega⟩ := by
  unfold B0 B1
  rw [iblk0_apply V c ⟨4 * a + k, hn⟩ (ix2 ra r) (ix2 (⟨a * 2048 + ra.val, by omega⟩ : Fin 8192) (⟨k * 2048 + r.val, by omega⟩ : Fin 8192))
      (by show a * 2048 + ra.val = (4 * a + k) / 4 * 2048 + ra.val; omega)
      (by show k * 2048 + r.val = (4 * a + k) % 4 * 2048 + r.val; omega),
    iblk1_apply V c ⟨4 * a + k, hn⟩ (ix2 r j) (ix2 (⟨k * 2048 + r.val, by omega⟩ : Fin 8192) j)
      (by show k * 2048 + r.val = (4 * a + k) % 4 * 2048 + r.val; omega) rfl]

/-- THE INVARIANT: after point `4a + k` the scratch holds, at entry `(ra, j)`, the fold over the first `k + 1`
    column blocks of row `2048a + ra` of the operator against column `j`. -/
theorem scratch_inv (c : Dev nD) (a : ℕ) (ha : a < 4) (ra : Fin 2048) (j : Fin 256) :
    ∀ (k : ℕ) (hk : k < 4) (hn : 4 * a + k < cfg3.N),
      (outsAt3 V c (4 * a + k) hn).2 (ix2 ra j)
        = Cert.SpecLaws.acc 4 2048 (fLP V c ⟨a * 2048 + ra.val, by omega⟩ j) (k + 1) (by omega)
  | 0, hk, hn => by
    refine (scr_A V c ⟨4 * a + 0, hn⟩ (by dsimp only; omega) (by dsimp only; omega) ra j).trans ?_
    refine Eq.trans ?_ (Cert.SpecLaws.acc_succ 4 2048 (fLP V c ⟨a * 2048 + ra.val, by omega⟩ j) 0 (by omega)).symm
    refine congr (congrArg HAdd.hAdd (Cert.SpecLaws.acc_zero 4 2048 _ (by omega)).symm) (Finset.sum_congr rfl fun r _ => ?_)
    exact block_term V c a 0 ha hk hn ra j r
  | k + 1, hk, hn => by
    have ih := scratch_inv c a ha ra j k (by omega) (by omega)
    have hstep : (outsAt3 V c (4 * a + (k + 1)) hn).2 (ix2 ra j)
        = (outsAt3 V c (4 * a + k) (by omega)).2 (ix2 ra j) + ∑ r : Fin 2048, B0 V c ⟨4 * a + (k + 1), hn⟩ (ix2 ra r) * B1 V c ⟨4 * a + (k + 1), hn⟩ (ix2 r j) := by
      by_cases h1 : (4 * a + (k + 1)) % 4 = 3
      · exact scr_C' V c ⟨4 * a + (k + 1), hn⟩ (by dsimp only; omega) h1 ra j (4 * a + k) (by dsimp only; omega)
      · exact scr_B' V c ⟨4 * a + (k + 1), hn⟩ (by dsimp only; omega) h1 ra j (4 * a + k) (by dsimp only; omega)
    refine hstep.trans ?_
    refine Eq.trans ?_ (Cert.SpecLaws.acc_succ 4 2048 (fLP V c ⟨a * 2048 + ra.val, by omega⟩ j) (k + 1) (by omega)).symm
    refine congr (congrArg HAdd.hAdd ih) (Finset.sum_congr rfl fun r _ => ?_)
    exact block_term V c a (k + 1) ha hk hn ra j r

/-- The result array, entry by entry: twice the fold over the four column blocks plus minus one times the third
    array, the two constants kept as their float words. -/
def G3 (c : Dev nD) : Cert.Spec.SX.Idx → EReal := fun i =>
  Ideal.ofBits .f32 0x40000000#32 * Cert.SpecLaws.acc 4 2048 (fun k : Fin 8192 => Lc V c (ix2 (i 0 : Fin 8192) k) * Pc V c (ix2 k (i 1 : Fin 256))) 4 le_rfl
    + Ideal.ofBits .f32 0xBF800000#32 * Tc V c i

/-- After the last point of row block `a` the output's buffer holds that block of `G3`. -/
theorem out_inv (c : Dev nD) (a : ℕ) (ha : a < 4) (hn : 4 * a + 3 < cfg3.N) (ra : Fin 2048) (j : Fin 256) :
    (outsAt3 V c (4 * a + 3) hn).1 (ix2 ra j) = G3 V c (ix2 (⟨a * 2048 + ra.val, by omega⟩ : Fin 8192) j) := by
  refine (out_C V c ⟨4 * a + 3, hn⟩ (by dsimp only; omega) (by dsimp only; omega) (ix2 ra j)).trans ?_
  unfold B2
  rw [scratch_inv V c a ha ra j 3 (by omega) hn,
    iblk2_apply V c ⟨4 * a + 3, hn⟩ (ix2 ra j) (ix2 (⟨a * 2048 + ra.val, by omega⟩ : Fin 8192) j)
      (by show a * 2048 + ra.val = (4 * a + 3) / 4 * 2048 + ra.val; omega) rfl]
  rfl

/-! ## The write-backs and the result array -/

theorem xsize3_3 : ∀ t : Fin cfg3.N, win3_3.xsize (grid3.coords t) 0 = 2048 ∧ win3_3.xsize (grid3.coords t) 1 = 256 :=
  (by decide +kernel : ∀ t : Fin grid3.N, win3_3.xsize (grid3.coords t) 0 = 2048 ∧ win3_3.xsize (grid3.coords t) 1 = 256)

/-- An entry of the output window's block at point `t` sits in the array at row `2048·(t/4) + ` its row, same column. -/
theorem emb3_3 (t : Fin cfg3.N) (ra : Fin 2048) (j : Fin 256) (h : t.val / 4 * 2048 + ra.val < 8192) :
    (((cfg3.win 3).blk t).view.emb (ix2 ra j) : S8192x256.Idx) = ix2 (⟨t.val / 4 * 2048 + ra.val, h⟩ : Fin 8192) j := by
  have hi := index3_3 t
  funext ax
  apply Fin.ext
  match ax with
  | ⟨0, _⟩ => show win3_3.index t 0 * 2048 + 1 * ra.val = t.val / 4 * 2048 + ra.val; rw [hi.1]; omega
  | ⟨1, _⟩ => show win3_3.index t 1 * 256 + 1 * j.val = j.val; rw [hi.2]; omega

/-- Every write-back writes its block of `G3`. -/
theorem flushed_eq (c : Dev nD) (t : Fin cfg3.N) (hf : (cfg3.win 3).flush t = true) :
    (dat3 V c).flushed 3 t = ((cfg3.win 3).blk t).view.read (Elt Ideal) (G3 V c) := by
  have hN : cfg3.N = 16 := N_3
  have hb : ∀ a : ℕ, a < 4 → 4 * a + 3 < cfg3.N := fun a ha => by omega
  have h3 : t.val % 4 = 3 := (flush3_3 t).mp hf
  obtain ⟨a, ha, rfl⟩ : ∃ a, ∃ (ha : a < 4), t = ⟨4 * a + 3, hb a ha⟩ :=
    ⟨t.val / 4, by have := t.isLt; omega, Fin.ext (by dsimp only; omega)⟩
  show (cfg3.win 3).cut (grid3.coords _) ((dat3 V c).after 3 _) = _
  rw [after3_3]
  refine funext fun (x : S2048x256.Idx) => ?_
  obtain ⟨ra, j, rfl⟩ : ∃ (ra : Fin 2048) (j : Fin 256), x = ix2 ra j := ⟨x 0, x 1, eq_ix2 x⟩
  rw [View.read_apply]
  show (outsAt3 V c (4 * a + 3) _).1 (ix2 ra j) = G3 V c (((cfg3.win 3).blk ⟨4 * a + 3, hb a ha⟩).view.emb (ix2 ra j))
  rw [out_inv V c a ha _ ra j, emb3_3 ⟨4 * a + 3, hb a ha⟩ ra j (by dsimp only; omega)]
  congr 2
  apply Fin.ext
  show a * 2048 + ra.val = (4 * a + 3) / 4 * 2048 + ra.val
  omega

/-- Every entry of the result array lies in the block written back after its row block's last point. -/
theorem mem_blk3_3 (t : Fin cfg3.N) (i : S8192x256.Idx)
    (hi : t.val / 4 * 2048 ≤ (i 0).val ∧ (i 0).val < t.val / 4 * 2048 + 2048) :
    i ∈ ((cfg3.win 3).blk t).view.set := by
  show i ∈ ((View.whole main_v3).slice (win3_3.rect t)).set
  rw [View.set_slice_whole, Rect.mem_set_unit]
  intro ax
  have h1 : (i 1 : Nat) < 256 := (i 1).isLt
  match ax with
  | ⟨0, _⟩ =>
    show win3_3.index t 0 * win3_3.size 0 ≤ (i 0 : Nat) ∧ (i 0 : Nat) < win3_3.index t 0 * win3_3.size 0 + win3_3.xsize (grid3.coords t) 0
    rw [(index3_3 t).1, (xsize3_3 t).1, show win3_3.size 0 = 2048 from rfl]; exact hi
  | ⟨1, _⟩ =>
    show win3_3.index t 1 * win3_3.size 1 ≤ (i 1 : Nat) ∧ (i 1 : Nat) < win3_3.index t 1 * win3_3.size 1 + win3_3.xsize (grid3.coords t) 1
    rw [(index3_3 t).2, (xsize3_3 t).2, show win3_3.size 1 = 256 from rfl]; omega

/-- THE VALUE: after the region the output window's array holds `G3`. -/
theorem out3_value' (c : Dev nD) : (dat3 V c).arrAt 3 cfg3.N = G3 V c :=
  (dat3 V c).arrAt_eq_of_cover 3 (G3 V c) (flushed_eq V c) fun i => by
    have hN : cfg3.N = 16 := N_3
    have h0 : ((i : S8192x256.Idx) 0 : Nat) < 8192 := ((i : S8192x256.Idx) 0).isLt
    refine ⟨⟨4 * (((i : S8192x256.Idx) 0 : Nat) / 2048) + 3, by omega⟩, (flush3_3 _).mpr (by dsimp only; omega), ?_⟩
    exact mem_blk3_3 _ i (by dsimp only; omega)

/-- The same, as the recurrence's step of the blockwise form. -/
theorem out3_value (c : Dev nD) :
    (dat3 V c).arrAt 3 cfg3.N = Cert.KernelForm.step (V c main_v0_1) (V c main_v2) (V c main_v1) :=
  (out3_value' V c).trans rfl

end Cert.KernelIdeal.Reg3

end
-- ==== Proof.KI.Reg4.Pay.lean ====
import proofs.«104635_j41927470743646_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg4

open Cert.KernelIdeal Cert.KernelIdeal.Gen
open Idealize.ShloMosaic Idealize.ShloMosaic.ValueIdx

/-! # The final kernel's arithmetic at the ideal values, entry by entry

Each of the five block products is a 1024×256 by 256×256 matrix product accumulated into zero: at entry (r, j) it is
the sum over d of the left operand at (r, d) times the right at (d, j). The format changes are the identity on extended
reals, so the stored value at (r, j) is the five sums added left to right, plus the bias row at (0, j), clamped below
at zero. -/

/-! ## The product's operand indices -/

theorem lhs4_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs4_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs4_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs4_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-! ## One block product at an entry -/

/-- A block product into the zero accumulator, read at (r, j): the row of the left operand against the column of the
    right. -/
theorem mm4_apply {φ₁ φ₂ : FTy} (x : FVec Ideal S1024x256 φ₁) (w : FVec Ideal S256x256 φ₂) (r : Fin 1024) (j : Fin 256) :
    FloatOps.matmul dot_S1024x256_S256x256_S1024x256_1_0_0_1_n_n none x w (constant S1024x256 .f32 0x00000000#32) (ix2 r j)
      = ∑ d : Fin 256, x (ix2 r d) * w (ix2 d j) := by
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r j) ((ValueIdx.contrEquiv1 dot_S1024x256_S256x256_S1024x256_1_0_0_1_n_n 256 rfl rfl).symm k) = ix2 r k := funext fun a => Fin.ext (by
    match a with
    | ⟨0, _⟩ => exact lhs4_0 _ _
    | ⟨1, _⟩ => exact (lhs4_1 _ _).trans hk)
  have er : dot_S1024x256_S256x256_S1024x256_1_0_0_1_n_n.rhsIdx (ix2 r j) ((ValueIdx.contrEquiv1 dot_S1024x256_S256x256_S1024x256_1_0_0_1_n_n 256 rfl rfl).symm k) = ix2 k j := funext fun a => Fin.ext (by
    match a with
    | ⟨0, _⟩ => exact (rhs4_0 _ _).trans hk
    | ⟨1, _⟩ => exact rhs4_1 _ _)
  rw [el, er]

/-! ## The stored value at an entry -/

/-- The sum of the five block products at (r, j). -/
theorem pay2_apply (x0 : Vec Ideal S1024x256 .f32) (w0 : Vec Ideal S256x256 .f32) (x1 : Vec Ideal S1024x256 .f32) (w1 : Vec Ideal S256x256 .f32)
    (x2 : Vec Ideal S1024x256 .f32) (w2 : Vec Ideal S256x256 .f32) (x3 : Vec Ideal S1024x256 .f32) (w3 : Vec Ideal S256x256 .f32)
    (x4 : Vec Ideal S1024x256 .f32) (w4 : Vec Ideal S256x256 .f32) (r : Fin 1024) (j : Fin 256) :
    k4_pay2 (F := Ideal) x0 w0 x1 w1 x2 w2 x3 w3 x4 w4 (ix2 r j)
      = ((((∑ d : Fin 256, x0 (ix2 r d) * w0 (ix2 d j)) + ∑ d : Fin 256, x1 (ix2 r d) * w1 (ix2 d j)) + ∑ d : Fin 256, x2 (ix2 r d) * w2 (ix2 d j)) + ∑ d : Fin 256, x3 (ix2 r d) * w3 (ix2 d j)) + ∑ d : Fin 256, x4 (ix2 r d) * w4 (ix2 d j) := by
  unfold k4_pay2
  simp only [shapeCast_self]
  exact congrArg₂ (· + ·) (congrArg₂ (· + ·) (congrArg₂ (· + ·) (congrArg₂ (· + ·)
    (mm4_apply (truncf .bf16 x0 bitsLt_bf16_f32) (truncf .bf16 w0 bitsLt_bf16_f32) r j)
    (mm4_apply (truncf .bf16 x1 bitsLt_bf16_f32) (truncf .bf16 w1 bitsLt_bf16_f32) r j))
    (mm4_apply (truncf .bf16 x2 bitsLt_bf16_f32) (truncf .bf16 w2 bitsLt_bf16_f32) r j))
    (mm4_apply (truncf .bf16 x3 bitsLt_bf16_f32) (truncf .bf16 w3 bitsLt_bf16_f32) r j))
    (mm4_apply (truncf .bf16 x4 bitsLt_bf16_f32) (truncf .bf16 w4 bitsLt_bf16_f32) r j)

/-- The stored value at (r, j): the five products' sum plus the bias row's entry in column j, clamped below at zero. -/
theorem pay1_apply (s : FVec Ideal S1024x256 .f32) (b : Vec Ideal S1x256 .f32) (r : Fin 1024) (j : Fin 256) :
    k4_pay1 (F := Ideal) s b (ix2 r j) = max (s (ix2 r j) + b (ix2 (0 : Fin 1) j)) 0 := by
  unfold k4_pay1
  simp only [shapeCast_self]
  show max (s (ix2 r j) + broadcastTo S1024x256 b broadcasts_S1x256_S1024x256 (ix2 r j)) (Ideal.ofBits .f32 0x00000000#32) = _
  rw [broadcastTo_1b_ab_apply, Ideal.ofBits_zero_f32]

end Cert.KernelIdeal.Reg4

end
-- ==== Proof.KI.Reg4Value.lean ====
import proofs.«104635_j41927470743646_2_alg».proof.Proof.KI.Reg4
import proofs.«104635_j41927470743646_2_alg».proof.Proof.KI.Reg4.Pay
import proofs.«104635_j41927470743646_2_alg».proof.Proof.KernelForm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # The final region's result at the ideal values, entry by entry

The region writes the 8192×256 result in eight blocks of 1024 rows. Entry (a, j) is: the five operands' rows `a`
against the five 256-row slabs of the weight's column `j`, the five sums added left to right, plus the bias row's
entry in column `j`, clamped below at zero. -/

/-- The result's entry (a, j) from the seven arrays the region reads. -/
def val4 (T0 T1 T2 T3 T4 : Vec Ideal S8192x256 .f32) (W : Vec Ideal S1280x256 .f32) (B : Vec Ideal S1x256 .f32)
    (a : Fin 8192) (j : Fin 256) : Ideal .f32 :=
  max ((((((∑ d : Fin 256, T0 (ix2 a d) * W (ix2 (⟨0 + d.val, by have := d.isLt; omega⟩ : Fin 1280) j)) + ∑ d : Fin 256, T1 (ix2 a d) * W (ix2 (⟨256 + d.val, by have := d.isLt; omega⟩ : Fin 1280) j)) + ∑ d : Fin 256, T2 (ix2 a d) * W (ix2 (⟨512 + d.val, by have := d.isLt; omega⟩ : Fin 1280) j)) + ∑ d : Fin 256, T3 (ix2 a d) * W (ix2 (⟨768 + d.val, by have := d.isLt; omega⟩ : Fin 1280) j)) + ∑ d : Fin 256, T4 (ix2 a d) * W (ix2 (⟨1024 + d.val, by have := d.isLt; omega⟩ : Fin 1280) j)) + B (ix2 (0 : Fin 1) j)) 0

/-! ## The kernel's store at an entry of its block -/

theorem hz4 : (![0, 0] : Fin 2 → Nat) = fun _ => 0 := funext fun a => by fin_cases a <;> rfl

/-- The whole-buffer rectangles read an index as it is; slab `k` of the weight buffer at (d, j) is the buffer's
    index (256·k + d, j). -/
theorem idx_r4_0 (r : Fin 1024) (d : Fin 256) : r4_0.idx (ix2 r d) = ix2 r d :=
  funext fun a => Fin.ext (by
    match a with
    | ⟨0, _⟩ => show 0 + 1 * r.val = r.val; omega
    | ⟨1, _⟩ => show 0 + 1 * d.val = d.val; omega)
theorem idx_r4_6 (j : Fin 256) : r4_6.idx (ix2 (0 : Fin 1) j) = ix2 (0 : Fin 1) j :=
  funext fun a => Fin.ext (by
    match a with
    | ⟨0, _⟩ => rfl
    | ⟨1, _⟩ => show 0 + 1 * j.val = j.val; omega)
theorem idx_r4_1 (d j : Fin 256) :
    r4_1.idx (ix2 d j) = ix2 (⟨0 + d.val, by have := d.isLt; omega⟩ : Fin 1280) j :=
  funext fun a => Fin.ext (by
    match a with
    | ⟨0, _⟩ => show 0 + 1 * d.val = 0 + d.val; omega
    | ⟨1, _⟩ => show 0 + 1 * j.val = j.val; omega)
theorem idx_r4_2 (d j : Fin 256) :
    r4_2.idx (ix2 d j) = ix2 (⟨256 + d.val, by have := d.isLt; omega⟩ : Fin 1280) j :=
  funext fun a => Fin.ext (by
    match a with
    | ⟨0, _⟩ => show 256 + 1 * d.val = 256 + d.val; omega
    | ⟨1, _⟩ => show 0 + 1 * j.val = j.val; omega)
theorem idx_r4_3 (d j : Fin 256) :
    r4_3.idx (ix2 d j) = ix2 (⟨512 + d.val, by have := d.isLt; omega⟩ : Fin 1280) j :=
  funext fun a => Fin.ext (by
    match a with
    | ⟨0, _⟩ => show 512 + 1 * d.val = 512 + d.val; omega
    | ⟨1, _⟩ => show 0 + 1 * j.val = j.val; omega)
theorem idx_r4_4 (d j : Fin 256) :
    r4_4.idx (ix2 d j) = ix2 (⟨768 + d.val, by have := d.isLt; omega⟩ : Fin 1280) j :=
  funext fun a => Fin.ext (by
    match a with
    | ⟨0, _⟩ => show 768 + 1 * d.val = 768 + d.val; omega
    | ⟨1, _⟩ => show 0 + 1 * j.val = j.val; omega)
theorem idx_r4_5 (d j : Fin 256) :
    r4_5.idx (ix2 d j) = ix2 (⟨1024 + d.val, by have := d.isLt; omega⟩ : Fin 1280) j :=
  funext fun a => Fin.ext (by
    match a with
    | ⟨0, _⟩ => show 1024 + 1 * d.val = 1024 + d.val; omega
    | ⟨1, _⟩ => show 0 + 1 * j.val = j.val; omega)

/-- The one store's payload at (r, j), from the staging buffers' contents. -/
theorem out4_7_apply (x0 x1 x2 x3 x4 : Vec Ideal S1024x256 .f32) (x5 : Vec Ideal S1280x256 .f32) (x6 : Vec Ideal S1x256 .f32)
    (r : Fin 1024) (j : Fin 256) :
    out4_7 x0 x1 x2 x3 x4 x5 x6 (ix2 r j)
      = max ((((((∑ d : Fin 256, x0 (ix2 r d) * x5 (ix2 (⟨0 + d.val, by have := d.isLt; omega⟩ : Fin 1280) j)) + ∑ d : Fin 256, x1 (ix2 r d) * x5 (ix2 (⟨256 + d.val, by have := d.isLt; omega⟩ : Fin 1280) j)) + ∑ d : Fin 256, x2 (ix2 r d) * x5 (ix2 (⟨512 + d.val, by have := d.isLt; omega⟩ : Fin 1280) j)) + ∑ d : Fin 256, x3 (ix2 r d) * x5 (ix2 (⟨768 + d.val, by have := d.isLt; omega⟩ : Fin 1280) j)) + ∑ d : Fin 256, x4 (ix2 r d) * x5 (ix2 (⟨1024 + d.val, by have := d.isLt; omega⟩ : Fin 1280) j)) + x6 (ix2 (0 : Fin 1) j)) 0 := by
  unfold out4_7
  rw [View.canon_unit_zero hz4]
  rw [pay1_apply, pay2_apply]
  simp only [View.ld, idx_r4_0, idx_r4_1, idx_r4_2, idx_r4_3, idx_r4_4, idx_r4_5, idx_r4_6]

/-- The store at (r, j) of its block in terms of the arrays, when the staging buffers hold the arrays' rows `a` (the
    five operands), the whole weight and the whole bias row. -/
theorem blk4_entry (T0 T1 T2 T3 T4 : Vec Ideal S8192x256 .f32) (W : Vec Ideal S1280x256 .f32) (B : Vec Ideal S1x256 .f32)
    (x0 x1 x2 x3 x4 : Vec Ideal S1024x256 .f32) (x5 : Vec Ideal S1280x256 .f32) (x6 : Vec Ideal S1x256 .f32)
    (a : Fin 8192) (r : Fin 1024) (j : Fin 256)
    (h0 : ∀ d : Fin 256, x0 (ix2 r d) = T0 (ix2 a d))
    (h1 : ∀ d : Fin 256, x1 (ix2 r d) = T1 (ix2 a d))
    (h2 : ∀ d : Fin 256, x2 (ix2 r d) = T2 (ix2 a d))
    (h3 : ∀ d : Fin 256, x3 (ix2 r d) = T3 (ix2 a d))
    (h4 : ∀ d : Fin 256, x4 (ix2 r d) = T4 (ix2 a d))
    (h5 : x5 = W) (h6 : x6 = B) :
    out4_7 x0 x1 x2 x3 x4 x5 x6 (ix2 r j) = val4 T0 T1 T2 T3 T4 W B a j := by
  subst h5 h6
  rw [out4_7_apply]
  unfold val4
  simp only [h0, h1, h2, h3, h4]

/-! ## From the blocks to the array -/

variable (V : (c : Dev nD) → (b : Ref sig .tc) → Buf (Elt Ideal) ((c : Thread nD τ).loc b))

/-- The array the region leaves in its result, as one function of the arrays it reads. -/
def G4 (c : Dev nD) : Vec Ideal S8192x256 .f32 :=
  fun i => val4 (V c main_arg1) (V c main_v0_0) (V c main_v1) (V c main_v2) (V c main_v3) (V c main_arg2) (V c main_v4) (i 0) (i 1)

/-- The printed index maps, decided over the grid: each operand's block moves with the result's along the rows; the
    weight and the bias row are one block each; the result's row block is the point's number. -/
theorem idx_facts4 : ∀ t : Fin cfg4.N,
    win4_0.index t (0 : Fin 2) = win4_7.index t (0 : Fin 2) ∧ win4_0.index t (1 : Fin 2) = 0
    ∧     win4_1.index t (0 : Fin 2) = win4_7.index t (0 : Fin 2) ∧ win4_1.index t (1 : Fin 2) = 0
    ∧     win4_2.index t (0 : Fin 2) = win4_7.index t (0 : Fin 2) ∧ win4_2.index t (1 : Fin 2) = 0
    ∧     win4_3.index t (0 : Fin 2) = win4_7.index t (0 : Fin 2) ∧ win4_3.index t (1 : Fin 2) = 0
    ∧     win4_4.index t (0 : Fin 2) = win4_7.index t (0 : Fin 2) ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) ≤ 7 ∧ win4_7.index t (1 : Fin 2) = 0 :=
  (by decide +kernel : ∀ t : Fin grid4.N, _)

/-- Every row block of the result is some point's. -/
theorem idx_onto4 : ∀ (q0 : Fin 8) (q1 : Fin 1), ∃ t : Fin cfg4.N, win4_7.index t = ![q0.val + 0, q1.val + 0] :=
  (by decide +kernel : ∀ (q0 : Fin 8) (q1 : Fin 1), ∃ t : Fin grid4.N, win4_7.index t = ![q0.val + 0, q1.val + 0])

/-- What point `t` writes back is block `t` of `G4`. -/
theorem flushed4_7_eq (c : Dev nD) (t : Fin cfg4.N) :
    (dat4 V c).flushed 7 t = ((cfg4.win 7).blk t).view.read (Elt Ideal) (G4 V c) := by
  show (cfg4.win 7).cut (grid4.coords t) ((dat4 V c).after 7 t) = _
  rw [after4_7]
  obtain ⟨e00, e01, e10, e11, e20, e21, e30, e31, e40, e41, e50, e51, e60, e61, e70, e71⟩ := idx_facts4 t
  refine funext fun (y : S1024x256.Idx) => ?_
  obtain ⟨r, j, rfl⟩ : ∃ (r : Fin 1024) (j : Fin 256), y = ix2 r j := ⟨y 0, y 1, eq_ix2 y⟩
  show out4_7 (iblk4 V c 0 t) (iblk4 V c 1 t) (iblk4 V c 2 t) (iblk4 V c 3 t) (iblk4 V c 4 t) (iblk4 V c 5 t) (iblk4 V c 6 t) (ix2 r j)
      = val4 (V c main_arg1) (V c main_v0_0) (V c main_v1) (V c main_v2) (V c main_v3) (V c main_arg2) (V c main_v4) ((((cfg4.win 7).blk t).view.emb (ix2 r j)) 0) ((((cfg4.win 7).blk t).view.emb (ix2 r j)) 1)
  have hj : (((cfg4.win 7).blk t).view.emb (ix2 r j)) 1 = j :=
    Fin.ext (show win4_7.index t (1 : Fin 2) * 256 + 1 * j.val = j.val by omega)
  have h0 : ∀ d : Fin 256, iblk4 V c 0 t (ix2 r d) = V c main_arg1 (ix2 ((((cfg4.win 7).blk t).view.emb (ix2 r j)) 0) d) := fun d => by
    show V c main_arg1 (((cfg4.win 0).blk t).view.emb (ix2 r d)) = _
    refine congrArg (V c main_arg1) (funext fun ax => Fin.ext ?_)
    match ax with
    | ⟨0, _⟩ => show win4_0.index t (0 : Fin 2) * 1024 + 1 * r.val = win4_7.index t (0 : Fin 2) * 1024 + 1 * r.val; omega
    | ⟨1, _⟩ => show win4_0.index t (1 : Fin 2) * 256 + 1 * d.val = d.val; omega
  have h1 : ∀ d : Fin 256, iblk4 V c 1 t (ix2 r d) = V c main_v0_0 (ix2 ((((cfg4.win 7).blk t).view.emb (ix2 r j)) 0) d) := fun d => by
    show V c main_v0_0 (((cfg4.win 1).blk t).view.emb (ix2 r d)) = _
    refine congrArg (V c main_v0_0) (funext fun ax => Fin.ext ?_)
    match ax with
    | ⟨0, _⟩ => show win4_1.index t (0 : Fin 2) * 1024 + 1 * r.val = win4_7.index t (0 : Fin 2) * 1024 + 1 * r.val; omega
    | ⟨1, _⟩ => show win4_1.index t (1 : Fin 2) * 256 + 1 * d.val = d.val; omega
  have h2 : ∀ d : Fin 256, iblk4 V c 2 t (ix2 r d) = V c main_v1 (ix2 ((((cfg4.win 7).blk t).view.emb (ix2 r j)) 0) d) := fun d => by
    show V c main_v1 (((cfg4.win 2).blk t).view.emb (ix2 r d)) = _
    refine congrArg (V c main_v1) (funext fun ax => Fin.ext ?_)
    match ax with
    | ⟨0, _⟩ => show win4_2.index t (0 : Fin 2) * 1024 + 1 * r.val = win4_7.index t (0 : Fin 2) * 1024 + 1 * r.val; omega
    | ⟨1, _⟩ => show win4_2.index t (1 : Fin 2) * 256 + 1 * d.val = d.val; omega
  have h3 : ∀ d : Fin 256, iblk4 V c 3 t (ix2 r d) = V c main_v2 (ix2 ((((cfg4.win 7).blk t).view.emb (ix2 r j)) 0) d) := fun d => by
    show V c main_v2 (((cfg4.win 3).blk t).view.emb (ix2 r d)) = _
    refine congrArg (V c main_v2) (funext fun ax => Fin.ext ?_)
    match ax with
    | ⟨0, _⟩ => show win4_3.index t (0 : Fin 2) * 1024 + 1 * r.val = win4_7.index t (0 : Fin 2) * 1024 + 1 * r.val; omega
    | ⟨1, _⟩ => show win4_3.index t (1 : Fin 2) * 256 + 1 * d.val = d.val; omega
  have h4 : ∀ d : Fin 256, iblk4 V c 4 t (ix2 r d) = V c main_v3 (ix2 ((((cfg4.win 7).blk t).view.emb (ix2 r j)) 0) d) := fun d => by
    show V c main_v3 (((cfg4.win 4).blk t).view.emb (ix2 r d)) = _
    refine congrArg (V c main_v3) (funext fun ax => Fin.ext ?_)
    match ax with
    | ⟨0, _⟩ => show win4_4.index t (0 : Fin 2) * 1024 + 1 * r.val = win4_7.index t (0 : Fin 2) * 1024 + 1 * r.val; omega
    | ⟨1, _⟩ => show win4_4.index t (1 : Fin 2) * 256 + 1 * d.val = d.val; omega
  have h5 : iblk4 V c 5 t = V c main_arg2 := funext fun z => by
    show V c main_arg2 (((cfg4.win 5).blk t).view.emb z) = V c main_arg2 z
    refine congrArg (V c main_arg2) (funext fun ax => Fin.ext ?_)
    match ax with
    | ⟨0, _⟩ => show win4_5.index t (0 : Fin 2) * 1280 + 1 * (z 0).val = (z 0).val; omega
    | ⟨1, _⟩ => show win4_5.index t (1 : Fin 2) * 256 + 1 * (z 1).val = (z 1).val; omega
  have h6 : iblk4 V c 6 t = V c main_v4 := funext fun z => by
    show V c main_v4 (((cfg4.win 6).blk t).view.emb z) = V c main_v4 z
    refine congrArg (V c main_v4) (funext fun ax => Fin.ext ?_)
    match ax with
    | ⟨0, _⟩ => show win4_6.index t (0 : Fin 2) * 1 + 1 * (z 0).val = (z 0).val; omega
    | ⟨1, _⟩ => show win4_6.index t (1 : Fin 2) * 256 + 1 * (z 1).val = (z 1).val; omega
  refine (blk4_entry (V c main_arg1) (V c main_v0_0) (V c main_v1) (V c main_v2) (V c main_v3) (V c main_arg2) (V c main_v4) (iblk4 V c 0 t) (iblk4 V c 1 t) (iblk4 V c 2 t) (iblk4 V c 3 t) (iblk4 V c 4 t) (iblk4 V c 5 t) (iblk4 V c 6 t) ((((cfg4.win 7).blk t).view.emb (ix2 r j)) 0) r j h0 h1 h2 h3 h4 h5 h6).trans ?_
  exact congrArg (val4 (V c main_arg1) (V c main_v0_0) (V c main_v1) (V c main_v2) (V c main_v3) (V c main_arg2) (V c main_v4) ((((cfg4.win 7).blk t).view.emb (ix2 r j)) 0)) hj.symm

/-- An index of the result is in point `t`'s block iff each coordinate is in the block's range on its axis. -/
theorem mem_blk4_7 (t : Fin cfg4.N) (i : S8192x256.Idx) :
    i ∈ ((cfg4.win 7).blk t).view.set ↔ ∀ a : Fin 2, win4_7.index t a * S1024x256.size a ≤ (i a).val ∧ (i a).val < win4_7.index t a * S1024x256.size a + S1024x256.size a := by
  show i ∈ ((View.whole main_v5).slice (win4_7.rect t)).set ↔ _
  rw [View.set_slice_whole, Rect.mem_set_unit]
  exact Iff.rfl

/-- Every index of the result is in the block of the point that takes its row: row `a` is in block `a / 1024`. -/
theorem cover4_arr (i : S8192x256.Idx) :
    ∃ t : Fin cfg4.N, (cfg4.win 7).flush t = true ∧ i ∈ ((cfg4.win 7).blk t).view.set := by
  have hi0 : (i 0).val < 8192 := (i 0).isLt
  have hi1 : (i 1).val < 256 := (i 1).isLt
  obtain ⟨t, ht⟩ := idx_onto4 ⟨(i 0).val / 1024, by omega⟩ ⟨0, by omega⟩
  have q0 : win4_7.index t (0 : Fin 2) = (i 0).val / 1024 + 0 := congrFun ht 0
  have q1 : win4_7.index t (1 : Fin 2) = 0 + 0 := congrFun ht 1
  refine ⟨t, flush4_7 t, ?_⟩
  rw [mem_blk4_7]
  intro a
  match a with
  | ⟨0, _⟩ => show win4_7.index t (0 : Fin 2) * 1024 ≤ (i 0).val ∧ (i 0).val < win4_7.index t (0 : Fin 2) * 1024 + 1024; omega
  | ⟨1, _⟩ => show win4_7.index t (1 : Fin 2) * 256 ≤ (i 1).val ∧ (i 1).val < win4_7.index t (1 : Fin 2) * 256 + 256; omega

/-- The result array after the region: `G4` of the arrays the region reads, at every index. -/
theorem out4_value_inline (c : Dev nD) : (dat4 (F := Ideal) V c).arrAt 7 cfg4.N = G4 V c :=
  (dat4 V c).arrAt_eq_of_cover 7 (G4 V c) (fun t _ => flushed4_7_eq V c t) cover4_arr

/-! ## The result as the dense layer of the blockwise form -/

/-- `G4` is the dense layer (bias as a one-row matrix, the maximum against the zero word) of the arrays the region
    reads: the same five slab sums, the same order. -/
theorem G4_eq_dense2 (c : Dev nD) :
    G4 V c = Cert.KernelForm.dense2 (V c main_arg1) (V c main_v0_0) (V c main_v1) (V c main_v2) (V c main_v3) (V c main_arg2) (V c main_v4) := by
  funext i
  unfold G4 val4 Cert.KernelForm.dense2 Cert.Spec.slab
  rw [Ideal.ofBits_zero_f32]

/-- The result array after the region is the dense layer of the arrays the region reads, at every index. -/
theorem out4_value (c : Dev nD) :
    (dat4 (F := Ideal) V c).arrAt 7 cfg4.N = Cert.KernelForm.dense2 (V c main_arg1) (V c main_v0_0) (V c main_v1) (V c main_v2) (V c main_v3) (V c main_arg2) (V c main_v4) :=
  (out4_value_inline V c).trans (G4_eq_dense2 V c)

end Cert.KernelIdeal.Reg4

end
-- ==== Proof.RefRead.lean ====
import proofs.«104635_j41927470743646_2_alg».proof.Proof.Gen.ReferenceIdeal.Read

/-! The reference's run and its stages read at an index are taken from the generated modules imported above. -/
-- ==== Proof.RefValue.lean ====
import proofs.«104635_j41927470743646_2_alg».proof.Proof.RefRead
import proofs.«104635_j41927470743646_2_alg».proof.Proof.Spec
import proofs.«104635_j41927470743646_2_alg».proof.Proof.SpecLaws

/-!
# The reference computes the specification

The reference program's stages, read at an index, are the specification's functions: its four products with `L` are
`mm`, its three `2·(…) − (…)` steps the Chebyshev terms, and its one contraction over the 1280 concatenated columns
against `W` is the five slab sums (a column of the concatenation in slab `k` is a column of the `k`-th term), then the
bias row and the maximum with zero.
-/

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## A contraction with `L`, read with the specification's indices -/

/-- A contraction over the 8192 columns of `L` whose operands are read at (row of the entry, `k`) and (`k`, column of the
    entry) is the specification's product. -/
theorem mm_of (L : S8192x8192.Idx → EReal) (y : S8192x256.Idx → EReal)
    (l : S8192x256.Idx → Fin 8192 → S8192x8192.Idx) (r : S8192x256.Idx → Fin 8192 → S8192x256.Idx)
    (hl : ∀ i k, l i k = ix2 (i 0 : Fin 8192) k) (hr : ∀ i k, r i k = ix2 k (i 1 : Fin 256)) (i : S8192x256.Idx) :
    ∑ k : Fin 8192, L (l i k) * y (r i k) = Cert.Spec.mm L y i := by
  unfold Cert.Spec.mm
  exact Finset.sum_congr rfl fun k _ => by rw [hl, hr]; rfl

/-- The word of the constant two, splat over the array, reads `two` everywhere. -/
theorem two_eq : (FloatOps.ofBits (F := Ideal) .f32 0x40000000#32 : EReal) = Cert.Spec.two := rfl

variable (x0 : (⟨S8192x8192, .f32⟩ : BufTy).Contents (Elt Ideal)) (x1 : (⟨S8192x256, .f32⟩ : BufTy).Contents (Elt Ideal))
  (x2 : (⟨S1280x256, .f32⟩ : BufTy).Contents (Elt Ideal)) (x3 : (⟨S256, .f32⟩ : BufTy).Contents (Elt Ideal))

/-- `%0 = L·x` is the first term. -/
theorem v0_eq : val_main_v0 (F := Ideal) x0 x1 = Cert.Spec.T1 x0 x1 := by
  funext i
  rw [val_main_v0_apply]
  exact mm_of x0 x1 lidx_main_v0 ridx_main_v0
    (fun i k => funext fun a => by match a with | ⟨0, _⟩ => rfl | ⟨1, _⟩ => rfl)
    (fun i k => funext fun a => by match a with | ⟨0, _⟩ => rfl | ⟨1, _⟩ => rfl) i

/-- `%4 = 2·(L·%0) − x` is the second term. -/
theorem v4_eq : val_main_v4 (F := Ideal) x0 x1 = Cert.Spec.T2 x0 x1 := by
  funext i
  rw [val_main_v4_apply, val_main_v3_apply, val_main_v2_apply, val_main_cst_apply, val_main_v1_apply, v0_eq,
    Ideal.subf_def, Ideal.mulf_def, two_eq]
  rw [mm_of x0 (Cert.Spec.T1 x0 x1) lidx_main_v1 ridx_main_v1
    (fun i k => funext fun a => by match a with | ⟨0, _⟩ => rfl | ⟨1, _⟩ => rfl)
    (fun i k => funext fun a => by match a with | ⟨0, _⟩ => rfl | ⟨1, _⟩ => rfl) i]
  rfl

/-- `%8 = 2·(L·%4) − %0` is the third term. -/
theorem v8_eq : val_main_v8 (F := Ideal) x0 x1 = Cert.Spec.T3 x0 x1 := by
  funext i
  rw [val_main_v8_apply, val_main_v7_apply, val_main_v6_apply, val_main_cst_0_apply, val_main_v5_apply, v4_eq, v0_eq,
    Ideal.subf_def, Ideal.mulf_def, two_eq]
  rw [mm_of x0 (Cert.Spec.T2 x0 x1) lidx_main_v5 ridx_main_v5
    (fun i k => funext fun a => by match a with | ⟨0, _⟩ => rfl | ⟨1, _⟩ => rfl)
    (fun i k => funext fun a => by match a with | ⟨0, _⟩ => rfl | ⟨1, _⟩ => rfl) i]
  rfl

/-- `%12 = 2·(L·%8) − %4` is the fourth term. -/
theorem v12_eq : val_main_v12 (F := Ideal) x0 x1 = Cert.Spec.T4 x0 x1 := by
  funext i
  rw [val_main_v12_apply, val_main_v11_apply, val_main_v10_apply, val_main_cst_1_apply, val_main_v9_apply, v8_eq, v4_eq,
    Ideal.subf_def, Ideal.mulf_def, two_eq]
  rw [mm_of x0 (Cert.Spec.T3 x0 x1) lidx_main_v9 ridx_main_v9
    (fun i k => funext fun a => by match a with | ⟨0, _⟩ => rfl | ⟨1, _⟩ => rfl)
    (fun i k => funext fun a => by match a with | ⟨0, _⟩ => rfl | ⟨1, _⟩ => rfl) i]
  rfl

/-! ## The concatenation along the columns, read in each slab -/

section Concat

variable (t0 t1 t2 t3 t4 : S8192x256.Idx → EReal)

/-- The five terms laid side by side along the columns. -/
abbrev cat : S8192x1280.Idx → EReal :=
  concatenate S8192x1280 1 [⟨S8192x256, t0⟩, ⟨S8192x256, t1⟩, ⟨S8192x256, t2⟩, ⟨S8192x256, t3⟩, ⟨S8192x256, t4⟩]
    concatenates_S8192x256_S8192x256_S8192x256_S8192x256_S8192x256_S8192x1280_d1

/-- Off the joined axis (the columns) an index of a piece and of the whole have the same coordinate: the rows. -/
theorem off_axis (j : S8192x1280.Idx) (i : S8192x256.Idx) (h0 : (i 0).val = (j 0).val)
    (hr : S8192x256.rank = S8192x1280.rank) :
    ∀ b : Fin S8192x256.rank, b.cast hr ≠ (1 : Fin S8192x1280.rank) → (i b).val = (j (b.cast hr)).val := fun b hb => by
  match b with
  | ⟨0, _⟩ => exact h0
  | ⟨1, _⟩ => exact absurd rfl hb

/-- A column of the first slab is a column of the first piece. -/
theorem cat_slab0 (j : S8192x1280.Idx) (i : S8192x256.Idx) (h0 : (i 0).val = (j 0).val) (h1 : 0 + (i 1).val = (j 1).val) :
    cat t0 t1 t2 t3 t4 j = t0 i :=
  concatenate_apply_piece 1 _ _ j 0 (by simp) S8192x256 t0 rfl rfl 0 rfl i (off_axis j i h0 rfl) h1

/-- A column of the second slab is a column of the second piece. -/
theorem cat_slab1 (j : S8192x1280.Idx) (i : S8192x256.Idx) (h0 : (i 0).val = (j 0).val) (h1 : 256 + (i 1).val = (j 1).val) :
    cat t0 t1 t2 t3 t4 j = t1 i :=
  concatenate_apply_piece 1 _ _ j 1 (by simp) S8192x256 t1 rfl rfl 256 rfl i (off_axis j i h0 rfl) h1

/-- A column of the third slab is a column of the third piece. -/
theorem cat_slab2 (j : S8192x1280.Idx) (i : S8192x256.Idx) (h0 : (i 0).val = (j 0).val) (h1 : 512 + (i 1).val = (j 1).val) :
    cat t0 t1 t2 t3 t4 j = t2 i :=
  concatenate_apply_piece 1 _ _ j 2 (by simp) S8192x256 t2 rfl rfl 512 rfl i (off_axis j i h0 rfl) h1

/-- A column of the fourth slab is a column of the fourth piece. -/
theorem cat_slab3 (j : S8192x1280.Idx) (i : S8192x256.Idx) (h0 : (i 0).val = (j 0).val) (h1 : 768 + (i 1).val = (j 1).val) :
    cat t0 t1 t2 t3 t4 j = t3 i :=
  concatenate_apply_piece 1 _ _ j 3 (by simp) S8192x256 t3 rfl rfl 768 rfl i (off_axis j i h0 rfl) h1

/-- A column of the fifth slab is a column of the fifth piece. -/
theorem cat_slab4 (j : S8192x1280.Idx) (i : S8192x256.Idx) (h0 : (i 0).val = (j 0).val) (h1 : 1024 + (i 1).val = (j 1).val) :
    cat t0 t1 t2 t3 t4 j = t4 i :=
  concatenate_apply_piece 1 _ _ j 4 (by simp) S8192x256 t4 rfl rfl 1024 rfl i (off_axis j i h0 rfl) h1

end Concat

/-! ## The contraction over the concatenated columns is the five slab sums -/

section Dense

variable (t0 t1 t2 t3 t4 : S8192x256.Idx → EReal) (W : S1280x256.Idx → EReal)

/-- The contraction's right operand is read at (`k`, column of the entry). -/
theorem ridx14_eq (i : S8192x256.Idx) (k : Fin 1280) : ridx_main_v14 i k = ix2 k (i 1 : Fin 256) :=
  funext fun a => by match a with | ⟨0, _⟩ => rfl | ⟨1, _⟩ => rfl

/-- One contraction over the 1280 concatenated columns against `W` is the five slab products added left to right. -/
theorem dense_sum (i : S8192x256.Idx) :
    ∑ k : Fin 1280, cat t0 t1 t2 t3 t4 (lidx_main_v14 i k) * W (ridx_main_v14 i k)
      = (((Cert.Spec.slab 0 (by norm_num) t0 W i + Cert.Spec.slab 256 (by norm_num) t1 W i)
          + Cert.Spec.slab 512 (by norm_num) t2 W i) + Cert.Spec.slab 768 (by norm_num) t3 W i)
          + Cert.Spec.slab 1024 (by norm_num) t4 W i := by
  rw [Cert.SpecLaws.sum_slabs]
  unfold Cert.Spec.slab
  refine congrArg₂ (· + ·) (congrArg₂ (· + ·) (congrArg₂ (· + ·) (congrArg₂ (· + ·) ?_ ?_) ?_) ?_) ?_
  · exact Finset.sum_congr rfl fun d _ =>
      congrArg₂ (· * ·) (cat_slab0 t0 t1 t2 t3 t4 _ (ix2 (i 0 : Fin 8192) d) rfl rfl) (congrArg W (ridx14_eq i _))
  · exact Finset.sum_congr rfl fun d _ =>
      congrArg₂ (· * ·) (cat_slab1 t0 t1 t2 t3 t4 _ (ix2 (i 0 : Fin 8192) d) rfl rfl) (congrArg W (ridx14_eq i _))
  · exact Finset.sum_congr rfl fun d _ =>
      congrArg₂ (· * ·) (cat_slab2 t0 t1 t2 t3 t4 _ (ix2 (i 0 : Fin 8192) d) rfl rfl) (congrArg W (ridx14_eq i _))
  · exact Finset.sum_congr rfl fun d _ =>
      congrArg₂ (· * ·) (cat_slab3 t0 t1 t2 t3 t4 _ (ix2 (i 0 : Fin 8192) d) rfl rfl) (congrArg W (ridx14_eq i _))
  · exact Finset.sum_congr rfl fun d _ =>
      congrArg₂ (· * ·) (cat_slab4 t0 t1 t2 t3 t4 _ (ix2 (i 0 : Fin 8192) d) rfl rfl) (congrArg W (ridx14_eq i _))

end Dense

/-! ## The reference's result is the specification -/

/-- `%13`: the five terms side by side. -/
theorem v13_eq : val_main_v13 (F := Ideal) x0 x1
    = cat x1 (Cert.Spec.T1 x0 x1) (Cert.Spec.T2 x0 x1) (Cert.Spec.T3 x0 x1) (Cert.Spec.T4 x0 x1) := by
  unfold val_main_v13
  rw [v0_eq, v4_eq, v8_eq, v12_eq]

/-- The bias, broadcast to a row and then down the rows, reads the bias at the entry's column. -/
theorem v16_eq (i : S8192x256.Idx) : val_main_v16 (F := Ideal) x3 i = x3 (ix1 (i 1 : Fin 256)) := by
  rw [val_main_v16_apply, val_main_v15_apply]
  exact congrArg x3 (funext fun a => by match a with | ⟨0, _⟩ => rfl)

/-- The reference's last stage is the specification's result. -/
theorem v18_eq : val_main_v18 (F := Ideal) x0 x1 x2 x3 = Cert.Spec.out x0 x1 x2 x3 := by
  funext i
  rw [val_main_v18_apply, val_main_v17_apply, val_main_v14_apply, v13_eq, dense_sum, v16_eq,
    val_main_call0_v0_apply, val_main_call0_cst_apply, Ideal.maximumf_def, Ideal.addf_def, Ideal.ofBits_def,
    Ideal.ofBits_zero_f32]
  rfl

/-! ## The reference's run -/

/-- Every weakly fair execution of the reference terminates with its result the specification of the arguments' launch
    contents, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18)
          = Cert.Spec.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨(h c).1.trans ((val_main_v18_eq _ _ _ _).trans (v18_eq _ _ _ _)), (h c).2⟩)
    (Cert.ReferenceIdeal.Value.run (F := Ideal) m ρ)

/-- The reference runs and leaves its arguments unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (Cert.ReferenceIdeal.Value.run (F := Ideal) m ρ)

end Cert.RefValue

end
-- ==== Proof.lean ====
/-
  The claim: a five-step Chebyshev graph convolution as five pipelined TPU kernels against its plain array program.

  With T0 = x, T1 = L·x and T(k) = 2·L·T(k−1) − T(k−2) for k = 2, 3, 4, both programs return
  max(Σ_k T_k · W_k + b, 0), W_k the k-th slab of 256 rows of W. The kernels take every product L·T as a sum of
  row-block products accumulated left to right in a scratch buffer over a grid axis, write 2·acc + (−1)·T(k−2) (for the
  first step 1·acc + 0·x) when the last block is in, and take the dense layer as five slab products added in order; the
  array program takes each L·T as one contraction and the dense layer as one contraction over the five features side
  by side. Over the extended reals the two agree entry by entry: a finite sum may be regrouped into consecutive blocks
  and a sum over concatenated columns into its slabs (commutativity and associativity of + only), 1·a = a, 0·a = 0,
  a + (−1)·t = a − t, and a change of float format is the identity. No entry's finiteness is used.

  The frames: each kernel region is run over the thread state "every unscoped buffer at the contents the items before
  it left"; the first region stages the array x through two windows, each at one half of the
  full share.
-/
import proofs.«104635_j41927470743646_2_alg».proof.Defs
import proofs.«104635_j41927470743646_2_alg».proof.Proof.Gen.Kernel
import proofs.«104635_j41927470743646_2_alg».proof.Proof.Gen.KernelIdeal
import proofs.«104635_j41927470743646_2_alg».proof.Proof.Gen.ReferenceIdeal
import proofs.«104635_j41927470743646_2_alg».proof.Proof.Gen.Pre_finite_inputs
import proofs.«104635_j41927470743646_2_alg».proof.Proof.K.Run
import proofs.«104635_j41927470743646_2_alg».proof.Proof.KI.Run
import proofs.«104635_j41927470743646_2_alg».proof.Proof.KI.Value
import proofs.«104635_j41927470743646_2_alg».proof.Proof.KI.Reg0Value
import proofs.«104635_j41927470743646_2_alg».proof.Proof.KI.Reg1Value
import proofs.«104635_j41927470743646_2_alg».proof.Proof.KI.Reg2Value
import proofs.«104635_j41927470743646_2_alg».proof.Proof.KI.Reg3Value
import proofs.«104635_j41927470743646_2_alg».proof.Proof.KI.Reg4Value
import proofs.«104635_j41927470743646_2_alg».proof.Proof.RefValue
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

/-- The word-level kernel program runs to the end, faults nowhere and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- So does the array program: its run with the result dropped. -/
theorem frame_ri : Cert.frame_ReferenceIdeal := fun m ρ _ => Cert.RefValue.frame m ρ

/-- The idealization rewrote no operation. -/
theorem preserves : Cert.preserves_Kernel_KernelIdeal := trivial

/-- What each region leaves in its output arrays, as a function of the arrays it is entered with: the first step and the
    copy of `L`, the three later steps, the dense layer. -/
theorem regionValues : Cert.KernelIdeal.Hand.RegionValues :=
  ⟨Cert.KernelIdeal.Reg0.out0_value_T, Cert.KernelIdeal.Reg0.out0_value_L, Cert.KernelIdeal.Reg1.out1_value,
    Cert.KernelIdeal.Reg2.out2_value, Cert.KernelIdeal.Reg3.out3_value, Cert.KernelIdeal.Reg4.out4_value⟩

/-- From memories agreeing on the arguments both idealized programs end with the specification's array in their result:
    the kernels' by the regions' values composed, the array program's by its stages read index by index. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact Cert.KernelIdeal.Hand.run_spec_of m regionValues ρ
  · refine (Cert.RefValue.run_spec m' ρ').mono fun r h c => ⟨?_, (h c).2⟩
    rw [(h c).1, (hagree c).1, (hagree c).2.1, (hagree c).2.2.1, (hagree c).2.2.2]

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
